-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x128x128 : Shape := ⟨3, ![3, 128, 128]⟩
abbrev S3x128 : Shape := ⟨2, ![3, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg4 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S100000x128 .f32) (main_arg1 : FVec F S3x128x128 .f32) (main_arg2 : FVec F S3x128 .f32) (main_arg3 : FVec F S3x128 .f32) (main_arg4 : FVec F S3x128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_v13 main_v16
-- ==== Kernel.lean ====
abbrev S100000x128 : Shape := ⟨2, ![100000, 128]⟩
abbrev S3x128x128 : Shape := ⟨3, ![3, 128, 128]⟩
abbrev S3x128 : Shape := ⟨2, ![3, 128]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10000x128 : Shape := ⟨2, ![10000, 128]⟩
abbrev S1x100000x128 : Shape := ⟨3, ![1, 100000, 128]⟩
abbrev S4x100000x128 : Shape := ⟨3, ![4, 100000, 128]⟩

abbrev nBuf : Space → Nat
  | .hbm => 179
  | .vmem => 48
  | .smem => 0
  | _ => 0

abbrev hbmTy0_0 (i : Nat) : BufTy := match i % 128 with
  | 0 => ⟨S100000x128, .f32⟩
  | 1 => ⟨S3x128x128, .f32⟩
  | 2 => ⟨S3x128, .f32⟩
  | 3 => ⟨S3x128, .f32⟩
  | 4 => ⟨S3x128, .f32⟩
  | 5 => ⟨S1600000, .i32⟩
  | 6 => ⟨S1600000, .i32⟩
  | 7 => ⟨S100000, .i32⟩
  | 8 => ⟨S1700000, .i32⟩
  | 9 => ⟨S1700000, .i32⟩
  | 10 => ⟨S_, .f32⟩
  | 11 => ⟨S1700000, .f32⟩
  | 12 => ⟨S_, .f32⟩
  | 13 => ⟨S100000, .f32⟩
  | 14 => ⟨S1700000x1, .i32⟩
  | 15 => ⟨S100000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000x1, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S100000x128, .f32⟩
  | 31 => ⟨S100000x128, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000x128, .f32⟩
  | 41 => ⟨S_, .f32⟩
  | 42 => ⟨S100000x128, .f32⟩
  | 43 => ⟨S1700000x1, .i32⟩
  | 44 => ⟨S100000x128, .f32⟩
  | 45 => ⟨S100000x128, .f32⟩
  | 46 => ⟨S100000x128, .f32⟩
  | 47 => ⟨S1x128x128, .f32⟩
  | 48 => ⟨S128x128, .f32⟩
  | 49 => ⟨S1x128, .f32⟩
  | 50 => ⟨S128, .f32⟩
  | 51 => ⟨S1x128, .f32⟩
  | 52 => ⟨S100000x128, .f32⟩
  | 53 => ⟨S1x128, .f32⟩
  | 54 => ⟨S1x128, .f32⟩
  | 55 => ⟨S128, .f32⟩
  | 56 => ⟨S128, .f32⟩
  | 57 => ⟨S_, .f32⟩
  | 58 => ⟨S128, .f32⟩
  | 59 => ⟨S128, .f32⟩
  | 60 => ⟨S_, .f32⟩
  | 61 => ⟨S128, .f32⟩
  | 62 => ⟨S128, .f32⟩
  | 63 => ⟨S128, .f32⟩
  | 64 => ⟨S128, .f32⟩
  | 65 => ⟨S_, .f32⟩
  | 66 => ⟨S128, .f32⟩
  | 67 => ⟨S128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S1x128, .f32⟩
  | 75 => ⟨S1x128, .f32⟩
  | 76 => ⟨S1x128, .f32⟩
  | 77 => ⟨S100000x128, .f32⟩
  | 78 => ⟨S100000x128, .f32⟩
  | 79 => ⟨S100000x128, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S100000x128, .f32⟩
  | 94 => ⟨S100000x128, .f32⟩
  | 95 => ⟨S1x128x128, .f32⟩
  | 96 => ⟨S128x128, .f32⟩
  | 97 => ⟨S1x128, .f32⟩
  | 98 => ⟨S128, .f32⟩
  | 99 => ⟨S1x128, .f32⟩
  | 100 => ⟨S100000x128, .f32⟩
  | 101 => ⟨S1x128, .f32⟩
  | 102 => ⟨S1x128, .f32⟩
  | 103 => ⟨S128, .f32⟩
  | 104 => ⟨S128, .f32⟩
  | 105 => ⟨S_, .f32⟩
  | 106 => ⟨S128, .f32⟩
  | 107 => ⟨S128, .f32⟩
  | 108 => ⟨S_, .f32⟩
  | 109 => ⟨S128, .f32⟩
  | 110 => ⟨S128, .f32⟩
  | 111 => ⟨S128, .f32⟩
  | 112 => ⟨S128, .f32⟩
  | 113 => ⟨S_, .f32⟩
  | 114 => ⟨S128, .f32⟩
  | 115 => ⟨S128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S1x128, .f32⟩
  | 123 => ⟨S1x128, .f32⟩
  | 124 => ⟨S1x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x128, .f32⟩
  | 9 => ⟨S_, .f32⟩
  | 10 => ⟨S100000x128, .f32⟩
  | 11 => ⟨S1700000x1, .i32⟩
  | 12 => ⟨S100000x128, .f32⟩
  | 13 => ⟨S100000x128, .f32⟩
  | 14 => ⟨S100000x128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S100000x128, .f32⟩
  | 21 => ⟨S1x128, .f32⟩
  | 22 => ⟨S1x128, .f32⟩
  | 23 => ⟨S128, .f32⟩
  | 24 => ⟨S128, .f32⟩
  | 25 => ⟨S_, .f32⟩
  | 26 => ⟨S128, .f32⟩
  | 27 => ⟨S128, .f32⟩
  | 28 => ⟨S_, .f32⟩
  | 29 => ⟨S128, .f32⟩
  | 30 => ⟨S128, .f32⟩
  | 31 => ⟨S128, .f32⟩
  | 32 => ⟨S128, .f32⟩
  | 33 => ⟨S_, .f32⟩
  | 34 => ⟨S128, .f32⟩
  | 35 => ⟨S128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S1x128, .f32⟩
  | 43 => ⟨S1x128, .f32⟩
  | 44 => ⟨S1x128, .f32⟩
  | 45 => ⟨S100000x128, .f32⟩
  | 46 => ⟨S1x100000x128, .f32⟩
  | 47 => ⟨S1x100000x128, .f32⟩
  | 48 => ⟨S1x100000x128, .f32⟩
  | 49 => ⟨S1x100000x128, .f32⟩
  | 50 => ⟨S4x100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S1x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S1x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S128x128, .f32⟩
  | .local _ .vmem, ⟨35, _⟩ => ⟨S1x128, .f32⟩
  | .local _ .vmem, ⟨36, _⟩ => ⟨S10000x128, .f32⟩
  | .local _ .vmem, ⟨37, _⟩ => ⟨S10000x128, .f32⟩
  | .local _ .vmem, ⟨38, _⟩ => ⟨S1x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S10000x128, .f32⟩
  | .local _ .vmem, ⟨47, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37_0 : Ref sig .tc := ⟨.hbm, 52, rfl⟩
abbrev main_v37_1 : Ref sig .tc := ⟨.hbm, 53, rfl⟩
abbrev main_v37_2 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_9 : Ref sig .tc := ⟨.hbm, 80, rfl⟩
abbrev main_v60 : Ref sig .tc := ⟨.hbm, 81, rfl⟩
abbrev main_v61 : Ref sig .tc := ⟨.hbm, 82, rfl⟩
abbrev main_c_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77_0 : Ref sig .tc := ⟨.hbm, 100, rfl⟩
abbrev main_v77_1 : Ref sig .tc := ⟨.hbm, 101, rfl⟩
abbrev main_v77_2 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_v80 : Ref sig .tc := ⟨.hbm, 106, rfl⟩
abbrev main_v81 : Ref sig .tc := ⟨.hbm, 107, rfl⟩
abbrev main_cst_13 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_14 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_c_15 : Ref sig .tc := ⟨.hbm, 128, rfl⟩
abbrev main_v100 : Ref sig .tc := ⟨.hbm, 129, rfl⟩
abbrev main_v101 : Ref sig .tc := ⟨.hbm, 130, rfl⟩
abbrev main_c_16 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_17 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117_0 : Ref sig .tc := ⟨.hbm, 148, rfl⟩
abbrev main_v117_1 : Ref sig .tc := ⟨.hbm, 149, rfl⟩
abbrev main_v117_2 : Ref sig .tc := ⟨.hbm, 150, rfl⟩
abbrev main_v118 : Ref sig .tc := ⟨.hbm, 151, rfl⟩
abbrev main_v119 : Ref sig .tc := ⟨.hbm, 152, rfl⟩
abbrev main_cst_18 : Ref sig .tc := ⟨.hbm, 153, rfl⟩
abbrev main_v120 : Ref sig .tc := ⟨.hbm, 154, rfl⟩
abbrev main_v121 : Ref sig .tc := ⟨.hbm, 155, rfl⟩
abbrev main_cst_19 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_20 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg5_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem5_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S10000x128 : S1x128.Broadcasts S10000x128
  reduces_S10000x128_S128 : S10000x128.Reduces [0] S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S100000x128_S1x100000x128_1_2 : S100000x128.BroadcastsInDim S1x100000x128 (![1, 2] : Fin 2 → Fin S1x100000x128.rank)
  concatenates_S1x100000x128_S1x100000x128_S1x100000x128_S1x100000x128_S4x100000x128_d0 : Shape.Concatenates [S1x100000x128, S1x100000x128, S1x100000x128, S1x100000x128] S4x100000x128 0
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S100000x128.size a
  hwx4_3 : ∀ i : grid4.Coords, EltTy.bits .f32 = 32 ∨ (Rect.block (s := S100000x128) S10000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v31) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v71) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77_0) S10000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v77_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v77_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v95) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v96) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v97) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v111) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v113) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v116) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v117_0) S10000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v117_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v117_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v117_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v133) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v134) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v135) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v136) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v137) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S3x128x128 : Shape := ⟨3, ![3, 128, 128]⟩
abbrev S3x128 : Shape := ⟨2, ![3, 128]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x100000x128 : Shape := ⟨3, ![1, 100000, 128]⟩
abbrev S4x100000x128 : Shape := ⟨3, ![4, 100000, 128]⟩

abbrev nBuf : Space → Nat
  | .hbm => 263
  | .vmem => 0
  | .smem => 0
  | _ => 0

abbrev hbmTy0_0 (i : Nat) : BufTy := match i % 128 with
  | 0 => ⟨S100000x128, .f32⟩
  | 1 => ⟨S3x128x128, .f32⟩
  | 2 => ⟨S3x128, .f32⟩
  | 3 => ⟨S3x128, .f32⟩
  | 4 => ⟨S3x128, .f32⟩
  | 5 => ⟨S1600000, .i32⟩
  | 6 => ⟨S1600000, .i32⟩
  | 7 => ⟨S100000, .i32⟩
  | 8 => ⟨S1700000, .i32⟩
  | 9 => ⟨S1700000, .i32⟩
  | 10 => ⟨S_, .f32⟩
  | 11 => ⟨S1700000, .f32⟩
  | 12 => ⟨S_, .f32⟩
  | 13 => ⟨S100000, .f32⟩
  | 14 => ⟨S1700000x1, .i32⟩
  | 15 => ⟨S100000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000x1, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S100000x128, .f32⟩
  | 31 => ⟨S100000x128, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000x128, .f32⟩
  | 41 => ⟨S_, .f32⟩
  | 42 => ⟨S100000x128, .f32⟩
  | 43 => ⟨S1700000x1, .i32⟩
  | 44 => ⟨S100000x128, .f32⟩
  | 45 => ⟨S100000x128, .f32⟩
  | 46 => ⟨S100000x128, .f32⟩
  | 47 => ⟨S1x128x128, .f32⟩
  | 48 => ⟨S128x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S_, .f32⟩
  | 56 => ⟨S128, .f32⟩
  | 57 => ⟨S_, .f32⟩
  | 58 => ⟨S128, .f32⟩
  | 59 => ⟨S128, .f32⟩
  | 60 => ⟨S_, .i32⟩
  | 61 => ⟨S_, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S100000x128, .f32⟩
  | 68 => ⟨S100000x128, .f32⟩
  | 69 => ⟨S100000x128, .f32⟩
  | 70 => ⟨S_, .f32⟩
  | 71 => ⟨S_, .f32⟩
  | 72 => ⟨S_, .f32⟩
  | 73 => ⟨S_, .f32⟩
  | 74 => ⟨S128, .f32⟩
  | 75 => ⟨S128, .f32⟩
  | 76 => ⟨S128, .f32⟩
  | 77 => ⟨S_, .f32⟩
  | 78 => ⟨S_, .i1⟩
  | 79 => ⟨S_, .f32⟩
  | 80 => ⟨S_, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S_, .f32⟩
  | 87 => ⟨S128, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .f32⟩
  | 107 => ⟨S100000x128, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S100000x128, .f32⟩
  | 122 => ⟨S100000x128, .f32⟩
  | 123 => ⟨S1x128x128, .f32⟩
  | 124 => ⟨S128x128, .f32⟩
  | 125 => ⟨S100000x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S128, .f32⟩
  | 5 => ⟨S_, .f32⟩
  | 6 => ⟨S128, .f32⟩
  | 7 => ⟨S128, .f32⟩
  | 8 => ⟨S_, .i32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S100000x128, .f32⟩
  | 16 => ⟨S100000x128, .f32⟩
  | 17 => ⟨S100000x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S128, .f32⟩
  | 25 => ⟨S_, .f32⟩
  | 26 => ⟨S_, .i1⟩
  | 27 => ⟨S_, .f32⟩
  | 28 => ⟨S_, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S_, .f32⟩
  | 35 => ⟨S128, .f32⟩
  | 36 => ⟨S128, .f32⟩
  | 37 => ⟨S128, .f32⟩
  | 38 => ⟨S1x128, .f32⟩
  | 39 => ⟨S100000x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S100000x128, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S100000x128, .f32⟩
  | 92 => ⟨S100000x128, .f32⟩
  | 93 => ⟨S100000x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S1x128, .f32⟩
  | 118 => ⟨S128, .f32⟩
  | 119 => ⟨S1x128, .f32⟩
  | 120 => ⟨S100000x128, .f32⟩
  | 121 => ⟨S100000x128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_2 (i : Nat) : BufTy := match i % 128 with
  | 0 => ⟨S100000x128, .f32⟩
  | 1 => ⟨S100000x128, .f32⟩
  | 2 => ⟨S1x100000x128, .f32⟩
  | 3 => ⟨S1x100000x128, .f32⟩
  | 4 => ⟨S1x100000x128, .f32⟩
  | 5 => ⟨S1x100000x128, .f32⟩
  | 6 => ⟨S4x100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_cst_1 : Ref sig .tc := ⟨.hbm, 71, rfl⟩
abbrev main_call0_v8 : Ref sig .tc := ⟨.hbm, 72, rfl⟩
abbrev main_call0_cst_2 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_cst_3 : Ref sig .tc := ⟨.hbm, 77, rfl⟩
abbrev main_call0_v12 : Ref sig .tc := ⟨.hbm, 78, rfl⟩
abbrev main_call0_cst_4 : Ref sig .tc := ⟨.hbm, 79, rfl⟩
abbrev main_call0_call0_v0 : Ref sig .tc := ⟨.hbm, 80, rfl⟩
abbrev main_call0_call0_v1 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_9 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call1_cst : Ref sig .tc := ⟨.hbm, 103, rfl⟩
abbrev main_call1_v0 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_10 : Ref sig .tc := ⟨.hbm, 108, rfl⟩
abbrev main_v66 : Ref sig .tc := ⟨.hbm, 109, rfl⟩
abbrev main_v67 : Ref sig .tc := ⟨.hbm, 110, rfl⟩
abbrev main_c_11 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_12 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_13 : Ref sig .tc := ⟨.hbm, 131, rfl⟩
abbrev main_v86 : Ref sig .tc := ⟨.hbm, 132, rfl⟩
abbrev main_cst_14 : Ref sig .tc := ⟨.hbm, 133, rfl⟩
abbrev main_v87 : Ref sig .tc := ⟨.hbm, 134, rfl⟩
abbrev main_v88 : Ref sig .tc := ⟨.hbm, 135, rfl⟩
abbrev main_c_15 : Ref sig .tc := ⟨.hbm, 136, rfl⟩
abbrev main_call2_cst : Ref sig .tc := ⟨.hbm, 137, rfl⟩
abbrev main_call2_v0 : Ref sig .tc := ⟨.hbm, 138, rfl⟩
abbrev main_call2_v1 : Ref sig .tc := ⟨.hbm, 139, rfl⟩
abbrev main_call2_cst_0 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_v5 : Ref sig .tc := ⟨.hbm, 144, rfl⟩
abbrev main_call2_v6 : Ref sig .tc := ⟨.hbm, 145, rfl⟩
abbrev main_call2_v7 : Ref sig .tc := ⟨.hbm, 146, rfl⟩
abbrev main_call2_cst_1 : Ref sig .tc := ⟨.hbm, 147, rfl⟩
abbrev main_call2_v8 : Ref sig .tc := ⟨.hbm, 148, rfl⟩
abbrev main_call2_cst_2 : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_cst_3 : Ref sig .tc := ⟨.hbm, 153, rfl⟩
abbrev main_call2_v12 : Ref sig .tc := ⟨.hbm, 154, rfl⟩
abbrev main_call2_cst_4 : Ref sig .tc := ⟨.hbm, 155, rfl⟩
abbrev main_call2_call0_v0 : Ref sig .tc := ⟨.hbm, 156, rfl⟩
abbrev main_call2_call0_v1 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_cst_16 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_call3_cst : Ref sig .tc := ⟨.hbm, 179, rfl⟩
abbrev main_call3_v0 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_c_17 : Ref sig .tc := ⟨.hbm, 184, rfl⟩
abbrev main_v112 : Ref sig .tc := ⟨.hbm, 185, rfl⟩
abbrev main_v113 : Ref sig .tc := ⟨.hbm, 186, rfl⟩
abbrev main_c_18 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_cst_19 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_cst_20 : Ref sig .tc := ⟨.hbm, 207, rfl⟩
abbrev main_v132 : Ref sig .tc := ⟨.hbm, 208, rfl⟩
abbrev main_cst_21 : Ref sig .tc := ⟨.hbm, 209, rfl⟩
abbrev main_v133 : Ref sig .tc := ⟨.hbm, 210, rfl⟩
abbrev main_v134 : Ref sig .tc := ⟨.hbm, 211, rfl⟩
abbrev main_c_22 : Ref sig .tc := ⟨.hbm, 212, rfl⟩
abbrev main_call4_cst : Ref sig .tc := ⟨.hbm, 213, rfl⟩
abbrev main_call4_v0 : Ref sig .tc := ⟨.hbm, 214, rfl⟩
abbrev main_call4_v1 : Ref sig .tc := ⟨.hbm, 215, rfl⟩
abbrev main_call4_cst_0 : Ref sig .tc := ⟨.hbm, 216, rfl⟩
abbrev main_call4_v2 : Ref sig .tc := ⟨.hbm, 217, rfl⟩
abbrev main_call4_v3 : Ref sig .tc := ⟨.hbm, 218, rfl⟩
abbrev main_call4_v4 : Ref sig .tc := ⟨.hbm, 219, rfl⟩
abbrev main_call4_v5 : Ref sig .tc := ⟨.hbm, 220, rfl⟩
abbrev main_call4_v6 : Ref sig .tc := ⟨.hbm, 221, rfl⟩
abbrev main_call4_v7 : Ref sig .tc := ⟨.hbm, 222, rfl⟩
abbrev main_call4_cst_1 : Ref sig .tc := ⟨.hbm, 223, rfl⟩
abbrev main_call4_v8 : Ref sig .tc := ⟨.hbm, 224, rfl⟩
abbrev main_call4_cst_2 : Ref sig .tc := ⟨.hbm, 225, rfl⟩
abbrev main_call4_v9 : Ref sig .tc := ⟨.hbm, 226, rfl⟩
abbrev main_call4_v10 : Ref sig .tc := ⟨.hbm, 227, rfl⟩
abbrev main_call4_v11 : Ref sig .tc := ⟨.hbm, 228, rfl⟩
abbrev main_call4_cst_3 : Ref sig .tc := ⟨.hbm, 229, rfl⟩
abbrev main_call4_v12 : Ref sig .tc := ⟨.hbm, 230, rfl⟩
abbrev main_call4_cst_4 : Ref sig .tc := ⟨.hbm, 231, rfl⟩
abbrev main_call4_call0_v0 : Ref sig .tc := ⟨.hbm, 232, rfl⟩
abbrev main_call4_call0_v1 : Ref sig .tc := ⟨.hbm, 233, rfl⟩
abbrev main_v135 : Ref sig .tc := ⟨.hbm, 234, rfl⟩
abbrev main_v136 : Ref sig .tc := ⟨.hbm, 235, rfl⟩
abbrev main_v137 : Ref sig .tc := ⟨.hbm, 236, rfl⟩
abbrev main_v138 : Ref sig .tc := ⟨.hbm, 237, rfl⟩
abbrev main_cst_23 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_call5_cst : Ref sig .tc := ⟨.hbm, 255, rfl⟩
abbrev main_call5_v0 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S100000x128_S1x100000x128_1_2 : S100000x128.BroadcastsInDim S1x100000x128 (![1, 2] : Fin 2 → Fin S1x100000x128.rank)
  concatenates_S1x100000x128_S1x100000x128_S1x100000x128_S1x100000x128_S4x100000x128_d0 : Shape.Concatenates [S1x100000x128, S1x100000x128, S1x100000x128, S1x100000x128] S4x100000x128 0
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KBRunA0.lean ====
/-
  Region 0 of @main (the product-and-statistics kernel of one layer), first half: the two control cases of its
  body run on any whole staging buffers.  At the first grid point the two statistics rows are first set to zero;
  at every point the block of the product plus the bias row is stored whole, and its column sums and the column
  sums of its squares are added to the statistics rows found in their buffers.  What each output's buffer holds
  afterwards is recorded as the list of stores made into it, last first.
-/
import proofs.«160962_j23227183137544_1_alg».proof.Proof.Gen.Kernel.Launch
import proofs.«160962_j23227183137544_1_alg».proof.Proof.Gen.Kernel.Skeleton
import proofs.«160962_j23227183137544_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 10 = 0 :=
  (by decide +kernel : ∀ t : Fin grid0.N, cond0_0 (grid0.coords t) ↔ t.val % 10 = 0)

/-- One staging buffer of each output window, through which its contents are stated. -/
abbrev VO0_3 : View sig .tc .vmem S10000x128 .f32 := (Memref.whole cc0_stg3_0 : Memref sig .tc .vmem S10000x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view
/-- Each window's current staging buffer at a point, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)

/-- The three lists of stores, one per output window. -/
abbrev Pieces0 : Type := List (View.Piece (Elt F) S10000x128 .f32) × List (View.Piece (Elt F) S1x128 .f32) × List (View.Piece (Elt F) S1x128 .f32)

set_option maxHeartbeats 2000000 in
/-- THE FIRST POINT (condition taken): the inputs' buffers at their contents, the outputs' at anything. -/
noncomputable def kernelRun0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) :
    { L : Pieces0 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc0__matmul_reduce_kernel i arg1 harg1 arg2 harg2 arg3 harg3 arg4 harg4 arg5 harg5 arg6 harg6) K } := by
  refine ⟨⟨?_, ?_, ?_⟩, fun E K => ?run⟩
  case run =>
    simp only [cc0__matmul_reduce_kernel_eq_skeleton]; unfold cc0__matmul_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 2000000 in
/-- A LATER POINT (condition not taken): the two statistics rows' buffers at their running contents. -/
noncomputable def kernelRun0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) :
    { L : Pieces0 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc0__matmul_reduce_kernel i arg1 harg1 arg2 harg2 arg3 harg3 arg4 harg4 arg5 harg5 arg6 harg6) K } := by
  refine ⟨⟨?_, ?_, ?_⟩, fun E K => ?run⟩
  case run =>
    simp only [cc0__matmul_reduce_kernel_eq_skeleton]; unfold cc0__matmul_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.KBRegA0.lean ====
/-
  Region 0 of @main, second half: what the three outputs' staging buffers hold after the body at each grid
  point (the block of the product plus bias; the two running statistics rows, each point's added to what the
  point before left, the first point's to zero rows), the pipeline's proof data at the contents the region is
  entered with, and the body obligation at every point.
-/
import proofs.«160962_j23227183137544_1_alg».proof.Proof.KBRunA0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem cover0_A_3 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) (y : S10000x128.Idx) :
    ∃ pc ∈ (kernelRun0_A c i arg1 harg1 arg2 harg2 arg3 harg3 arg4 harg4 arg5 harg5 arg6 harg6 hc0 x0 x1 x2).1.1, y ∈ pc.1.set :=
  View.cover_of_tiledL (kernelRun0_A c i arg1 harg1 arg2 harg2 arg3 harg3 arg4 harg4 arg5 harg5 arg6 harg6 hc0 x0 x1 x2).1.1 S10000x128.size (by sl_kernel_rfl) y
theorem cover0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) (y : S1x128.Idx) :
    ∃ pc ∈ (kernelRun0_A c i arg1 harg1 arg2 harg2 arg3 harg3 arg4 harg4 arg5 harg5 arg6 harg6 hc0 x0 x1 x2).1.2.1, y ∈ pc.1.set :=
  View.cover_of_tiledL (kernelRun0_A c i arg1 harg1 arg2 harg2 arg3 harg3 arg4 harg4 arg5 harg5 arg6 harg6 hc0 x0 x1 x2).1.2.1 S1x128.size (by sl_kernel_rfl) y
theorem cover0_A_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) (y : S1x128.Idx) :
    ∃ pc ∈ (kernelRun0_A c i arg1 harg1 arg2 harg2 arg3 harg3 arg4 harg4 arg5 harg5 arg6 harg6 hc0 x0 x1 x2).1.2.2, y ∈ pc.1.set :=
  View.cover_of_tiledL (kernelRun0_A c i arg1 harg1 arg2 harg2 arg3 harg3 arg4 harg4 arg5 harg5 arg6 harg6 hc0 x0 x1 x2).1.2.2 S1x128.size (by sl_kernel_rfl) y
theorem cover0_B_3 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun0_B c i arg1 harg1 arg2 harg2 arg3 harg3 arg4 harg4 arg5 harg5 arg6 harg6 hc0 x0 x1 x2 xo4 xo5).1.1, y ∈ pc.1.set :=
  View.cover_of_tiledL (kernelRun0_B c i arg1 harg1 arg2 harg2 arg3 harg3 arg4 harg4 arg5 harg5 arg6 harg6 hc0 x0 x1 x2 xo4 xo5).1.1 S10000x128.size (by sl_kernel_rfl) y
theorem cover0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun0_B c i arg1 harg1 arg2 harg2 arg3 harg3 arg4 harg4 arg5 harg5 arg6 harg6 hc0 x0 x1 x2 xo4 xo5).1.2.1, y ∈ pc.1.set :=
  View.cover_of_tiledL (kernelRun0_B c i arg1 harg1 arg2 harg2 arg3 harg3 arg4 harg4 arg5 harg5 arg6 harg6 hc0 x0 x1 x2 xo4 xo5).1.2.1 S1x128.size (by sl_kernel_rfl) y
theorem cover0_B_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun0_B c i arg1 harg1 arg2 harg2 arg3 harg3 arg4 harg4 arg5 harg5 arg6 harg6 hc0 x0 x1 x2 xo4 xo5).1.2.2, y ∈ pc.1.set :=
  View.cover_of_tiledL (kernelRun0_B c i arg1 harg1 arg2 harg2 arg3 harg3 arg4 harg4 arg5 harg5 arg6 harg6 hc0 x0 x1 x2 xo4 xo5).1.2.2 S1x128.size (by sl_kernel_rfl) y

/-- What the first point leaves in the three outputs' buffers: its stores read back. -/
def out0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) : Vec F S10000x128 .f32 × Vec F S1x128 .f32 × Vec F S1x128 .f32 :=
  (VO0_3.read (Elt F) (VO0_3.writes (Elt F) VO0_3.junk (kernelRun0_A c i arg1 harg1 arg2 harg2 arg3 harg3 arg4 harg4 arg5 harg5 arg6 harg6 hc0 x0 x1 x2).1.1),
   VO0_4.read (Elt F) (VO0_4.writes (Elt F) VO0_4.junk (kernelRun0_A c i arg1 harg1 arg2 harg2 arg3 harg3 arg4 harg4 arg5 harg5 arg6 harg6 hc0 x0 x1 x2).1.2.1),
   VO0_5.read (Elt F) (VO0_5.writes (Elt F) VO0_5.junk (kernelRun0_A c i arg1 harg1 arg2 harg2 arg3 harg3 arg4 harg4 arg5 harg5 arg6 harg6 hc0 x0 x1 x2).1.2.2))

/-- What a later point leaves, over the statistics rows the point before left. -/
def out0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) : Vec F S10000x128 .f32 × Vec F S1x128 .f32 × Vec F S1x128 .f32 :=
  (VO0_3.read (Elt F) (VO0_3.writes (Elt F) VO0_3.junk (kernelRun0_B c i arg1 harg1 arg2 harg2 arg3 harg3 arg4 harg4 arg5 harg5 arg6 harg6 hc0 x0 x1 x2 xo4 xo5).1.1),
   VO0_4.read (Elt F) (VO0_4.writes (Elt F) VO0_4.junk (kernelRun0_B c i arg1 harg1 arg2 harg2 arg3 harg3 arg4 harg4 arg5 harg5 arg6 harg6 hc0 x0 x1 x2 xo4 xo5).1.2.1),
   VO0_5.read (Elt F) (VO0_5.writes (Elt F) VO0_5.junk (kernelRun0_B c i arg1 harg1 arg2 harg2 arg3 harg3 arg4 harg4 arg5 harg5 arg6 harg6 hc0 x0 x1 x2 xo4 xo5).1.2.2))

/-- THE ACCUMULATION: what the outputs' buffers hold after the body at position `n`. -/
def outsAt0 (c : Dev nD) : (n : ℕ) → n < cfg0.N → Vec F S10000x128 .f32 × Vec F S1x128 .f32 × Vec F S1x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩)
  | n + 1, hn =>
    if h0 : (n + 1) % 10 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2

theorem outsAt0_A (c : Dev nD) (t : Fin cfg0.N) (h0 : t.val % 10 = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) := by
  obtain ⟨n, hn⟩ := t
  cases n with
  | zero => exact rfl
  | succ n => exact (dif_pos h0).trans rfl

theorem outsAt0_B (c : Dev nD) (t : Fin cfg0.N) (h0 : ¬t.val % 10 = 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The proof data of this pipeline on core `c`, at the contents `V` the region is entered with. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At a later point a statistics row's buffer holds what the body left at the point before: it is not written
    back in between. -/
theorem before0_4_B (c : Dev nD) (t : Fin cfg0.N) (h0 : ¬t.val % 10 = 0) (d) :
    (dat0 V c).before 4 t d = (outsAt0 V c (t.val - 1) (Nat.lt_of_le_of_lt (Nat.sub_le _ _) t.isLt)).2.1 := by
  have hN : t.val < 10 := lt_of_lt_of_eq t.isLt (show cfg0.N = 10 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_5_B (c : Dev nD) (t : Fin cfg0.N) (h0 : ¬t.val % 10 = 0) (d) :
    (dat0 V c).before 5 t d = (outsAt0 V c (t.val - 1) (Nat.lt_of_le_of_lt (Nat.sub_le _ _) t.isLt)).2.2 := by
  have hN : t.val < 10 := lt_of_lt_of_eq t.isLt (show cfg0.N = 10 from N_0)
  rw [Dat.before_out_kept _ 5 rfl t (by omega) (Bool.eq_false_iff.mpr fun h => by have := (flush0_5 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 10 := lt_of_lt_of_eq t.isLt (show cfg0.N = 10 from N_0)
  by_cases h0 : t.val % 10 = 0
  · rw [outsAt0_A V c t h0]
    unfold out0_A
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; dsimp only; exact View.read_writes_of_cover _ _ VO0_3 VO0_3.junk _ (cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
    isplitl [H4]
    · unfold owns; iexists _; isplitr
      swap; · iexact H4
      ipureintro; dsimp only; exact View.read_writes_of_cover _ _ VO0_4 VO0_4.junk _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
    unfold owns; iexists _; isplitr
    swap; · iexact H5
    ipureintro; dsimp only; exact View.read_writes_of_cover _ _ VO0_5 VO0_5.junk _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
  · rw [outsAt0_B V c t h0]
    simp only [before0_4_B V c t h0, before0_5_B V c t h0]
    unfold out0_B
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; dsimp only; exact View.read_writes_of_cover _ _ VO0_3 VO0_3.junk _ (cover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
    isplitl [H4]
    · unfold owns; iexists _; isplitr
      swap; · iexact H4
      ipureintro; dsimp only; exact View.read_writes_of_cover _ _ VO0_4 VO0_4.junk _ (cover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
    unfold owns; iexists _; isplitr
    swap; · iexact H5
    ipureintro; dsimp only; exact View.read_writes_of_cover _ _ VO0_5 VO0_5.junk _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBRegB1.lean ====
/-
  Region 1 of @main (the normalise-and-rectify kernel of one layer): its body — one whole-block store of
  max(((z − mean)·invstd)·gamma + beta, 0) computed from the five input blocks — run on any whole staging buffers,
  the pipeline's proof data at the contents the region is entered with, and the body obligation at every point.
-/
import proofs.«160962_j23227183137544_1_alg».proof.Proof.Gen.Kernel.Launch
import proofs.«160962_j23227183137544_1_alg».proof.Proof.Gen.Kernel.Skeleton
import proofs.«160962_j23227183137544_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_z : Rect S10000x128 := Rect.unit (s := S10000x128) ![0, 0] S10000x128.size inb_S10000x128_S10000x128_0_0
abbrev r1_r : Rect S1x128 := Rect.unit (s := S1x128) ![0, 0] S1x128.size inb_S1x128_S1x128_0_0

/-- The output's staging buffer after the body, from the input blocks: its one store. -/
def out1_5 (x0 : Vec F S10000x128 .f32) (x1 x2 x3 x4 : Vec F S1x128 .f32) : Vec F S10000x128 .f32 :=
  View.canon [⟨r1_z, k1_pay1 (View.ld x0 r1_z) (View.ld x1 r1_r) (View.ld x2 r1_r) (View.ld x3 r1_r) (View.ld x4 r1_r)⟩]

theorem cover1_5 (p0 : Vec F S10000x128 .f32) (y : S10000x128.Idx) :
    ∃ pc ∈ ([⟨r1_z, p0⟩] : List (View.Piece (Elt F) S10000x128 .f32)), y ∈ pc.1.set :=
  View.cover_of_tiled [⟨r1_z, p0⟩] S10000x128.size (by rfl) y

set_option maxHeartbeats 2000000 in
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__norm_relu_kernel i arg1 harg1 arg2 harg2 arg3 harg3 arg4 harg4 arg5 harg5 arg6 harg6) K := by
  simp only [cc1__norm_relu_kernel_eq_skeleton]; unfold cc1__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`, at the contents `V` the region is entered with. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBRunA2.lean ====
/-
  Region 2 of @main (the product-and-statistics kernel of one layer), first half: the two control cases of its
  body run on any whole staging buffers.  At the first grid point the two statistics rows are first set to zero;
  at every point the block of the product plus the bias row is stored whole, and its column sums and the column
  sums of its squares are added to the statistics rows found in their buffers.  What each output's buffer holds
  afterwards is recorded as the list of stores made into it, last first.
-/
import proofs.«160962_j23227183137544_1_alg».proof.Proof.Gen.Kernel.Launch
import proofs.«160962_j23227183137544_1_alg».proof.Proof.Gen.Kernel.Skeleton
import proofs.«160962_j23227183137544_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 10 = 0 :=
  (by decide +kernel : ∀ t : Fin grid2.N, cond2_0 (grid2.coords t) ↔ t.val % 10 = 0)

/-- One staging buffer of each output window, through which its contents are stated. -/
abbrev VO2_3 : View sig .tc .vmem S10000x128 .f32 := (Memref.whole cc2_stg3_0 : Memref sig .tc .vmem S10000x128 .f32).view
abbrev VO2_4 : View sig .tc .vmem S1x128 .f32 := (Memref.whole cc2_stg4_0 : Memref sig .tc .vmem S1x128 .f32).view
abbrev VO2_5 : View sig .tc .vmem S1x128 .f32 := (Memref.whole cc2_stg5_0 : Memref sig .tc .vmem S1x128 .f32).view
/-- Each window's current staging buffer at a point, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)

/-- The three lists of stores, one per output window. -/
abbrev Pieces2 : Type := List (View.Piece (Elt F) S10000x128 .f32) × List (View.Piece (Elt F) S1x128 .f32) × List (View.Piece (Elt F) S1x128 .f32)

set_option maxHeartbeats 2000000 in
/-- THE FIRST POINT (condition taken): the inputs' buffers at their contents, the outputs' at anything. -/
noncomputable def kernelRun2_A (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) :
    { L : Pieces2 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc2__matmul_reduce_kernel i arg1 harg1 arg2 harg2 arg3 harg3 arg4 harg4 arg5 harg5 arg6 harg6) K } := by
  refine ⟨⟨?_, ?_, ?_⟩, fun E K => ?run⟩
  case run =>
    simp only [cc2__matmul_reduce_kernel_eq_skeleton]; unfold cc2__matmul_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 2000000 in
/-- A LATER POINT (condition not taken): the two statistics rows' buffers at their running contents. -/
noncomputable def kernelRun2_B (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) :
    { L : Pieces2 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc2__matmul_reduce_kernel i arg1 harg1 arg2 harg2 arg3 harg3 arg4 harg4 arg5 harg5 arg6 harg6) K } := by
  refine ⟨⟨?_, ?_, ?_⟩, fun E K => ?run⟩
  case run =>
    simp only [cc2__matmul_reduce_kernel_eq_skeleton]; unfold cc2__matmul_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.KBRegA2.lean ====
/-
  Region 2 of @main, second half: what the three outputs' staging buffers hold after the body at each grid
  point (the block of the product plus bias; the two running statistics rows, each point's added to what the
  point before left, the first point's to zero rows), the pipeline's proof data at the contents the region is
  entered with, and the body obligation at every point.
-/
import proofs.«160962_j23227183137544_1_alg».proof.Proof.KBRunA2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem cover2_A_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) (y : S10000x128.Idx) :
    ∃ pc ∈ (kernelRun2_A c i arg1 harg1 arg2 harg2 arg3 harg3 arg4 harg4 arg5 harg5 arg6 harg6 hc0 x0 x1 x2).1.1, y ∈ pc.1.set :=
  View.cover_of_tiledL (kernelRun2_A c i arg1 harg1 arg2 harg2 arg3 harg3 arg4 harg4 arg5 harg5 arg6 harg6 hc0 x0 x1 x2).1.1 S10000x128.size (by sl_kernel_rfl) y
theorem cover2_A_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) (y : S1x128.Idx) :
    ∃ pc ∈ (kernelRun2_A c i arg1 harg1 arg2 harg2 arg3 harg3 arg4 harg4 arg5 harg5 arg6 harg6 hc0 x0 x1 x2).1.2.1, y ∈ pc.1.set :=
  View.cover_of_tiledL (kernelRun2_A c i arg1 harg1 arg2 harg2 arg3 harg3 arg4 harg4 arg5 harg5 arg6 harg6 hc0 x0 x1 x2).1.2.1 S1x128.size (by sl_kernel_rfl) y
theorem cover2_A_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) (y : S1x128.Idx) :
    ∃ pc ∈ (kernelRun2_A c i arg1 harg1 arg2 harg2 arg3 harg3 arg4 harg4 arg5 harg5 arg6 harg6 hc0 x0 x1 x2).1.2.2, y ∈ pc.1.set :=
  View.cover_of_tiledL (kernelRun2_A c i arg1 harg1 arg2 harg2 arg3 harg3 arg4 harg4 arg5 harg5 arg6 harg6 hc0 x0 x1 x2).1.2.2 S1x128.size (by sl_kernel_rfl) y
theorem cover2_B_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun2_B c i arg1 harg1 arg2 harg2 arg3 harg3 arg4 harg4 arg5 harg5 arg6 harg6 hc0 x0 x1 x2 xo4 xo5).1.1, y ∈ pc.1.set :=
  View.cover_of_tiledL (kernelRun2_B c i arg1 harg1 arg2 harg2 arg3 harg3 arg4 harg4 arg5 harg5 arg6 harg6 hc0 x0 x1 x2 xo4 xo5).1.1 S10000x128.size (by sl_kernel_rfl) y
theorem cover2_B_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun2_B c i arg1 harg1 arg2 harg2 arg3 harg3 arg4 harg4 arg5 harg5 arg6 harg6 hc0 x0 x1 x2 xo4 xo5).1.2.1, y ∈ pc.1.set :=
  View.cover_of_tiledL (kernelRun2_B c i arg1 harg1 arg2 harg2 arg3 harg3 arg4 harg4 arg5 harg5 arg6 harg6 hc0 x0 x1 x2 xo4 xo5).1.2.1 S1x128.size (by sl_kernel_rfl) y
theorem cover2_B_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun2_B c i arg1 harg1 arg2 harg2 arg3 harg3 arg4 harg4 arg5 harg5 arg6 harg6 hc0 x0 x1 x2 xo4 xo5).1.2.2, y ∈ pc.1.set :=
  View.cover_of_tiledL (kernelRun2_B c i arg1 harg1 arg2 harg2 arg3 harg3 arg4 harg4 arg5 harg5 arg6 harg6 hc0 x0 x1 x2 xo4 xo5).1.2.2 S1x128.size (by sl_kernel_rfl) y

/-- What the first point leaves in the three outputs' buffers: its stores read back. -/
def out2_A (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) : Vec F S10000x128 .f32 × Vec F S1x128 .f32 × Vec F S1x128 .f32 :=
  (VO2_3.read (Elt F) (VO2_3.writes (Elt F) VO2_3.junk (kernelRun2_A c i arg1 harg1 arg2 harg2 arg3 harg3 arg4 harg4 arg5 harg5 arg6 harg6 hc0 x0 x1 x2).1.1),
   VO2_4.read (Elt F) (VO2_4.writes (Elt F) VO2_4.junk (kernelRun2_A c i arg1 harg1 arg2 harg2 arg3 harg3 arg4 harg4 arg5 harg5 arg6 harg6 hc0 x0 x1 x2).1.2.1),
   VO2_5.read (Elt F) (VO2_5.writes (Elt F) VO2_5.junk (kernelRun2_A c i arg1 harg1 arg2 harg2 arg3 harg3 arg4 harg4 arg5 harg5 arg6 harg6 hc0 x0 x1 x2).1.2.2))

/-- What a later point leaves, over the statistics rows the point before left. -/
def out2_B (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) : Vec F S10000x128 .f32 × Vec F S1x128 .f32 × Vec F S1x128 .f32 :=
  (VO2_3.read (Elt F) (VO2_3.writes (Elt F) VO2_3.junk (kernelRun2_B c i arg1 harg1 arg2 harg2 arg3 harg3 arg4 harg4 arg5 harg5 arg6 harg6 hc0 x0 x1 x2 xo4 xo5).1.1),
   VO2_4.read (Elt F) (VO2_4.writes (Elt F) VO2_4.junk (kernelRun2_B c i arg1 harg1 arg2 harg2 arg3 harg3 arg4 harg4 arg5 harg5 arg6 harg6 hc0 x0 x1 x2 xo4 xo5).1.2.1),
   VO2_5.read (Elt F) (VO2_5.writes (Elt F) VO2_5.junk (kernelRun2_B c i arg1 harg1 arg2 harg2 arg3 harg3 arg4 harg4 arg5 harg5 arg6 harg6 hc0 x0 x1 x2 xo4 xo5).1.2.2))

/-- THE ACCUMULATION: what the outputs' buffers hold after the body at position `n`. -/
def outsAt2 (c : Dev nD) : (n : ℕ) → n < cfg2.N → Vec F S10000x128 .f32 × Vec F S1x128 .f32 × Vec F S1x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩)
  | n + 1, hn =>
    if h0 : (n + 1) % 10 = 0 then
      out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2

theorem outsAt2_A (c : Dev nD) (t : Fin cfg2.N) (h0 : t.val % 10 = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) := by
  obtain ⟨n, hn⟩ := t
  cases n with
  | zero => exact rfl
  | succ n => exact (dif_pos h0).trans rfl

theorem outsAt2_B (c : Dev nD) (t : Fin cfg2.N) (h0 : ¬t.val % 10 = 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t)
      (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The proof data of this pipeline on core `c`, at the contents `V` the region is entered with. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
/-- At a later point a statistics row's buffer holds what the body left at the point before: it is not written
    back in between. -/
theorem before2_4_B (c : Dev nD) (t : Fin cfg2.N) (h0 : ¬t.val % 10 = 0) (d) :
    (dat2 V c).before 4 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 4 rfl t (by omega) (Bool.eq_false_iff.mpr fun h => by have := (flush2_4 _).mp h; dsimp only at this; omega)
    (fun _ => rfl) (fun _ _ => rfl)]
  dsimp only [dat2]
theorem before2_5_B (c : Dev nD) (t : Fin cfg2.N) (h0 : ¬t.val % 10 = 0) (d) :
    (dat2 V c).before 5 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 5 rfl t (by omega) (Bool.eq_false_iff.mpr fun h => by have := (flush2_5 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4, after2_5]
  have hN : t.val < 10 := lt_of_lt_of_eq t.isLt (show cfg2.N = 10 from N_2)
  by_cases h0 : t.val % 10 = 0
  · rw [outsAt2_A V c t h0]
    unfold out2_A
    iintro ⟨HΦ, Ho, ⟨%d0, H0⟩, ⟨%d1, H1⟩, ⟨%d2, H2⟩, ⟨%d3, H3⟩, ⟨%d4, H4⟩, ⟨%d5, H5⟩⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; dsimp only; exact View.read_writes_of_cover _ _ VO2_3 VO2_3.junk _ (cover2_A_3 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t))
    isplitl [H4]
    · unfold owns; iexists _; isplitr
      swap; · iexact H4
      ipureintro; dsimp only; exact View.read_writes_of_cover _ _ VO2_4 VO2_4.junk _ (cover2_A_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t))
    unfold owns; iexists _; isplitr
    swap; · iexact H5
    ipureintro; dsimp only; exact View.read_writes_of_cover _ _ VO2_5 VO2_5.junk _ (cover2_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t))
  · rw [outsAt2_B V c t h0]
    simp only [before2_4_B V c t h0, before2_5_B V c t h0]
    unfold out2_B
    iintro ⟨HΦ, Ho, ⟨%d0, H0⟩, ⟨%d1, H1⟩, ⟨%d2, H2⟩, ⟨%d3, H3⟩, ⟨%d4, H4⟩, ⟨%d5, H5⟩⟩
    iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; dsimp only; exact View.read_writes_of_cover _ _ VO2_3 VO2_3.junk _ (cover2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2)
    isplitl [H4]
    · unfold owns; iexists _; isplitr
      swap; · iexact H4
      ipureintro; dsimp only; exact View.read_writes_of_cover _ _ VO2_4 VO2_4.junk _ (cover2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2)
    unfold owns; iexists _; isplitr
    swap; · iexact H5
    ipureintro; dsimp only; exact View.read_writes_of_cover _ _ VO2_5 VO2_5.junk _ (cover2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2)

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBRegB3.lean ====
/-
  Region 3 of @main (the normalise-and-rectify kernel of one layer): its body — one whole-block store of
  max(((z − mean)·invstd)·gamma + beta, 0) computed from the five input blocks — run on any whole staging buffers,
  the pipeline's proof data at the contents the region is entered with, and the body obligation at every point.
-/
import proofs.«160962_j23227183137544_1_alg».proof.Proof.Gen.Kernel.Launch
import proofs.«160962_j23227183137544_1_alg».proof.Proof.Gen.Kernel.Skeleton
import proofs.«160962_j23227183137544_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_z : Rect S10000x128 := Rect.unit (s := S10000x128) ![0, 0] S10000x128.size inb_S10000x128_S10000x128_0_0
abbrev r3_r : Rect S1x128 := Rect.unit (s := S1x128) ![0, 0] S1x128.size inb_S1x128_S1x128_0_0

/-- The output's staging buffer after the body, from the input blocks: its one store. -/
def out3_5 (x0 : Vec F S10000x128 .f32) (x1 x2 x3 x4 : Vec F S1x128 .f32) : Vec F S10000x128 .f32 :=
  View.canon [⟨r3_z, k3_pay1 (View.ld x0 r3_z) (View.ld x1 r3_r) (View.ld x2 r3_r) (View.ld x3 r3_r) (View.ld x4 r3_r)⟩]

theorem cover3_5 (p0 : Vec F S10000x128 .f32) (y : S10000x128.Idx) :
    ∃ pc ∈ ([⟨r3_z, p0⟩] : List (View.Piece (Elt F) S10000x128 .f32)), y ∈ pc.1.set :=
  View.cover_of_tiled [⟨r3_z, p0⟩] S10000x128.size (by rfl) y

set_option maxHeartbeats 2000000 in
theorem sound_kernel3 (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__norm_relu_kernel i arg1 harg1 arg2 harg2 arg3 harg3 arg4 harg4 arg5 harg5 arg6 harg6) K := by
  simp only [cc3__norm_relu_kernel_eq_skeleton]; unfold cc3__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this pipeline on core `c`, at the contents `V` the region is entered with. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KBRunA4.lean ====
/-
  Region 4 of @main (the product-and-statistics kernel of one layer), first half: the two control cases of its
  body run on any whole staging buffers.  At the first grid point the two statistics rows are first set to zero;
  at every point the block of the product plus the bias row is stored whole, and its column sums and the column
  sums of its squares are added to the statistics rows found in their buffers.  What each output's buffer holds
  afterwards is recorded as the list of stores made into it, last first.
-/
import proofs.«160962_j23227183137544_1_alg».proof.Proof.Gen.Kernel.Launch
import proofs.«160962_j23227183137544_1_alg».proof.Proof.Gen.Kernel.Skeleton
import proofs.«160962_j23227183137544_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 10 = 0 :=
  (by decide +kernel : ∀ t : Fin grid4.N, cond4_0 (grid4.coords t) ↔ t.val % 10 = 0)

/-- One staging buffer of each output window, through which its contents are stated. -/
abbrev VO4_3 : View sig .tc .vmem S10000x128 .f32 := (Memref.whole cc4_stg3_0 : Memref sig .tc .vmem S10000x128 .f32).view
abbrev VO4_4 : View sig .tc .vmem S1x128 .f32 := (Memref.whole cc4_stg4_0 : Memref sig .tc .vmem S1x128 .f32).view
abbrev VO4_5 : View sig .tc .vmem S1x128 .f32 := (Memref.whole cc4_stg5_0 : Memref sig .tc .vmem S1x128 .f32).view
/-- Each window's current staging buffer at a point, and its wholeness. -/
abbrev ms4_0 (t : Fin cfg4.N) : Memref sig .tc .vmem S10000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S10000x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)

/-- The three lists of stores, one per output window. -/
abbrev Pieces4 : Type := List (View.Piece (Elt F) S10000x128 .f32) × List (View.Piece (Elt F) S1x128 .f32) × List (View.Piece (Elt F) S1x128 .f32)

set_option maxHeartbeats 2000000 in
/-- THE FIRST POINT (condition taken): the inputs' buffers at their contents, the outputs' at anything. -/
noncomputable def kernelRun4_A (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) :
    { L : Pieces4 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc4__matmul_reduce_kernel i arg1 harg1 arg2 harg2 arg3 harg3 arg4 harg4 arg5 harg5 arg6 harg6) K } := by
  refine ⟨⟨?_, ?_, ?_⟩, fun E K => ?run⟩
  case run =>
    simp only [cc4__matmul_reduce_kernel_eq_skeleton]; unfold cc4__matmul_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 2000000 in
/-- A LATER POINT (condition not taken): the two statistics rows' buffers at their running contents. -/
noncomputable def kernelRun4_B (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) :
    { L : Pieces4 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc4__matmul_reduce_kernel i arg1 harg1 arg2 harg2 arg3 harg3 arg4 harg4 arg5 harg5 arg6 harg6) K } := by
  refine ⟨⟨?_, ?_, ?_⟩, fun E K => ?run⟩
  case run =>
    simp only [cc4__matmul_reduce_kernel_eq_skeleton]; unfold cc4__matmul_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.KBRegA4.lean ====
/-
  Region 4 of @main, second half: what the three outputs' staging buffers hold after the body at each grid
  point (the block of the product plus bias; the two running statistics rows, each point's added to what the
  point before left, the first point's to zero rows), the pipeline's proof data at the contents the region is
  entered with, and the body obligation at every point.
-/
import proofs.«160962_j23227183137544_1_alg».proof.Proof.KBRunA4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem cover4_A_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) (y : S10000x128.Idx) :
    ∃ pc ∈ (kernelRun4_A c i arg1 harg1 arg2 harg2 arg3 harg3 arg4 harg4 arg5 harg5 arg6 harg6 hc0 x0 x1 x2).1.1, y ∈ pc.1.set :=
  View.cover_of_tiledL (kernelRun4_A c i arg1 harg1 arg2 harg2 arg3 harg3 arg4 harg4 arg5 harg5 arg6 harg6 hc0 x0 x1 x2).1.1 S10000x128.size (by sl_kernel_rfl) y
theorem cover4_A_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) (y : S1x128.Idx) :
    ∃ pc ∈ (kernelRun4_A c i arg1 harg1 arg2 harg2 arg3 harg3 arg4 harg4 arg5 harg5 arg6 harg6 hc0 x0 x1 x2).1.2.1, y ∈ pc.1.set :=
  View.cover_of_tiledL (kernelRun4_A c i arg1 harg1 arg2 harg2 arg3 harg3 arg4 harg4 arg5 harg5 arg6 harg6 hc0 x0 x1 x2).1.2.1 S1x128.size (by sl_kernel_rfl) y
theorem cover4_A_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) (y : S1x128.Idx) :
    ∃ pc ∈ (kernelRun4_A c i arg1 harg1 arg2 harg2 arg3 harg3 arg4 harg4 arg5 harg5 arg6 harg6 hc0 x0 x1 x2).1.2.2, y ∈ pc.1.set :=
  View.cover_of_tiledL (kernelRun4_A c i arg1 harg1 arg2 harg2 arg3 harg3 arg4 harg4 arg5 harg5 arg6 harg6 hc0 x0 x1 x2).1.2.2 S1x128.size (by sl_kernel_rfl) y
theorem cover4_B_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun4_B c i arg1 harg1 arg2 harg2 arg3 harg3 arg4 harg4 arg5 harg5 arg6 harg6 hc0 x0 x1 x2 xo4 xo5).1.1, y ∈ pc.1.set :=
  View.cover_of_tiledL (kernelRun4_B c i arg1 harg1 arg2 harg2 arg3 harg3 arg4 harg4 arg5 harg5 arg6 harg6 hc0 x0 x1 x2 xo4 xo5).1.1 S10000x128.size (by sl_kernel_rfl) y
theorem cover4_B_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun4_B c i arg1 harg1 arg2 harg2 arg3 harg3 arg4 harg4 arg5 harg5 arg6 harg6 hc0 x0 x1 x2 xo4 xo5).1.2.1, y ∈ pc.1.set :=
  View.cover_of_tiledL (kernelRun4_B c i arg1 harg1 arg2 harg2 arg3 harg3 arg4 harg4 arg5 harg5 arg6 harg6 hc0 x0 x1 x2 xo4 xo5).1.2.1 S1x128.size (by sl_kernel_rfl) y
theorem cover4_B_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun4_B c i arg1 harg1 arg2 harg2 arg3 harg3 arg4 harg4 arg5 harg5 arg6 harg6 hc0 x0 x1 x2 xo4 xo5).1.2.2, y ∈ pc.1.set :=
  View.cover_of_tiledL (kernelRun4_B c i arg1 harg1 arg2 harg2 arg3 harg3 arg4 harg4 arg5 harg5 arg6 harg6 hc0 x0 x1 x2 xo4 xo5).1.2.2 S1x128.size (by sl_kernel_rfl) y

/-- What the first point leaves in the three outputs' buffers: its stores read back. -/
def out4_A (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) : Vec F S10000x128 .f32 × Vec F S1x128 .f32 × Vec F S1x128 .f32 :=
  (VO4_3.read (Elt F) (VO4_3.writes (Elt F) VO4_3.junk (kernelRun4_A c i arg1 harg1 arg2 harg2 arg3 harg3 arg4 harg4 arg5 harg5 arg6 harg6 hc0 x0 x1 x2).1.1),
   VO4_4.read (Elt F) (VO4_4.writes (Elt F) VO4_4.junk (kernelRun4_A c i arg1 harg1 arg2 harg2 arg3 harg3 arg4 harg4 arg5 harg5 arg6 harg6 hc0 x0 x1 x2).1.2.1),
   VO4_5.read (Elt F) (VO4_5.writes (Elt F) VO4_5.junk (kernelRun4_A c i arg1 harg1 arg2 harg2 arg3 harg3 arg4 harg4 arg5 harg5 arg6 harg6 hc0 x0 x1 x2).1.2.2))

/-- What a later point leaves, over the statistics rows the point before left. -/
def out4_B (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) : Vec F S10000x128 .f32 × Vec F S1x128 .f32 × Vec F S1x128 .f32 :=
  (VO4_3.read (Elt F) (VO4_3.writes (Elt F) VO4_3.junk (kernelRun4_B c i arg1 harg1 arg2 harg2 arg3 harg3 arg4 harg4 arg5 harg5 arg6 harg6 hc0 x0 x1 x2 xo4 xo5).1.1),
   VO4_4.read (Elt F) (VO4_4.writes (Elt F) VO4_4.junk (kernelRun4_B c i arg1 harg1 arg2 harg2 arg3 harg3 arg4 harg4 arg5 harg5 arg6 harg6 hc0 x0 x1 x2 xo4 xo5).1.2.1),
   VO4_5.read (Elt F) (VO4_5.writes (Elt F) VO4_5.junk (kernelRun4_B c i arg1 harg1 arg2 harg2 arg3 harg3 arg4 harg4 arg5 harg5 arg6 harg6 hc0 x0 x1 x2 xo4 xo5).1.2.2))

/-- THE ACCUMULATION: what the outputs' buffers hold after the body at position `n`. -/
def outsAt4 (c : Dev nD) : (n : ℕ) → n < cfg4.N → Vec F S10000x128 .f32 × Vec F S1x128 .f32 × Vec F S1x128 .f32
  | 0, hn => out4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩)
  | n + 1, hn =>
    if h0 : (n + 1) % 10 = 0 then
      out4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩)
    else
      out4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2

theorem outsAt4_A (c : Dev nD) (t : Fin cfg4.N) (h0 : t.val % 10 = 0) :
    outsAt4 V c t.val t.isLt = out4_A c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) := by
  obtain ⟨n, hn⟩ := t
  cases n with
  | zero => exact rfl
  | succ n => exact (dif_pos h0).trans rfl

theorem outsAt4_B (c : Dev nD) (t : Fin cfg4.N) (h0 : ¬t.val % 10 = 0) :
    outsAt4 V c t.val t.isLt = out4_B c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t)
      (outsAt4 V c (t.val - 1) (Nat.lt_of_le_of_lt (Nat.sub_le _ _) t.isLt)).2.1 (outsAt4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The proof data of this pipeline on core `c`, at the contents `V` the region is entered with. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
/-- At a later point a statistics row's buffer holds what the body left at the point before: it is not written
    back in between. -/
theorem before4_4_B (c : Dev nD) (t : Fin cfg4.N) (h0 : ¬t.val % 10 = 0) (d) :
    (dat4 V c).before 4 t d = (outsAt4 V c (t.val - 1) (Nat.lt_of_le_of_lt (Nat.sub_le _ _) t.isLt)).2.1 := by
  have hN : t.val < 10 := lt_of_lt_of_eq t.isLt (show cfg4.N = 10 from N_4)
  rw [Dat.before_out_kept _ 4 rfl t (by omega) (Bool.eq_false_iff.mpr fun h => by have := (flush4_4 _).mp h; dsimp only at this; omega)
    (fun _ => rfl) (fun _ _ => rfl)]
  dsimp only [dat4]
theorem before4_5_B (c : Dev nD) (t : Fin cfg4.N) (h0 : ¬t.val % 10 = 0) (d) :
    (dat4 V c).before 5 t d = (outsAt4 V c (t.val - 1) (Nat.lt_of_le_of_lt (Nat.sub_le _ _) t.isLt)).2.2 := by
  have hN : t.val < 10 := lt_of_lt_of_eq t.isLt (show cfg4.N = 10 from N_4)
  rw [Dat.before_out_kept _ 5 rfl t (by omega) (Bool.eq_false_iff.mpr fun h => by have := (flush4_5 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t))

set_option maxHeartbeats 1600000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  have hN : t.val < 10 := lt_of_lt_of_eq t.isLt (show cfg4.N = 10 from N_4)
  by_cases h0 : t.val % 10 = 0
  · rw [outsAt4_A V c t h0]
    unfold out4_A
    iintro ⟨HΦ, Ho, ⟨%d0, H0⟩, ⟨%d1, H1⟩, ⟨%d2, H2⟩, ⟨%d3, H3⟩, ⟨%d4, H4⟩, ⟨%d5, H5⟩⟩
    iapply ((kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; dsimp only; exact View.read_writes_of_cover _ _ VO4_3 VO4_3.junk _ (cover4_A_3 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t))
    isplitl [H4]
    · unfold owns; iexists _; isplitr
      swap; · iexact H4
      ipureintro; dsimp only; exact View.read_writes_of_cover _ _ VO4_4 VO4_4.junk _ (cover4_A_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t))
    unfold owns; iexists _; isplitr
    swap; · iexact H5
    ipureintro; dsimp only; exact View.read_writes_of_cover _ _ VO4_5 VO4_5.junk _ (cover4_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t))
  · rw [outsAt4_B V c t h0]
    simp only [before4_4_B V c t h0, before4_5_B V c t h0]
    unfold out4_B
    iintro ⟨HΦ, Ho, ⟨%d0, H0⟩, ⟨%d1, H1⟩, ⟨%d2, H2⟩, ⟨%d3, H3⟩, ⟨%d4, H4⟩, ⟨%d5, H5⟩⟩
    iapply ((kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; dsimp only; exact View.read_writes_of_cover _ _ VO4_3 VO4_3.junk _ (cover4_B_3 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2)
    isplitl [H4]
    · unfold owns; iexists _; isplitr
      swap; · iexact H4
      ipureintro; dsimp only; exact View.read_writes_of_cover _ _ VO4_4 VO4_4.junk _ (cover4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2)
    unfold owns; iexists _; isplitr
    swap; · iexact H5
    ipureintro; dsimp only; exact View.read_writes_of_cover _ _ VO4_5 VO4_5.junk _ (cover4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2)

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KBRegB5.lean ====
/-
  Region 5 of @main (the normalise-and-rectify kernel of one layer): its body — one whole-block store of
  max(((z − mean)·invstd)·gamma + beta, 0) computed from the five input blocks — run on any whole staging buffers,
  the pipeline's proof data at the contents the region is entered with, and the body obligation at every point.
-/
import proofs.«160962_j23227183137544_1_alg».proof.Proof.Gen.Kernel.Launch
import proofs.«160962_j23227183137544_1_alg».proof.Proof.Gen.Kernel.Skeleton
import proofs.«160962_j23227183137544_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_z : Rect S10000x128 := Rect.unit (s := S10000x128) ![0, 0] S10000x128.size inb_S10000x128_S10000x128_0_0
abbrev r5_r : Rect S1x128 := Rect.unit (s := S1x128) ![0, 0] S1x128.size inb_S1x128_S1x128_0_0

/-- The output's staging buffer after the body, from the input blocks: its one store. -/
def out5_5 (x0 : Vec F S10000x128 .f32) (x1 x2 x3 x4 : Vec F S1x128 .f32) : Vec F S10000x128 .f32 :=
  View.canon [⟨r5_z, k5_pay1 (View.ld x0 r5_z) (View.ld x1 r5_r) (View.ld x2 r5_r) (View.ld x3 r5_r) (View.ld x4 r5_r)⟩]

theorem cover5_5 (p0 : Vec F S10000x128 .f32) (y : S10000x128.Idx) :
    ∃ pc ∈ ([⟨r5_z, p0⟩] : List (View.Piece (Elt F) S10000x128 .f32)), y ∈ pc.1.set :=
  View.cover_of_tiled [⟨r5_z, p0⟩] S10000x128.size (by rfl) y

set_option maxHeartbeats 2000000 in
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__norm_relu_kernel i arg1 harg1 arg2 harg2 arg3 harg3 arg4 harg4 arg5 harg5 arg6 harg6) K := by
  simp only [cc5__norm_relu_kernel_eq_skeleton]; unfold cc5__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this pipeline on core `c`, at the contents `V` the region is entered with. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 1600000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KBRun.lean ====
/-
  @main as a chain of seven stretches of host operations and six kernel regions: the contents of every buffer at
  each boundary as a fold from the launch memory (a host stretch applies its operations; a region leaves each of
  its arrays at what its write-backs make of it and every other buffer alone), every region as a segment entered
  from the contents before it and left at the contents after it, and the run: every weakly fair execution
  terminates, faults nowhere, and ends with every unscoped buffer at the last boundary's contents.
-/
import proofs.«160962_j23227183137544_1_alg».proof.Proof.KBRegA0
import proofs.«160962_j23227183137544_1_alg».proof.Proof.KBRegB1
import proofs.«160962_j23227183137544_1_alg».proof.Proof.KBRegA2
import proofs.«160962_j23227183137544_1_alg».proof.Proof.KBRegB3
import proofs.«160962_j23227183137544_1_alg».proof.Proof.KBRegA4
import proofs.«160962_j23227183137544_1_alg».proof.Proof.KBRegB5
import proofs.«160962_j23227183137544_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- At region 1's exit: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
abbrev W5 : Dev nD → Valuation τ sig (Elt F) := fun c => StableHlo.after hostOps2 (W4 m c)
abbrev U5 : (c : Dev nD) → (b : Ref sig .tc) → Buf (Elt F) ((c : Thread nD τ).loc b) := fun c b => W5 m c b

/-- At region 2's exit: its arrays at what the pipeline leaves, every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
abbrev W7 : Dev nD → Valuation τ sig (Elt F) := fun c => StableHlo.after hostOps3 (W6 m c)
abbrev U7 : (c : Dev nD) → (b : Ref sig .tc) → Buf (Elt F) ((c : Thread nD τ).loc b) := fun c b => W7 m c b

/-- At region 3's exit: its arrays at what the pipeline leaves, every other buffer as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
abbrev W9 : Dev nD → Valuation τ sig (Elt F) := fun c => StableHlo.after hostOps4 (W8 m c)
abbrev U9 : (c : Dev nD) → (b : Ref sig .tc) → Buf (Elt F) ((c : Thread nD τ).loc b) := fun c b => W9 m c b

/-- At region 4's exit: its arrays at what the pipeline leaves, every other buffer as entered. -/
def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)
abbrev W11 : Dev nD → Valuation τ sig (Elt F) := fun c => StableHlo.after hostOps5 (W10 m c)
abbrev U11 : (c : Dev nD) → (b : Ref sig .tc) → Buf (Elt F) ((c : Thread nD τ).loc b) := fun c b => W11 m c b

/-- At region 5's exit: its arrays at what the pipeline leaves, every other buffer as entered. -/
def W12 (c : Dev nD) : Valuation τ sig (Elt F) :=
  Pipeline.withArrays spec5 c (W11 m c) fun w => (dat5 (U11 m) c).arrAt w cfg5.N
theorem W12_arr (c : Dev nD) (w : Fin cfg5.W) :
    W12 m c (Proc.devRef .tc (Pipeline.arrRef spec5 w)) = (dat5 (U11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev U12 : (c : Dev nD) → (b : Ref sig .tc) → Buf (Elt F) ((c : Thread nD τ).loc b) := fun c b => W12 m c b
theorem hF5 (c : Dev nD) (w : Fin cfg5.W) : (dat5 (U11 m) c).arrAt w cfg5.N = U12 m c (Pipeline.arrRef spec5 w) :=
  (W12_arr m c w).symm
theorem hrest5 (c : Dev nD) : ∀ b, b ∉ Finset.univ.image (Pipeline.arrRef spec5) → U12 m c b = U11 m c b :=
  fun b hb => W12_of_ne m c b fun w e => hb (Finset.mem_image.mpr ⟨w, Finset.mem_univ _, e⟩)
abbrev W13 : Dev nD → Valuation τ sig (Elt F) := fun c => StableHlo.after hostOps6 (W12 m c)
abbrev U13 : (c : Dev nD) → (b : Ref sig .tc) → Buf (Elt F) ((c : Thread nD τ).loc b) := fun c b => W13 m c b

/-! ## No stretch and no region writes an argument -/
theorem W13_main_arg0 (c : Dev nD) : W13 m c (Proc.devRef .tc main_arg0) = m ((c : Thread nD τ).loc main_arg0) :=
  calc W13 m c (Proc.devRef .tc main_arg0)
    _ = W12 m c (Proc.devRef .tc main_arg0) := StableHlo.after_of_writes_sub hostOps6 _ hostOps6_writes (by decide)
    _ = W11 m c (Proc.devRef .tc main_arg0) := W12_of_ne m c main_arg0 (by decide)
    _ = W10 m c (Proc.devRef .tc main_arg0) := StableHlo.after_of_writes_sub hostOps5 _ hostOps5_writes (by decide)
    _ = W9 m c (Proc.devRef .tc main_arg0) := W10_of_ne m c main_arg0 (by decide)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W13_main_arg1 (c : Dev nD) : W13 m c (Proc.devRef .tc main_arg1) = m ((c : Thread nD τ).loc main_arg1) :=
  calc W13 m c (Proc.devRef .tc main_arg1)
    _ = W12 m c (Proc.devRef .tc main_arg1) := StableHlo.after_of_writes_sub hostOps6 _ hostOps6_writes (by decide)
    _ = W11 m c (Proc.devRef .tc main_arg1) := W12_of_ne m c main_arg1 (by decide)
    _ = W10 m c (Proc.devRef .tc main_arg1) := StableHlo.after_of_writes_sub hostOps5 _ hostOps5_writes (by decide)
    _ = W9 m c (Proc.devRef .tc main_arg1) := W10_of_ne m c main_arg1 (by decide)
    _ = W8 m c (Proc.devRef .tc main_arg1) := StableHlo.after_of_writes_sub hostOps4 _ hostOps4_writes (by decide)
    _ = W7 m c (Proc.devRef .tc main_arg1) := W8_of_ne m c main_arg1 (by decide)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W13_main_arg2 (c : Dev nD) : W13 m c (Proc.devRef .tc main_arg2) = m ((c : Thread nD τ).loc main_arg2) :=
  calc W13 m c (Proc.devRef .tc main_arg2)
    _ = W12 m c (Proc.devRef .tc main_arg2) := StableHlo.after_of_writes_sub hostOps6 _ hostOps6_writes (by decide)
    _ = W11 m c (Proc.devRef .tc main_arg2) := W12_of_ne m c main_arg2 (by decide)
    _ = W10 m c (Proc.devRef .tc main_arg2) := StableHlo.after_of_writes_sub hostOps5 _ hostOps5_writes (by decide)
    _ = W9 m c (Proc.devRef .tc main_arg2) := W10_of_ne m c main_arg2 (by decide)
    _ = W8 m c (Proc.devRef .tc main_arg2) := StableHlo.after_of_writes_sub hostOps4 _ hostOps4_writes (by decide)
    _ = W7 m c (Proc.devRef .tc main_arg2) := W8_of_ne m c main_arg2 (by decide)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W13_main_arg3 (c : Dev nD) : W13 m c (Proc.devRef .tc main_arg3) = m ((c : Thread nD τ).loc main_arg3) :=
  calc W13 m c (Proc.devRef .tc main_arg3)
    _ = W12 m c (Proc.devRef .tc main_arg3) := StableHlo.after_of_writes_sub hostOps6 _ hostOps6_writes (by decide)
    _ = W11 m c (Proc.devRef .tc main_arg3) := W12_of_ne m c main_arg3 (by decide)
    _ = W10 m c (Proc.devRef .tc main_arg3) := StableHlo.after_of_writes_sub hostOps5 _ hostOps5_writes (by decide)
    _ = W9 m c (Proc.devRef .tc main_arg3) := W10_of_ne m c main_arg3 (by decide)
    _ = W8 m c (Proc.devRef .tc main_arg3) := StableHlo.after_of_writes_sub hostOps4 _ hostOps4_writes (by decide)
    _ = W7 m c (Proc.devRef .tc main_arg3) := W8_of_ne m c main_arg3 (by decide)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W13_main_arg4 (c : Dev nD) : W13 m c (Proc.devRef .tc main_arg4) = m ((c : Thread nD τ).loc main_arg4) :=
  calc W13 m c (Proc.devRef .tc main_arg4)
    _ = W12 m c (Proc.devRef .tc main_arg4) := StableHlo.after_of_writes_sub hostOps6 _ hostOps6_writes (by decide)
    _ = W11 m c (Proc.devRef .tc main_arg4) := W12_of_ne m c main_arg4 (by decide)
    _ = W10 m c (Proc.devRef .tc main_arg4) := StableHlo.after_of_writes_sub hostOps5 _ hostOps5_writes (by decide)
    _ = W9 m c (Proc.devRef .tc main_arg4) := W10_of_ne m c main_arg4 (by decide)
    _ = W8 m c (Proc.devRef .tc main_arg4) := StableHlo.after_of_writes_sub hostOps4 _ hostOps4_writes (by decide)
    _ = W7 m c (Proc.devRef .tc main_arg4) := W8_of_ne m c main_arg4 (by decide)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W13_main_arg5 (c : Dev nD) : W13 m c (Proc.devRef .tc main_arg5) = m ((c : Thread nD τ).loc main_arg5) :=
  calc W13 m c (Proc.devRef .tc main_arg5)
    _ = W12 m c (Proc.devRef .tc main_arg5) := StableHlo.after_of_writes_sub hostOps6 _ hostOps6_writes (by decide)
    _ = W11 m c (Proc.devRef .tc main_arg5) := W12_of_ne m c main_arg5 (by decide)
    _ = W10 m c (Proc.devRef .tc main_arg5) := StableHlo.after_of_writes_sub hostOps5 _ hostOps5_writes (by decide)
    _ = W9 m c (Proc.devRef .tc main_arg5) := W10_of_ne m c main_arg5 (by decide)
    _ = W8 m c (Proc.devRef .tc main_arg5) := StableHlo.after_of_writes_sub hostOps4 _ hostOps4_writes (by decide)
    _ = W7 m c (Proc.devRef .tc main_arg5) := W8_of_ne m c main_arg5 (by decide)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W13_main_arg6 (c : Dev nD) : W13 m c (Proc.devRef .tc main_arg6) = m ((c : Thread nD τ).loc main_arg6) :=
  calc W13 m c (Proc.devRef .tc main_arg6)
    _ = W12 m c (Proc.devRef .tc main_arg6) := StableHlo.after_of_writes_sub hostOps6 _ hostOps6_writes (by decide)
    _ = W11 m c (Proc.devRef .tc main_arg6) := W12_of_ne m c main_arg6 (by decide)
    _ = W10 m c (Proc.devRef .tc main_arg6) := StableHlo.after_of_writes_sub hostOps5 _ hostOps5_writes (by decide)
    _ = W9 m c (Proc.devRef .tc main_arg6) := W10_of_ne m c main_arg6 (by decide)
    _ = W8 m c (Proc.devRef .tc main_arg6) := StableHlo.after_of_writes_sub hostOps4 _ hostOps4_writes (by decide)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The proof data family and the thread state -/

abbrev admH : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) admH (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) admH (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) admH (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) admH (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) admH (pdats m) launch5.win launch5.arr_whole c
      ((pdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m) ((pdats m 5 c).share_full fun _ => rfl)
      (U11 m c) (U12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsH : List (Pipeline.Seg (pcfgs (F := F)) admH (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)) ]

theorem main_run (c : Dev nD) : main (F := F) c = Pipeline.Seg.run (segsH m) := (main_chain c).trans (by chain_rfl)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => (show iprop(StableHlo.held (c : Thread nD τ) (Pipeline.ucRefs τ sig) (W13 m c) ∗ R c)
          ⊢ (iprop(Tₙ m c ∗ ∃ W, owes (c : Thread nD τ) (0 : CellTallies nD τ sig Unit) W) : sProp 𝕄) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W13_main_arg0 m c),
    (h c _ (mem_uc main_arg1 (by decide))).trans (W13_main_arg1 m c),
    (h c _ (mem_uc main_arg2 (by decide))).trans (W13_main_arg2 m c),
    (h c _ (mem_uc main_arg3 (by decide))).trans (W13_main_arg3 m c),
    (h c _ (mem_uc main_arg4 (by decide))).trans (W13_main_arg4 m c),
    (h c _ (mem_uc main_arg5 (by decide))).trans (W13_main_arg5 m c),
    (h c _ (mem_uc main_arg6 (by decide))).trans (W13_main_arg6 m c)⟩) (run_all m ρ)

end Cert.Kernel.Hand

end
-- ==== Proof.KIRunA0.lean ====
/-
  Region 0 of @main (the product-and-statistics kernel of one layer), first half: the two control cases of its
  body run on any whole staging buffers.  At the first grid point the two statistics rows are first set to zero;
  at every point the block of the product plus the bias row is stored whole, and its column sums and the column
  sums of its squares are added to the statistics rows found in their buffers.  What each output's buffer holds
  afterwards is recorded as the list of stores made into it, last first.
-/
import proofs.«160962_j23227183137544_1_alg».proof.Proof.Gen.KernelIdeal.Launch
import proofs.«160962_j23227183137544_1_alg».proof.Proof.Gen.KernelIdeal.Skeleton
import proofs.«160962_j23227183137544_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 10 = 0 :=
  (by decide +kernel : ∀ t : Fin grid0.N, cond0_0 (grid0.coords t) ↔ t.val % 10 = 0)

/-- One staging buffer of each output window, through which its contents are stated. -/
abbrev VO0_3 : View sig .tc .vmem S10000x128 .f32 := (Memref.whole cc0_stg3_0 : Memref sig .tc .vmem S10000x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view
/-- Each window's current staging buffer at a point, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)

/-- The three lists of stores, one per output window. -/
abbrev Pieces0 : Type := List (View.Piece (Elt F) S10000x128 .f32) × List (View.Piece (Elt F) S1x128 .f32) × List (View.Piece (Elt F) S1x128 .f32)

set_option maxHeartbeats 2000000 in
/-- THE FIRST POINT (condition taken): the inputs' buffers at their contents, the outputs' at anything. -/
noncomputable def kernelRun0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) :
    { L : Pieces0 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc0__matmul_reduce_kernel i arg1 harg1 arg2 harg2 arg3 harg3 arg4 harg4 arg5 harg5 arg6 harg6) K } := by
  refine ⟨⟨?_, ?_, ?_⟩, fun E K => ?run⟩
  case run =>
    simp only [cc0__matmul_reduce_kernel_eq_skeleton]; unfold cc0__matmul_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 2000000 in
/-- A LATER POINT (condition not taken): the two statistics rows' buffers at their running contents. -/
noncomputable def kernelRun0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) :
    { L : Pieces0 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc0__matmul_reduce_kernel i arg1 harg1 arg2 harg2 arg3 harg3 arg4 harg4 arg5 harg5 arg6 harg6) K } := by
  refine ⟨⟨?_, ?_, ?_⟩, fun E K => ?run⟩
  case run =>
    simp only [cc0__matmul_reduce_kernel_eq_skeleton]; unfold cc0__matmul_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KIRegA0.lean ====
/-
  Region 0 of @main, second half: what the three outputs' staging buffers hold after the body at each grid
  point (the block of the product plus bias; the two running statistics rows, each point's added to what the
  point before left, the first point's to zero rows), the pipeline's proof data at the contents the region is
  entered with, and the body obligation at every point.
-/
import proofs.«160962_j23227183137544_1_alg».proof.Proof.KIRunA0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem cover0_A_3 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) (y : S10000x128.Idx) :
    ∃ pc ∈ (kernelRun0_A c i arg1 harg1 arg2 harg2 arg3 harg3 arg4 harg4 arg5 harg5 arg6 harg6 hc0 x0 x1 x2).1.1, y ∈ pc.1.set :=
  View.cover_of_tiledL (kernelRun0_A c i arg1 harg1 arg2 harg2 arg3 harg3 arg4 harg4 arg5 harg5 arg6 harg6 hc0 x0 x1 x2).1.1 S10000x128.size (by sl_kernel_rfl) y
theorem cover0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) (y : S1x128.Idx) :
    ∃ pc ∈ (kernelRun0_A c i arg1 harg1 arg2 harg2 arg3 harg3 arg4 harg4 arg5 harg5 arg6 harg6 hc0 x0 x1 x2).1.2.1, y ∈ pc.1.set :=
  View.cover_of_tiledL (kernelRun0_A c i arg1 harg1 arg2 harg2 arg3 harg3 arg4 harg4 arg5 harg5 arg6 harg6 hc0 x0 x1 x2).1.2.1 S1x128.size (by sl_kernel_rfl) y
theorem cover0_A_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) (y : S1x128.Idx) :
    ∃ pc ∈ (kernelRun0_A c i arg1 harg1 arg2 harg2 arg3 harg3 arg4 harg4 arg5 harg5 arg6 harg6 hc0 x0 x1 x2).1.2.2, y ∈ pc.1.set :=
  View.cover_of_tiledL (kernelRun0_A c i arg1 harg1 arg2 harg2 arg3 harg3 arg4 harg4 arg5 harg5 arg6 harg6 hc0 x0 x1 x2).1.2.2 S1x128.size (by sl_kernel_rfl) y
theorem cover0_B_3 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun0_B c i arg1 harg1 arg2 harg2 arg3 harg3 arg4 harg4 arg5 harg5 arg6 harg6 hc0 x0 x1 x2 xo4 xo5).1.1, y ∈ pc.1.set :=
  View.cover_of_tiledL (kernelRun0_B c i arg1 harg1 arg2 harg2 arg3 harg3 arg4 harg4 arg5 harg5 arg6 harg6 hc0 x0 x1 x2 xo4 xo5).1.1 S10000x128.size (by sl_kernel_rfl) y
theorem cover0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun0_B c i arg1 harg1 arg2 harg2 arg3 harg3 arg4 harg4 arg5 harg5 arg6 harg6 hc0 x0 x1 x2 xo4 xo5).1.2.1, y ∈ pc.1.set :=
  View.cover_of_tiledL (kernelRun0_B c i arg1 harg1 arg2 harg2 arg3 harg3 arg4 harg4 arg5 harg5 arg6 harg6 hc0 x0 x1 x2 xo4 xo5).1.2.1 S1x128.size (by sl_kernel_rfl) y
theorem cover0_B_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun0_B c i arg1 harg1 arg2 harg2 arg3 harg3 arg4 harg4 arg5 harg5 arg6 harg6 hc0 x0 x1 x2 xo4 xo5).1.2.2, y ∈ pc.1.set :=
  View.cover_of_tiledL (kernelRun0_B c i arg1 harg1 arg2 harg2 arg3 harg3 arg4 harg4 arg5 harg5 arg6 harg6 hc0 x0 x1 x2 xo4 xo5).1.2.2 S1x128.size (by sl_kernel_rfl) y

/-- What the first point leaves in the three outputs' buffers: its stores read back. -/
def out0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) : Vec F S10000x128 .f32 × Vec F S1x128 .f32 × Vec F S1x128 .f32 :=
  (VO0_3.read (Elt F) (VO0_3.writes (Elt F) VO0_3.junk (kernelRun0_A c i arg1 harg1 arg2 harg2 arg3 harg3 arg4 harg4 arg5 harg5 arg6 harg6 hc0 x0 x1 x2).1.1),
   VO0_4.read (Elt F) (VO0_4.writes (Elt F) VO0_4.junk (kernelRun0_A c i arg1 harg1 arg2 harg2 arg3 harg3 arg4 harg4 arg5 harg5 arg6 harg6 hc0 x0 x1 x2).1.2.1),
   VO0_5.read (Elt F) (VO0_5.writes (Elt F) VO0_5.junk (kernelRun0_A c i arg1 harg1 arg2 harg2 arg3 harg3 arg4 harg4 arg5 harg5 arg6 harg6 hc0 x0 x1 x2).1.2.2))

/-- What a later point leaves, over the statistics rows the point before left. -/
def out0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) : Vec F S10000x128 .f32 × Vec F S1x128 .f32 × Vec F S1x128 .f32 :=
  (VO0_3.read (Elt F) (VO0_3.writes (Elt F) VO0_3.junk (kernelRun0_B c i arg1 harg1 arg2 harg2 arg3 harg3 arg4 harg4 arg5 harg5 arg6 harg6 hc0 x0 x1 x2 xo4 xo5).1.1),
   VO0_4.read (Elt F) (VO0_4.writes (Elt F) VO0_4.junk (kernelRun0_B c i arg1 harg1 arg2 harg2 arg3 harg3 arg4 harg4 arg5 harg5 arg6 harg6 hc0 x0 x1 x2 xo4 xo5).1.2.1),
   VO0_5.read (Elt F) (VO0_5.writes (Elt F) VO0_5.junk (kernelRun0_B c i arg1 harg1 arg2 harg2 arg3 harg3 arg4 harg4 arg5 harg5 arg6 harg6 hc0 x0 x1 x2 xo4 xo5).1.2.2))

/-- THE ACCUMULATION: what the outputs' buffers hold after the body at position `n`. -/
def outsAt0 (c : Dev nD) : (n : ℕ) → n < cfg0.N → Vec F S10000x128 .f32 × Vec F S1x128 .f32 × Vec F S1x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩)
  | n + 1, hn =>
    if h0 : (n + 1) % 10 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2

theorem outsAt0_A (c : Dev nD) (t : Fin cfg0.N) (h0 : t.val % 10 = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) := by
  obtain ⟨n, hn⟩ := t
  cases n with
  | zero => exact rfl
  | succ n => exact (dif_pos h0).trans rfl

theorem outsAt0_B (c : Dev nD) (t : Fin cfg0.N) (h0 : ¬t.val % 10 = 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The proof data of this pipeline on core `c`, at the contents `V` the region is entered with. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At a later point a statistics row's buffer holds what the body left at the point before: it is not written
    back in between. -/
theorem before0_4_B (c : Dev nD) (t : Fin cfg0.N) (h0 : ¬t.val % 10 = 0) (d) :
    (dat0 V c).before 4 t d = (outsAt0 V c (t.val - 1) (Nat.lt_of_le_of_lt (Nat.sub_le _ _) t.isLt)).2.1 := by
  have hN : t.val < 10 := lt_of_lt_of_eq t.isLt (show cfg0.N = 10 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_5_B (c : Dev nD) (t : Fin cfg0.N) (h0 : ¬t.val % 10 = 0) (d) :
    (dat0 V c).before 5 t d = (outsAt0 V c (t.val - 1) (Nat.lt_of_le_of_lt (Nat.sub_le _ _) t.isLt)).2.2 := by
  have hN : t.val < 10 := lt_of_lt_of_eq t.isLt (show cfg0.N = 10 from N_0)
  rw [Dat.before_out_kept _ 5 rfl t (by omega) (Bool.eq_false_iff.mpr fun h => by have := (flush0_5 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 10 := lt_of_lt_of_eq t.isLt (show cfg0.N = 10 from N_0)
  by_cases h0 : t.val % 10 = 0
  · rw [outsAt0_A V c t h0]
    unfold out0_A
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; dsimp only; exact View.read_writes_of_cover _ _ VO0_3 VO0_3.junk _ (cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
    isplitl [H4]
    · unfold owns; iexists _; isplitr
      swap; · iexact H4
      ipureintro; dsimp only; exact View.read_writes_of_cover _ _ VO0_4 VO0_4.junk _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
    unfold owns; iexists _; isplitr
    swap; · iexact H5
    ipureintro; dsimp only; exact View.read_writes_of_cover _ _ VO0_5 VO0_5.junk _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
  · rw [outsAt0_B V c t h0]
    simp only [before0_4_B V c t h0, before0_5_B V c t h0]
    unfold out0_B
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; dsimp only; exact View.read_writes_of_cover _ _ VO0_3 VO0_3.junk _ (cover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
    isplitl [H4]
    · unfold owns; iexists _; isplitr
      swap; · iexact H4
      ipureintro; dsimp only; exact View.read_writes_of_cover _ _ VO0_4 VO0_4.junk _ (cover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
    unfold owns; iexists _; isplitr
    swap; · iexact H5
    ipureintro; dsimp only; exact View.read_writes_of_cover _ _ VO0_5 VO0_5.junk _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegB1.lean ====
/-
  Region 1 of @main (the normalise-and-rectify kernel of one layer): its body — one whole-block store of
  max(((z − mean)·invstd)·gamma + beta, 0) computed from the five input blocks — run on any whole staging buffers,
  the pipeline's proof data at the contents the region is entered with, and the body obligation at every point.
-/
import proofs.«160962_j23227183137544_1_alg».proof.Proof.Gen.KernelIdeal.Launch
import proofs.«160962_j23227183137544_1_alg».proof.Proof.Gen.KernelIdeal.Skeleton
import proofs.«160962_j23227183137544_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_z : Rect S10000x128 := Rect.unit (s := S10000x128) ![0, 0] S10000x128.size inb_S10000x128_S10000x128_0_0
abbrev r1_r : Rect S1x128 := Rect.unit (s := S1x128) ![0, 0] S1x128.size inb_S1x128_S1x128_0_0

/-- The output's staging buffer after the body, from the input blocks: its one store. -/
def out1_5 (x0 : Vec F S10000x128 .f32) (x1 x2 x3 x4 : Vec F S1x128 .f32) : Vec F S10000x128 .f32 :=
  View.canon [⟨r1_z, k1_pay1 (View.ld x0 r1_z) (View.ld x1 r1_r) (View.ld x2 r1_r) (View.ld x3 r1_r) (View.ld x4 r1_r)⟩]

theorem cover1_5 (p0 : Vec F S10000x128 .f32) (y : S10000x128.Idx) :
    ∃ pc ∈ ([⟨r1_z, p0⟩] : List (View.Piece (Elt F) S10000x128 .f32)), y ∈ pc.1.set :=
  View.cover_of_tiled [⟨r1_z, p0⟩] S10000x128.size (by rfl) y

set_option maxHeartbeats 2000000 in
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__norm_relu_kernel i arg1 harg1 arg2 harg2 arg3 harg3 arg4 harg4 arg5 harg5 arg6 harg6) K := by
  simp only [cc1__norm_relu_kernel_eq_skeleton]; unfold cc1__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`, at the contents `V` the region is entered with. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRunA2.lean ====
/-
  Region 2 of @main (the product-and-statistics kernel of one layer), first half: the two control cases of its
  body run on any whole staging buffers.  At the first grid point the two statistics rows are first set to zero;
  at every point the block of the product plus the bias row is stored whole, and its column sums and the column
  sums of its squares are added to the statistics rows found in their buffers.  What each output's buffer holds
  afterwards is recorded as the list of stores made into it, last first.
-/
import proofs.«160962_j23227183137544_1_alg».proof.Proof.Gen.KernelIdeal.Launch
import proofs.«160962_j23227183137544_1_alg».proof.Proof.Gen.KernelIdeal.Skeleton
import proofs.«160962_j23227183137544_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 10 = 0 :=
  (by decide +kernel : ∀ t : Fin grid2.N, cond2_0 (grid2.coords t) ↔ t.val % 10 = 0)

/-- One staging buffer of each output window, through which its contents are stated. -/
abbrev VO2_3 : View sig .tc .vmem S10000x128 .f32 := (Memref.whole cc2_stg3_0 : Memref sig .tc .vmem S10000x128 .f32).view
abbrev VO2_4 : View sig .tc .vmem S1x128 .f32 := (Memref.whole cc2_stg4_0 : Memref sig .tc .vmem S1x128 .f32).view
abbrev VO2_5 : View sig .tc .vmem S1x128 .f32 := (Memref.whole cc2_stg5_0 : Memref sig .tc .vmem S1x128 .f32).view
/-- Each window's current staging buffer at a point, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)

/-- The three lists of stores, one per output window. -/
abbrev Pieces2 : Type := List (View.Piece (Elt F) S10000x128 .f32) × List (View.Piece (Elt F) S1x128 .f32) × List (View.Piece (Elt F) S1x128 .f32)

set_option maxHeartbeats 2000000 in
/-- THE FIRST POINT (condition taken): the inputs' buffers at their contents, the outputs' at anything. -/
noncomputable def kernelRun2_A (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) :
    { L : Pieces2 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc2__matmul_reduce_kernel i arg1 harg1 arg2 harg2 arg3 harg3 arg4 harg4 arg5 harg5 arg6 harg6) K } := by
  refine ⟨⟨?_, ?_, ?_⟩, fun E K => ?run⟩
  case run =>
    simp only [cc2__matmul_reduce_kernel_eq_skeleton]; unfold cc2__matmul_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 2000000 in
/-- A LATER POINT (condition not taken): the two statistics rows' buffers at their running contents. -/
noncomputable def kernelRun2_B (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) :
    { L : Pieces2 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc2__matmul_reduce_kernel i arg1 harg1 arg2 harg2 arg3 harg3 arg4 harg4 arg5 harg5 arg6 harg6) K } := by
  refine ⟨⟨?_, ?_, ?_⟩, fun E K => ?run⟩
  case run =>
    simp only [cc2__matmul_reduce_kernel_eq_skeleton]; unfold cc2__matmul_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KIRegA2.lean ====
/-
  Region 2 of @main, second half: what the three outputs' staging buffers hold after the body at each grid
  point (the block of the product plus bias; the two running statistics rows, each point's added to what the
  point before left, the first point's to zero rows), the pipeline's proof data at the contents the region is
  entered with, and the body obligation at every point.
-/
import proofs.«160962_j23227183137544_1_alg».proof.Proof.KIRunA2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem cover2_A_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) (y : S10000x128.Idx) :
    ∃ pc ∈ (kernelRun2_A c i arg1 harg1 arg2 harg2 arg3 harg3 arg4 harg4 arg5 harg5 arg6 harg6 hc0 x0 x1 x2).1.1, y ∈ pc.1.set :=
  View.cover_of_tiledL (kernelRun2_A c i arg1 harg1 arg2 harg2 arg3 harg3 arg4 harg4 arg5 harg5 arg6 harg6 hc0 x0 x1 x2).1.1 S10000x128.size (by sl_kernel_rfl) y
theorem cover2_A_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) (y : S1x128.Idx) :
    ∃ pc ∈ (kernelRun2_A c i arg1 harg1 arg2 harg2 arg3 harg3 arg4 harg4 arg5 harg5 arg6 harg6 hc0 x0 x1 x2).1.2.1, y ∈ pc.1.set :=
  View.cover_of_tiledL (kernelRun2_A c i arg1 harg1 arg2 harg2 arg3 harg3 arg4 harg4 arg5 harg5 arg6 harg6 hc0 x0 x1 x2).1.2.1 S1x128.size (by sl_kernel_rfl) y
theorem cover2_A_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) (y : S1x128.Idx) :
    ∃ pc ∈ (kernelRun2_A c i arg1 harg1 arg2 harg2 arg3 harg3 arg4 harg4 arg5 harg5 arg6 harg6 hc0 x0 x1 x2).1.2.2, y ∈ pc.1.set :=
  View.cover_of_tiledL (kernelRun2_A c i arg1 harg1 arg2 harg2 arg3 harg3 arg4 harg4 arg5 harg5 arg6 harg6 hc0 x0 x1 x2).1.2.2 S1x128.size (by sl_kernel_rfl) y
theorem cover2_B_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun2_B c i arg1 harg1 arg2 harg2 arg3 harg3 arg4 harg4 arg5 harg5 arg6 harg6 hc0 x0 x1 x2 xo4 xo5).1.1, y ∈ pc.1.set :=
  View.cover_of_tiledL (kernelRun2_B c i arg1 harg1 arg2 harg2 arg3 harg3 arg4 harg4 arg5 harg5 arg6 harg6 hc0 x0 x1 x2 xo4 xo5).1.1 S10000x128.size (by sl_kernel_rfl) y
theorem cover2_B_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun2_B c i arg1 harg1 arg2 harg2 arg3 harg3 arg4 harg4 arg5 harg5 arg6 harg6 hc0 x0 x1 x2 xo4 xo5).1.2.1, y ∈ pc.1.set :=
  View.cover_of_tiledL (kernelRun2_B c i arg1 harg1 arg2 harg2 arg3 harg3 arg4 harg4 arg5 harg5 arg6 harg6 hc0 x0 x1 x2 xo4 xo5).1.2.1 S1x128.size (by sl_kernel_rfl) y
theorem cover2_B_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun2_B c i arg1 harg1 arg2 harg2 arg3 harg3 arg4 harg4 arg5 harg5 arg6 harg6 hc0 x0 x1 x2 xo4 xo5).1.2.2, y ∈ pc.1.set :=
  View.cover_of_tiledL (kernelRun2_B c i arg1 harg1 arg2 harg2 arg3 harg3 arg4 harg4 arg5 harg5 arg6 harg6 hc0 x0 x1 x2 xo4 xo5).1.2.2 S1x128.size (by sl_kernel_rfl) y

/-- What the first point leaves in the three outputs' buffers: its stores read back. -/
def out2_A (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) : Vec F S10000x128 .f32 × Vec F S1x128 .f32 × Vec F S1x128 .f32 :=
  (VO2_3.read (Elt F) (VO2_3.writes (Elt F) VO2_3.junk (kernelRun2_A c i arg1 harg1 arg2 harg2 arg3 harg3 arg4 harg4 arg5 harg5 arg6 harg6 hc0 x0 x1 x2).1.1),
   VO2_4.read (Elt F) (VO2_4.writes (Elt F) VO2_4.junk (kernelRun2_A c i arg1 harg1 arg2 harg2 arg3 harg3 arg4 harg4 arg5 harg5 arg6 harg6 hc0 x0 x1 x2).1.2.1),
   VO2_5.read (Elt F) (VO2_5.writes (Elt F) VO2_5.junk (kernelRun2_A c i arg1 harg1 arg2 harg2 arg3 harg3 arg4 harg4 arg5 harg5 arg6 harg6 hc0 x0 x1 x2).1.2.2))

/-- What a later point leaves, over the statistics rows the point before left. -/
def out2_B (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) : Vec F S10000x128 .f32 × Vec F S1x128 .f32 × Vec F S1x128 .f32 :=
  (VO2_3.read (Elt F) (VO2_3.writes (Elt F) VO2_3.junk (kernelRun2_B c i arg1 harg1 arg2 harg2 arg3 harg3 arg4 harg4 arg5 harg5 arg6 harg6 hc0 x0 x1 x2 xo4 xo5).1.1),
   VO2_4.read (Elt F) (VO2_4.writes (Elt F) VO2_4.junk (kernelRun2_B c i arg1 harg1 arg2 harg2 arg3 harg3 arg4 harg4 arg5 harg5 arg6 harg6 hc0 x0 x1 x2 xo4 xo5).1.2.1),
   VO2_5.read (Elt F) (VO2_5.writes (Elt F) VO2_5.junk (kernelRun2_B c i arg1 harg1 arg2 harg2 arg3 harg3 arg4 harg4 arg5 harg5 arg6 harg6 hc0 x0 x1 x2 xo4 xo5).1.2.2))

/-- THE ACCUMULATION: what the outputs' buffers hold after the body at position `n`. -/
def outsAt2 (c : Dev nD) : (n : ℕ) → n < cfg2.N → Vec F S10000x128 .f32 × Vec F S1x128 .f32 × Vec F S1x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩)
  | n + 1, hn =>
    if h0 : (n + 1) % 10 = 0 then
      out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2

theorem outsAt2_A (c : Dev nD) (t : Fin cfg2.N) (h0 : t.val % 10 = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) := by
  obtain ⟨n, hn⟩ := t
  cases n with
  | zero => exact rfl
  | succ n => exact (dif_pos h0).trans rfl

theorem outsAt2_B (c : Dev nD) (t : Fin cfg2.N) (h0 : ¬t.val % 10 = 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t)
      (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The proof data of this pipeline on core `c`, at the contents `V` the region is entered with. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
/-- At a later point a statistics row's buffer holds what the body left at the point before: it is not written
    back in between. -/
theorem before2_4_B (c : Dev nD) (t : Fin cfg2.N) (h0 : ¬t.val % 10 = 0) (d) :
    (dat2 V c).before 4 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 4 rfl t (by omega) (Bool.eq_false_iff.mpr fun h => by have := (flush2_4 _).mp h; dsimp only at this; omega)
    (fun _ => rfl) (fun _ _ => rfl)]
  dsimp only [dat2]
theorem before2_5_B (c : Dev nD) (t : Fin cfg2.N) (h0 : ¬t.val % 10 = 0) (d) :
    (dat2 V c).before 5 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 5 rfl t (by omega) (Bool.eq_false_iff.mpr fun h => by have := (flush2_5 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4, after2_5]
  have hN : t.val < 10 := lt_of_lt_of_eq t.isLt (show cfg2.N = 10 from N_2)
  by_cases h0 : t.val % 10 = 0
  · rw [outsAt2_A V c t h0]
    unfold out2_A
    iintro ⟨HΦ, Ho, ⟨%d0, H0⟩, ⟨%d1, H1⟩, ⟨%d2, H2⟩, ⟨%d3, H3⟩, ⟨%d4, H4⟩, ⟨%d5, H5⟩⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; dsimp only; exact View.read_writes_of_cover _ _ VO2_3 VO2_3.junk _ (cover2_A_3 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t))
    isplitl [H4]
    · unfold owns; iexists _; isplitr
      swap; · iexact H4
      ipureintro; dsimp only; exact View.read_writes_of_cover _ _ VO2_4 VO2_4.junk _ (cover2_A_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t))
    unfold owns; iexists _; isplitr
    swap; · iexact H5
    ipureintro; dsimp only; exact View.read_writes_of_cover _ _ VO2_5 VO2_5.junk _ (cover2_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t))
  · rw [outsAt2_B V c t h0]
    simp only [before2_4_B V c t h0, before2_5_B V c t h0]
    unfold out2_B
    iintro ⟨HΦ, Ho, ⟨%d0, H0⟩, ⟨%d1, H1⟩, ⟨%d2, H2⟩, ⟨%d3, H3⟩, ⟨%d4, H4⟩, ⟨%d5, H5⟩⟩
    iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; dsimp only; exact View.read_writes_of_cover _ _ VO2_3 VO2_3.junk _ (cover2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2)
    isplitl [H4]
    · unfold owns; iexists _; isplitr
      swap; · iexact H4
      ipureintro; dsimp only; exact View.read_writes_of_cover _ _ VO2_4 VO2_4.junk _ (cover2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2)
    unfold owns; iexists _; isplitr
    swap; · iexact H5
    ipureintro; dsimp only; exact View.read_writes_of_cover _ _ VO2_5 VO2_5.junk _ (cover2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2)

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRegB3.lean ====
/-
  Region 3 of @main (the normalise-and-rectify kernel of one layer): its body — one whole-block store of
  max(((z − mean)·invstd)·gamma + beta, 0) computed from the five input blocks — run on any whole staging buffers,
  the pipeline's proof data at the contents the region is entered with, and the body obligation at every point.
-/
import proofs.«160962_j23227183137544_1_alg».proof.Proof.Gen.KernelIdeal.Launch
import proofs.«160962_j23227183137544_1_alg».proof.Proof.Gen.KernelIdeal.Skeleton
import proofs.«160962_j23227183137544_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_z : Rect S10000x128 := Rect.unit (s := S10000x128) ![0, 0] S10000x128.size inb_S10000x128_S10000x128_0_0
abbrev r3_r : Rect S1x128 := Rect.unit (s := S1x128) ![0, 0] S1x128.size inb_S1x128_S1x128_0_0

/-- The output's staging buffer after the body, from the input blocks: its one store. -/
def out3_5 (x0 : Vec F S10000x128 .f32) (x1 x2 x3 x4 : Vec F S1x128 .f32) : Vec F S10000x128 .f32 :=
  View.canon [⟨r3_z, k3_pay1 (View.ld x0 r3_z) (View.ld x1 r3_r) (View.ld x2 r3_r) (View.ld x3 r3_r) (View.ld x4 r3_r)⟩]

theorem cover3_5 (p0 : Vec F S10000x128 .f32) (y : S10000x128.Idx) :
    ∃ pc ∈ ([⟨r3_z, p0⟩] : List (View.Piece (Elt F) S10000x128 .f32)), y ∈ pc.1.set :=
  View.cover_of_tiled [⟨r3_z, p0⟩] S10000x128.size (by rfl) y

set_option maxHeartbeats 2000000 in
theorem sound_kernel3 (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__norm_relu_kernel i arg1 harg1 arg2 harg2 arg3 harg3 arg4 harg4 arg5 harg5 arg6 harg6) K := by
  simp only [cc3__norm_relu_kernel_eq_skeleton]; unfold cc3__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this pipeline on core `c`, at the contents `V` the region is entered with. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRunA4.lean ====
/-
  Region 4 of @main (the product-and-statistics kernel of one layer), first half: the two control cases of its
  body run on any whole staging buffers.  At the first grid point the two statistics rows are first set to zero;
  at every point the block of the product plus the bias row is stored whole, and its column sums and the column
  sums of its squares are added to the statistics rows found in their buffers.  What each output's buffer holds
  afterwards is recorded as the list of stores made into it, last first.
-/
import proofs.«160962_j23227183137544_1_alg».proof.Proof.Gen.KernelIdeal.Launch
import proofs.«160962_j23227183137544_1_alg».proof.Proof.Gen.KernelIdeal.Skeleton
import proofs.«160962_j23227183137544_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinate. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 10 = 0 :=
  (by decide +kernel : ∀ t : Fin grid4.N, cond4_0 (grid4.coords t) ↔ t.val % 10 = 0)

/-- One staging buffer of each output window, through which its contents are stated. -/
abbrev VO4_3 : View sig .tc .vmem S10000x128 .f32 := (Memref.whole cc4_stg3_0 : Memref sig .tc .vmem S10000x128 .f32).view
abbrev VO4_4 : View sig .tc .vmem S1x128 .f32 := (Memref.whole cc4_stg4_0 : Memref sig .tc .vmem S1x128 .f32).view
abbrev VO4_5 : View sig .tc .vmem S1x128 .f32 := (Memref.whole cc4_stg5_0 : Memref sig .tc .vmem S1x128 .f32).view
/-- Each window's current staging buffer at a point, and its wholeness. -/
abbrev ms4_0 (t : Fin cfg4.N) : Memref sig .tc .vmem S10000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S10000x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)

/-- The three lists of stores, one per output window. -/
abbrev Pieces4 : Type := List (View.Piece (Elt F) S10000x128 .f32) × List (View.Piece (Elt F) S1x128 .f32) × List (View.Piece (Elt F) S1x128 .f32)

set_option maxHeartbeats 2000000 in
/-- THE FIRST POINT (condition taken): the inputs' buffers at their contents, the outputs' at anything. -/
noncomputable def kernelRun4_A (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) :
    { L : Pieces4 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc4__matmul_reduce_kernel i arg1 harg1 arg2 harg2 arg3 harg3 arg4 harg4 arg5 harg5 arg6 harg6) K } := by
  refine ⟨⟨?_, ?_, ?_⟩, fun E K => ?run⟩
  case run =>
    simp only [cc4__matmul_reduce_kernel_eq_skeleton]; unfold cc4__matmul_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 2000000 in
/-- A LATER POINT (condition not taken): the two statistics rows' buffers at their running contents. -/
noncomputable def kernelRun4_B (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) :
    { L : Pieces4 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc4__matmul_reduce_kernel i arg1 harg1 arg2 harg2 arg3 harg3 arg4 harg4 arg5 harg5 arg6 harg6) K } := by
  refine ⟨⟨?_, ?_, ?_⟩, fun E K => ?run⟩
  case run =>
    simp only [cc4__matmul_reduce_kernel_eq_skeleton]; unfold cc4__matmul_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KIRegA4.lean ====
/-
  Region 4 of @main, second half: what the three outputs' staging buffers hold after the body at each grid
  point (the block of the product plus bias; the two running statistics rows, each point's added to what the
  point before left, the first point's to zero rows), the pipeline's proof data at the contents the region is
  entered with, and the body obligation at every point.
-/
import proofs.«160962_j23227183137544_1_alg».proof.Proof.KIRunA4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem cover4_A_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) (y : S10000x128.Idx) :
    ∃ pc ∈ (kernelRun4_A c i arg1 harg1 arg2 harg2 arg3 harg3 arg4 harg4 arg5 harg5 arg6 harg6 hc0 x0 x1 x2).1.1, y ∈ pc.1.set :=
  View.cover_of_tiledL (kernelRun4_A c i arg1 harg1 arg2 harg2 arg3 harg3 arg4 harg4 arg5 harg5 arg6 harg6 hc0 x0 x1 x2).1.1 S10000x128.size (by sl_kernel_rfl) y
theorem cover4_A_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) (y : S1x128.Idx) :
    ∃ pc ∈ (kernelRun4_A c i arg1 harg1 arg2 harg2 arg3 harg3 arg4 harg4 arg5 harg5 arg6 harg6 hc0 x0 x1 x2).1.2.1, y ∈ pc.1.set :=
  View.cover_of_tiledL (kernelRun4_A c i arg1 harg1 arg2 harg2 arg3 harg3 arg4 harg4 arg5 harg5 arg6 harg6 hc0 x0 x1 x2).1.2.1 S1x128.size (by sl_kernel_rfl) y
theorem cover4_A_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) (y : S1x128.Idx) :
    ∃ pc ∈ (kernelRun4_A c i arg1 harg1 arg2 harg2 arg3 harg3 arg4 harg4 arg5 harg5 arg6 harg6 hc0 x0 x1 x2).1.2.2, y ∈ pc.1.set :=
  View.cover_of_tiledL (kernelRun4_A c i arg1 harg1 arg2 harg2 arg3 harg3 arg4 harg4 arg5 harg5 arg6 harg6 hc0 x0 x1 x2).1.2.2 S1x128.size (by sl_kernel_rfl) y
theorem cover4_B_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun4_B c i arg1 harg1 arg2 harg2 arg3 harg3 arg4 harg4 arg5 harg5 arg6 harg6 hc0 x0 x1 x2 xo4 xo5).1.1, y ∈ pc.1.set :=
  View.cover_of_tiledL (kernelRun4_B c i arg1 harg1 arg2 harg2 arg3 harg3 arg4 harg4 arg5 harg5 arg6 harg6 hc0 x0 x1 x2 xo4 xo5).1.1 S10000x128.size (by sl_kernel_rfl) y
theorem cover4_B_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun4_B c i arg1 harg1 arg2 harg2 arg3 harg3 arg4 harg4 arg5 harg5 arg6 harg6 hc0 x0 x1 x2 xo4 xo5).1.2.1, y ∈ pc.1.set :=
  View.cover_of_tiledL (kernelRun4_B c i arg1 harg1 arg2 harg2 arg3 harg3 arg4 harg4 arg5 harg5 arg6 harg6 hc0 x0 x1 x2 xo4 xo5).1.2.1 S1x128.size (by sl_kernel_rfl) y
theorem cover4_B_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun4_B c i arg1 harg1 arg2 harg2 arg3 harg3 arg4 harg4 arg5 harg5 arg6 harg6 hc0 x0 x1 x2 xo4 xo5).1.2.2, y ∈ pc.1.set :=
  View.cover_of_tiledL (kernelRun4_B c i arg1 harg1 arg2 harg2 arg3 harg3 arg4 harg4 arg5 harg5 arg6 harg6 hc0 x0 x1 x2 xo4 xo5).1.2.2 S1x128.size (by sl_kernel_rfl) y

/-- What the first point leaves in the three outputs' buffers: its stores read back. -/
def out4_A (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) : Vec F S10000x128 .f32 × Vec F S1x128 .f32 × Vec F S1x128 .f32 :=
  (VO4_3.read (Elt F) (VO4_3.writes (Elt F) VO4_3.junk (kernelRun4_A c i arg1 harg1 arg2 harg2 arg3 harg3 arg4 harg4 arg5 harg5 arg6 harg6 hc0 x0 x1 x2).1.1),
   VO4_4.read (Elt F) (VO4_4.writes (Elt F) VO4_4.junk (kernelRun4_A c i arg1 harg1 arg2 harg2 arg3 harg3 arg4 harg4 arg5 harg5 arg6 harg6 hc0 x0 x1 x2).1.2.1),
   VO4_5.read (Elt F) (VO4_5.writes (Elt F) VO4_5.junk (kernelRun4_A c i arg1 harg1 arg2 harg2 arg3 harg3 arg4 harg4 arg5 harg5 arg6 harg6 hc0 x0 x1 x2).1.2.2))

/-- What a later point leaves, over the statistics rows the point before left. -/
def out4_B (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) : Vec F S10000x128 .f32 × Vec F S1x128 .f32 × Vec F S1x128 .f32 :=
  (VO4_3.read (Elt F) (VO4_3.writes (Elt F) VO4_3.junk (kernelRun4_B c i arg1 harg1 arg2 harg2 arg3 harg3 arg4 harg4 arg5 harg5 arg6 harg6 hc0 x0 x1 x2 xo4 xo5).1.1),
   VO4_4.read (Elt F) (VO4_4.writes (Elt F) VO4_4.junk (kernelRun4_B c i arg1 harg1 arg2 harg2 arg3 harg3 arg4 harg4 arg5 harg5 arg6 harg6 hc0 x0 x1 x2 xo4 xo5).1.2.1),
   VO4_5.read (Elt F) (VO4_5.writes (Elt F) VO4_5.junk (kernelRun4_B c i arg1 harg1 arg2 harg2 arg3 harg3 arg4 harg4 arg5 harg5 arg6 harg6 hc0 x0 x1 x2 xo4 xo5).1.2.2))

/-- THE ACCUMULATION: what the outputs' buffers hold after the body at position `n`. -/
def outsAt4 (c : Dev nD) : (n : ℕ) → n < cfg4.N → Vec F S10000x128 .f32 × Vec F S1x128 .f32 × Vec F S1x128 .f32
  | 0, hn => out4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩)
  | n + 1, hn =>
    if h0 : (n + 1) % 10 = 0 then
      out4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩)
    else
      out4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2

theorem outsAt4_A (c : Dev nD) (t : Fin cfg4.N) (h0 : t.val % 10 = 0) :
    outsAt4 V c t.val t.isLt = out4_A c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) := by
  obtain ⟨n, hn⟩ := t
  cases n with
  | zero => exact rfl
  | succ n => exact (dif_pos h0).trans rfl

theorem outsAt4_B (c : Dev nD) (t : Fin cfg4.N) (h0 : ¬t.val % 10 = 0) :
    outsAt4 V c t.val t.isLt = out4_B c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t)
      (outsAt4 V c (t.val - 1) (Nat.lt_of_le_of_lt (Nat.sub_le _ _) t.isLt)).2.1 (outsAt4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The proof data of this pipeline on core `c`, at the contents `V` the region is entered with. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
/-- At a later point a statistics row's buffer holds what the body left at the point before: it is not written
    back in between. -/
theorem before4_4_B (c : Dev nD) (t : Fin cfg4.N) (h0 : ¬t.val % 10 = 0) (d) :
    (dat4 V c).before 4 t d = (outsAt4 V c (t.val - 1) (Nat.lt_of_le_of_lt (Nat.sub_le _ _) t.isLt)).2.1 := by
  have hN : t.val < 10 := lt_of_lt_of_eq t.isLt (show cfg4.N = 10 from N_4)
  rw [Dat.before_out_kept _ 4 rfl t (by omega) (Bool.eq_false_iff.mpr fun h => by have := (flush4_4 _).mp h; dsimp only at this; omega)
    (fun _ => rfl) (fun _ _ => rfl)]
  dsimp only [dat4]
theorem before4_5_B (c : Dev nD) (t : Fin cfg4.N) (h0 : ¬t.val % 10 = 0) (d) :
    (dat4 V c).before 5 t d = (outsAt4 V c (t.val - 1) (Nat.lt_of_le_of_lt (Nat.sub_le _ _) t.isLt)).2.2 := by
  have hN : t.val < 10 := lt_of_lt_of_eq t.isLt (show cfg4.N = 10 from N_4)
  rw [Dat.before_out_kept _ 5 rfl t (by omega) (Bool.eq_false_iff.mpr fun h => by have := (flush4_5 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t))

set_option maxHeartbeats 1600000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  have hN : t.val < 10 := lt_of_lt_of_eq t.isLt (show cfg4.N = 10 from N_4)
  by_cases h0 : t.val % 10 = 0
  · rw [outsAt4_A V c t h0]
    unfold out4_A
    iintro ⟨HΦ, Ho, ⟨%d0, H0⟩, ⟨%d1, H1⟩, ⟨%d2, H2⟩, ⟨%d3, H3⟩, ⟨%d4, H4⟩, ⟨%d5, H5⟩⟩
    iapply ((kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; dsimp only; exact View.read_writes_of_cover _ _ VO4_3 VO4_3.junk _ (cover4_A_3 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t))
    isplitl [H4]
    · unfold owns; iexists _; isplitr
      swap; · iexact H4
      ipureintro; dsimp only; exact View.read_writes_of_cover _ _ VO4_4 VO4_4.junk _ (cover4_A_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t))
    unfold owns; iexists _; isplitr
    swap; · iexact H5
    ipureintro; dsimp only; exact View.read_writes_of_cover _ _ VO4_5 VO4_5.junk _ (cover4_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t))
  · rw [outsAt4_B V c t h0]
    simp only [before4_4_B V c t h0, before4_5_B V c t h0]
    unfold out4_B
    iintro ⟨HΦ, Ho, ⟨%d0, H0⟩, ⟨%d1, H1⟩, ⟨%d2, H2⟩, ⟨%d3, H3⟩, ⟨%d4, H4⟩, ⟨%d5, H5⟩⟩
    iapply ((kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; dsimp only; exact View.read_writes_of_cover _ _ VO4_3 VO4_3.junk _ (cover4_B_3 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2)
    isplitl [H4]
    · unfold owns; iexists _; isplitr
      swap; · iexact H4
      ipureintro; dsimp only; exact View.read_writes_of_cover _ _ VO4_4 VO4_4.junk _ (cover4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2)
    unfold owns; iexists _; isplitr
    swap; · iexact H5
    ipureintro; dsimp only; exact View.read_writes_of_cover _ _ VO4_5 VO4_5.junk _ (cover4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2)

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIRegB5.lean ====
/-
  Region 5 of @main (the normalise-and-rectify kernel of one layer): its body — one whole-block store of
  max(((z − mean)·invstd)·gamma + beta, 0) computed from the five input blocks — run on any whole staging buffers,
  the pipeline's proof data at the contents the region is entered with, and the body obligation at every point.
-/
import proofs.«160962_j23227183137544_1_alg».proof.Proof.Gen.KernelIdeal.Launch
import proofs.«160962_j23227183137544_1_alg».proof.Proof.Gen.KernelIdeal.Skeleton
import proofs.«160962_j23227183137544_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_z : Rect S10000x128 := Rect.unit (s := S10000x128) ![0, 0] S10000x128.size inb_S10000x128_S10000x128_0_0
abbrev r5_r : Rect S1x128 := Rect.unit (s := S1x128) ![0, 0] S1x128.size inb_S1x128_S1x128_0_0

/-- The output's staging buffer after the body, from the input blocks: its one store. -/
def out5_5 (x0 : Vec F S10000x128 .f32) (x1 x2 x3 x4 : Vec F S1x128 .f32) : Vec F S10000x128 .f32 :=
  View.canon [⟨r5_z, k5_pay1 (View.ld x0 r5_z) (View.ld x1 r5_r) (View.ld x2 r5_r) (View.ld x3 r5_r) (View.ld x4 r5_r)⟩]

theorem cover5_5 (p0 : Vec F S10000x128 .f32) (y : S10000x128.Idx) :
    ∃ pc ∈ ([⟨r5_z, p0⟩] : List (View.Piece (Elt F) S10000x128 .f32)), y ∈ pc.1.set :=
  View.cover_of_tiled [⟨r5_z, p0⟩] S10000x128.size (by rfl) y

set_option maxHeartbeats 2000000 in
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__norm_relu_kernel i arg1 harg1 arg2 harg2 arg3 harg3 arg4 harg4 arg5 harg5 arg6 harg6) K := by
  simp only [cc5__norm_relu_kernel_eq_skeleton]; unfold cc5__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this pipeline on core `c`, at the contents `V` the region is entered with. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 1600000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KIRun.lean ====
/-
  @main as a chain of seven stretches of host operations and six kernel regions: the contents of every buffer at
  each boundary as a fold from the launch memory (a host stretch applies its operations; a region leaves each of
  its arrays at what its write-backs make of it and every other buffer alone), every region as a segment entered
  from the contents before it and left at the contents after it, and the run: every weakly fair execution
  terminates, faults nowhere, and ends with every unscoped buffer at the last boundary's contents.
-/
import proofs.«160962_j23227183137544_1_alg».proof.Proof.KIRegA0
import proofs.«160962_j23227183137544_1_alg».proof.Proof.KIRegB1
import proofs.«160962_j23227183137544_1_alg».proof.Proof.KIRegA2
import proofs.«160962_j23227183137544_1_alg».proof.Proof.KIRegB3
import proofs.«160962_j23227183137544_1_alg».proof.Proof.KIRegA4
import proofs.«160962_j23227183137544_1_alg».proof.Proof.KIRegB5
import proofs.«160962_j23227183137544_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- At region 1's exit: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
abbrev W5 : Dev nD → Valuation τ sig (Elt F) := fun c => StableHlo.after hostOps2 (W4 m c)
abbrev U5 : (c : Dev nD) → (b : Ref sig .tc) → Buf (Elt F) ((c : Thread nD τ).loc b) := fun c b => W5 m c b

/-- At region 2's exit: its arrays at what the pipeline leaves, every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
abbrev W7 : Dev nD → Valuation τ sig (Elt F) := fun c => StableHlo.after hostOps3 (W6 m c)
abbrev U7 : (c : Dev nD) → (b : Ref sig .tc) → Buf (Elt F) ((c : Thread nD τ).loc b) := fun c b => W7 m c b

/-- At region 3's exit: its arrays at what the pipeline leaves, every other buffer as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
abbrev W9 : Dev nD → Valuation τ sig (Elt F) := fun c => StableHlo.after hostOps4 (W8 m c)
abbrev U9 : (c : Dev nD) → (b : Ref sig .tc) → Buf (Elt F) ((c : Thread nD τ).loc b) := fun c b => W9 m c b

/-- At region 4's exit: its arrays at what the pipeline leaves, every other buffer as entered. -/
def W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (dat4 (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)
abbrev W11 : Dev nD → Valuation τ sig (Elt F) := fun c => StableHlo.after hostOps5 (W10 m c)
abbrev U11 : (c : Dev nD) → (b : Ref sig .tc) → Buf (Elt F) ((c : Thread nD τ).loc b) := fun c b => W11 m c b

/-- At region 5's exit: its arrays at what the pipeline leaves, every other buffer as entered. -/
def W12 (c : Dev nD) : Valuation τ sig (Elt F) :=
  Pipeline.withArrays spec5 c (W11 m c) fun w => (dat5 (U11 m) c).arrAt w cfg5.N
theorem W12_arr (c : Dev nD) (w : Fin cfg5.W) :
    W12 m c (Proc.devRef .tc (Pipeline.arrRef spec5 w)) = (dat5 (U11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev U12 : (c : Dev nD) → (b : Ref sig .tc) → Buf (Elt F) ((c : Thread nD τ).loc b) := fun c b => W12 m c b
theorem hF5 (c : Dev nD) (w : Fin cfg5.W) : (dat5 (U11 m) c).arrAt w cfg5.N = U12 m c (Pipeline.arrRef spec5 w) :=
  (W12_arr m c w).symm
theorem hrest5 (c : Dev nD) : ∀ b, b ∉ Finset.univ.image (Pipeline.arrRef spec5) → U12 m c b = U11 m c b :=
  fun b hb => W12_of_ne m c b fun w e => hb (Finset.mem_image.mpr ⟨w, Finset.mem_univ _, e⟩)
abbrev W13 : Dev nD → Valuation τ sig (Elt F) := fun c => StableHlo.after hostOps6 (W12 m c)
abbrev U13 : (c : Dev nD) → (b : Ref sig .tc) → Buf (Elt F) ((c : Thread nD τ).loc b) := fun c b => W13 m c b

/-! ## No stretch and no region writes an argument -/
theorem W13_main_arg0 (c : Dev nD) : W13 m c (Proc.devRef .tc main_arg0) = m ((c : Thread nD τ).loc main_arg0) :=
  calc W13 m c (Proc.devRef .tc main_arg0)
    _ = W12 m c (Proc.devRef .tc main_arg0) := StableHlo.after_of_writes_sub hostOps6 _ hostOps6_writes (by decide)
    _ = W11 m c (Proc.devRef .tc main_arg0) := W12_of_ne m c main_arg0 (by decide)
    _ = W10 m c (Proc.devRef .tc main_arg0) := StableHlo.after_of_writes_sub hostOps5 _ hostOps5_writes (by decide)
    _ = W9 m c (Proc.devRef .tc main_arg0) := W10_of_ne m c main_arg0 (by decide)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W13_main_arg1 (c : Dev nD) : W13 m c (Proc.devRef .tc main_arg1) = m ((c : Thread nD τ).loc main_arg1) :=
  calc W13 m c (Proc.devRef .tc main_arg1)
    _ = W12 m c (Proc.devRef .tc main_arg1) := StableHlo.after_of_writes_sub hostOps6 _ hostOps6_writes (by decide)
    _ = W11 m c (Proc.devRef .tc main_arg1) := W12_of_ne m c main_arg1 (by decide)
    _ = W10 m c (Proc.devRef .tc main_arg1) := StableHlo.after_of_writes_sub hostOps5 _ hostOps5_writes (by decide)
    _ = W9 m c (Proc.devRef .tc main_arg1) := W10_of_ne m c main_arg1 (by decide)
    _ = W8 m c (Proc.devRef .tc main_arg1) := StableHlo.after_of_writes_sub hostOps4 _ hostOps4_writes (by decide)
    _ = W7 m c (Proc.devRef .tc main_arg1) := W8_of_ne m c main_arg1 (by decide)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W13_main_arg2 (c : Dev nD) : W13 m c (Proc.devRef .tc main_arg2) = m ((c : Thread nD τ).loc main_arg2) :=
  calc W13 m c (Proc.devRef .tc main_arg2)
    _ = W12 m c (Proc.devRef .tc main_arg2) := StableHlo.after_of_writes_sub hostOps6 _ hostOps6_writes (by decide)
    _ = W11 m c (Proc.devRef .tc main_arg2) := W12_of_ne m c main_arg2 (by decide)
    _ = W10 m c (Proc.devRef .tc main_arg2) := StableHlo.after_of_writes_sub hostOps5 _ hostOps5_writes (by decide)
    _ = W9 m c (Proc.devRef .tc main_arg2) := W10_of_ne m c main_arg2 (by decide)
    _ = W8 m c (Proc.devRef .tc main_arg2) := StableHlo.after_of_writes_sub hostOps4 _ hostOps4_writes (by decide)
    _ = W7 m c (Proc.devRef .tc main_arg2) := W8_of_ne m c main_arg2 (by decide)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W13_main_arg3 (c : Dev nD) : W13 m c (Proc.devRef .tc main_arg3) = m ((c : Thread nD τ).loc main_arg3) :=
  calc W13 m c (Proc.devRef .tc main_arg3)
    _ = W12 m c (Proc.devRef .tc main_arg3) := StableHlo.after_of_writes_sub hostOps6 _ hostOps6_writes (by decide)
    _ = W11 m c (Proc.devRef .tc main_arg3) := W12_of_ne m c main_arg3 (by decide)
    _ = W10 m c (Proc.devRef .tc main_arg3) := StableHlo.after_of_writes_sub hostOps5 _ hostOps5_writes (by decide)
    _ = W9 m c (Proc.devRef .tc main_arg3) := W10_of_ne m c main_arg3 (by decide)
    _ = W8 m c (Proc.devRef .tc main_arg3) := StableHlo.after_of_writes_sub hostOps4 _ hostOps4_writes (by decide)
    _ = W7 m c (Proc.devRef .tc main_arg3) := W8_of_ne m c main_arg3 (by decide)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W13_main_arg4 (c : Dev nD) : W13 m c (Proc.devRef .tc main_arg4) = m ((c : Thread nD τ).loc main_arg4) :=
  calc W13 m c (Proc.devRef .tc main_arg4)
    _ = W12 m c (Proc.devRef .tc main_arg4) := StableHlo.after_of_writes_sub hostOps6 _ hostOps6_writes (by decide)
    _ = W11 m c (Proc.devRef .tc main_arg4) := W12_of_ne m c main_arg4 (by decide)
    _ = W10 m c (Proc.devRef .tc main_arg4) := StableHlo.after_of_writes_sub hostOps5 _ hostOps5_writes (by decide)
    _ = W9 m c (Proc.devRef .tc main_arg4) := W10_of_ne m c main_arg4 (by decide)
    _ = W8 m c (Proc.devRef .tc main_arg4) := StableHlo.after_of_writes_sub hostOps4 _ hostOps4_writes (by decide)
    _ = W7 m c (Proc.devRef .tc main_arg4) := W8_of_ne m c main_arg4 (by decide)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W13_main_arg5 (c : Dev nD) : W13 m c (Proc.devRef .tc main_arg5) = m ((c : Thread nD τ).loc main_arg5) :=
  calc W13 m c (Proc.devRef .tc main_arg5)
    _ = W12 m c (Proc.devRef .tc main_arg5) := StableHlo.after_of_writes_sub hostOps6 _ hostOps6_writes (by decide)
    _ = W11 m c (Proc.devRef .tc main_arg5) := W12_of_ne m c main_arg5 (by decide)
    _ = W10 m c (Proc.devRef .tc main_arg5) := StableHlo.after_of_writes_sub hostOps5 _ hostOps5_writes (by decide)
    _ = W9 m c (Proc.devRef .tc main_arg5) := W10_of_ne m c main_arg5 (by decide)
    _ = W8 m c (Proc.devRef .tc main_arg5) := StableHlo.after_of_writes_sub hostOps4 _ hostOps4_writes (by decide)
    _ = W7 m c (Proc.devRef .tc main_arg5) := W8_of_ne m c main_arg5 (by decide)
    _ = W6 m c (Proc.devRef .tc main_arg5) := StableHlo.after_of_writes_sub hostOps3 _ hostOps3_writes (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W13_main_arg6 (c : Dev nD) : W13 m c (Proc.devRef .tc main_arg6) = m ((c : Thread nD τ).loc main_arg6) :=
  calc W13 m c (Proc.devRef .tc main_arg6)
    _ = W12 m c (Proc.devRef .tc main_arg6) := StableHlo.after_of_writes_sub hostOps6 _ hostOps6_writes (by decide)
    _ = W11 m c (Proc.devRef .tc main_arg6) := W12_of_ne m c main_arg6 (by decide)
    _ = W10 m c (Proc.devRef .tc main_arg6) := StableHlo.after_of_writes_sub hostOps5 _ hostOps5_writes (by decide)
    _ = W9 m c (Proc.devRef .tc main_arg6) := W10_of_ne m c main_arg6 (by decide)
    _ = W8 m c (Proc.devRef .tc main_arg6) := StableHlo.after_of_writes_sub hostOps4 _ hostOps4_writes (by decide)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The proof data family and the thread state -/

abbrev admH : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) admH (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) admH (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) admH (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) admH (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) admH (pdats m) launch5.win launch5.arr_whole c
      ((pdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m) ((pdats m 5 c).share_full fun _ => rfl)
      (U11 m c) (U12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsH : List (Pipeline.Seg (pcfgs (F := F)) admH (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)) ]

theorem main_run (c : Dev nD) : main (F := F) c = Pipeline.Seg.run (segsH m) := (main_chain c).trans (by chain_rfl)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => (show iprop(StableHlo.held (c : Thread nD τ) (Pipeline.ucRefs τ sig) (W13 m c) ∗ R c)
          ⊢ (iprop(Tₙ m c ∗ ∃ W, owes (c : Thread nD τ) (0 : CellTallies nD τ sig Unit) W) : sProp 𝕄) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W13_main_arg0 m c),
    (h c _ (mem_uc main_arg1 (by decide))).trans (W13_main_arg1 m c),
    (h c _ (mem_uc main_arg2 (by decide))).trans (W13_main_arg2 m c),
    (h c _ (mem_uc main_arg3 (by decide))).trans (W13_main_arg3 m c),
    (h c _ (mem_uc main_arg4 (by decide))).trans (W13_main_arg4 m c),
    (h c _ (mem_uc main_arg5 (by decide))).trans (W13_main_arg5 m c),
    (h c _ (mem_uc main_arg6 (by decide))).trans (W13_main_arg6 m c)⟩) (run_all m ρ)

end Cert.KernelIdeal.Hand

end
-- ==== Proof.RefOps.lean ====
/-
  The reference program's host line as a list of operations.

  The program is a straight line of whole-array operations; the three helper functions it calls (the
  variance, the select it ends in, and the rectifier) are substituted at their call sites, each operation over the
  buffers that one call names.  The list is cut into eleven consecutive stretches: the degree columns; then, for each of
  the three layers, the neighbourhood aggregation and the dense-normalise-rectify steps (cut once more where the
  printed program is cut); and the final stacking.  The program equals the line of the concatenated list, every
  operation touches device buffers only, and nothing in the signature is scoped.
-/
import proofs.«160962_j23227183137544_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 0: statements 1 … 23 of the program, 23 operations. -/
abbrev opsS0 : List (HloOp τ sig (Elt F)) :=
  [ nullary main_v0 (iotaInDim S100000 32 0),
    binary main_arg5 main_v0 main_v1 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg6 main_v0 main_v2 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v3 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v4 (broadcastInDim S100000 ![] bcast_S_S100000 : (⟨S_, .f32⟩ : BufTy).Contents (Elt F) → (⟨S100000, .f32⟩ : BufTy).Contents (Elt F)),
    unary main_v1 main_v5 (broadcastInDim S1700000x1 ![0] bcast_S1700000_S1700000x1_0 : (⟨S1700000, .i32⟩ : BufTy).Contents (Elt F) → (⟨S1700000x1, .i32⟩ : BufTy).Contents (Elt F)),
    ternary main_v4 main_v5 main_v3 main_v6 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v7 (broadcastInDim S100000 ![] bcast_S_S100000 : (⟨S_, .f32⟩ : BufTy).Contents (Elt F) → (⟨S100000, .f32⟩ : BufTy).Contents (Elt F)),
    unary main_v2 main_v8 (broadcastInDim S1700000x1 ![0] bcast_S1700000_S1700000x1_0 : (⟨S1700000, .i32⟩ : BufTy).Contents (Elt F) → (⟨S1700000x1, .i32⟩ : BufTy).Contents (Elt F)),
    ternary main_v7 main_v8 main_v3 main_v9 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v6 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    unary main_v12 main_v13 (broadcastInDim S100000x1 ![0] bcast_S100000_S100000x1_0 : (⟨S100000, .f32⟩ : BufTy).Contents (Elt F) → (⟨S100000x1, .f32⟩ : BufTy).Contents (Elt F)),
    nullary main_cst_3 (constant S_ .f32 0x3F800000#32),
    unary main_cst_3 main_v14 (broadcastInDim S100000 ![] bcast_S_S100000 : (⟨S_, .f32⟩ : BufTy).Contents (Elt F) → (⟨S100000, .f32⟩ : BufTy).Contents (Elt F)),
    binary main_v9 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    unary main_v16 main_v17 (broadcastInDim S100000x1 ![0] bcast_S100000_S100000x1_0 : (⟨S100000, .f32⟩ : BufTy).Contents (Elt F) → (⟨S100000x1, .f32⟩ : BufTy).Contents (Elt F)) ]

theorem opsS0_sub : (opsS0 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., nullary_bufs_sub .., unary_bufs_sub .., binary_bufs_sub .., unary_bufs_sub .., unary_bufs_sub ..⟩

/-- Stretch 1: statements 24 … 40 of the program, 17 operations. -/
abbrev opsS1 : List (HloOp τ sig (Elt F)) :=
  [ unary main_v13 main_v18 (broadcastInDim S100000x128 ![0, 1] bcast_S100000x1_S100000x128_0_1 : (⟨S100000x1, .f32⟩ : BufTy).Contents (Elt F) → (⟨S100000x128, .f32⟩ : BufTy).Contents (Elt F)),
    binary main_arg0 main_v18 main_v19 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v20 (broadcastInDim S1700000 ![] bcast_S_S1700000 : (⟨S_, .i32⟩ : BufTy).Contents (Elt F) → (⟨S1700000, .i32⟩ : BufTy).Contents (Elt F)),
    binary main_v1 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v22 (broadcastInDim S1700000 ![] bcast_S_S1700000 : (⟨S_, .i32⟩ : BufTy).Contents (Elt F) → (⟨S1700000, .i32⟩ : BufTy).Contents (Elt F)),
    binary main_v1 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v1 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v19 main_v25 main_v26 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    nullary main_cst_5 (constant S_ .f32 0x00000000#32),
    unary main_cst_5 main_v27 (broadcastInDim S100000x128 ![] bcast_S_S100000x128 : (⟨S_, .f32⟩ : BufTy).Contents (Elt F) → (⟨S100000x128, .f32⟩ : BufTy).Contents (Elt F)),
    unary main_v2 main_v28 (broadcastInDim S1700000x1 ![0] bcast_S1700000_S1700000x1_0 : (⟨S1700000, .i32⟩ : BufTy).Contents (Elt F) → (⟨S1700000x1, .i32⟩ : BufTy).Contents (Elt F)),
    ternary main_v27 main_v28 main_v26 main_v29 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_v17 main_v30 (broadcastInDim S100000x128 ![0, 1] bcast_S100000x1_S100000x128_0_1 : (⟨S100000x1, .f32⟩ : BufTy).Contents (Elt F) → (⟨S100000x128, .f32⟩ : BufTy).Contents (Elt F)),
    binary main_v29 main_v30 main_v31 (mulf : (⟨S100000x128, .f32⟩ : BufTy).Contents (Elt F) → (⟨S100000x128, .f32⟩ : BufTy).Contents (Elt F) → (⟨S100000x128, .f32⟩ : BufTy).Contents (Elt F)) ]

theorem opsS1_sub : (opsS1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩

/-- Stretch 2: statements 41 … 60 of the program, 41 operations. -/
abbrev opsS2 : List (HloOp τ sig (Elt F)) :=
  [ unary main_arg1 main_v32 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v32 main_v33 rfl shapeCasts_S1x128x128_S128x128,
    binary main_v31 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v35 ((extractStridedSlice S1x128 ![0, 0] · slices_S3x128_S1x128_0_0) : (⟨S3x128, .f32⟩ : BufTy).Contents (Elt F) → (⟨S1x128, .f32⟩ : BufTy).Contents (Elt F)),
    reshape main_v35 main_v36 rfl shapeCasts_S1x128_S128,
    unary main_v36 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v34 main_v38 main_v39 (addf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v39 main_cst_6 main_v40 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_7 (constant S_ .f32 0x47C35000#32),
    unary main_cst_7 main_v41 (broadcastInDim S128 ![] bcast_S_S128 : (⟨S_, .f32⟩ : BufTy).Contents (Elt F) → (⟨S128, .f32⟩ : BufTy).Contents (Elt F)),
    binary main_v40 main_v41 main_v42 (Host.divf : (⟨S128, .f32⟩ : BufTy).Contents (Elt F) → (⟨S128, .f32⟩ : BufTy).Contents (Elt F) → (⟨S128, .f32⟩ : BufTy).Contents (Elt F)),
    nullary main_c_8 (constantI S_ 32 0#32),
    TRef.nullary main_call0.cst (constant S_ .f32 0x00000000#32),
    TRef.binary (.of main_v39) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v39) main_call0.v4 main_call0.v5 subf,
    TRef.binary main_call0.v5 main_call0.v5 main_call0.v6 mulf,
    TRef.unary (.of main_c_8) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v42 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v39 main_v45 main_v46 (subf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3727C5AC#32),
    unary main_cst_9 main_v47 (broadcastInDim S128 ![] bcast_S_S128 : (⟨S_, .f32⟩ : BufTy).Contents (Elt F) → (⟨S128, .f32⟩ : BufTy).Contents (Elt F)) ]

theorem opsS2_sub : (opsS2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

/-- Stretch 3: statements 61 … 76 of the program, 18 operations. -/
abbrev opsS3 : List (HloOp τ sig (Elt F)) :=
  [ binary main_v43 main_v47 main_v48 (addf : (⟨S128, .f32⟩ : BufTy).Contents (Elt F) → (⟨S128, .f32⟩ : BufTy).Contents (Elt F) → (⟨S128, .f32⟩ : BufTy).Contents (Elt F)),
    unary main_v48 main_v49 (Host.rsqrt : (⟨S128, .f32⟩ : BufTy).Contents (Elt F) → (⟨S128, .f32⟩ : BufTy).Contents (Elt F)),
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v46 main_v51 main_v52 (mulf : (⟨S100000x128, .f32⟩ : BufTy).Contents (Elt F) → (⟨S100000x128, .f32⟩ : BufTy).Contents (Elt F) → (⟨S100000x128, .f32⟩ : BufTy).Contents (Elt F)),
    unary main_arg3 main_v53 ((extractStridedSlice S1x128 ![0, 0] · slices_S3x128_S1x128_0_0) : (⟨S3x128, .f32⟩ : BufTy).Contents (Elt F) → (⟨S1x128, .f32⟩ : BufTy).Contents (Elt F)),
    reshape main_v53 main_v54 rfl shapeCasts_S1x128_S128,
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v52 main_v56 main_v57 (mulf : (⟨S100000x128, .f32⟩ : BufTy).Contents (Elt F) → (⟨S100000x128, .f32⟩ : BufTy).Contents (Elt F) → (⟨S100000x128, .f32⟩ : BufTy).Contents (Elt F)),
    unary main_arg4 main_v58 ((extractStridedSlice S1x128 ![0, 0] · slices_S3x128_S1x128_0_0) : (⟨S3x128, .f32⟩ : BufTy).Contents (Elt F) → (⟨S1x128, .f32⟩ : BufTy).Contents (Elt F)),
    reshape main_v58 main_v59 rfl shapeCasts_S1x128_S128,
    unary main_v59 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v57 main_v61 main_v62 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v62) main_call1.v0 main_call1.v1 maximumf ]

theorem opsS3_sub : (opsS3 : List (HloOp τ sig (Elt F))).Forall fun op => op.bufs ⊆ tcRefs τ sig :=
  ⟨binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

/-- Stretch 4: statements 77 … 93 of the program, 17 operations. -/
abbrev opsS4 : List (HloOp τ sig (Elt F)) :=
  [ unary main_v13 main_v64 (broadcastInDim S100000x128 ![0, 1] bcast_S100000x1_S100000x128_0_1 : (⟨S100000x1, .f32⟩ : BufTy).Contents (Elt F) → (⟨S100000x128, .f32⟩ : BufTy).Contents (Elt F)),
    binary main_v63 main_v64 main_v65 (mulf : (⟨S100000x128, .f32⟩ : BufTy).Contents (Elt F) → (⟨S100000x128, .f32⟩ : BufTy).Contents (Elt F) → (⟨S100000x128, .f32⟩ : BufTy).Contents (Elt F)),
    nullary main_c_10 (constantI S_ 32 0#32),
    unary main_c_10 main_v66 (broadcastInDim S1700000 ![] bcast_S_S1700000 : (⟨S_, .i32⟩ : BufTy).Contents (Elt F) → (⟨S1700000, .i32⟩ : BufTy).Contents (Elt F)),
    binary main_v1 main_v66 main_v67 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v68 (broadcastInDim S1700000 ![] bcast_S_S1700000 : (⟨S_, .i32⟩ : BufTy).Contents (Elt F) → (⟨S1700000, .i32⟩ : BufTy).Contents (Elt F)),
    binary main_v1 main_v68 main_v69 (addi : (⟨S1700000, .i32⟩ : BufTy).Contents (Elt F) → (⟨S1700000, .i32⟩ : BufTy).Contents (Elt F) → (⟨S1700000, .i32⟩ : BufTy).Contents (Elt F)),
    ternary main_v67 main_v69 main_v1 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v70 main_v71 (broadcastInDim S1700000x1 ![0] bcast_S1700000_S1700000x1_0 : (⟨S1700000, .i32⟩ : BufTy).Contents (Elt F) → (⟨S1700000x1, .i32⟩ : BufTy).Contents (Elt F)),
    binary main_v65 main_v71 main_v72 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    nullary main_cst_12 (constant S_ .f32 0x00000000#32),
    unary main_cst_12 main_v73 (broadcastInDim S100000x128 ![] bcast_S_S100000x128 : (⟨S_, .f32⟩ : BufTy).Contents (Elt F) → (⟨S100000x128, .f32⟩ : BufTy).Contents (Elt F)),
    unary main_v2 main_v74 (broadcastInDim S1700000x1 ![0] bcast_S1700000_S1700000x1_0 : (⟨S1700000, .i32⟩ : BufTy).Contents (Elt F) → (⟨S1700000x1, .i32⟩ : BufTy).Contents (Elt F)),
    ternary main_v73 main_v74 main_v72 main_v75 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_v17 main_v76 (broadcastInDim S100000x128 ![0, 1] bcast_S100000x1_S100000x128_0_1 : (⟨S100000x1, .f32⟩ : BufTy).Contents (Elt F) → (⟨S100000x128, .f32⟩ : BufTy).Contents (Elt F)),
    binary main_v75 main_v76 main_v77 (mulf : (⟨S100000x128, .f32⟩ : BufTy).Contents (Elt F) → (⟨S100000x128, .f32⟩ : BufTy).Contents (Elt F) → (⟨S100000x128, .f32⟩ : BufTy).Contents (Elt F)) ]

theorem opsS4_sub : (opsS4 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩

/-- Stretch 5: statements 94 … 120 of the program, 48 operations. -/
abbrev opsS5 : List (HloOp τ sig (Elt F)) :=
  [ unary main_arg1 main_v78 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v78 main_v79 rfl shapeCasts_S1x128x128_S128x128,
    binary main_v77 main_v79 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v81 ((extractStridedSlice S1x128 ![1, 0] · slices_S3x128_S1x128_1_0) : (⟨S3x128, .f32⟩ : BufTy).Contents (Elt F) → (⟨S1x128, .f32⟩ : BufTy).Contents (Elt F)),
    reshape main_v81 main_v82 rfl shapeCasts_S1x128_S128,
    unary main_v82 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v80 main_v84 main_v85 (addf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x00000000#32),
    binary main_v85 main_cst_13 main_v86 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_14 (constant S_ .f32 0x47C35000#32),
    unary main_cst_14 main_v87 (broadcastInDim S128 ![] bcast_S_S128 : (⟨S_, .f32⟩ : BufTy).Contents (Elt F) → (⟨S128, .f32⟩ : BufTy).Contents (Elt F)),
    binary main_v86 main_v87 main_v88 (Host.divf : (⟨S128, .f32⟩ : BufTy).Contents (Elt F) → (⟨S128, .f32⟩ : BufTy).Contents (Elt F) → (⟨S128, .f32⟩ : BufTy).Contents (Elt F)),
    nullary main_c_15 (constantI S_ 32 0#32),
    TRef.nullary main_call2.cst (constant S_ .f32 0x00000000#32),
    TRef.binary (.of main_v85) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v85) main_call2.v4 main_call2.v5 subf,
    TRef.binary main_call2.v5 main_call2.v5 main_call2.v6 mulf,
    TRef.unary (.of main_c_15) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v88 main_v90 (broadcastInDim S1x128 ![1] bcast_S128_S1x128_1 : (⟨S128, .f32⟩ : BufTy).Contents (Elt F) → (⟨S1x128, .f32⟩ : BufTy).Contents (Elt F)),
    unary main_v90 main_v91 (broadcastInDim S100000x128 ![0, 1] bcast_S1x128_S100000x128_0_1 : (⟨S1x128, .f32⟩ : BufTy).Contents (Elt F) → (⟨S100000x128, .f32⟩ : BufTy).Contents (Elt F)),
    binary main_v85 main_v91 main_v92 (subf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x3727C5AC#32),
    unary main_cst_16 main_v93 (broadcastInDim S128 ![] bcast_S_S128 : (⟨S_, .f32⟩ : BufTy).Contents (Elt F) → (⟨S128, .f32⟩ : BufTy).Contents (Elt F)),
    binary main_v89 main_v93 main_v94 (addf : (⟨S128, .f32⟩ : BufTy).Contents (Elt F) → (⟨S128, .f32⟩ : BufTy).Contents (Elt F) → (⟨S128, .f32⟩ : BufTy).Contents (Elt F)),
    unary main_v94 main_v95 (Host.rsqrt : (⟨S128, .f32⟩ : BufTy).Contents (Elt F) → (⟨S128, .f32⟩ : BufTy).Contents (Elt F)),
    unary main_v95 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v92 main_v97 main_v98 (mulf : (⟨S100000x128, .f32⟩ : BufTy).Contents (Elt F) → (⟨S100000x128, .f32⟩ : BufTy).Contents (Elt F) → (⟨S100000x128, .f32⟩ : BufTy).Contents (Elt F)),
    unary main_arg3 main_v99 ((extractStridedSlice S1x128 ![1, 0] · slices_S3x128_S1x128_1_0) : (⟨S3x128, .f32⟩ : BufTy).Contents (Elt F) → (⟨S1x128, .f32⟩ : BufTy).Contents (Elt F)),
    reshape main_v99 main_v100 rfl shapeCasts_S1x128_S128 ]

theorem opsS5_sub : (opsS5 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub ..⟩

/-- Stretch 6: statements 121 … 129 of the program, 11 operations. -/
abbrev opsS6 : List (HloOp τ sig (Elt F)) :=
  [ unary main_v100 main_v101 (broadcastInDim S1x128 ![1] bcast_S128_S1x128_1 : (⟨S128, .f32⟩ : BufTy).Contents (Elt F) → (⟨S1x128, .f32⟩ : BufTy).Contents (Elt F)),
    unary main_v101 main_v102 (broadcastInDim S100000x128 ![0, 1] bcast_S1x128_S100000x128_0_1 : (⟨S1x128, .f32⟩ : BufTy).Contents (Elt F) → (⟨S100000x128, .f32⟩ : BufTy).Contents (Elt F)),
    binary main_v98 main_v102 main_v103 (mulf : (⟨S100000x128, .f32⟩ : BufTy).Contents (Elt F) → (⟨S100000x128, .f32⟩ : BufTy).Contents (Elt F) → (⟨S100000x128, .f32⟩ : BufTy).Contents (Elt F)),
    unary main_arg4 main_v104 ((extractStridedSlice S1x128 ![1, 0] · slices_S3x128_S1x128_1_0) : (⟨S3x128, .f32⟩ : BufTy).Contents (Elt F) → (⟨S1x128, .f32⟩ : BufTy).Contents (Elt F)),
    reshape main_v104 main_v105 rfl shapeCasts_S1x128_S128,
    unary main_v105 main_v106 (broadcastInDim S1x128 ![1] bcast_S128_S1x128_1 : (⟨S128, .f32⟩ : BufTy).Contents (Elt F) → (⟨S1x128, .f32⟩ : BufTy).Contents (Elt F)),
    unary main_v106 main_v107 (broadcastInDim S100000x128 ![0, 1] bcast_S1x128_S100000x128_0_1 : (⟨S1x128, .f32⟩ : BufTy).Contents (Elt F) → (⟨S100000x128, .f32⟩ : BufTy).Contents (Elt F)),
    binary main_v103 main_v107 main_v108 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v108) main_call3.v0 main_call3.v1 maximumf ]

theorem opsS6_sub : (opsS6 : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

/-- Stretch 7: statements 130 … 146 of the program, 17 operations. -/
abbrev opsS7 : List (HloOp τ sig (Elt F)) :=
  [ unary main_v13 main_v110 (broadcastInDim S100000x128 ![0, 1] bcast_S100000x1_S100000x128_0_1 : (⟨S100000x1, .f32⟩ : BufTy).Contents (Elt F) → (⟨S100000x128, .f32⟩ : BufTy).Contents (Elt F)),
    binary main_v109 main_v110 main_v111 (mulf : (⟨S100000x128, .f32⟩ : BufTy).Contents (Elt F) → (⟨S100000x128, .f32⟩ : BufTy).Contents (Elt F) → (⟨S100000x128, .f32⟩ : BufTy).Contents (Elt F)),
    nullary main_c_17 (constantI S_ 32 0#32),
    unary main_c_17 main_v112 (broadcastInDim S1700000 ![] bcast_S_S1700000 : (⟨S_, .i32⟩ : BufTy).Contents (Elt F) → (⟨S1700000, .i32⟩ : BufTy).Contents (Elt F)),
    binary main_v1 main_v112 main_v113 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v114 (broadcastInDim S1700000 ![] bcast_S_S1700000 : (⟨S_, .i32⟩ : BufTy).Contents (Elt F) → (⟨S1700000, .i32⟩ : BufTy).Contents (Elt F)),
    binary main_v1 main_v114 main_v115 (addi : (⟨S1700000, .i32⟩ : BufTy).Contents (Elt F) → (⟨S1700000, .i32⟩ : BufTy).Contents (Elt F) → (⟨S1700000, .i32⟩ : BufTy).Contents (Elt F)),
    ternary main_v113 main_v115 main_v1 main_v116 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v116 main_v117 (broadcastInDim S1700000x1 ![0] bcast_S1700000_S1700000x1_0 : (⟨S1700000, .i32⟩ : BufTy).Contents (Elt F) → (⟨S1700000x1, .i32⟩ : BufTy).Contents (Elt F)),
    binary main_v111 main_v117 main_v118 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    nullary main_cst_19 (constant S_ .f32 0x00000000#32),
    unary main_cst_19 main_v119 (broadcastInDim S100000x128 ![] bcast_S_S100000x128 : (⟨S_, .f32⟩ : BufTy).Contents (Elt F) → (⟨S100000x128, .f32⟩ : BufTy).Contents (Elt F)),
    unary main_v2 main_v120 (broadcastInDim S1700000x1 ![0] bcast_S1700000_S1700000x1_0 : (⟨S1700000, .i32⟩ : BufTy).Contents (Elt F) → (⟨S1700000x1, .i32⟩ : BufTy).Contents (Elt F)),
    ternary main_v119 main_v120 main_v118 main_v121 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_v17 main_v122 (broadcastInDim S100000x128 ![0, 1] bcast_S100000x1_S100000x128_0_1 : (⟨S100000x1, .f32⟩ : BufTy).Contents (Elt F) → (⟨S100000x128, .f32⟩ : BufTy).Contents (Elt F)),
    binary main_v121 main_v122 main_v123 (mulf : (⟨S100000x128, .f32⟩ : BufTy).Contents (Elt F) → (⟨S100000x128, .f32⟩ : BufTy).Contents (Elt F) → (⟨S100000x128, .f32⟩ : BufTy).Contents (Elt F)) ]

theorem opsS7_sub : (opsS7 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩

/-- Stretch 8: statements 147 … 180 of the program, 55 operations. -/
abbrev opsS8 : List (HloOp τ sig (Elt F)) :=
  [ unary main_arg1 main_v124 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v124 main_v125 rfl shapeCasts_S1x128x128_S128x128,
    binary main_v123 main_v125 main_v126 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v127 ((extractStridedSlice S1x128 ![2, 0] · slices_S3x128_S1x128_2_0) : (⟨S3x128, .f32⟩ : BufTy).Contents (Elt F) → (⟨S1x128, .f32⟩ : BufTy).Contents (Elt F)),
    reshape main_v127 main_v128 rfl shapeCasts_S1x128_S128,
    unary main_v128 main_v129 (broadcastInDim S1x128 ![1] bcast_S128_S1x128_1 : (⟨S128, .f32⟩ : BufTy).Contents (Elt F) → (⟨S1x128, .f32⟩ : BufTy).Contents (Elt F)),
    unary main_v129 main_v130 (broadcastInDim S100000x128 ![0, 1] bcast_S1x128_S100000x128_0_1 : (⟨S1x128, .f32⟩ : BufTy).Contents (Elt F) → (⟨S100000x128, .f32⟩ : BufTy).Contents (Elt F)),
    binary main_v126 main_v130 main_v131 (addf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x00000000#32),
    binary main_v131 main_cst_20 main_v132 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_21 (constant S_ .f32 0x47C35000#32),
    unary main_cst_21 main_v133 (broadcastInDim S128 ![] bcast_S_S128 : (⟨S_, .f32⟩ : BufTy).Contents (Elt F) → (⟨S128, .f32⟩ : BufTy).Contents (Elt F)),
    binary main_v132 main_v133 main_v134 (Host.divf : (⟨S128, .f32⟩ : BufTy).Contents (Elt F) → (⟨S128, .f32⟩ : BufTy).Contents (Elt F) → (⟨S128, .f32⟩ : BufTy).Contents (Elt F)),
    nullary main_c_22 (constantI S_ 32 0#32),
    TRef.nullary main_call4.cst (constant S_ .f32 0x00000000#32),
    TRef.binary (.of main_v131) main_call4.cst main_call4.v0 (fun x v => Host.reduceAdd x v reducesTo_S100000x128_S128_d0 h_S_),
    TRef.unary main_call4.v0 main_call4.v1 (broadcastInDim S1x128 ![1] bcast_S128_S1x128_1),
    TRef.nullary main_call4.cst_0 (constant S_ .f32 0x47C35000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S100000x128 ![0, 1] bcast_S1x128_S100000x128_0_1),
    TRef.binary (.of main_v131) main_call4.v4 main_call4.v5 subf,
    TRef.binary main_call4.v5 main_call4.v5 main_call4.v6 mulf,
    TRef.unary (.of main_c_22) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v134 main_v136 (broadcastInDim S1x128 ![1] bcast_S128_S1x128_1 : (⟨S128, .f32⟩ : BufTy).Contents (Elt F) → (⟨S1x128, .f32⟩ : BufTy).Contents (Elt F)),
    unary main_v136 main_v137 (broadcastInDim S100000x128 ![0, 1] bcast_S1x128_S100000x128_0_1 : (⟨S1x128, .f32⟩ : BufTy).Contents (Elt F) → (⟨S100000x128, .f32⟩ : BufTy).Contents (Elt F)),
    binary main_v131 main_v137 main_v138 (subf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x3727C5AC#32),
    unary main_cst_23 main_v139 (broadcastInDim S128 ![] bcast_S_S128 : (⟨S_, .f32⟩ : BufTy).Contents (Elt F) → (⟨S128, .f32⟩ : BufTy).Contents (Elt F)),
    binary main_v135 main_v139 main_v140 (addf : (⟨S128, .f32⟩ : BufTy).Contents (Elt F) → (⟨S128, .f32⟩ : BufTy).Contents (Elt F) → (⟨S128, .f32⟩ : BufTy).Contents (Elt F)),
    unary main_v140 main_v141 (Host.rsqrt : (⟨S128, .f32⟩ : BufTy).Contents (Elt F) → (⟨S128, .f32⟩ : BufTy).Contents (Elt F)),
    unary main_v141 main_v142 (broadcastInDim S1x128 ![1] bcast_S128_S1x128_1 : (⟨S128, .f32⟩ : BufTy).Contents (Elt F) → (⟨S1x128, .f32⟩ : BufTy).Contents (Elt F)),
    unary main_v142 main_v143 (broadcastInDim S100000x128 ![0, 1] bcast_S1x128_S100000x128_0_1 : (⟨S1x128, .f32⟩ : BufTy).Contents (Elt F) → (⟨S100000x128, .f32⟩ : BufTy).Contents (Elt F)),
    binary main_v138 main_v143 main_v144 (mulf : (⟨S100000x128, .f32⟩ : BufTy).Contents (Elt F) → (⟨S100000x128, .f32⟩ : BufTy).Contents (Elt F) → (⟨S100000x128, .f32⟩ : BufTy).Contents (Elt F)),
    unary main_arg3 main_v145 ((extractStridedSlice S1x128 ![2, 0] · slices_S3x128_S1x128_2_0) : (⟨S3x128, .f32⟩ : BufTy).Contents (Elt F) → (⟨S1x128, .f32⟩ : BufTy).Contents (Elt F)),
    reshape main_v145 main_v146 rfl shapeCasts_S1x128_S128,
    unary main_v146 main_v147 (broadcastInDim S1x128 ![1] bcast_S128_S1x128_1 : (⟨S128, .f32⟩ : BufTy).Contents (Elt F) → (⟨S1x128, .f32⟩ : BufTy).Contents (Elt F)),
    unary main_v147 main_v148 (broadcastInDim S100000x128 ![0, 1] bcast_S1x128_S100000x128_0_1 : (⟨S1x128, .f32⟩ : BufTy).Contents (Elt F) → (⟨S100000x128, .f32⟩ : BufTy).Contents (Elt F)),
    binary main_v144 main_v148 main_v149 (mulf : (⟨S100000x128, .f32⟩ : BufTy).Contents (Elt F) → (⟨S100000x128, .f32⟩ : BufTy).Contents (Elt F) → (⟨S100000x128, .f32⟩ : BufTy).Contents (Elt F)),
    unary main_arg4 main_v150 ((extractStridedSlice S1x128 ![2, 0] · slices_S3x128_S1x128_2_0) : (⟨S3x128, .f32⟩ : BufTy).Contents (Elt F) → (⟨S1x128, .f32⟩ : BufTy).Contents (Elt F)),
    reshape main_v150 main_v151 rfl shapeCasts_S1x128_S128,
    unary main_v151 main_v152 (broadcastInDim S1x128 ![1] bcast_S128_S1x128_1 : (⟨S128, .f32⟩ : BufTy).Contents (Elt F) → (⟨S1x128, .f32⟩ : BufTy).Contents (Elt F)),
    unary main_v152 main_v153 (broadcastInDim S100000x128 ![0, 1] bcast_S1x128_S100000x128_0_1 : (⟨S1x128, .f32⟩ : BufTy).Contents (Elt F) → (⟨S100000x128, .f32⟩ : BufTy).Contents (Elt F)) ]

theorem opsS8_sub : (opsS8 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub ..⟩

/-- Stretch 9: statements 181 … 182 of the program, 4 operations. -/
abbrev opsS9 : List (HloOp τ sig (Elt F)) :=
  [ binary main_v149 main_v153 main_v154 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v154) main_call5.v0 main_call5.v1 maximumf ]

theorem opsS9_sub : (opsS9 : List (HloOp τ sig (Elt F))).Forall fun op => op.bufs ⊆ tcRefs τ sig :=
  ⟨binary_bufs_sub .., nullary_bufs_sub .., unary_bufs_sub .., binary_bufs_sub ..⟩

/-- Stretch 10: statements 183 … 187 of the program, 5 operations. -/
abbrev opsS10 : List (HloOp τ sig (Elt F)) :=
  [ unary main_arg0 main_v156 (broadcastInDim S1x100000x128 ![1, 2] bcast_S100000x128_S1x100000x128_1_2 : (⟨S100000x128, .f32⟩ : BufTy).Contents (Elt F) → (⟨S1x100000x128, .f32⟩ : BufTy).Contents (Elt F)),
    unary main_v63 main_v157 (broadcastInDim S1x100000x128 ![1, 2] bcast_S100000x128_S1x100000x128_1_2 : (⟨S100000x128, .f32⟩ : BufTy).Contents (Elt F) → (⟨S1x100000x128, .f32⟩ : BufTy).Contents (Elt F)),
    unary main_v109 main_v158 (broadcastInDim S1x100000x128 ![1, 2] bcast_S100000x128_S1x100000x128_1_2 : (⟨S100000x128, .f32⟩ : BufTy).Contents (Elt F) → (⟨S1x100000x128, .f32⟩ : BufTy).Contents (Elt F)),
    unary main_v155 main_v159 (broadcastInDim S1x100000x128 ![1, 2] bcast_S100000x128_S1x100000x128_1_2 : (⟨S100000x128, .f32⟩ : BufTy).Contents (Elt F) → (⟨S1x100000x128, .f32⟩ : BufTy).Contents (Elt F)),
    nary ![main_v156, main_v157, main_v158, main_v159] main_v160 (fun u => concatenate S4x100000x128 0 [⟨S1x100000x128, u 0⟩, ⟨S1x100000x128, u 1⟩, ⟨S1x100000x128, u 2⟩, ⟨S1x100000x128, u 3⟩] concatenates_S1x100000x128_S1x100000x128_S1x100000x128_S1x100000x128_S4x100000x128_d0) ]

theorem opsS10_sub : (opsS10 : List (HloOp τ sig (Elt F))).Forall fun op => op.bufs ⊆ tcRefs τ sig :=
  ⟨unary_bufs_sub .., unary_bufs_sub .., unary_bufs_sub .., unary_bufs_sub .., nary_bufs_sub ..⟩

/-- The operations of the program's window 0. -/
abbrev opsP0 : List (HloOp τ sig (Elt F)) := opsS0 ++ opsS1 ++ opsS2

/-- The operations of the program's window 1. -/
abbrev opsP1 : List (HloOp τ sig (Elt F)) := opsS3 ++ opsS4 ++ opsS5

/-- The operations of the program's window 2. -/
abbrev opsP2 : List (HloOp τ sig (Elt F)) := opsS6 ++ opsS7 ++ opsS8

/-- The operations of the program's window 3. -/
abbrev opsP3 : List (HloOp τ sig (Elt F)) := opsS9 ++ opsS10

/-- All the operations, in order. -/
abbrev ops : List (HloOp τ sig (Elt F)) := opsP0 ++ opsP1 ++ opsP2 ++ opsP3

set_option maxRecDepth 16384 in
set_option maxHeartbeats 4000000 in
theorem main_part0_eq (c : Dev nD) : main_part0 (F := F) c = seq opsP0 := by
  simp only [main_part0, fn_var.body, fn_where.body, fn_relu.body, bind_assoc, pure_bind]
  rfl

set_option maxRecDepth 16384 in
set_option maxHeartbeats 4000000 in
theorem main_part1_eq (c : Dev nD) : main_part1 (F := F) c = seq opsP1 := by
  simp only [main_part1, fn_var.body, fn_where.body, fn_relu.body, bind_assoc, pure_bind]
  rfl

set_option maxRecDepth 16384 in
set_option maxHeartbeats 4000000 in
theorem main_part2_eq (c : Dev nD) : main_part2 (F := F) c = seq opsP2 := by
  simp only [main_part2, fn_var.body, fn_where.body, fn_relu.body, bind_assoc, pure_bind]
  rfl

set_option maxRecDepth 16384 in
set_option maxHeartbeats 4000000 in
theorem main_part3_eq (c : Dev nD) : main_part3 (F := F) c = seq opsP3 := by
  simp only [main_part3, fn_var.body, fn_where.body, fn_relu.body, bind_assoc, pure_bind]
  rfl

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_iff_forall_mem.2 fun op h => ?_
  simp only [ops, opsP0, opsP1, opsP2, opsP3, List.mem_append, or_assoc] at h
  rcases h with h | h | h | h | h | h | h | h | h | h | h
  exacts [List.forall_iff_forall_mem.1 opsS0_sub op h, List.forall_iff_forall_mem.1 opsS1_sub op h, List.forall_iff_forall_mem.1 opsS2_sub op h, List.forall_iff_forall_mem.1 opsS3_sub op h, List.forall_iff_forall_mem.1 opsS4_sub op h, List.forall_iff_forall_mem.1 opsS5_sub op h, List.forall_iff_forall_mem.1 opsS6_sub op h, List.forall_iff_forall_mem.1 opsS7_sub op h, List.forall_iff_forall_mem.1 opsS8_sub op h, List.forall_iff_forall_mem.1 opsS9_sub op h, List.forall_iff_forall_mem.1 opsS10_sub op h]

end Cert.ReferenceIdeal.RefRun

end
-- ==== Proof.RefChain.lean ====
/-
  The reference program's whole-array steps as functions of the arrays they read.

  Each function is the literal composition of the program's operations for one step: the edge list with one loop per
  node appended; the reciprocal square root of the clamped degree as a column; the neighbourhood aggregation (scale
  the rows, gather at the wrapped sources, sum at the destinations into zeros, scale the rows); the dense step; the
  column means; the two-pass column variances (with the helper's guarded division); the normalise-scale-shift-rectify
  step; the layer's slices of the stacked parameters; and the final stacking of the four feature arrays.
-/
import proofs.«160962_j23227183137544_1_alg».proof.Proof.Gen.ReferenceIdeal
import Idealize.ShloMosaic.PureOps

noncomputable section

namespace Cert.ReferenceIdeal.RefRun

open Cert.ReferenceIdeal Cert.ReferenceIdeal.Gen Idealize.ShloMosaic

variable {F : FTy → Type} [FloatOps F]

/-- An edge-end list with the loop ends `0 … 99999` appended. -/
def catC (a : IVec S1600000 32) : IVec S1700000 32 :=
  (((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) a (iotaInDim S100000 32 0))

/-- The reciprocal square root of the degree (the count of the list's entries at each node) clamped below by one, as a column. -/
def invC (s : IVec S1700000 32) : FVec F S100000x1 .f32 :=
  ((broadcastInDim S100000x1 ![0] bcast_S100000_S100000x1_0 : (⟨S100000, .f32⟩ : BufTy).Contents (Elt F) → (⟨S100000x1, .f32⟩ : BufTy).Contents (Elt F)) ((Host.rsqrt : (⟨S100000, .f32⟩ : BufTy).Contents (Elt F) → (⟨S100000, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32)) ((broadcastInDim S1700000x1 ![0] bcast_S1700000_S1700000x1_0 : (⟨S1700000, .i32⟩ : BufTy).Contents (Elt F) → (⟨S1700000x1, .i32⟩ : BufTy).Contents (Elt F)) s) ((broadcastInDim S1700000 ![] bcast_S_S1700000 : (⟨S_, .f32⟩ : BufTy).Contents (Elt F) → (⟨S1700000, .f32⟩ : BufTy).Contents (Elt F)) (constant S_ .f32 0x3F800000#32))) ((broadcastInDim S100000 ![] bcast_S_S100000 : (⟨S_, .f32⟩ : BufTy).Contents (Elt F) → (⟨S100000, .f32⟩ : BufTy).Contents (Elt F)) (constant S_ .f32 0x3F800000#32)))))

/-- The aggregation: rows scaled by `io`, gathered at the wrapped sources, summed at the destinations, rows scaled by `ii`. -/
def aggC (src dst : IVec S1700000 32) (io ii : FVec F S100000x1 .f32) (h : FVec F S100000x128 .f32) : FVec F S100000x128 .f32 :=
  ((mulf : (⟨S100000x128, .f32⟩ : BufTy).Contents (Elt F) → (⟨S100000x128, .f32⟩ : BufTy).Contents (Elt F) → (⟨S100000x128, .f32⟩ : BufTy).Contents (Elt F)) (((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) (constant S_ .f32 0x00000000#32)) ((broadcastInDim S1700000x1 ![0] bcast_S1700000_S1700000x1_0 : (⟨S1700000, .i32⟩ : BufTy).Contents (Elt F) → (⟨S1700000x1, .i32⟩ : BufTy).Contents (Elt F)) dst) (((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) h ((broadcastInDim S100000x128 ![0, 1] bcast_S100000x1_S100000x128_0_1 : (⟨S100000x1, .f32⟩ : BufTy).Contents (Elt F) → (⟨S100000x128, .f32⟩ : BufTy).Contents (Elt F)) io)) ((broadcastInDim S1700000x1 ![0] bcast_S1700000_S1700000x1_0 : (⟨S1700000, .i32⟩ : BufTy).Contents (Elt F) → (⟨S1700000x1, .i32⟩ : BufTy).Contents (Elt F)) ((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((cmpi .slt : (⟨S1700000, .i32⟩ : BufTy).Contents (Elt F) → (⟨S1700000, .i32⟩ : BufTy).Contents (Elt F) → (⟨S1700000, .i1⟩ : BufTy).Contents (Elt F)) src ((broadcastInDim S1700000 ![] bcast_S_S1700000 : (⟨S_, .i32⟩ : BufTy).Contents (Elt F) → (⟨S1700000, .i32⟩ : BufTy).Contents (Elt F)) (constantI S_ 32 0#32))) ((addi : (⟨S1700000, .i32⟩ : BufTy).Contents (Elt F) → (⟨S1700000, .i32⟩ : BufTy).Contents (Elt F) → (⟨S1700000, .i32⟩ : BufTy).Contents (Elt F)) src ((broadcastInDim S1700000 ![] bcast_S_S1700000 : (⟨S_, .i32⟩ : BufTy).Contents (Elt F) → (⟨S1700000, .i32⟩ : BufTy).Contents (Elt F)) (constantI S_ 32 100000#32))) src)))) ((broadcastInDim S100000x128 ![0, 1] bcast_S100000x1_S100000x128_0_1 : (⟨S100000x1, .f32⟩ : BufTy).Contents (Elt F) → (⟨S100000x128, .f32⟩ : BufTy).Contents (Elt F)) ii))

/-- The dense step: the product with the layer's matrix plus its bias on every row. -/
def zC (A : FVec F S100000x128 .f32) (Wl : FVec F S128x128 .f32) (bl : FVec F S128 .f32) : FVec F S100000x128 .f32 :=
  ((addf : (⟨S100000x128, .f32⟩ : BufTy).Contents (Elt F) → (⟨S100000x128, .f32⟩ : BufTy).Contents (Elt F) → (⟨S100000x128, .f32⟩ : BufTy).Contents (Elt F)) (((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) A Wl) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) bl)))

/-- The column means. -/
def meanC (Z : FVec F S100000x128 .f32) : FVec F S128 .f32 :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) Z (constant S_ .f32 0x00000000#32)) ((broadcastInDim S128 ![] bcast_S_S128 : (⟨S_, .f32⟩ : BufTy).Contents (Elt F) → (⟨S128, .f32⟩ : BufTy).Contents (Elt F)) (constant S_ .f32 0x47C35000#32)))

/-- The two-pass column variances, as the helper computes them. -/
def varC (Z : FVec F S100000x128 .f32) : FVec F S128 .f32 :=
  ((fun p a b => select (broadcastInDim S128 ![] bcast_S_S128 p) a b) ((cmpf (F := F) .ogt) (subf (F := F) (constant (F := F) S_ .f32 0x47C35000#32) ((sitofp (F := F) .f32) (constantI S_ 32 0#32))) (constant (F := F) S_ .f32 0x00000000#32)) (Host.divf (F := F) ((fun x v => Host.reduceAdd (F := F) x v reducesTo_S100000x128_S128_d0 h_S_) (mulf (F := F) (subf (F := F) Z ((broadcastInDim S100000x128 ![0, 1] bcast_S1x128_S100000x128_0_1) (Host.divf (F := F) ((broadcastInDim S1x128 ![1] bcast_S128_S1x128_1) ((fun x v => Host.reduceAdd (F := F) x v reducesTo_S100000x128_S128_d0 h_S_) Z (constant (F := F) S_ .f32 0x00000000#32))) ((broadcastInDim S1x128 ![] bcast_S_S1x128) (constant (F := F) S_ .f32 0x47C35000#32))))) (subf (F := F) Z ((broadcastInDim S100000x128 ![0, 1] bcast_S1x128_S100000x128_0_1) (Host.divf (F := F) ((broadcastInDim S1x128 ![1] bcast_S128_S1x128_1) ((fun x v => Host.reduceAdd (F := F) x v reducesTo_S100000x128_S128_d0 h_S_) Z (constant (F := F) S_ .f32 0x00000000#32))) ((broadcastInDim S1x128 ![] bcast_S_S1x128) (constant (F := F) S_ .f32 0x47C35000#32)))))) (constant (F := F) S_ .f32 0x00000000#32)) ((broadcastInDim S128 ![] bcast_S_S128) (subf (F := F) (constant (F := F) S_ .f32 0x47C35000#32) ((sitofp (F := F) .f32) (constantI S_ 32 0#32))))) ((broadcastInDim S128 ![] bcast_S_S128) (id (constant (F := F) S_ .f32 0x7FC00000#32))))

/-- Normalise by the means and variances, scale, shift, rectify. -/
def bnC (Z : FVec F S100000x128 .f32) (mu va gl bel : FVec F S128 .f32) : FVec F S100000x128 .f32 :=
  (maximumf (F := F) ((addf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((mulf : (⟨S100000x128, .f32⟩ : BufTy).Contents (Elt F) → (⟨S100000x128, .f32⟩ : BufTy).Contents (Elt F) → (⟨S100000x128, .f32⟩ : BufTy).Contents (Elt F)) ((subf : (⟨S100000x128, .f32⟩ : BufTy).Contents (Elt F) → (⟨S100000x128, .f32⟩ : BufTy).Contents (Elt F) → (⟨S100000x128, .f32⟩ : BufTy).Contents (Elt F)) Z ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) mu))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) va ((broadcastInDim S128 ![] bcast_S_S128 : (⟨S_, .f32⟩ : BufTy).Contents (Elt F) → (⟨S128, .f32⟩ : BufTy).Contents (Elt F)) (constant S_ .f32 0x3727C5AC#32))))))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) gl))) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) bel))) ((broadcastInDim S100000x128 ![] bcast_S_S100000x128) (constant (F := F) S_ .f32 0x00000000#32)))

/-- One layer after the aggregation. -/
def postC (A : FVec F S100000x128 .f32) (Wl : FVec F S128x128 .f32) (bl gl bel : FVec F S128 .f32) : FVec F S100000x128 .f32 :=
  bnC (zC A Wl bl) (meanC (zC A Wl bl)) (varC (zC A Wl bl)) gl bel

/-- Matrix 0 of the stack of three. -/
def wSl0 (a : FVec F S3x128x128 .f32) : FVec F S128x128 .f32 :=
  (shapeCast S128x128 (((extractStridedSlice S1x128x128 ![0, 0, 0] · slices_S3x128x128_S1x128x128_0_0_0) : (⟨S3x128x128, .f32⟩ : BufTy).Contents (Elt F) → (⟨S1x128x128, .f32⟩ : BufTy).Contents (Elt F)) a) shapeCasts_S1x128x128_S128x128)

/-- Row 0 of a stack of three rows, as a vector. -/
def rSl0 (a : FVec F S3x128 .f32) : FVec F S128 .f32 :=
  (shapeCast S128 (((extractStridedSlice S1x128 ![0, 0] · slices_S3x128_S1x128_0_0) : (⟨S3x128, .f32⟩ : BufTy).Contents (Elt F) → (⟨S1x128, .f32⟩ : BufTy).Contents (Elt F)) a) shapeCasts_S1x128_S128)

/-- Matrix 1 of the stack of three. -/
def wSl1 (a : FVec F S3x128x128 .f32) : FVec F S128x128 .f32 :=
  (shapeCast S128x128 (((extractStridedSlice S1x128x128 ![1, 0, 0] · slices_S3x128x128_S1x128x128_1_0_0) : (⟨S3x128x128, .f32⟩ : BufTy).Contents (Elt F) → (⟨S1x128x128, .f32⟩ : BufTy).Contents (Elt F)) a) shapeCasts_S1x128x128_S128x128)

/-- Row 1 of a stack of three rows, as a vector. -/
def rSl1 (a : FVec F S3x128 .f32) : FVec F S128 .f32 :=
  (shapeCast S128 (((extractStridedSlice S1x128 ![1, 0] · slices_S3x128_S1x128_1_0) : (⟨S3x128, .f32⟩ : BufTy).Contents (Elt F) → (⟨S1x128, .f32⟩ : BufTy).Contents (Elt F)) a) shapeCasts_S1x128_S128)

/-- Matrix 2 of the stack of three. -/
def wSl2 (a : FVec F S3x128x128 .f32) : FVec F S128x128 .f32 :=
  (shapeCast S128x128 (((extractStridedSlice S1x128x128 ![2, 0, 0] · slices_S3x128x128_S1x128x128_2_0_0) : (⟨S3x128x128, .f32⟩ : BufTy).Contents (Elt F) → (⟨S1x128x128, .f32⟩ : BufTy).Contents (Elt F)) a) shapeCasts_S1x128x128_S128x128)

/-- Row 2 of a stack of three rows, as a vector. -/
def rSl2 (a : FVec F S3x128 .f32) : FVec F S128 .f32 :=
  (shapeCast S128 (((extractStridedSlice S1x128 ![2, 0] · slices_S3x128_S1x128_2_0) : (⟨S3x128, .f32⟩ : BufTy).Contents (Elt F) → (⟨S1x128, .f32⟩ : BufTy).Contents (Elt F)) a) shapeCasts_S1x128_S128)

/-- The four feature arrays stacked. -/
def tailC (x h1 h2 h3 : FVec F S100000x128 .f32) : FVec F S4x100000x128 .f32 :=
  (concatenate S4x100000x128 0 [⟨S1x100000x128, ((broadcastInDim S1x100000x128 ![1, 2] bcast_S100000x128_S1x100000x128_1_2 : (⟨S100000x128, .f32⟩ : BufTy).Contents (Elt F) → (⟨S1x100000x128, .f32⟩ : BufTy).Contents (Elt F)) x)⟩, ⟨S1x100000x128, ((broadcastInDim S1x100000x128 ![1, 2] bcast_S100000x128_S1x100000x128_1_2 : (⟨S100000x128, .f32⟩ : BufTy).Contents (Elt F) → (⟨S1x100000x128, .f32⟩ : BufTy).Contents (Elt F)) h1)⟩, ⟨S1x100000x128, ((broadcastInDim S1x100000x128 ![1, 2] bcast_S100000x128_S1x100000x128_1_2 : (⟨S100000x128, .f32⟩ : BufTy).Contents (Elt F) → (⟨S1x100000x128, .f32⟩ : BufTy).Contents (Elt F)) h2)⟩, ⟨S1x100000x128, ((broadcastInDim S1x100000x128 ![1, 2] bcast_S100000x128_S1x100000x128_1_2 : (⟨S100000x128, .f32⟩ : BufTy).Contents (Elt F) → (⟨S1x100000x128, .f32⟩ : BufTy).Contents (Elt F)) h3)⟩] concatenates_S1x100000x128_S1x100000x128_S1x100000x128_S1x100000x128_S4x100000x128_d0)

/-- The aggregation of `h` over the graph given by the two edge-end lists. -/
def aggR (a5 a6 : IVec S1600000 32) (h : FVec F S100000x128 .f32) : FVec F S100000x128 .f32 :=
  aggC (catC (F := F) a5) (catC (F := F) a6) (invC (catC (F := F) a5)) (invC (catC (F := F) a6)) h

/-- Layer 0 of the network from its input features. -/
def lay0 (a1 : FVec F S3x128x128 .f32) (a2 a3 a4 : FVec F S3x128 .f32) (a5 a6 : IVec S1600000 32) (h : FVec F S100000x128 .f32) :
    FVec F S100000x128 .f32 :=
  postC (aggR a5 a6 h) (wSl0 a1) (rSl0 a2) (rSl0 a3) (rSl0 a4)

/-- Layer 1 of the network from its input features. -/
def lay1 (a1 : FVec F S3x128x128 .f32) (a2 a3 a4 : FVec F S3x128 .f32) (a5 a6 : IVec S1600000 32) (h : FVec F S100000x128 .f32) :
    FVec F S100000x128 .f32 :=
  postC (aggR a5 a6 h) (wSl1 a1) (rSl1 a2) (rSl1 a3) (rSl1 a4)

/-- Layer 2 of the network from its input features. -/
def lay2 (a1 : FVec F S3x128x128 .f32) (a2 a3 a4 : FVec F S3x128 .f32) (a5 a6 : IVec S1600000 32) (h : FVec F S100000x128 .f32) :
    FVec F S100000x128 .f32 :=
  postC (aggR a5 a6 h) (wSl2 a1) (rSl2 a2) (rSl2 a3) (rSl2 a4)

/-- The program's result as a function of its seven argument arrays. -/
def out (a0 : FVec F S100000x128 .f32) (a1 : FVec F S3x128x128 .f32) (a2 a3 a4 : FVec F S3x128 .f32) (a5 a6 : IVec S1600000 32) :
    FVec F S4x100000x128 .f32 :=
  tailC a0 (lay0 a1 a2 a3 a4 a5 a6 a0) (lay1 a1 a2 a3 a4 a5 a6 (lay0 a1 a2 a3 a4 a5 a6 a0))
    (lay2 a1 a2 a3 a4 a5 a6 (lay1 a1 a2 a3 a4 a5 a6 (lay0 a1 a2 a3 a4 a5 a6 a0)))

end Cert.ReferenceIdeal.RefRun

end
-- ==== Proof.RefRead.lean ====
/-
  Reading the reference program's line stretch by stretch.

  For each stretch of the operation list, over an arbitrary starting valuation of the buffers: the buffers the stretch
  does not write keep their contents, and the buffer holding the stretch's result holds the corresponding whole-array
  function of the contents of the buffers the stretch reads.
-/
import proofs.«160962_j23227183137544_1_alg».proof.Proof.RefOps
import proofs.«160962_j23227183137544_1_alg».proof.Proof.RefChain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation writing the one buffer `y`, a member of the list `W`, writes inside `W`. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers stretch 0 writes. -/
abbrev S0_W : List (Ref sig .tc) := [main_v0, main_v1, main_v2, main_cst, main_v3, main_cst_0, main_v4, main_v5, main_v6, main_cst_1, main_v7, main_v8, main_v9, main_cst_2, main_v10, main_v11, main_v12, main_v13, main_cst_3, main_v14, main_v15, main_v16, main_v17]

theorem opsS0_writes : (opsS0 : List (HloOp τ sig (Elt F))).Forall fun op =>
    op.writes ⊆ (S0_W.map (Proc.devRef (τ := τ) .tc)).toFinset :=
  ⟨writes_sub_of_mem main_v0 rfl (by decide),
    writes_sub_of_mem main_v1 rfl (by decide),
    writes_sub_of_mem main_v2 rfl (by decide),
    writes_sub_of_mem main_cst rfl (by decide),
    writes_sub_of_mem main_v3 rfl (by decide),
    writes_sub_of_mem main_cst_0 rfl (by decide),
    writes_sub_of_mem main_v4 rfl (by decide),
    writes_sub_of_mem main_v5 rfl (by decide),
    writes_sub_of_mem main_v6 rfl (by decide),
    writes_sub_of_mem main_cst_1 rfl (by decide),
    writes_sub_of_mem main_v7 rfl (by decide),
    writes_sub_of_mem main_v8 rfl (by decide),
    writes_sub_of_mem main_v9 rfl (by decide),
    writes_sub_of_mem main_cst_2 rfl (by decide),
    writes_sub_of_mem main_v10 rfl (by decide),
    writes_sub_of_mem main_v11 rfl (by decide),
    writes_sub_of_mem main_v12 rfl (by decide),
    writes_sub_of_mem main_v13 rfl (by decide),
    writes_sub_of_mem main_cst_3 rfl (by decide),
    writes_sub_of_mem main_v14 rfl (by decide),
    writes_sub_of_mem main_v15 rfl (by decide),
    writes_sub_of_mem main_v16 rfl (by decide),
    writes_sub_of_mem main_v17 rfl (by decide)⟩

/-- A buffer stretch 0 does not write keeps its contents through it. -/
theorem S0_keep (W : Valuation τ sig (Elt F)) (r : Ref sig .tc) (h : r ∉ S0_W) :
    after opsS0 W (Proc.devRef .tc r) = W (Proc.devRef .tc r) :=
  after_of_writes_sub opsS0 W opsS0_writes h

/-- The buffers stretch 1 writes. -/
abbrev S1_W : List (Ref sig .tc) := [main_v18, main_v19, main_c, main_v20, main_v21, main_c_4, main_v22, main_v23, main_v24, main_v25, main_v26, main_cst_5, main_v27, main_v28, main_v29, main_v30, main_v31]

theorem opsS1_writes : (opsS1 : List (HloOp τ sig (Elt F))).Forall fun op =>
    op.writes ⊆ (S1_W.map (Proc.devRef (τ := τ) .tc)).toFinset :=
  ⟨writes_sub_of_mem main_v18 rfl (by decide),
    writes_sub_of_mem main_v19 rfl (by decide),
    writes_sub_of_mem main_c rfl (by decide),
    writes_sub_of_mem main_v20 rfl (by decide),
    writes_sub_of_mem main_v21 rfl (by decide),
    writes_sub_of_mem main_c_4 rfl (by decide),
    writes_sub_of_mem main_v22 rfl (by decide),
    writes_sub_of_mem main_v23 rfl (by decide),
    writes_sub_of_mem main_v24 rfl (by decide),
    writes_sub_of_mem main_v25 rfl (by decide),
    writes_sub_of_mem main_v26 rfl (by decide),
    writes_sub_of_mem main_cst_5 rfl (by decide),
    writes_sub_of_mem main_v27 rfl (by decide),
    writes_sub_of_mem main_v28 rfl (by decide),
    writes_sub_of_mem main_v29 rfl (by decide),
    writes_sub_of_mem main_v30 rfl (by decide),
    writes_sub_of_mem main_v31 rfl (by decide)⟩

/-- A buffer stretch 1 does not write keeps its contents through it. -/
theorem S1_keep (W : Valuation τ sig (Elt F)) (r : Ref sig .tc) (h : r ∉ S1_W) :
    after opsS1 W (Proc.devRef .tc r) = W (Proc.devRef .tc r) :=
  after_of_writes_sub opsS1 W opsS1_writes h

/-- The buffers stretch 2 writes. -/
abbrev S2_W : List (Ref sig .tc) := [main_v32, main_v33, main_v34, main_v35, main_v36, main_v37, main_v38, main_v39, main_cst_6, main_v40, main_cst_7, main_v41, main_v42, main_c_8, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v43, main_v44, main_v45, main_v46, main_cst_9, main_v47]

theorem opsS2_writes : (opsS2 : List (HloOp τ sig (Elt F))).Forall fun op =>
    op.writes ⊆ (S2_W.map (Proc.devRef (τ := τ) .tc)).toFinset :=
  ⟨writes_sub_of_mem main_v32 rfl (by decide),
    writes_sub_of_mem main_v33 rfl (by decide),
    writes_sub_of_mem main_v34 rfl (by decide),
    writes_sub_of_mem main_v35 rfl (by decide),
    writes_sub_of_mem main_v36 rfl (by decide),
    writes_sub_of_mem main_v37 rfl (by decide),
    writes_sub_of_mem main_v38 rfl (by decide),
    writes_sub_of_mem main_v39 rfl (by decide),
    writes_sub_of_mem main_cst_6 rfl (by decide),
    writes_sub_of_mem main_v40 rfl (by decide),
    writes_sub_of_mem main_cst_7 rfl (by decide),
    writes_sub_of_mem main_v41 rfl (by decide),
    writes_sub_of_mem main_v42 rfl (by decide),
    writes_sub_of_mem main_c_8 rfl (by decide),
    writes_sub_of_mem main_call0_cst rfl (by decide),
    writes_sub_of_mem main_call0_v0 rfl (by decide),
    writes_sub_of_mem main_call0_v1 rfl (by decide),
    writes_sub_of_mem main_call0_cst_0 rfl (by decide),
    writes_sub_of_mem main_call0_v2 rfl (by decide),
    writes_sub_of_mem main_call0_v3 rfl (by decide),
    writes_sub_of_mem main_call0_v4 rfl (by decide),
    writes_sub_of_mem main_call0_v5 rfl (by decide),
    writes_sub_of_mem main_call0_v6 rfl (by decide),
    writes_sub_of_mem main_call0_v7 rfl (by decide),
    writes_sub_of_mem main_call0_cst_1 rfl (by decide),
    writes_sub_of_mem main_call0_v8 rfl (by decide),
    writes_sub_of_mem main_call0_cst_2 rfl (by decide),
    writes_sub_of_mem main_call0_v9 rfl (by decide),
    writes_sub_of_mem main_call0_v10 rfl (by decide),
    writes_sub_of_mem main_call0_v11 rfl (by decide),
    writes_sub_of_mem main_call0_cst_3 rfl (by decide),
    writes_sub_of_mem main_call0_v12 rfl (by decide),
    writes_sub_of_mem main_call0_cst_4 rfl (by decide),
    writes_sub_of_mem main_call0_call0_v0 rfl (by decide),
    writes_sub_of_mem main_call0_call0_v1 rfl (by decide),
    writes_sub_of_mem main_v43 rfl (by decide),
    writes_sub_of_mem main_v44 rfl (by decide),
    writes_sub_of_mem main_v45 rfl (by decide),
    writes_sub_of_mem main_v46 rfl (by decide),
    writes_sub_of_mem main_cst_9 rfl (by decide),
    writes_sub_of_mem main_v47 rfl (by decide)⟩

/-- A buffer stretch 2 does not write keeps its contents through it. -/
theorem S2_keep (W : Valuation τ sig (Elt F)) (r : Ref sig .tc) (h : r ∉ S2_W) :
    after opsS2 W (Proc.devRef .tc r) = W (Proc.devRef .tc r) :=
  after_of_writes_sub opsS2 W opsS2_writes h

/-- The buffers stretch 3 writes. -/
abbrev S3_W : List (Ref sig .tc) := [main_v48, main_v49, main_v50, main_v51, main_v52, main_v53, main_v54, main_v55, main_v56, main_v57, main_v58, main_v59, main_v60, main_v61, main_v62, main_call1_cst, main_call1_v0, main_v63]

theorem opsS3_writes : (opsS3 : List (HloOp τ sig (Elt F))).Forall fun op =>
    op.writes ⊆ (S3_W.map (Proc.devRef (τ := τ) .tc)).toFinset :=
  ⟨writes_sub_of_mem main_v48 rfl (by decide),
    writes_sub_of_mem main_v49 rfl (by decide),
    writes_sub_of_mem main_v50 rfl (by decide),
    writes_sub_of_mem main_v51 rfl (by decide),
    writes_sub_of_mem main_v52 rfl (by decide),
    writes_sub_of_mem main_v53 rfl (by decide),
    writes_sub_of_mem main_v54 rfl (by decide),
    writes_sub_of_mem main_v55 rfl (by decide),
    writes_sub_of_mem main_v56 rfl (by decide),
    writes_sub_of_mem main_v57 rfl (by decide),
    writes_sub_of_mem main_v58 rfl (by decide),
    writes_sub_of_mem main_v59 rfl (by decide),
    writes_sub_of_mem main_v60 rfl (by decide),
    writes_sub_of_mem main_v61 rfl (by decide),
    writes_sub_of_mem main_v62 rfl (by decide),
    writes_sub_of_mem main_call1_cst rfl (by decide),
    writes_sub_of_mem main_call1_v0 rfl (by decide),
    writes_sub_of_mem main_v63 rfl (by decide)⟩

/-- A buffer stretch 3 does not write keeps its contents through it. -/
theorem S3_keep (W : Valuation τ sig (Elt F)) (r : Ref sig .tc) (h : r ∉ S3_W) :
    after opsS3 W (Proc.devRef .tc r) = W (Proc.devRef .tc r) :=
  after_of_writes_sub opsS3 W opsS3_writes h

/-- The buffers stretch 4 writes. -/
abbrev S4_W : List (Ref sig .tc) := [main_v64, main_v65, main_c_10, main_v66, main_v67, main_c_11, main_v68, main_v69, main_v70, main_v71, main_v72, main_cst_12, main_v73, main_v74, main_v75, main_v76, main_v77]

theorem opsS4_writes : (opsS4 : List (HloOp τ sig (Elt F))).Forall fun op =>
    op.writes ⊆ (S4_W.map (Proc.devRef (τ := τ) .tc)).toFinset :=
  ⟨writes_sub_of_mem main_v64 rfl (by decide),
    writes_sub_of_mem main_v65 rfl (by decide),
    writes_sub_of_mem main_c_10 rfl (by decide),
    writes_sub_of_mem main_v66 rfl (by decide),
    writes_sub_of_mem main_v67 rfl (by decide),
    writes_sub_of_mem main_c_11 rfl (by decide),
    writes_sub_of_mem main_v68 rfl (by decide),
    writes_sub_of_mem main_v69 rfl (by decide),
    writes_sub_of_mem main_v70 rfl (by decide),
    writes_sub_of_mem main_v71 rfl (by decide),
    writes_sub_of_mem main_v72 rfl (by decide),
    writes_sub_of_mem main_cst_12 rfl (by decide),
    writes_sub_of_mem main_v73 rfl (by decide),
    writes_sub_of_mem main_v74 rfl (by decide),
    writes_sub_of_mem main_v75 rfl (by decide),
    writes_sub_of_mem main_v76 rfl (by decide),
    writes_sub_of_mem main_v77 rfl (by decide)⟩

/-- A buffer stretch 4 does not write keeps its contents through it. -/
theorem S4_keep (W : Valuation τ sig (Elt F)) (r : Ref sig .tc) (h : r ∉ S4_W) :
    after opsS4 W (Proc.devRef .tc r) = W (Proc.devRef .tc r) :=
  after_of_writes_sub opsS4 W opsS4_writes h

/-- The buffers stretch 5 writes. -/
abbrev S5_W : List (Ref sig .tc) := [main_v78, main_v79, main_v80, main_v81, main_v82, main_v83, main_v84, main_v85, main_cst_13, main_v86, main_cst_14, main_v87, main_v88, main_c_15, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v89, main_v90, main_v91, main_v92, main_cst_16, main_v93, main_v94, main_v95, main_v96, main_v97, main_v98, main_v99, main_v100]

theorem opsS5_writes : (opsS5 : List (HloOp τ sig (Elt F))).Forall fun op =>
    op.writes ⊆ (S5_W.map (Proc.devRef (τ := τ) .tc)).toFinset :=
  ⟨writes_sub_of_mem main_v78 rfl (by decide),
    writes_sub_of_mem main_v79 rfl (by decide),
    writes_sub_of_mem main_v80 rfl (by decide),
    writes_sub_of_mem main_v81 rfl (by decide),
    writes_sub_of_mem main_v82 rfl (by decide),
    writes_sub_of_mem main_v83 rfl (by decide),
    writes_sub_of_mem main_v84 rfl (by decide),
    writes_sub_of_mem main_v85 rfl (by decide),
    writes_sub_of_mem main_cst_13 rfl (by decide),
    writes_sub_of_mem main_v86 rfl (by decide),
    writes_sub_of_mem main_cst_14 rfl (by decide),
    writes_sub_of_mem main_v87 rfl (by decide),
    writes_sub_of_mem main_v88 rfl (by decide),
    writes_sub_of_mem main_c_15 rfl (by decide),
    writes_sub_of_mem main_call2_cst rfl (by decide),
    writes_sub_of_mem main_call2_v0 rfl (by decide),
    writes_sub_of_mem main_call2_v1 rfl (by decide),
    writes_sub_of_mem main_call2_cst_0 rfl (by decide),
    writes_sub_of_mem main_call2_v2 rfl (by decide),
    writes_sub_of_mem main_call2_v3 rfl (by decide),
    writes_sub_of_mem main_call2_v4 rfl (by decide),
    writes_sub_of_mem main_call2_v5 rfl (by decide),
    writes_sub_of_mem main_call2_v6 rfl (by decide),
    writes_sub_of_mem main_call2_v7 rfl (by decide),
    writes_sub_of_mem main_call2_cst_1 rfl (by decide),
    writes_sub_of_mem main_call2_v8 rfl (by decide),
    writes_sub_of_mem main_call2_cst_2 rfl (by decide),
    writes_sub_of_mem main_call2_v9 rfl (by decide),
    writes_sub_of_mem main_call2_v10 rfl (by decide),
    writes_sub_of_mem main_call2_v11 rfl (by decide),
    writes_sub_of_mem main_call2_cst_3 rfl (by decide),
    writes_sub_of_mem main_call2_v12 rfl (by decide),
    writes_sub_of_mem main_call2_cst_4 rfl (by decide),
    writes_sub_of_mem main_call2_call0_v0 rfl (by decide),
    writes_sub_of_mem main_call2_call0_v1 rfl (by decide),
    writes_sub_of_mem main_v89 rfl (by decide),
    writes_sub_of_mem main_v90 rfl (by decide),
    writes_sub_of_mem main_v91 rfl (by decide),
    writes_sub_of_mem main_v92 rfl (by decide),
    writes_sub_of_mem main_cst_16 rfl (by decide),
    writes_sub_of_mem main_v93 rfl (by decide),
    writes_sub_of_mem main_v94 rfl (by decide),
    writes_sub_of_mem main_v95 rfl (by decide),
    writes_sub_of_mem main_v96 rfl (by decide),
    writes_sub_of_mem main_v97 rfl (by decide),
    writes_sub_of_mem main_v98 rfl (by decide),
    writes_sub_of_mem main_v99 rfl (by decide),
    writes_sub_of_mem main_v100 rfl (by decide)⟩

/-- A buffer stretch 5 does not write keeps its contents through it. -/
theorem S5_keep (W : Valuation τ sig (Elt F)) (r : Ref sig .tc) (h : r ∉ S5_W) :
    after opsS5 W (Proc.devRef .tc r) = W (Proc.devRef .tc r) :=
  after_of_writes_sub opsS5 W opsS5_writes h

/-- The buffers stretch 6 writes. -/
abbrev S6_W : List (Ref sig .tc) := [main_v101, main_v102, main_v103, main_v104, main_v105, main_v106, main_v107, main_v108, main_call3_cst, main_call3_v0, main_v109]

theorem opsS6_writes : (opsS6 : List (HloOp τ sig (Elt F))).Forall fun op =>
    op.writes ⊆ (S6_W.map (Proc.devRef (τ := τ) .tc)).toFinset :=
  ⟨writes_sub_of_mem main_v101 rfl (by decide),
    writes_sub_of_mem main_v102 rfl (by decide),
    writes_sub_of_mem main_v103 rfl (by decide),
    writes_sub_of_mem main_v104 rfl (by decide),
    writes_sub_of_mem main_v105 rfl (by decide),
    writes_sub_of_mem main_v106 rfl (by decide),
    writes_sub_of_mem main_v107 rfl (by decide),
    writes_sub_of_mem main_v108 rfl (by decide),
    writes_sub_of_mem main_call3_cst rfl (by decide),
    writes_sub_of_mem main_call3_v0 rfl (by decide),
    writes_sub_of_mem main_v109 rfl (by decide)⟩

/-- A buffer stretch 6 does not write keeps its contents through it. -/
theorem S6_keep (W : Valuation τ sig (Elt F)) (r : Ref sig .tc) (h : r ∉ S6_W) :
    after opsS6 W (Proc.devRef .tc r) = W (Proc.devRef .tc r) :=
  after_of_writes_sub opsS6 W opsS6_writes h

/-- The buffers stretch 7 writes. -/
abbrev S7_W : List (Ref sig .tc) := [main_v110, main_v111, main_c_17, main_v112, main_v113, main_c_18, main_v114, main_v115, main_v116, main_v117, main_v118, main_cst_19, main_v119, main_v120, main_v121, main_v122, main_v123]

theorem opsS7_writes : (opsS7 : List (HloOp τ sig (Elt F))).Forall fun op =>
    op.writes ⊆ (S7_W.map (Proc.devRef (τ := τ) .tc)).toFinset :=
  ⟨writes_sub_of_mem main_v110 rfl (by decide),
    writes_sub_of_mem main_v111 rfl (by decide),
    writes_sub_of_mem main_c_17 rfl (by decide),
    writes_sub_of_mem main_v112 rfl (by decide),
    writes_sub_of_mem main_v113 rfl (by decide),
    writes_sub_of_mem main_c_18 rfl (by decide),
    writes_sub_of_mem main_v114 rfl (by decide),
    writes_sub_of_mem main_v115 rfl (by decide),
    writes_sub_of_mem main_v116 rfl (by decide),
    writes_sub_of_mem main_v117 rfl (by decide),
    writes_sub_of_mem main_v118 rfl (by decide),
    writes_sub_of_mem main_cst_19 rfl (by decide),
    writes_sub_of_mem main_v119 rfl (by decide),
    writes_sub_of_mem main_v120 rfl (by decide),
    writes_sub_of_mem main_v121 rfl (by decide),
    writes_sub_of_mem main_v122 rfl (by decide),
    writes_sub_of_mem main_v123 rfl (by decide)⟩

/-- A buffer stretch 7 does not write keeps its contents through it. -/
theorem S7_keep (W : Valuation τ sig (Elt F)) (r : Ref sig .tc) (h : r ∉ S7_W) :
    after opsS7 W (Proc.devRef .tc r) = W (Proc.devRef .tc r) :=
  after_of_writes_sub opsS7 W opsS7_writes h

/-- The buffers stretch 8 writes. -/
abbrev S8_W : List (Ref sig .tc) := [main_v124, main_v125, main_v126, main_v127, main_v128, main_v129, main_v130, main_v131, main_cst_20, main_v132, main_cst_21, main_v133, main_v134, main_c_22, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v135, main_v136, main_v137, main_v138, main_cst_23, main_v139, main_v140, main_v141, main_v142, main_v143, main_v144, main_v145, main_v146, main_v147, main_v148, main_v149, main_v150, main_v151, main_v152, main_v153]

theorem opsS8_writes : (opsS8 : List (HloOp τ sig (Elt F))).Forall fun op =>
    op.writes ⊆ (S8_W.map (Proc.devRef (τ := τ) .tc)).toFinset :=
  ⟨writes_sub_of_mem main_v124 rfl (by decide),
    writes_sub_of_mem main_v125 rfl (by decide),
    writes_sub_of_mem main_v126 rfl (by decide),
    writes_sub_of_mem main_v127 rfl (by decide),
    writes_sub_of_mem main_v128 rfl (by decide),
    writes_sub_of_mem main_v129 rfl (by decide),
    writes_sub_of_mem main_v130 rfl (by decide),
    writes_sub_of_mem main_v131 rfl (by decide),
    writes_sub_of_mem main_cst_20 rfl (by decide),
    writes_sub_of_mem main_v132 rfl (by decide),
    writes_sub_of_mem main_cst_21 rfl (by decide),
    writes_sub_of_mem main_v133 rfl (by decide),
    writes_sub_of_mem main_v134 rfl (by decide),
    writes_sub_of_mem main_c_22 rfl (by decide),
    writes_sub_of_mem main_call4_cst rfl (by decide),
    writes_sub_of_mem main_call4_v0 rfl (by decide),
    writes_sub_of_mem main_call4_v1 rfl (by decide),
    writes_sub_of_mem main_call4_cst_0 rfl (by decide),
    writes_sub_of_mem main_call4_v2 rfl (by decide),
    writes_sub_of_mem main_call4_v3 rfl (by decide),
    writes_sub_of_mem main_call4_v4 rfl (by decide),
    writes_sub_of_mem main_call4_v5 rfl (by decide),
    writes_sub_of_mem main_call4_v6 rfl (by decide),
    writes_sub_of_mem main_call4_v7 rfl (by decide),
    writes_sub_of_mem main_call4_cst_1 rfl (by decide),
    writes_sub_of_mem main_call4_v8 rfl (by decide),
    writes_sub_of_mem main_call4_cst_2 rfl (by decide),
    writes_sub_of_mem main_call4_v9 rfl (by decide),
    writes_sub_of_mem main_call4_v10 rfl (by decide),
    writes_sub_of_mem main_call4_v11 rfl (by decide),
    writes_sub_of_mem main_call4_cst_3 rfl (by decide),
    writes_sub_of_mem main_call4_v12 rfl (by decide),
    writes_sub_of_mem main_call4_cst_4 rfl (by decide),
    writes_sub_of_mem main_call4_call0_v0 rfl (by decide),
    writes_sub_of_mem main_call4_call0_v1 rfl (by decide),
    writes_sub_of_mem main_v135 rfl (by decide),
    writes_sub_of_mem main_v136 rfl (by decide),
    writes_sub_of_mem main_v137 rfl (by decide),
    writes_sub_of_mem main_v138 rfl (by decide),
    writes_sub_of_mem main_cst_23 rfl (by decide),
    writes_sub_of_mem main_v139 rfl (by decide),
    writes_sub_of_mem main_v140 rfl (by decide),
    writes_sub_of_mem main_v141 rfl (by decide),
    writes_sub_of_mem main_v142 rfl (by decide),
    writes_sub_of_mem main_v143 rfl (by decide),
    writes_sub_of_mem main_v144 rfl (by decide),
    writes_sub_of_mem main_v145 rfl (by decide),
    writes_sub_of_mem main_v146 rfl (by decide),
    writes_sub_of_mem main_v147 rfl (by decide),
    writes_sub_of_mem main_v148 rfl (by decide),
    writes_sub_of_mem main_v149 rfl (by decide),
    writes_sub_of_mem main_v150 rfl (by decide),
    writes_sub_of_mem main_v151 rfl (by decide),
    writes_sub_of_mem main_v152 rfl (by decide),
    writes_sub_of_mem main_v153 rfl (by decide)⟩

/-- A buffer stretch 8 does not write keeps its contents through it. -/
theorem S8_keep (W : Valuation τ sig (Elt F)) (r : Ref sig .tc) (h : r ∉ S8_W) :
    after opsS8 W (Proc.devRef .tc r) = W (Proc.devRef .tc r) :=
  after_of_writes_sub opsS8 W opsS8_writes h

/-- The buffers stretch 9 writes. -/
abbrev S9_W : List (Ref sig .tc) := [main_v154, main_call5_cst, main_call5_v0, main_v155]

theorem opsS9_writes : (opsS9 : List (HloOp τ sig (Elt F))).Forall fun op =>
    op.writes ⊆ (S9_W.map (Proc.devRef (τ := τ) .tc)).toFinset :=
  ⟨writes_sub_of_mem main_v154 rfl (by decide),
    writes_sub_of_mem main_call5_cst rfl (by decide),
    writes_sub_of_mem main_call5_v0 rfl (by decide),
    writes_sub_of_mem main_v155 rfl (by decide)⟩

/-- A buffer stretch 9 does not write keeps its contents through it. -/
theorem S9_keep (W : Valuation τ sig (Elt F)) (r : Ref sig .tc) (h : r ∉ S9_W) :
    after opsS9 W (Proc.devRef .tc r) = W (Proc.devRef .tc r) :=
  after_of_writes_sub opsS9 W opsS9_writes h

/-- The buffers stretch 10 writes. -/
abbrev S10_W : List (Ref sig .tc) := [main_v156, main_v157, main_v158, main_v159, main_v160]

theorem opsS10_writes : (opsS10 : List (HloOp τ sig (Elt F))).Forall fun op =>
    op.writes ⊆ (S10_W.map (Proc.devRef (τ := τ) .tc)).toFinset :=
  ⟨writes_sub_of_mem main_v156 rfl (by decide),
    writes_sub_of_mem main_v157 rfl (by decide),
    writes_sub_of_mem main_v158 rfl (by decide),
    writes_sub_of_mem main_v159 rfl (by decide),
    writes_sub_of_mem main_v160 rfl (by decide)⟩

/-- A buffer stretch 10 does not write keeps its contents through it. -/
theorem S10_keep (W : Valuation τ sig (Elt F)) (r : Ref sig .tc) (h : r ∉ S10_W) :
    after opsS10 W (Proc.devRef .tc r) = W (Proc.devRef .tc r) :=
  after_of_writes_sub opsS10 W opsS10_writes h

set_option maxHeartbeats 1000000 in
theorem S0_v1 (W : Valuation τ sig (Elt F)) :
    after opsS0 W (Proc.devRef .tc main_v1) = catC (F := F) (W (Proc.devRef .tc main_arg5)) := by
  simp only [opsS0]
  after_results_simp
  rfl

set_option maxHeartbeats 1000000 in
theorem S0_v2 (W : Valuation τ sig (Elt F)) :
    after opsS0 W (Proc.devRef .tc main_v2) = catC (F := F) (W (Proc.devRef .tc main_arg6)) := by
  simp only [opsS0]
  after_results_simp
  rfl

set_option maxHeartbeats 1000000 in
theorem S0_v13 (W : Valuation τ sig (Elt F)) :
    after opsS0 W (Proc.devRef .tc main_v13) = invC (F := F) (catC (F := F) (W (Proc.devRef .tc main_arg5))) := by
  simp only [opsS0]
  after_results_simp
  rfl

set_option maxHeartbeats 1000000 in
theorem S0_v17 (W : Valuation τ sig (Elt F)) :
    after opsS0 W (Proc.devRef .tc main_v17) = invC (F := F) (catC (F := F) (W (Proc.devRef .tc main_arg6))) := by
  simp only [opsS0]
  after_results_simp
  rfl

set_option maxHeartbeats 1000000 in
theorem S1_agg (W : Valuation τ sig (Elt F)) :
    after opsS1 W (Proc.devRef .tc main_v31) = aggC (F := F) (W (Proc.devRef .tc main_v1)) (W (Proc.devRef .tc main_v2)) (W (Proc.devRef .tc main_v13)) (W (Proc.devRef .tc main_v17)) (W (Proc.devRef .tc main_arg0)) := by
  simp only [opsS1]
  after_results_simp
  rfl

set_option maxHeartbeats 1000000 in
theorem S4_agg (W : Valuation τ sig (Elt F)) :
    after opsS4 W (Proc.devRef .tc main_v77) = aggC (F := F) (W (Proc.devRef .tc main_v1)) (W (Proc.devRef .tc main_v2)) (W (Proc.devRef .tc main_v13)) (W (Proc.devRef .tc main_v17)) (W (Proc.devRef .tc main_v63)) := by
  simp only [opsS4]
  after_results_simp
  rfl

set_option maxHeartbeats 1000000 in
theorem S7_agg (W : Valuation τ sig (Elt F)) :
    after opsS7 W (Proc.devRef .tc main_v123) = aggC (F := F) (W (Proc.devRef .tc main_v1)) (W (Proc.devRef .tc main_v2)) (W (Proc.devRef .tc main_v13)) (W (Proc.devRef .tc main_v17)) (W (Proc.devRef .tc main_v109)) := by
  simp only [opsS7]
  after_results_simp
  rfl

set_option maxHeartbeats 8000000 in
theorem S23_post (W : Valuation τ sig (Elt F)) :
    after opsS3 (after opsS2 W) (Proc.devRef .tc main_v63) = postC (F := F) (W (Proc.devRef .tc main_v31)) (wSl0 (W (Proc.devRef .tc main_arg1))) (rSl0 (W (Proc.devRef .tc main_arg2))) (rSl0 (W (Proc.devRef .tc main_arg3))) (rSl0 (W (Proc.devRef .tc main_arg4))) := by
  simp only [opsS2, opsS3]
  after_results_simp
  rfl

set_option maxHeartbeats 8000000 in
theorem S56_post (W : Valuation τ sig (Elt F)) :
    after opsS6 (after opsS5 W) (Proc.devRef .tc main_v109) = postC (F := F) (W (Proc.devRef .tc main_v77)) (wSl1 (W (Proc.devRef .tc main_arg1))) (rSl1 (W (Proc.devRef .tc main_arg2))) (rSl1 (W (Proc.devRef .tc main_arg3))) (rSl1 (W (Proc.devRef .tc main_arg4))) := by
  simp only [opsS5, opsS6]
  after_results_simp
  rfl

set_option maxHeartbeats 8000000 in
theorem S89_post (W : Valuation τ sig (Elt F)) :
    after opsS9 (after opsS8 W) (Proc.devRef .tc main_v155) = postC (F := F) (W (Proc.devRef .tc main_v123)) (wSl2 (W (Proc.devRef .tc main_arg1))) (rSl2 (W (Proc.devRef .tc main_arg2))) (rSl2 (W (Proc.devRef .tc main_arg3))) (rSl2 (W (Proc.devRef .tc main_arg4))) := by
  simp only [opsS8, opsS9]
  after_results_simp
  rfl

set_option maxHeartbeats 1000000 in
theorem S10_tail (W : Valuation τ sig (Elt F)) :
    after opsS10 W (Proc.devRef .tc main_v160) = tailC (F := F) (W (Proc.devRef .tc main_arg0)) (W (Proc.devRef .tc main_v63)) (W (Proc.devRef .tc main_v109)) (W (Proc.devRef .tc main_v155)) := by
  simp only [opsS10]
  after_results_simp
  rfl

end Cert.ReferenceIdeal.RefRun

end
-- ==== Proof.LibPadSplit.lean ====
/-
  Two general facts for reading a host program back.

  Splitting a line of host operations: the buffer contents after two stretches of host operations run one after the
  other are the second stretch's contents from the first's. This lets a long line be read stretch by stretch, each
  stretch over an arbitrary starting valuation — in particular around a many-operand operation (a concatenation), whose
  operands a read-back of the whole line leaves indexed by a bound variable.

  Reading a padding: a rank-3 array padded on the RIGHT of its LAST axis only (no padding before, none between the
  elements, none on the other axes), read at an index whose last coordinate is inside the operand's extent, is the
  operand at that index — whatever the padding value is.
-/
import Idealize.ShloMosaic.Lib.StableHlo.Run
import Idealize.ShloMosaic.Lib.ValueIdx
import Idealize.ShloMosaic.PureOps

noncomputable section

namespace Cert.PadSplit

open Idealize.ShloMosaic Idealize.ShloMosaic.StableHlo Idealize.ShloMosaic.ValueIdx

/-- The contents after the stretch A followed by the stretch B are B's contents from A's. -/
theorem after_append {τ : Topo} {sig : RefSig} {Val : EltTy → Type} (A B : List (HloOp τ sig Val)) (W : Valuation τ sig Val) :
    after (A ++ B) W = after B (after A W) := by
  induction A generalizing W with
  | nil => rfl
  | cons a A ih => exact ih _

/-- A rank-3 array [n0, n1, n2] padded to [n0, n1, n3] on the right of its last axis, read at (a, b, c) with c < n2, is the
    operand at (a, b, c). -/
theorem pad_last3_apply {α : Type} {n0 n1 n2 n3 hi : ℕ} {u : Shape} (x : (⟨3, ![n0, n1, n2]⟩ : Shape).Idx → α) (v : u.Idx → α)
    (h : (⟨3, ![n0, n1, n2]⟩ : Shape).Pads ![0, 0, 0] ![0, 0, hi] ![0, 0, 0] ⟨3, ![n0, n1, n3]⟩) (hu : 0 < u.numel)
    (a : Fin n0) (b : Fin n1) (c : Fin n3) (hc : c.val < n2) :
    pad ⟨3, ![n0, n1, n3]⟩ ![0, 0, 0] ![0, 0, hi] ![0, 0, 0] x v h hu (ix3 a b c) = x (ix3 a b ⟨c.val, hc⟩) := by
  have ha := a.isLt; have hb := b.isLt
  have hin : ∀ d : Fin (⟨3, ![n0, n1, n2]⟩ : Shape).rank, (![0, 0, 0] : Fin 3 → ℕ) d ≤ ((ix3 a b c) (d.cast h.1)).val
      ∧ (((ix3 a b c) (d.cast h.1)).val - (![0, 0, 0] : Fin 3 → ℕ) d) % ((![0, 0, 0] : Fin 3 → ℕ) d + 1) = 0
      ∧ (((ix3 a b c) (d.cast h.1)).val - (![0, 0, 0] : Fin 3 → ℕ) d) / ((![0, 0, 0] : Fin 3 → ℕ) d + 1) < (⟨3, ![n0, n1, n2]⟩ : Shape).size d := by
    intro d
    match d with
    | ⟨0, _⟩ => exact ⟨Nat.zero_le _, by show (a.val - 0) % (0 + 1) = 0; omega, by show (a.val - 0) / (0 + 1) < n0; omega⟩
    | ⟨1, _⟩ => exact ⟨Nat.zero_le _, by show (b.val - 0) % (0 + 1) = 0; omega, by show (b.val - 0) / (0 + 1) < n1; omega⟩
    | ⟨2, _⟩ => exact ⟨Nat.zero_le _, by show (c.val - 0) % (0 + 1) = 0; omega, by show (c.val - 0) / (0 + 1) < n2; omega⟩
  unfold pad
  rw [dif_pos hin]
  refine congrArg x (funext fun d => Fin.ext ?_)
  match d with
  | ⟨0, _⟩ => show (a.val - 0) / (0 + 1) = a.val; omega
  | ⟨1, _⟩ => show (b.val - 0) / (0 + 1) = b.val; omega
  | ⟨2, _⟩ => show (c.val - 0) / (0 + 1) = c.val; omega

end Cert.PadSplit

end
-- ==== Proof.RefRun.lean ====
/-
  The reference program's run.

  The program's line, read stretch by stretch, leaves in the result buffer the whole-array function `out` of the
  seven argument arrays, and leaves the argument arrays as they were; every weakly fair execution of the program
  terminates in such a state.
-/
import proofs.«160962_j23227183137544_1_alg».proof.Proof.RefRead
import proofs.«160962_j23227183137544_1_alg».proof.Proof.LibPadSplit
import proofs.«160962_j23227183137544_1_alg».proof.Proof.Gen.Pre_finite_inputs
import proofs.«160962_j23227183137544_1_alg».proof.Defs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem opsS0_fresh : (opsS0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem opsS1_fresh : (opsS1 : List (HloOp τ sig (Elt F))).Forall fun op => op.fresh = ∅ :=
  ⟨rfl, rfl, rfl, rfl, rfl, rfl, rfl, rfl, rfl, rfl, rfl, rfl, rfl, rfl, rfl, rfl, rfl⟩

theorem opsS2_fresh : (opsS2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsS3_fresh : (opsS3 : List (HloOp τ sig (Elt F))).Forall fun op => op.fresh = ∅ :=
  ⟨rfl, rfl, rfl, rfl, rfl, rfl, rfl, rfl, rfl, rfl, rfl, rfl, rfl, rfl, rfl, rfl, rfl, rfl⟩

theorem opsS4_fresh : (opsS4 : List (HloOp τ sig (Elt F))).Forall fun op => op.fresh = ∅ :=
  ⟨rfl, rfl, rfl, rfl, rfl, rfl, rfl, rfl, rfl, rfl, rfl, rfl, rfl, rfl, rfl, rfl, rfl⟩

theorem opsS5_fresh : (opsS5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsS6_fresh : (opsS6 : List (HloOp τ sig (Elt F))).Forall fun op => op.fresh = ∅ :=
  ⟨rfl, rfl, rfl, rfl, rfl, rfl, rfl, rfl, rfl, rfl, rfl⟩

theorem opsS7_fresh : (opsS7 : List (HloOp τ sig (Elt F))).Forall fun op => op.fresh = ∅ :=
  ⟨rfl, rfl, rfl, rfl, rfl, rfl, rfl, rfl, rfl, rfl, rfl, rfl, rfl, rfl, rfl, rfl, rfl⟩

theorem opsS8_fresh : (opsS8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsS9_fresh : (opsS9 : List (HloOp τ sig (Elt F))).Forall fun op => op.fresh = ∅ :=
  ⟨rfl, rfl, rfl, rfl⟩

theorem opsS10_fresh : (opsS10 : List (HloOp τ sig (Elt F))).Forall fun op => op.fresh = ∅ :=
  ⟨rfl, rfl, rfl, rfl, rfl⟩

/-- Every operation determines its results. -/
theorem ops_fresh : ∀ op ∈ (ops : List (HloOp τ sig (Elt F))), op.fresh = ∅ := by
  intro op h
  simp only [ops, opsP0, opsP1, opsP2, opsP3, List.mem_append, or_assoc] at h
  rcases h with h | h | h | h | h | h | h | h | h | h | h
  exacts [List.forall_iff_forall_mem.1 opsS0_fresh op h, List.forall_iff_forall_mem.1 opsS1_fresh op h, List.forall_iff_forall_mem.1 opsS2_fresh op h, List.forall_iff_forall_mem.1 opsS3_fresh op h, List.forall_iff_forall_mem.1 opsS4_fresh op h, List.forall_iff_forall_mem.1 opsS5_fresh op h, List.forall_iff_forall_mem.1 opsS6_fresh op h, List.forall_iff_forall_mem.1 opsS7_fresh op h, List.forall_iff_forall_mem.1 opsS8_fresh op h, List.forall_iff_forall_mem.1 opsS9_fresh op h, List.forall_iff_forall_mem.1 opsS10_fresh op h]

/-- The whole line is the eleven stretches one after the other. -/
theorem after_ops_eq (V : Valuation τ sig (Elt F)) :
    after ops V = after opsS10 (after opsS9 (after opsS8 (after opsS7 (after opsS6 (after opsS5 (after opsS4 (after opsS3 (after opsS2 (after opsS1 (after opsS0 (V))))))))))) := by
  simp only [ops, opsP0, opsP1, opsP2, opsP3, Cert.PadSplit.after_append]

set_option maxHeartbeats 4000000 in
/-- The result buffer after the whole line. -/
theorem read_out (V : Valuation τ sig (Elt F)) :
    after ops V (Proc.devRef .tc main_v160)
      = out (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops_eq]
  rw [S10_tail,
    S9_keep _ main_arg0 (by decide),
    S9_keep _ main_v63 (by decide),
    S9_keep _ main_v109 (by decide),
    S89_post,
    S8_keep _ main_arg0 (by decide),
    S8_keep _ main_v63 (by decide),
    S8_keep _ main_v109 (by decide),
    S7_agg,
    S7_keep _ main_arg1 (by decide),
    S7_keep _ main_arg2 (by decide),
    S7_keep _ main_arg3 (by decide),
    S7_keep _ main_arg4 (by decide),
    S7_keep _ main_arg0 (by decide),
    S7_keep _ main_v63 (by decide),
    S7_keep _ main_v109 (by decide),
    S6_keep _ main_v1 (by decide),
    S6_keep _ main_v2 (by decide),
    S6_keep _ main_v13 (by decide),
    S6_keep _ main_v17 (by decide),
    S56_post,
    S6_keep _ main_arg1 (by decide),
    S6_keep _ main_arg2 (by decide),
    S6_keep _ main_arg3 (by decide),
    S6_keep _ main_arg4 (by decide),
    S6_keep _ main_arg0 (by decide),
    S6_keep _ main_v63 (by decide),
    S5_keep _ main_v1 (by decide),
    S5_keep _ main_v2 (by decide),
    S5_keep _ main_v13 (by decide),
    S5_keep _ main_v17 (by decide),
    S5_keep _ main_arg1 (by decide),
    S5_keep _ main_arg2 (by decide),
    S5_keep _ main_arg3 (by decide),
    S5_keep _ main_arg4 (by decide),
    S5_keep _ main_arg0 (by decide),
    S5_keep _ main_v63 (by decide),
    S4_agg,
    S4_keep _ main_arg1 (by decide),
    S4_keep _ main_arg2 (by decide),
    S4_keep _ main_arg3 (by decide),
    S4_keep _ main_arg4 (by decide),
    S4_keep _ main_v1 (by decide),
    S4_keep _ main_v2 (by decide),
    S4_keep _ main_v13 (by decide),
    S4_keep _ main_v17 (by decide),
    S4_keep _ main_arg0 (by decide),
    S4_keep _ main_v63 (by decide),
    S3_keep _ main_v1 (by decide),
    S3_keep _ main_v2 (by decide),
    S3_keep _ main_v13 (by decide),
    S3_keep _ main_v17 (by decide),
    S23_post,
    S3_keep _ main_arg1 (by decide),
    S3_keep _ main_arg2 (by decide),
    S3_keep _ main_arg3 (by decide),
    S3_keep _ main_arg4 (by decide),
    S3_keep _ main_arg0 (by decide),
    S2_keep _ main_v1 (by decide),
    S2_keep _ main_v2 (by decide),
    S2_keep _ main_v13 (by decide),
    S2_keep _ main_v17 (by decide),
    S2_keep _ main_arg1 (by decide),
    S2_keep _ main_arg2 (by decide),
    S2_keep _ main_arg3 (by decide),
    S2_keep _ main_arg4 (by decide),
    S2_keep _ main_arg0 (by decide),
    S1_agg,
    S1_keep _ main_arg1 (by decide),
    S1_keep _ main_arg2 (by decide),
    S1_keep _ main_arg3 (by decide),
    S1_keep _ main_arg4 (by decide),
    S1_keep _ main_v1 (by decide),
    S1_keep _ main_v2 (by decide),
    S1_keep _ main_v13 (by decide),
    S1_keep _ main_v17 (by decide),
    S1_keep _ main_arg0 (by decide),
    S0_v1,
    S0_v2,
    S0_v13,
    S0_v17,
    S0_keep _ main_arg0 (by decide),
    S0_keep _ main_arg1 (by decide),
    S0_keep _ main_arg2 (by decide),
    S0_keep _ main_arg3 (by decide),
    S0_keep _ main_arg4 (by decide)]
  rfl

theorem read_arg0 (V : Valuation τ sig (Elt F)) :
    after ops V (Proc.devRef .tc main_arg0) = V (Proc.devRef .tc main_arg0) := by
  rw [after_ops_eq, S10_keep _ main_arg0 (by decide), S9_keep _ main_arg0 (by decide), S8_keep _ main_arg0 (by decide), S7_keep _ main_arg0 (by decide), S6_keep _ main_arg0 (by decide), S5_keep _ main_arg0 (by decide), S4_keep _ main_arg0 (by decide), S3_keep _ main_arg0 (by decide), S2_keep _ main_arg0 (by decide), S1_keep _ main_arg0 (by decide), S0_keep _ main_arg0 (by decide)]

theorem read_arg1 (V : Valuation τ sig (Elt F)) :
    after ops V (Proc.devRef .tc main_arg1) = V (Proc.devRef .tc main_arg1) := by
  rw [after_ops_eq, S10_keep _ main_arg1 (by decide), S9_keep _ main_arg1 (by decide), S8_keep _ main_arg1 (by decide), S7_keep _ main_arg1 (by decide), S6_keep _ main_arg1 (by decide), S5_keep _ main_arg1 (by decide), S4_keep _ main_arg1 (by decide), S3_keep _ main_arg1 (by decide), S2_keep _ main_arg1 (by decide), S1_keep _ main_arg1 (by decide), S0_keep _ main_arg1 (by decide)]

theorem read_arg2 (V : Valuation τ sig (Elt F)) :
    after ops V (Proc.devRef .tc main_arg2) = V (Proc.devRef .tc main_arg2) := by
  rw [after_ops_eq, S10_keep _ main_arg2 (by decide), S9_keep _ main_arg2 (by decide), S8_keep _ main_arg2 (by decide), S7_keep _ main_arg2 (by decide), S6_keep _ main_arg2 (by decide), S5_keep _ main_arg2 (by decide), S4_keep _ main_arg2 (by decide), S3_keep _ main_arg2 (by decide), S2_keep _ main_arg2 (by decide), S1_keep _ main_arg2 (by decide), S0_keep _ main_arg2 (by decide)]

theorem read_arg3 (V : Valuation τ sig (Elt F)) :
    after ops V (Proc.devRef .tc main_arg3) = V (Proc.devRef .tc main_arg3) := by
  rw [after_ops_eq, S10_keep _ main_arg3 (by decide), S9_keep _ main_arg3 (by decide), S8_keep _ main_arg3 (by decide), S7_keep _ main_arg3 (by decide), S6_keep _ main_arg3 (by decide), S5_keep _ main_arg3 (by decide), S4_keep _ main_arg3 (by decide), S3_keep _ main_arg3 (by decide), S2_keep _ main_arg3 (by decide), S1_keep _ main_arg3 (by decide), S0_keep _ main_arg3 (by decide)]

theorem read_arg4 (V : Valuation τ sig (Elt F)) :
    after ops V (Proc.devRef .tc main_arg4) = V (Proc.devRef .tc main_arg4) := by
  rw [after_ops_eq, S10_keep _ main_arg4 (by decide), S9_keep _ main_arg4 (by decide), S8_keep _ main_arg4 (by decide), S7_keep _ main_arg4 (by decide), S6_keep _ main_arg4 (by decide), S5_keep _ main_arg4 (by decide), S4_keep _ main_arg4 (by decide), S3_keep _ main_arg4 (by decide), S2_keep _ main_arg4 (by decide), S1_keep _ main_arg4 (by decide), S0_keep _ main_arg4 (by decide)]

theorem read_arg5 (V : Valuation τ sig (Elt F)) :
    after ops V (Proc.devRef .tc main_arg5) = V (Proc.devRef .tc main_arg5) := by
  rw [after_ops_eq, S10_keep _ main_arg5 (by decide), S9_keep _ main_arg5 (by decide), S8_keep _ main_arg5 (by decide), S7_keep _ main_arg5 (by decide), S6_keep _ main_arg5 (by decide), S5_keep _ main_arg5 (by decide), S4_keep _ main_arg5 (by decide), S3_keep _ main_arg5 (by decide), S2_keep _ main_arg5 (by decide), S1_keep _ main_arg5 (by decide), S0_keep _ main_arg5 (by decide)]

theorem read_arg6 (V : Valuation τ sig (Elt F)) :
    after ops V (Proc.devRef .tc main_arg6) = V (Proc.devRef .tc main_arg6) := by
  rw [after_ops_eq, S10_keep _ main_arg6 (by decide), S9_keep _ main_arg6 (by decide), S8_keep _ main_arg6 (by decide), S7_keep _ main_arg6 (by decide), S6_keep _ main_arg6 (by decide), S5_keep _ main_arg6 (by decide), S4_keep _ main_arg6 (by decide), S3_keep _ main_arg6 (by decide), S2_keep _ main_arg6 (by decide), S1_keep _ main_arg6 (by decide), S0_keep _ main_arg6 (by decide)]

/-- On every device, from any memory with zero counters: every weakly fair execution of the program terminates with the
    result buffer at `out` of the argument arrays and the argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v160) = out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v160).trans (read_out (launchContents m c)),
      (h c main_arg0).trans (read_arg0 (launchContents m c)),
      (h c main_arg1).trans (read_arg1 (launchContents m c)),
      (h c main_arg2).trans (read_arg2 (launchContents m c)),
      (h c main_arg3).trans (read_arg3 (launchContents m c)),
      (h c main_arg4).trans (read_arg4 (launchContents m c)),
      (h c main_arg5).trans (read_arg5 (launchContents m c)),
      (h c main_arg6).trans (read_arg6 (launchContents m c))⟩)
    (run_seq scopedRefs_eq scopedSems_eq defs main (fun _ => ops) main_eq (fun _ => ops_sub) m ρ (fun _ => ops_fresh))

/-- The program runs and its argument arrays end unchanged. -/
theorem frame_ri [hPre : Cert.Pre_finite_inputs.Facts] : Cert.frame_ReferenceIdeal (hReferenceIdeal := Cert.ReferenceIdeal.Gen.facts) :=
  fun m g _ => (θ_run _ _ _).mono (fun _ h c => (h c).2) (run (F := Ideal) m g)

end Cert.ReferenceIdeal.RefRun

end
-- ==== Proof.KITail.lean ====
/-
  The last stretch of host operations of @main: each of the four arrays (the input features and the three layers'
  results) laid out as one slab [1, 100000, 128], and the four slabs concatenated along the new first axis.  The
  stacked array after the stretch is that one term of the four arrays' contents before it, whatever the contents of
  the other buffers.
-/
import proofs.«160962_j23227183137544_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.StableHlo

variable {F : FTy → Type} [FloatOps F]

/-- The four arrays stacked: each laid out as one slab, the slabs concatenated along the first axis. -/
def tailK (x h1 h2 h3 : (⟨S100000x128, .f32⟩ : BufTy).Contents (Elt F)) : (⟨S4x100000x128, .f32⟩ : BufTy).Contents (Elt F) :=
  concatenate S4x100000x128 0
    [⟨S1x100000x128, broadcastInDim S1x100000x128 ![1, 2] bcast_S100000x128_S1x100000x128_1_2 x⟩,
     ⟨S1x100000x128, broadcastInDim S1x100000x128 ![1, 2] bcast_S100000x128_S1x100000x128_1_2 h1⟩,
     ⟨S1x100000x128, broadcastInDim S1x100000x128 ![1, 2] bcast_S100000x128_S1x100000x128_1_2 h2⟩,
     ⟨S1x100000x128, broadcastInDim S1x100000x128 ![1, 2] bcast_S100000x128_S1x100000x128_1_2 h3⟩]
    concatenates_S1x100000x128_S1x100000x128_S1x100000x128_S1x100000x128_S4x100000x128_d0

/-- After the last stretch, from any contents `W`: the stacked array is `tailK` of the four arrays as `W` has them. -/
theorem after6_out (W : Valuation τ sig (Elt F)) :
    StableHlo.after hostOps6 W (Proc.devRef .tc main_v142)
      = tailK (W (Proc.devRef .tc main_arg0)) (W (Proc.devRef .tc main_v57)) (W (Proc.devRef .tc main_v97))
          (W (Proc.devRef .tc main_v137)) := by
  after_results
  rfl

end Cert.KernelIdeal.Hand

end
-- ==== Proof.KITailRun.lean ====
/-
  The stacked result of @main in terms of the contents at the region boundaries: the last stretch stacks the input
  features and the three layers' results as the last region's exit has them; no later region and no later stretch of
  host operations writes a layer's result or the input features, so each is what its own region's exit (or the launch
  memory) holds; and each layer's result at its region's exit is the output array the region's write-backs leave.
-/
import proofs.«160962_j23227183137544_1_alg».proof.Proof.KIRun
import proofs.«160962_j23227183137544_1_alg».proof.Proof.KITail

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The stacked array at the end of @main: the four arrays as the last region's exit has them, stacked. -/
theorem W13_out (c : Dev nD) :
    W13 m c (Proc.devRef .tc main_v142)
      = tailK (W12 m c (Proc.devRef .tc main_arg0)) (W12 m c (Proc.devRef .tc main_v57)) (W12 m c (Proc.devRef .tc main_v97)) (W12 m c (Proc.devRef .tc main_v137)) :=
  after6_out (W12 m c)

/-- The input features are still the launch memory's at the last region's exit. -/
theorem W12_main_arg0 (c : Dev nD) : W12 m c (Proc.devRef .tc main_arg0) = m ((c : Thread nD τ).loc main_arg0) :=
  calc W12 m c (Proc.devRef .tc main_arg0)
    _ = W11 m c (Proc.devRef .tc main_arg0) := W12_of_ne m c main_arg0 (by decide)
    _ = W10 m c (Proc.devRef .tc main_arg0) := StableHlo.after_of_writes_sub hostOps5 _ hostOps5_writes (by decide)
    _ = W9 m c (Proc.devRef .tc main_arg0) := W10_of_ne m c main_arg0 (by decide)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- Layer 0's result is not written after region 1's exit. -/
theorem W12_main_v57 (c : Dev nD) : W12 m c (Proc.devRef .tc main_v57) = W4 m c (Proc.devRef .tc main_v57) :=
  calc W12 m c (Proc.devRef .tc main_v57)
    _ = W11 m c (Proc.devRef .tc main_v57) := W12_of_ne m c main_v57 (by decide)
    _ = W10 m c (Proc.devRef .tc main_v57) := StableHlo.after_of_writes_sub hostOps5 _ hostOps5_writes (by decide)
    _ = W9 m c (Proc.devRef .tc main_v57) := W10_of_ne m c main_v57 (by decide)
    _ = W8 m c (Proc.devRef .tc main_v57) := StableHlo.after_of_writes_sub hostOps4 _ hostOps4_writes (by decide)
    _ = W7 m c (Proc.devRef .tc main_v57) := W8_of_ne m c main_v57 (by decide)
    _ = W6 m c (Proc.devRef .tc main_v57) := StableHlo.after_of_writes_sub hostOps3 _ hostOps3_writes (by decide)
    _ = W5 m c (Proc.devRef .tc main_v57) := W6_of_ne m c main_v57 (by decide)
    _ = W4 m c (Proc.devRef .tc main_v57) := StableHlo.after_of_writes_sub hostOps2 _ hostOps2_writes (by decide)

/-- Layer 1's result is not written after region 3's exit. -/
theorem W12_main_v97 (c : Dev nD) : W12 m c (Proc.devRef .tc main_v97) = W8 m c (Proc.devRef .tc main_v97) :=
  calc W12 m c (Proc.devRef .tc main_v97)
    _ = W11 m c (Proc.devRef .tc main_v97) := W12_of_ne m c main_v97 (by decide)
    _ = W10 m c (Proc.devRef .tc main_v97) := StableHlo.after_of_writes_sub hostOps5 _ hostOps5_writes (by decide)
    _ = W9 m c (Proc.devRef .tc main_v97) := W10_of_ne m c main_v97 (by decide)
    _ = W8 m c (Proc.devRef .tc main_v97) := StableHlo.after_of_writes_sub hostOps4 _ hostOps4_writes (by decide)

/-- Each layer's result at its region's exit is the output array the region's write-backs leave. -/
theorem W4_main_v57 (c : Dev nD) : W4 m c (Proc.devRef .tc main_v57) = (dat1 (U3 m) c).arrAt 5 cfg1.N := W4_arr m c 5
theorem W8_main_v97 (c : Dev nD) : W8 m c (Proc.devRef .tc main_v97) = (dat3 (U7 m) c).arrAt 5 cfg3.N := W8_arr m c 5
theorem W12_main_v137 (c : Dev nD) : W12 m c (Proc.devRef .tc main_v137) = (dat5 (U11 m) c).arrAt 5 cfg5.N := W12_arr m c 5

end Cert.KernelIdeal.Hand

end
-- ==== Proof.KBPay.lean ====
/-
  The arithmetic of the three normalise-and-rectify kernels, read at one entry on the extended reals: the entry of
  the block less the mean of its column, times the stored reciprocal standard deviation of the column, times the
  scale of the column, plus the shift of the column, and the maximum of that with zero.  The four one-row arrays are
  repeated down the rows by the vector unit; the same-shape casts are the identity.
-/
import proofs.«160962_j23227183137544_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The vector unit's form of the normalisation with a stored reciprocal standard deviation, at any extents: each
    one-row array repeated down the rows, and the maximum with a zero splat. -/
theorem vecNormRelu_apply {M K : ℕ} (Y : FVec Ideal ⟨2, ![M, K]⟩ .f32) (mu inv ga be : FVec Ideal ⟨2, ![1, K]⟩ .f32)
    (hb : (⟨2, ![1, K]⟩ : Shape).Broadcasts ⟨2, ![M, K]⟩) (p : Fin M) (q : Fin K) :
    maximumf
        (addf
          (mulf
            (mulf (subf Y (broadcastTo ⟨2, ![M, K]⟩ mu hb)) (broadcastTo ⟨2, ![M, K]⟩ inv hb))
            (broadcastTo ⟨2, ![M, K]⟩ ga hb))
          (broadcastTo ⟨2, ![M, K]⟩ be hb))
        (broadcast ⟨2, ![M, K]⟩ (Scalar.ofBits (F := Ideal) .f32 0x00000000#32)) (ix2 p q)
      = max ((((Y (ix2 p q) - mu (ix2 (0 : Fin 1) q)) * inv (ix2 (0 : Fin 1) q)) * ga (ix2 (0 : Fin 1) q))
          + be (ix2 (0 : Fin 1) q)) 0 := by
  show max
      ((((Y (ix2 p q) - broadcastTo ⟨2, ![M, K]⟩ mu hb (ix2 p q))
          * broadcastTo ⟨2, ![M, K]⟩ inv hb (ix2 p q))
        * broadcastTo ⟨2, ![M, K]⟩ ga hb (ix2 p q))
        + broadcastTo ⟨2, ![M, K]⟩ be hb (ix2 p q))
      (Ideal.ofBits .f32 0x00000000#32) = _
  rw [broadcastTo_1b_ab_apply, broadcastTo_1b_ab_apply, broadcastTo_1b_ab_apply, broadcastTo_1b_ab_apply,
    Ideal.ofBits_zero_f32]

/-- The body of the normalise-and-rectify kernel of layer 0, at an entry. -/
theorem k1_pay1_apply (z : FVec Ideal S10000x128 .f32) (mu inv ga be : FVec Ideal S1x128 .f32) (r : Fin 10000) (q : Fin 128) :
    k1_pay1 (F := Ideal) z mu inv ga be (ix2 r q)
      = max ((((z (ix2 r q) - mu (ix2 (0 : Fin 1) q)) * inv (ix2 (0 : Fin 1) q)) * ga (ix2 (0 : Fin 1) q))
          + be (ix2 (0 : Fin 1) q)) 0 := by
  unfold k1_pay1
  simp only [shapeCast_self]
  exact vecNormRelu_apply z mu inv ga be broadcasts_S1x128_S10000x128 r q

/-- The body of the normalise-and-rectify kernel of layer 1, at an entry. -/
theorem k3_pay1_apply (z : FVec Ideal S10000x128 .f32) (mu inv ga be : FVec Ideal S1x128 .f32) (r : Fin 10000) (q : Fin 128) :
    k3_pay1 (F := Ideal) z mu inv ga be (ix2 r q)
      = max ((((z (ix2 r q) - mu (ix2 (0 : Fin 1) q)) * inv (ix2 (0 : Fin 1) q)) * ga (ix2 (0 : Fin 1) q))
          + be (ix2 (0 : Fin 1) q)) 0 := by
  unfold k3_pay1
  simp only [shapeCast_self]
  exact vecNormRelu_apply z mu inv ga be broadcasts_S1x128_S10000x128 r q

/-- The body of the normalise-and-rectify kernel of layer 2, at an entry. -/
theorem k5_pay1_apply (z : FVec Ideal S10000x128 .f32) (mu inv ga be : FVec Ideal S1x128 .f32) (r : Fin 10000) (q : Fin 128) :
    k5_pay1 (F := Ideal) z mu inv ga be (ix2 r q)
      = max ((((z (ix2 r q) - mu (ix2 (0 : Fin 1) q)) * inv (ix2 (0 : Fin 1) q)) * ga (ix2 (0 : Fin 1) q))
          + be (ix2 (0 : Fin 1) q)) 0 := by
  unfold k5_pay1
  simp only [shapeCast_self]
  exact vecNormRelu_apply z mu inv ga be broadcasts_S1x128_S10000x128 r q

end Cert.KernelIdeal.Hand

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.KBPoint.lean ====
/-
  The whole-array function the normalise-and-rectify kernels compute, with the reciprocal standard deviations taken
  as STORED (one per column): at (p, q), max (((Z(p,q) − μ q) · s q) · γ q + β q, 0).  One entry of a kernel's body on a
  block of rows is this function at the array index the block's entry comes from: the entry depends on the array's
  entry there and on the four one-row arrays at its column only.
-/
import proofs.«160962_j23227183137544_1_alg».proof.Proof.KBPay
import proofs.«160962_j23227183137544_1_alg».proof.Proof.LibDense
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx
open Cert.Dense

/-- The zero offsets of a rank-2 rectangle, however spelt. -/
theorem hz2 : (![0, 0] : Fin 2 → Nat) = fun _ => 0 := funext fun a => by fin_cases a <;> rfl

/-- The normalised, scaled, shifted and rectified array with the reciprocal standard deviations stored. -/
def normStored (Z : Mat 100000 128) (mu inv ga be : Mat 1 128) : Mat 100000 128 :=
  fun i => max ((((Z i - mu (ix2 (0 : Fin 1) (c1 i))) * inv (ix2 (0 : Fin 1) (c1 i))) * ga (ix2 (0 : Fin 1) (c1 i)))
    + be (ix2 (0 : Fin 1) (c1 i))) 0

theorem normStored_apply (Z : Mat 100000 128) (mu inv ga be : Mat 1 128) (i : S100000x128.Idx) :
    normStored Z mu inv ga be i
      = max ((((Z i - mu (ix2 (0 : Fin 1) (c1 i))) * inv (ix2 (0 : Fin 1) (c1 i))) * ga (ix2 (0 : Fin 1) (c1 i)))
          + be (ix2 (0 : Fin 1) (c1 i))) 0 := rfl

/-- One entry of a point's result in the normalise-and-rectify kernel of layer 0: the body at block index `j` is
    the whole-array function at array index `i`, when the block's entry is the array's there, the columns agree, and the
    four one-row blocks are the four one-row arrays. -/
theorem point1 (x0 : Vec Ideal S10000x128 .f32) (x1 x2 x3 x4 : Vec Ideal S1x128 .f32) (Z : Mat 100000 128)
    (mu inv ga be : Mat 1 128) (j : S10000x128.Idx) (i : S100000x128.Idx)
    (h0 : x0 j = Z i) (hc : (j 1).val = (i 1).val)
    (h1 : ∀ q : Fin 128, x1 (ix2 (0 : Fin 1) q) = mu (ix2 (0 : Fin 1) q))
    (h2 : ∀ q : Fin 128, x2 (ix2 (0 : Fin 1) q) = inv (ix2 (0 : Fin 1) q))
    (h3 : ∀ q : Fin 128, x3 (ix2 (0 : Fin 1) q) = ga (ix2 (0 : Fin 1) q))
    (h4 : ∀ q : Fin 128, x4 (ix2 (0 : Fin 1) q) = be (ix2 (0 : Fin 1) q)) :
    k1_pay1 (F := Ideal) x0 x1 x2 x3 x4 j = normStored Z mu inv ga be i := by
  obtain ⟨r, q, rfl⟩ : ∃ (r : Fin 10000) (q : Fin 128), j = ix2 r q := ⟨j 0, j 1, eq_ix2 j⟩
  have hq : c1 i = q := Fin.ext hc.symm
  rw [k1_pay1_apply, h0, h1, h2, h3, h4]
  unfold normStored
  rw [hq]

/-- One entry of a point's result in the normalise-and-rectify kernel of layer 1: the body at block index `j` is
    the whole-array function at array index `i`, when the block's entry is the array's there, the columns agree, and the
    four one-row blocks are the four one-row arrays. -/
theorem point3 (x0 : Vec Ideal S10000x128 .f32) (x1 x2 x3 x4 : Vec Ideal S1x128 .f32) (Z : Mat 100000 128)
    (mu inv ga be : Mat 1 128) (j : S10000x128.Idx) (i : S100000x128.Idx)
    (h0 : x0 j = Z i) (hc : (j 1).val = (i 1).val)
    (h1 : ∀ q : Fin 128, x1 (ix2 (0 : Fin 1) q) = mu (ix2 (0 : Fin 1) q))
    (h2 : ∀ q : Fin 128, x2 (ix2 (0 : Fin 1) q) = inv (ix2 (0 : Fin 1) q))
    (h3 : ∀ q : Fin 128, x3 (ix2 (0 : Fin 1) q) = ga (ix2 (0 : Fin 1) q))
    (h4 : ∀ q : Fin 128, x4 (ix2 (0 : Fin 1) q) = be (ix2 (0 : Fin 1) q)) :
    k3_pay1 (F := Ideal) x0 x1 x2 x3 x4 j = normStored Z mu inv ga be i := by
  obtain ⟨r, q, rfl⟩ : ∃ (r : Fin 10000) (q : Fin 128), j = ix2 r q := ⟨j 0, j 1, eq_ix2 j⟩
  have hq : c1 i = q := Fin.ext hc.symm
  rw [k3_pay1_apply, h0, h1, h2, h3, h4]
  unfold normStored
  rw [hq]

/-- One entry of a point's result in the normalise-and-rectify kernel of layer 2: the body at block index `j` is
    the whole-array function at array index `i`, when the block's entry is the array's there, the columns agree, and the
    four one-row blocks are the four one-row arrays. -/
theorem point5 (x0 : Vec Ideal S10000x128 .f32) (x1 x2 x3 x4 : Vec Ideal S1x128 .f32) (Z : Mat 100000 128)
    (mu inv ga be : Mat 1 128) (j : S10000x128.Idx) (i : S100000x128.Idx)
    (h0 : x0 j = Z i) (hc : (j 1).val = (i 1).val)
    (h1 : ∀ q : Fin 128, x1 (ix2 (0 : Fin 1) q) = mu (ix2 (0 : Fin 1) q))
    (h2 : ∀ q : Fin 128, x2 (ix2 (0 : Fin 1) q) = inv (ix2 (0 : Fin 1) q))
    (h3 : ∀ q : Fin 128, x3 (ix2 (0 : Fin 1) q) = ga (ix2 (0 : Fin 1) q))
    (h4 : ∀ q : Fin 128, x4 (ix2 (0 : Fin 1) q) = be (ix2 (0 : Fin 1) q)) :
    k5_pay1 (F := Ideal) x0 x1 x2 x3 x4 j = normStored Z mu inv ga be i := by
  obtain ⟨r, q, rfl⟩ : ∃ (r : Fin 10000) (q : Fin 128), j = ix2 r q := ⟨j 0, j 1, eq_ix2 j⟩
  have hq : c1 i = q := Fin.ext hc.symm
  rw [k5_pay1_apply, h0, h1, h2, h3, h4]
  unfold normStored
  rw [hq]

end Cert.KernelIdeal.Hand

end
-- ==== Proof.KIValB1.lean ====
/-
  The value of region 1 of @main (the normalise-and-rectify kernel of layer 0) as ONE function of the arrays
  the region is entered with: what each grid point writes back is its block of ten thousand rows of
  max (((Z − μ)·s)·γ + β, 0), the ten blocks tile the hundred thousand rows, so the output array ends holding that
  function of the product array Z and the four one-row arrays (mean, stored reciprocal standard deviation, scale,
  shift), index by index.
-/
import proofs.«160962_j23227183137544_1_alg».proof.Proof.KIRegB1
import proofs.«160962_j23227183137544_1_alg».proof.Proof.KBPoint
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Dense

variable (V : (c : Dev nD) → (b : Ref sig .tc) → Buf (Elt Ideal) ((c : Thread nD τ).loc b))

/-- The printed index maps, decided over the grid: the product array's window and the output's move together, one
    block of rows per point; the four one-row windows stay at block zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the whole-array function of the arrays as the region finds them. -/
theorem flushed1_5_eq (c : Dev nD) (t : Fin cfg1.N) :
    (dat1 V c).flushed 5 t = ((cfg1.win 5).blk t).view.read (Elt Ideal)
      (normStored (V c main_v37_0) (V c main_v53) (V c main_v54) (V c main_v55) (V c main_v56)) := by
  show (cfg1.win 5).cut (grid1.coords t) ((dat1 V c).after 5 t) = _
  rw [after1_5]
  unfold out1_5
  rw [View.canon_unit_zero hz2]
  simp only [View.ld_unit_zero (S := S10000x128) hz2, View.ld_unit_zero (S := S1x128) hz2]
  obtain ⟨e00, e01, e10, e11, e20, e21, e30, e31, e40, e41, e50, e51⟩ := idx1 t
  funext j
  show k1_pay1 (F := Ideal) (iblk1 V c 0 t) (iblk1 V c 1 t) (iblk1 V c 2 t) (iblk1 V c 3 t) (iblk1 V c 4 t) j
    = normStored (V c main_v37_0) (V c main_v53) (V c main_v54) (V c main_v55) (V c main_v56) (((cfg1.win 5).blk t).view.emb j)
  refine point1 (iblk1 V c 0 t) (iblk1 V c 1 t) (iblk1 V c 2 t) (iblk1 V c 3 t) (iblk1 V c 4 t)
    (V c main_v37_0) (V c main_v53) (V c main_v54) (V c main_v55) (V c main_v56) j (((cfg1.win 5).blk t).view.emb j) ?_ ?_ ?_ ?_ ?_ ?_
  · show V c main_v37_0 (((cfg1.win 0).blk t).view.emb j) = V c main_v37_0 (((cfg1.win 5).blk t).view.emb j)
    refine congrArg _ (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 128 + 1 * (j 1).val = win1_5.index t (1 : Fin 2) * 128 + 1 * (j 1).val; omega
  · show (j 1).val = win1_5.index t (1 : Fin 2) * 128 + 1 * (j 1).val
    omega
  · intro q
    show V c main_v53 (((cfg1.win 1).blk t).view.emb (ix2 (0 : Fin 1) q)) = V c main_v53 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · intro q
    show V c main_v54 (((cfg1.win 2).blk t).view.emb (ix2 (0 : Fin 1) q)) = V c main_v54 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · intro q
    show V c main_v55 (((cfg1.win 3).blk t).view.emb (ix2 (0 : Fin 1) q)) = V c main_v55 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · intro q
    show V c main_v56 (((cfg1.win 4).blk t).view.emb (ix2 (0 : Fin 1) q)) = V c main_v56 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

/-- An index of the output array is in point `t`'s block iff each coordinate is in the block's range on its axis. -/
theorem mem_blk1_5 (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v57).slice (win1_5.rect t)).set ↔ _
  rw [View.set_slice_whole, Rect.mem_set_unit]
  exact Iff.rfl

/-- The ten blocks of rows tile the array: row `r` is in the block of point `r / 10000`. -/
theorem covered1_5 (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  have hN : (i 0).val / 10000 < grid1.N := by rw [N_1]; omega
  obtain ⟨e00, e01, e10, e11, e20, e21, e30, e31, e40, e41, e50, e51⟩ := idx1 ⟨(i 0).val / 10000, hN⟩
  refine ⟨⟨(i 0).val / 10000, hN⟩, flush1_5 _, ?_⟩
  rw [mem_blk1_5]
  intro a
  match a with
  | ⟨0, _⟩ =>
    show win1_5.index ⟨(i 0).val / 10000, hN⟩ (0 : Fin 2) * 10000 ≤ (i 0).val
      ∧ (i 0).val < win1_5.index ⟨(i 0).val / 10000, hN⟩ (0 : Fin 2) * 10000 + 10000
    rw [e50]
    show (i 0).val / 10000 * 10000 ≤ (i 0).val ∧ (i 0).val < (i 0).val / 10000 * 10000 + 10000
    omega
  | ⟨1, _⟩ =>
    show win1_5.index ⟨(i 0).val / 10000, hN⟩ (1 : Fin 2) * 128 ≤ (i 1).val
      ∧ (i 1).val < win1_5.index ⟨(i 0).val / 10000, hN⟩ (1 : Fin 2) * 128 + 128
    rw [e51]
    omega

/-- THE OUTPUT ARRAY after the region: the whole-array function of the arrays the region is entered with. -/
theorem arrAt1_5 (c : Dev nD) :
    (dat1 V c).arrAt 5 cfg1.N = normStored (V c main_v37_0) (V c main_v53) (V c main_v54) (V c main_v55) (V c main_v56) :=
  (dat1 V c).arrAt_eq_of_cover 5 _ (fun t _ => flushed1_5_eq V c t) (covered1_5)

/-- The same at an index (`normStored_apply` writes the function out). -/
theorem arrAt1_5_apply (c : Dev nD) (i : S100000x128.Idx) :
    (dat1 V c).arrAt 5 cfg1.N i = normStored (V c main_v37_0) (V c main_v53) (V c main_v54) (V c main_v55) (V c main_v56) i :=
  congrFun (arrAt1_5 V c) i

end Cert.KernelIdeal.Hand

end
-- ==== Proof.KIValB3.lean ====
/-
  The value of region 3 of @main (the normalise-and-rectify kernel of layer 1) as ONE function of the arrays
  the region is entered with: what each grid point writes back is its block of ten thousand rows of
  max (((Z − μ)·s)·γ + β, 0), the ten blocks tile the hundred thousand rows, so the output array ends holding that
  function of the product array Z and the four one-row arrays (mean, stored reciprocal standard deviation, scale,
  shift), index by index.
-/
import proofs.«160962_j23227183137544_1_alg».proof.Proof.KIRegB3
import proofs.«160962_j23227183137544_1_alg».proof.Proof.KBPoint
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Dense

variable (V : (c : Dev nD) → (b : Ref sig .tc) → Buf (Elt Ideal) ((c : Thread nD τ).loc b))

/-- The printed index maps, decided over the grid: the product array's window and the output's move together, one
    block of rows per point; the four one-row windows stay at block zero. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the whole-array function of the arrays as the region finds them. -/
theorem flushed3_5_eq (c : Dev nD) (t : Fin cfg3.N) :
    (dat3 V c).flushed 5 t = ((cfg3.win 5).blk t).view.read (Elt Ideal)
      (normStored (V c main_v77_0) (V c main_v93) (V c main_v94) (V c main_v95) (V c main_v96)) := by
  show (cfg3.win 5).cut (grid3.coords t) ((dat3 V c).after 5 t) = _
  rw [after3_5]
  unfold out3_5
  rw [View.canon_unit_zero hz2]
  simp only [View.ld_unit_zero (S := S10000x128) hz2, View.ld_unit_zero (S := S1x128) hz2]
  obtain ⟨e00, e01, e10, e11, e20, e21, e30, e31, e40, e41, e50, e51⟩ := idx3 t
  funext j
  show k3_pay1 (F := Ideal) (iblk3 V c 0 t) (iblk3 V c 1 t) (iblk3 V c 2 t) (iblk3 V c 3 t) (iblk3 V c 4 t) j
    = normStored (V c main_v77_0) (V c main_v93) (V c main_v94) (V c main_v95) (V c main_v96) (((cfg3.win 5).blk t).view.emb j)
  refine point3 (iblk3 V c 0 t) (iblk3 V c 1 t) (iblk3 V c 2 t) (iblk3 V c 3 t) (iblk3 V c 4 t)
    (V c main_v77_0) (V c main_v93) (V c main_v94) (V c main_v95) (V c main_v96) j (((cfg3.win 5).blk t).view.emb j) ?_ ?_ ?_ ?_ ?_ ?_
  · show V c main_v77_0 (((cfg3.win 0).blk t).view.emb j) = V c main_v77_0 (((cfg3.win 5).blk t).view.emb j)
    refine congrArg _ (funext fun a => Fin.ext ?_)
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 128 + 1 * (j 1).val = win3_5.index t (1 : Fin 2) * 128 + 1 * (j 1).val; omega
  · show (j 1).val = win3_5.index t (1 : Fin 2) * 128 + 1 * (j 1).val
    omega
  · intro q
    show V c main_v93 (((cfg3.win 1).blk t).view.emb (ix2 (0 : Fin 1) q)) = V c main_v93 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · intro q
    show V c main_v94 (((cfg3.win 2).blk t).view.emb (ix2 (0 : Fin 1) q)) = V c main_v94 (ix2 (0 : Fin 1) q)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  · intro q
    show V c main_v95 (((cfg3.win 3).blk t).view.emb (ix2 (0 : Fin 1) q)) = V c main_v95 (ix2 (0 : Fin 1) q)
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  · intro q
    show V c main_v96 (((cfg3.win 4).blk t).view.emb (ix2 (0 : Fin 1) q)) = V c main_v96 (ix2 (0 : Fin 1) q)
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega

/-- An index of the output array is in point `t`'s block iff each coordinate is in the block's range on its axis. -/
theorem mem_blk3_5 (t : Fin cfg3.N) (i : S100000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v97).slice (win3_5.rect t)).set ↔ _
  rw [View.set_slice_whole, Rect.mem_set_unit]
  exact Iff.rfl

/-- The ten blocks of rows tile the array: row `r` is in the block of point `r / 10000`. -/
theorem covered3_5 (i : S100000x128.Idx) :
    ∃ t : Fin cfg3.N, (cfg3.win 5).flush t = true ∧ i ∈ ((cfg3.win 5).blk t).view.set := by
  have hi0 : (i 0).val < 100000 := idx2_lt0 i
  have hi1 : (i 1).val < 128 := idx2_lt1 i
  have hN : (i 0).val / 10000 < grid3.N := by rw [N_3]; omega
  obtain ⟨e00, e01, e10, e11, e20, e21, e30, e31, e40, e41, e50, e51⟩ := idx3 ⟨(i 0).val / 10000, hN⟩
  refine ⟨⟨(i 0).val / 10000, hN⟩, flush3_5 _, ?_⟩
  rw [mem_blk3_5]
  intro a
  match a with
  | ⟨0, _⟩ =>
    show win3_5.index ⟨(i 0).val / 10000, hN⟩ (0 : Fin 2) * 10000 ≤ (i 0).val
      ∧ (i 0).val < win3_5.index ⟨(i 0).val / 10000, hN⟩ (0 : Fin 2) * 10000 + 10000
    rw [e50]
    show (i 0).val / 10000 * 10000 ≤ (i 0).val ∧ (i 0).val < (i 0).val / 10000 * 10000 + 10000
    omega
  | ⟨1, _⟩ =>
    show win3_5.index ⟨(i 0).val / 10000, hN⟩ (1 : Fin 2) * 128 ≤ (i 1).val
      ∧ (i 1).val < win3_5.index ⟨(i 0).val / 10000, hN⟩ (1 : Fin 2) * 128 + 128
    rw [e51]
    omega

/-- THE OUTPUT ARRAY after the region: the whole-array function of the arrays the region is entered with. -/
theorem arrAt3_5 (c : Dev nD) :
    (dat3 V c).arrAt 5 cfg3.N = normStored (V c main_v77_0) (V c main_v93) (V c main_v94) (V c main_v95) (V c main_v96) :=
  (dat3 V c).arrAt_eq_of_cover 5 _ (fun t _ => flushed3_5_eq V c t) (covered3_5)

/-- The same at an index (`normStored_apply` writes the function out). -/
theorem arrAt3_5_apply (c : Dev nD) (i : S100000x128.Idx) :
    (dat3 V c).arrAt 5 cfg3.N i = normStored (V c main_v77_0) (V c main_v93) (V c main_v94) (V c main_v95) (V c main_v96) i :=
  congrFun (arrAt3_5 V c) i

end Cert.KernelIdeal.Hand

end
-- ==== Proof.KIValB5.lean ====
/-
  The value of region 5 of @main (the normalise-and-rectify kernel of layer 2) as ONE function of the arrays
  the region is entered with: what each grid point writes back is its block of ten thousand rows of
  max (((Z − μ)·s)·γ + β, 0), the ten blocks tile the hundred thousand rows, so the output array ends holding that
  function of the product array Z and the four one-row arrays (mean, stored reciprocal standard deviation, scale,
  shift), index by index.
-/
import proofs.«160962_j23227183137544_1_alg».proof.Proof.KIRegB5
import proofs.«160962_j23227183137544_1_alg».proof.Proof.KBPoint
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Dense

variable (V : (c : Dev nD) → (b : Ref sig .tc) → Buf (Elt Ideal) ((c : Thread nD τ).loc b))

/-- The printed index maps, decided over the grid: the product array's window and the output's move together, one
    block of rows per point; the four one-row windows stay at block zero. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of the whole-array function of the arrays as the region finds them. -/
theorem flushed5_5_eq (c : Dev nD) (t : Fin cfg5.N) :
    (dat5 V c).flushed 5 t = ((cfg5.win 5).blk t).view.read (Elt Ideal)
      (normStored (V c main_v117_0) (V c main_v133) (V c main_v134) (V c main_v135) (V c main_v136)) := by
  show (cfg5.win 5).cut (grid5.coords t) ((dat5 V c).after 5 t) = _
  rw [after5_5]
  unfold out5_5
  rw [View.canon_unit_zero hz2]
  simp only [View.ld_unit_zero (S := S10000x128) hz2, View.ld_unit_zero (S := S1x128) hz2]
  obtain ⟨e00, e01, e10, e11, e20, e21, e30, e31, e40, e41, e50, e51⟩ := idx5 t
  funext j
  show k5_pay1 (F := Ideal) (iblk5 V c 0 t) (iblk5 V c 1 t) (iblk5 V c 2 t) (iblk5 V c 3 t) (iblk5 V c 4 t) j
    = normStored (V c main_v117_0) (V c main_v133) (V c main_v134) (V c main_v135) (V c main_v136) (((cfg5.win 5).blk t).view.emb j)
  refine point5 (iblk5 V c 0 t) (iblk5 V c 1 t) (iblk5 V c 2 t) (iblk5 V c 3 t) (iblk5 V c 4 t)
    (V c main_v117_0) (V c main_v133) (V c main_v134) (V c main_v135) (V c main_v136) j (((cfg5.win 5).blk t).view.emb j) ?_ ?_ ?_ ?_ ?_ ?_
  · show V c main_v117_0 (((cfg5.win 0).blk t).view.emb j) = V c main_v117_0 (((cfg5.win 5).blk t).view.emb j)
    refine congrArg _ (funext fun a => Fin.ext ?_)
    match a with
    | ⟨0, _⟩ => show win5_0.index t (0 : Fin 2) * 10000 + 1 * (j 0).val = win5_5.index t (0 : Fin 2) * 10000 + 1 * (j 0).val; omega
    | ⟨1, _⟩ => show win5_0.index t (1 : Fin 2) * 128 + 1 * (j 1).val = win5_5.index t (1 : Fin 2) * 128 + 1 * (j 1).val; omega
  · show (j 1).val = win5_5.index t (1 : Fin 2) * 128 + 1 * (j 1).val
    omega
  · intro q
    show V c main_v133 (((cfg5.win 1).blk t).view.emb (ix2 (0 : Fin 1) q)) = V c main_v133 (ix2 (0 : Fin 1) q)
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  · intro q
    show V c main_v134 (((cfg5.win 2).blk t).view.emb (ix2 (0 : Fin 1) q)) = V c main_v134 (ix2 (0 : Fin 1) q)
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  · intro q
    show V c main_v135 (((cfg5.win 3).blk t).view.emb (ix2 (0 : Fin 1) q)) = V c main_v135 (ix2 (0 : Fin 1) q)
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega
  · intro q
    show V c main_v136 (((cfg5.win 4).blk t).view.emb (ix2 (0 : Fin 1) q)) = V c main_v136 (ix2 (0 : Fin 1) q)
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * q.val = q.val; omega

/-- An index of the output array is in point `t`'s block iff each coordinate is in the block's range on its axis. -/
theorem mem_blk5_5 (t : Fin cfg5.N) (i : S100000x128.Idx) :
    i ∈ ((cfg5.win 5).blk t).view.set ↔ ∀ a : Fin 2, win5_5.index t a * S10000x128.size a ≤ (i a).val
      ∧ (i a).val < win5_5.index t a * S10000x128.size a + S10000x128.size a := by
  show i ∈ ((View.whole main_v137).slice (win5_5.rect t)).set ↔ _
  rw [View.set_slice_whole, Rect.mem_set_unit]
  exact Iff.rfl

/-- The ten blocks of rows tile the array: row `r` is in the block of point `r / 10000`. -/
theorem covered5_5 (i : S100000x128.Idx) :
    ∃ t : Fin cfg5.N, (cfg5.win 5).flush t = true ∧ i ∈ ((cfg5.win 5).blk t).view.set := by
  have hi0 : (i 0).val < 100000 := idx2_lt0 i
  have hi1 : (i 1).val < 128 := idx2_lt1 i
  have hN : (i 0).val / 10000 < grid5.N := by rw [N_5]; omega
  obtain ⟨e00, e01, e10, e11, e20, e21, e30, e31, e40, e41, e50, e51⟩ := idx5 ⟨(i 0).val / 10000, hN⟩
  refine ⟨⟨(i 0).val / 10000, hN⟩, flush5_5 _, ?_⟩
  rw [mem_blk5_5]
  intro a
  match a with
  | ⟨0, _⟩ =>
    show win5_5.index ⟨(i 0).val / 10000, hN⟩ (0 : Fin 2) * 10000 ≤ (i 0).val
      ∧ (i 0).val < win5_5.index ⟨(i 0).val / 10000, hN⟩ (0 : Fin 2) * 10000 + 10000
    rw [e50]
    show (i 0).val / 10000 * 10000 ≤ (i 0).val ∧ (i 0).val < (i 0).val / 10000 * 10000 + 10000
    omega
  | ⟨1, _⟩ =>
    show win5_5.index ⟨(i 0).val / 10000, hN⟩ (1 : Fin 2) * 128 ≤ (i 1).val
      ∧ (i 1).val < win5_5.index ⟨(i 0).val / 10000, hN⟩ (1 : Fin 2) * 128 + 128
    rw [e51]
    omega

/-- THE OUTPUT ARRAY after the region: the whole-array function of the arrays the region is entered with. -/
theorem arrAt5_5 (c : Dev nD) :
    (dat5 V c).arrAt 5 cfg5.N = normStored (V c main_v117_0) (V c main_v133) (V c main_v134) (V c main_v135) (V c main_v136) :=
  (dat5 V c).arrAt_eq_of_cover 5 _ (fun t _ => flushed5_5_eq V c t) (covered5_5)

/-- The same at an index (`normStored_apply` writes the function out). -/
theorem arrAt5_5_apply (c : Dev nD) (i : S100000x128.Idx) :
    (dat5 V c).arrAt 5 cfg5.N i = normStored (V c main_v117_0) (V c main_v133) (V c main_v134) (V c main_v135) (V c main_v136) i :=
  congrFun (arrAt5_5 V c) i

end Cert.KernelIdeal.Hand

end
-- ==== Proof.KIOut.lean ====
/-
  The stacked result of @main on the extended reals, with the three normalise-and-rectify regions read: each layer's
  result is the whole-array function max (((Z − μ)·s)·γ + β, 0) of the product array and the four one-row arrays (mean,
  stored reciprocal standard deviation, scale, shift) as the host operations before its region leave them; the stack
  is the input features and the three results.
-/
import proofs.«160962_j23227183137544_1_alg».proof.Proof.KITailRun
import proofs.«160962_j23227183137544_1_alg».proof.Proof.KIValB1
import proofs.«160962_j23227183137544_1_alg».proof.Proof.KIValB3
import proofs.«160962_j23227183137544_1_alg».proof.Proof.KIValB5

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- Layer 0's result at region 1's exit, from the arrays the region is entered with. -/
theorem W4_h1 (c : Dev nD) :
    W4 m c (Proc.devRef .tc main_v57) = (normStored (W3 m c (Proc.devRef .tc main_v37_0)) (W3 m c (Proc.devRef .tc main_v53)) (W3 m c (Proc.devRef .tc main_v54))
        (W3 m c (Proc.devRef .tc main_v55)) (W3 m c (Proc.devRef .tc main_v56))) :=
  (W4_main_v57 m c).trans (arrAt1_5 (U3 m) c)

/-- Layer 1's result at region 3's exit, from the arrays the region is entered with. -/
theorem W8_h2 (c : Dev nD) :
    W8 m c (Proc.devRef .tc main_v97) = (normStored (W7 m c (Proc.devRef .tc main_v77_0)) (W7 m c (Proc.devRef .tc main_v93)) (W7 m c (Proc.devRef .tc main_v94))
        (W7 m c (Proc.devRef .tc main_v95)) (W7 m c (Proc.devRef .tc main_v96))) :=
  (W8_main_v97 m c).trans (arrAt3_5 (U7 m) c)

/-- Layer 2's result at region 5's exit, from the arrays the region is entered with. -/
theorem W12_h3 (c : Dev nD) :
    W12 m c (Proc.devRef .tc main_v137) = (normStored (W11 m c (Proc.devRef .tc main_v117_0)) (W11 m c (Proc.devRef .tc main_v133)) (W11 m c (Proc.devRef .tc main_v134))
        (W11 m c (Proc.devRef .tc main_v135)) (W11 m c (Proc.devRef .tc main_v136))) :=
  (W12_main_v137 m c).trans (arrAt5_5 (U11 m) c)

/-- THE STACKED RESULT at the end of @main: the input features and the three layers' results, each layer's result the
    whole-array function of the arrays its normalise-and-rectify region is entered with. -/
theorem W13_stack (c : Dev nD) :
    W13 m c (Proc.devRef .tc main_v142)
      = tailK (m ((c : Thread nD τ).loc main_arg0))
          (normStored (W3 m c (Proc.devRef .tc main_v37_0)) (W3 m c (Proc.devRef .tc main_v53)) (W3 m c (Proc.devRef .tc main_v54))
        (W3 m c (Proc.devRef .tc main_v55)) (W3 m c (Proc.devRef .tc main_v56)))
          (normStored (W7 m c (Proc.devRef .tc main_v77_0)) (W7 m c (Proc.devRef .tc main_v93)) (W7 m c (Proc.devRef .tc main_v94))
        (W7 m c (Proc.devRef .tc main_v95)) (W7 m c (Proc.devRef .tc main_v96)))
          (normStored (W11 m c (Proc.devRef .tc main_v117_0)) (W11 m c (Proc.devRef .tc main_v133)) (W11 m c (Proc.devRef .tc main_v134))
        (W11 m c (Proc.devRef .tc main_v135)) (W11 m c (Proc.devRef .tc main_v136))) := by
  rw [W13_out, W12_main_arg0, W12_main_v57, W12_main_v97, W4_h1, W8_h2, W12_h3]

end Cert.KernelIdeal.Hand

end
-- ==== Proof.KAgg.lean ====
/-
  The host's edge aggregation of the kernel program, as functions of the two index arrays and a feature array:
  one self-loop per node is appended to the edge lists, the out- and in-degrees are counted by adding ones at
  the (extended) source and destination entries, each clamped below by one, and their reciprocal square roots
  kept as columns; a feature array is scaled row by row by the out-degree factor, its rows gathered at the
  wrapped source entries, added up at the destination entries, and the sums scaled by the in-degree factor.
  The definitions are the printed operations, composed in the printed order.
-/
import proofs.«160962_j23227183137544_1_alg».proof.Proof.Gen.KernelIdeal

noncomputable section

namespace Cert.KernelIdeal.KAgg

open Idealize.ShloMosaic Idealize.SL.Sem Cert.KernelIdeal Cert.KernelIdeal.Facts₀ Cert.KernelIdeal.Facts

variable {F : FTy → Type} [FloatOps F]

/-- An edge list with one self-loop per node appended. -/
def withLoops (e : (⟨S1600000, .i32⟩ : BufTy).Contents (Elt F)) : (⟨S1700000, .i32⟩ : BufTy).Contents (Elt F) :=
  concatenate S1700000 0 [⟨S1600000, e⟩, ⟨S100000, (iotaInDim S100000 32 0 : (⟨S100000, .i32⟩ : BufTy).Contents (Elt F))⟩] concatenates_S1600000_S100000_S1700000_d0

/-- The number of list entries equal to each node, counted by adding ones into a zero vector. -/
def degree (e : (⟨S1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 (withLoops (F := F) e))
    (broadcastInDim S1700000 ![] bcast_S_S1700000 (constant (F := F) S_ .f32 0x3F800000#32))

/-- The reciprocal square root of the degree clamped below by one, as a column. -/
def invCol (e : (⟨S1600000, .i32⟩ : BufTy).Contents (Elt F)) : (⟨S100000x1, .f32⟩ : BufTy).Contents (Elt F) :=
  broadcastInDim S100000x1 ![0] bcast_S100000_S100000x1_0
    (Host.rsqrt (maximumf (degree e) (broadcastInDim S100000 ![] bcast_S_S100000 (constant (F := F) S_ .f32 0x3F800000#32))))

/-- The (extended) source entries with a negative entry wrapped around by the number of nodes, as a column. -/
def wrapCol (e : (⟨S1600000, .i32⟩ : BufTy).Contents (Elt F)) : (⟨S1700000x1, .i32⟩ : BufTy).Contents (Elt F) :=
  broadcastInDim S1700000x1 ![0] bcast_S1700000_S1700000x1_0
    (select (cmpi .slt (withLoops (F := F) e) (broadcastInDim S1700000 ![] bcast_S_S1700000 (constantI S_ 32 0#32)))
      (addi (withLoops (F := F) e) (broadcastInDim S1700000 ![] bcast_S_S1700000 (constantI S_ 32 100000#32)))
      (withLoops (F := F) e))

/-- The aggregation: scale by the out-degree factor, gather at the sources, add up at the destinations, scale by
    the in-degree factor. -/
def agg (src dst : (⟨S1600000, .i32⟩ : BufTy).Contents (Elt F)) (h : (⟨S100000x128, .f32⟩ : BufTy).Contents (Elt F)) :
    (⟨S100000x128, .f32⟩ : BufTy).Contents (Elt F) :=
  mulf
    (Host.scatterAdd scatter_S100000x128_S1700000x1_S1700000x128_1_0_0_1
      (broadcastInDim S100000x128 ![] bcast_S_S100000x128 (constant (F := F) S_ .f32 0x00000000#32))
      (broadcastInDim S1700000x1 ![0] bcast_S1700000_S1700000x1_0 (withLoops (F := F) dst))
      (Host.gather gather_S100000x128_S1700000x1_S1700000x128_1_0_n_n_0_1_1128
        (mulf h (broadcastInDim S100000x128 ![0, 1] bcast_S100000x1_S100000x128_0_1 (invCol src)))
        (wrapCol src)))
    (broadcastInDim S100000x128 ![0, 1] bcast_S100000x1_S100000x128_0_1 (invCol dst))

end Cert.KernelIdeal.KAgg

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«160962_j23227183137544_1_alg».proof.Proof.LibDense
import proofs.«160962_j23227183137544_1_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«160962_j23227183137544_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibSageLayer.lean ====
/-
  Two mean-aggregating graph layers and a linear head, on the extended reals, at any extents.

  A layer takes, for every node (a row), the sum `a` of its in-neighbours' feature rows, the node's own feature row
  `x`, and a per-node factor `s` (the reciprocal of the in-degree, at least one).  Its pre-activation is
  `(a scaled row by row by s) · wl + x · wr`; the hidden layer adds a one-row bias and rectifies, the output layer adds
  its bias, multiplies by the head's weights and adds the head's bias.  Every entry of a layer's result depends on the
  node's own rows of `a`, `x` and `s` only, which is what lets a block of rows be computed from a block of rows.

  The reference divides the aggregate by the degree where the kernel multiplies by its reciprocal: on the extended reals
  `a / c = a · c⁻¹` and `1 / c = c⁻¹` whenever `c ≠ 0`, and a degree clamped below by one is never zero, so the two
  agree at every extended real `a`, infinite ones included.
-/
import proofs.«160962_j23227183137544_1_alg».proof.Proof.LibRowScale
import proofs.«160962_j23227183137544_1_alg».proof.Proof.LibBiasRow
import Idealize.ShloMosaic.Lib.IdealHost

noncomputable section

open scoped BigOperators

namespace Cert.Sage

open Idealize.ShloMosaic Idealize.ShloMosaic.ValueIdx Cert.Dense Cert.RowScale Cert.BiasRow

/-- The pre-activation: the row-scaled aggregate times `wl` plus the self term times `wr`. -/
def pre {M K N : ℕ} (a x : Mat M K) (s : Mat M 1) (wl wr : Mat K N) : Mat M N :=
  fun i => mm (scaleRows a s) wl i + mm x wr i

/-- The hidden layer: the pre-activation plus a one-row bias, rectified. -/
def hidden {M K N : ℕ} (a x : Mat M K) (s : Mat M 1) (wl wr : Mat K N) (b : Mat 1 N) : Mat M N :=
  reluBias (pre a x s wl wr) b

/-- The output layer followed by the linear head. -/
def head {M K N P : ℕ} (a h : Mat M K) (s : Mat M 1) (wl wr : Mat K N) (b : Mat 1 N) (wfc : Mat N P) (bfc : Mat 1 P) :
    Mat M P :=
  addRow (mm (addRow (pre a h s wl wr) b) wfc) bfc

/-- A row of the pre-activation depends on the same row of the aggregate, of the features and of the factor. -/
theorem pre_rows {M M' K N : ℕ} (a x : Mat M K) (s : Mat M 1) (a' x' : Mat M' K) (s' : Mat M' 1) (wl wr : Mat K N)
    (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    pre a' x' s' wl wr (ix2 p' q) = pre a x s wl wr (ix2 p q) := by
  show mm (scaleRows a' s') wl (ix2 p' q) + mm x' wr (ix2 p' q) = mm (scaleRows a s) wl (ix2 p q) + mm x wr (ix2 p q)
  simp only [mm_apply, scaleRows_apply, ha, hx, hs]

theorem hidden_rows {M M' K N : ℕ} (a x : Mat M K) (s : Mat M 1) (a' x' : Mat M' K) (s' : Mat M' 1) (wl wr : Mat K N)
    (b : Mat 1 N) (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    hidden a' x' s' wl wr b (ix2 p' q) = hidden a x s wl wr b (ix2 p q) := by
  show max (pre a' x' s' wl wr (ix2 p' q) + b (ix2 (0 : Fin 1) q)) 0 = max (pre a x s wl wr (ix2 p q) + b (ix2 (0 : Fin 1) q)) 0
  rw [pre_rows a x s a' x' s' wl wr p' p q ha hx hs]

theorem head_rows {M M' K N P : ℕ} (a h : Mat M K) (s : Mat M 1) (a' h' : Mat M' K) (s' : Mat M' 1) (wl wr : Mat K N)
    (b : Mat 1 N) (wfc : Mat N P) (bfc : Mat 1 P) (p' : Fin M') (p : Fin M) (r : Fin P)
    (ha : ∀ k : Fin K, a' (ix2 p' k) = a (ix2 p k)) (hh : ∀ k : Fin K, h' (ix2 p' k) = h (ix2 p k))
    (hs : s' (ix2 p' (0 : Fin 1)) = s (ix2 p (0 : Fin 1))) :
    head a' h' s' wl wr b wfc bfc (ix2 p' r) = head a h s wl wr b wfc bfc (ix2 p r) := by
  show mm (addRow (pre a' h' s' wl wr) b) wfc (ix2 p' r) + bfc (ix2 (0 : Fin 1) r)
    = mm (addRow (pre a h s wl wr) b) wfc (ix2 p r) + bfc (ix2 (0 : Fin 1) r)
  rw [mm_apply, mm_apply]
  refine congrArg (· + bfc (ix2 (0 : Fin 1) r)) (Finset.sum_congr rfl fun k _ => ?_)
  rw [addRow_apply, addRow_apply, pre_rows a h s a' h' s' wl wr p' p k ha hh hs]

/-- Multiplying by the reciprocal is dividing, at a divisor that is not zero. -/
theorem mul_recip (a c : EReal) (hc : c ≠ 0) : a * Ideal.div 1 c = Ideal.div a c := by
  rw [Ideal.div, Ideal.div, if_neg hc, if_neg hc, one_mul]

/-- A quantity clamped below by one is not zero. -/
theorem max_one_ne_zero (x : EReal) : max x 1 ≠ 0 :=
  (lt_of_lt_of_le zero_lt_one (le_max_right x 1)).ne'

/-- The host's form of the mean: the aggregate divided by the degree vector broadcast to a column and along the rows is
    the aggregate's rows scaled by the column of reciprocals, when no degree is zero. -/
theorem hostDivRows {M N : ℕ} (G : FVec Ideal ⟨2, ![M, N]⟩ .f32) (d one : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (hd : ∀ i, d i ≠ 0) (hone : ∀ i, one i = 1) :
    Host.divf (F := Ideal) G (broadcastInDim ⟨2, ![M, N]⟩ ![0, 1] h2 (broadcastInDim ⟨2, ![M, 1]⟩ ![0] h1 d))
      = scaleRows G (col (Host.divf (F := Ideal) one d)) := by
  funext i
  obtain ⟨p, q, rfl⟩ : ∃ (p : Fin M) (q : Fin N), i = ix2 p q := ⟨i 0, i 1, eq_ix2 i⟩
  show Ideal.div (G (ix2 p q)) (broadcastInDim ⟨2, ![M, N]⟩ ![0, 1] h2 (broadcastInDim ⟨2, ![M, 1]⟩ ![0] h1 d) (ix2 p q))
    = G (ix2 p q) * Ideal.div (one (ix1 p)) (d (ix1 p))
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 d (ix2 p (0 : Fin 1)) (ix1 p) (fun a => by
        match a with
        | ⟨0, _⟩ =>
          show p.val = if M = 1 then 0 else p.val
          split
          · have := p.isLt; omega
          · rfl),
    hone, mul_recip _ _ (hd _)]

end Cert.Sage

end
-- ==== Proof.LibSageDense.lean ====
/-
  One dense step of a mean-aggregating graph layer, on the extended reals, at any extents.

  The step takes the mean `A` of the neighbours' rows, the nodes' own rows `X`, two weight matrices and a one-row bias,
  and forms `A · wl + X · wr + b` (`lin`), or that rectified (`hid`).  The kernel spells it on the matrix unit — both
  products into zero accumulators, summed, then the bias row broadcast along the rows and added — and the host spells it
  with the bias added BEFORE the second product: `(A · wl + b) + X · wr`.  Addition of extended reals is commutative and
  associative, so the two agree at every entry, infinite ones included.  An entry `(p, q)` of the result depends on row
  `p` of `A` and of `X`, on column `q` of the weights and on entry `q` of the bias only, which is what lets a block of rows
  be computed from a block of rows.

  The mean: the kernel multiplies the summed rows by the reciprocal of the clamped degree, the host divides by the clamped
  degree.  A degree clamped below by one is never zero, and off zero a quotient is the product with the inverse, so both
  are the rows scaled by the column of reciprocals.
-/
import proofs.«160962_j23227183137544_1_alg».proof.Proof.LibSageLayer

noncomputable section

open scoped BigOperators

namespace Cert.SageDense

open Idealize.ShloMosaic Idealize.ShloMosaic.ValueIdx Cert.Dense Cert.RowScale Cert.BiasRow

/-- The two products summed: `A · wl + X · wr`. -/
def comb {M K N : ℕ} (A X : Mat M K) (wl wr : Mat K N) : Mat M N := fun i => mm A wl i + mm X wr i

/-- The output step: the two products plus a one-row bias. -/
def lin {M K N : ℕ} (A X : Mat M K) (wl wr : Mat K N) (b : Mat 1 N) : Mat M N := addRow (comb A X wl wr) b

/-- The hidden step: the same, rectified. -/
def hid {M K N : ℕ} (A X : Mat M K) (wl wr : Mat K N) (b : Mat 1 N) : Mat M N := reluBias (comb A X wl wr) b

/-- An entry of the summed products depends on one row of each left operand and one column of each weight matrix. -/
theorem comb_at {M M' K N N' : ℕ} (A X : Mat M K) (wl wr : Mat K N) (A' X' : Mat M' K) (wl' wr' : Mat K N')
    (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i))) :
    comb A' X' wl' wr' j = comb A X wl wr i := by
  unfold comb
  rw [Cert.BiasRow.mm_at A wl A' wl' j i hA hl, Cert.BiasRow.mm_at X wr X' wr' j i hX hr]

theorem lin_at {M M' K N N' : ℕ} (A X : Mat M K) (wl wr : Mat K N) (b : Mat 1 N) (A' X' : Mat M' K) (wl' wr' : Mat K N')
    (b' : Mat 1 N') (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i)))
    (hb : b' (ix2 (0 : Fin 1) (c1 j)) = b (ix2 (0 : Fin 1) (c1 i))) :
    lin A' X' wl' wr' b' j = lin A X wl wr b i :=
  Cert.BiasRow.addRow_at _ b _ b' j i (comb_at A X wl wr A' X' wl' wr' j i hA hX hl hr) hb

theorem hid_at {M M' K N N' : ℕ} (A X : Mat M K) (wl wr : Mat K N) (b : Mat 1 N) (A' X' : Mat M' K) (wl' wr' : Mat K N')
    (b' : Mat 1 N') (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i)))
    (hb : b' (ix2 (0 : Fin 1) (c1 j)) = b (ix2 (0 : Fin 1) (c1 i))) :
    hid A' X' wl' wr' b' j = hid A X wl wr b i :=
  Cert.BiasRow.reluBias_at _ b _ b' j i (comb_at A X wl wr A' X' wl' wr' j i hA hX hl hr) hb

/-! ## The matrix unit's spelling -/

/-- Both products on the matrix unit into zero accumulators, summed; the operands' change of float format is the
    identity on the extended reals. -/
theorem vecComb {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (lt : FTy.bf16.bits < FTy.f32.bits) :
    addf (matmul (F := Ideal) D none (truncf .bf16 A lt) (truncf .bf16 wl lt) (constant ⟨2, ![M, N]⟩ .f32 0x00000000#32))
        (matmul (F := Ideal) D none (truncf .bf16 X lt) (truncf .bf16 wr lt) (constant ⟨2, ![M, N]⟩ .f32 0x00000000#32))
      = comb A X wl wr := by
  rw [matmul_zero_eq_mm D h1 h2 h3 h4 h5 h6, matmul_zero_eq_mm D h1 h2 h3 h4 h5 h6]
  rfl

theorem vecLin {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨2, ![1, N]⟩ .f32)
    (lt : FTy.bf16.bits < FTy.f32.bits) (hb : (⟨2, ![1, N]⟩ : Shape).Broadcasts ⟨2, ![M, N]⟩) :
    addf (addf (matmul (F := Ideal) D none (truncf .bf16 A lt) (truncf .bf16 wl lt) (constant ⟨2, ![M, N]⟩ .f32 0x00000000#32))
          (matmul (F := Ideal) D none (truncf .bf16 X lt) (truncf .bf16 wr lt) (constant ⟨2, ![M, N]⟩ .f32 0x00000000#32)))
        (broadcastTo ⟨2, ![M, N]⟩ b hb)
      = lin A X wl wr b := by
  rw [vecComb D h1 h2 h3 h4 h5 h6 A X wl wr lt]
  exact vecAddRow (comb A X wl wr) b hb

theorem vecHid {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨2, ![1, N]⟩ .f32)
    (lt : FTy.bf16.bits < FTy.f32.bits) (hb : (⟨2, ![1, N]⟩ : Shape).Broadcasts ⟨2, ![M, N]⟩) :
    maximumf (addf (addf (matmul (F := Ideal) D none (truncf .bf16 A lt) (truncf .bf16 wl lt) (constant ⟨2, ![M, N]⟩ .f32 0x00000000#32))
          (matmul (F := Ideal) D none (truncf .bf16 X lt) (truncf .bf16 wr lt) (constant ⟨2, ![M, N]⟩ .f32 0x00000000#32)))
        (broadcastTo ⟨2, ![M, N]⟩ b hb)) (broadcast ⟨2, ![M, N]⟩ (Scalar.ofBits (F := Ideal) .f32 0x00000000#32))
      = hid A X wl wr b := by
  rw [vecComb D h1 h2 h3 h4 h5 h6 A X wl wr lt]
  exact vecReluBias (comb A X wl wr) b hb

/-! ## The host's spelling -/

/-- The host adds the bias before the second product; the sum is the same. -/
theorem hostLin {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1]) :
    addf (addf (Host.dotGeneral (F := Ideal) D none A wl)
          (broadcastInDim ⟨2, ![M, N]⟩ ![0, 1] hb2 (broadcastInDim ⟨2, ![1, N]⟩ ![1] hb1 b)))
        (Host.dotGeneral (F := Ideal) D none X wr)
      = lin A X wl wr (row b) := by
  rw [hostDot_eq_mm D h1 h2 h3 h4 h5 h6 none A wl, hostDot_eq_mm D h1 h2 h3 h4 h5 h6 none X wr,
    hostAddRow (mm A wl) b hb1 hb2]
  funext i
  show (mm A wl i + row b (ix2 (0 : Fin 1) (c1 i))) + mm X wr i = (mm A wl i + mm X wr i) + row b (ix2 (0 : Fin 1) (c1 i))
  exact add_right_comm _ _ _

/-- The maximum with a scalar zero broadcast everywhere is the maximum with zero at every entry. -/
theorem hostRelu {s : Shape} (Y : FVec Ideal s .f32) (h0 : (⟨0, ![]⟩ : Shape).BroadcastsInDim s ![]) :
    maximumf Y (broadcastInDim s ![] h0 (constant (F := Ideal) ⟨0, ![]⟩ .f32 0x00000000#32)) = fun i => max (Y i) 0 := by
  funext i
  show max (Y i) (broadcastInDim s ![] h0 (constant (F := Ideal) ⟨0, ![]⟩ .f32 0x00000000#32) i) = _
  rw [broadcastInDim_apply ![] h0 _ i ix0 (fun a => a.elim0)]
  show max (Y i) (Ideal.ofBits .f32 0x00000000#32) = _
  rw [Ideal.ofBits_zero_f32]

theorem hostHid {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (F := Ideal) D none A wl)
          (broadcastInDim ⟨2, ![M, N]⟩ ![0, 1] hb2 (broadcastInDim ⟨2, ![1, N]⟩ ![1] hb1 b)))
        (Host.dotGeneral (F := Ideal) D none X wr))
        (broadcastInDim ⟨2, ![M, N]⟩ ![] h0 (constant (F := Ideal) ⟨0, ![]⟩ .f32 0x00000000#32))
      = hid A X wl wr (row b) := by
  rw [hostLin D h1 h2 h3 h4 h5 h6 A X wl wr b hb1 hb2, hostRelu]
  rfl

/-! ## The mean -/

/-- The rows of `G` scaled by the reciprocals of the clamped degrees. -/
def meanRows {M N : ℕ} (G : FVec Ideal ⟨2, ![M, N]⟩ .f32) (one d : FVec Ideal ⟨1, ![M]⟩ .f32) : Mat M N :=
  scaleRows G (col (Host.divf (F := Ideal) one (maximumf (F := Ideal) d one)))

/-- The kernel's form: the summed rows times the reciprocal of the clamped degree, broadcast to a column and along
    the rows. -/
theorem mulMean {M N : ℕ} (G : FVec Ideal ⟨2, ![M, N]⟩ .f32) (one d : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1
        (Host.divf (F := Ideal) one (maximumf (F := Ideal) d one))))
      = meanRows G one d :=
  hostScaleRows G _ h1 h2

/-- The host's form: the summed rows divided by the clamped degree, when the clamp is at one. -/
theorem divMean {M N : ℕ} (G : FVec Ideal ⟨2, ![M, N]⟩ .f32) (one d : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (hone : ∀ i, one i = 1) :
    Host.divf (F := Ideal) G (broadcastInDim ⟨2, ![M, N]⟩ ![0, 1] h2 (broadcastInDim ⟨2, ![M, 1]⟩ ![0] h1
        (maximumf (F := Ideal) d one)))
      = meanRows G one d :=
  Cert.Sage.hostDivRows G (maximumf (F := Ideal) d one) one h1 h2
    (fun i => by
      show max (d i) (one i) ≠ 0
      rw [hone i]
      exact Cert.Sage.max_one_ne_zero (d i))
    hone

/-- A scalar one broadcast to a vector is one at every entry. -/
theorem bcastOne {s : Shape} (h0 : (⟨0, ![]⟩ : Shape).BroadcastsInDim s ![]) (i : s.Idx) :
    broadcastInDim s ![] h0 (constant (F := Ideal) ⟨0, ![]⟩ .f32 0x3F800000#32) i = 1 := by
  rw [broadcastInDim_apply ![] h0 _ i ix0 (fun a => a.elim0)]
  show Ideal.ofBits .f32 0x3F800000#32 = 1
  exact Ideal.ofBits_one_f32

end Cert.SageDense

end
-- ==== Proof.LibSageNet.lean ====
/-
  Two mean-aggregating graph layers and a two-step linear head, as whole-array functions on the extended reals.

  A layer takes the sum `A` of every node's in-neighbours' rows, the nodes' own rows `X`, a per-node factor `s` (one
  column: the reciprocal of the in-degree clamped below by one), two weight matrices and a one-row bias, and forms
  `(A scaled row by row by s) · wl + X · wr + b`.  The network applies a layer to the features, aggregates the result
  again, applies a second layer, and then two affine maps `· w + c` in a row.  The aggregation is a parameter here: the
  network is stated for any two maps on whole arrays, since both programs aggregate by the same gather and segment sum
  and nothing of it needs opening.

  Entry `(p, r)` of a layer, and of the second layer followed by the head, depends on row `p` of the aggregate, of
  the features and of the factor only: that is what lets a block of rows be computed from a block of rows.
-/
import proofs.«160962_j23227183137544_1_alg».proof.Proof.LibSageDense

noncomputable section

open scoped BigOperators

namespace Cert.SageNet

open Idealize.ShloMosaic Idealize.ShloMosaic.ValueIdx Cert.Dense Cert.RowScale Cert.BiasRow Cert.SageDense

/-- One layer: the aggregate's rows scaled by the per-node factor, times `wl`, plus the features times `wr`, plus
    the bias row. -/
def layer {M K N : ℕ} (A X : Mat M K) (s : Mat M 1) (wl wr : Mat K N) (b : Mat 1 N) : Mat M N :=
  lin (scaleRows A s) X wl wr b

/-- A layer followed by the two affine maps of the head. -/
def top {M K N P Q : ℕ} (A H : Mat M K) (s : Mat M 1) (wl wr : Mat K N) (b : Mat 1 N) (w1 : Mat N P) (c1' : Mat 1 P)
    (w2 : Mat P Q) (c2 : Mat 1 Q) : Mat M Q :=
  addRow (mm (addRow (mm (layer A H s wl wr b) w1) c1') w2) c2

/-- The whole network over two aggregation maps. -/
def net {M K N P Q : ℕ} (agg1 : Mat M K → Mat M K) (agg2 : Mat M N → Mat M N) (s : Mat M 1) (x : Mat M K)
    (wl1 wr1 : Mat K N) (b1 : Mat 1 N) (wl2 wr2 : Mat N N) (b2 : Mat 1 N) (w1 : Mat N P) (c1' : Mat 1 P)
    (w2 : Mat P Q) (c2 : Mat 1 Q) : Mat M Q :=
  top (agg2 (layer (agg1 x) x s wl1 wr1 b1)) (layer (agg1 x) x s wl1 wr1 b1) s wl2 wr2 b2 w1 c1' w2 c2

/-- A layer's entry depends on one row of the aggregate, of the features and of the factor. -/
theorem layer_rows {M M' K N : ℕ} (A X : Mat M K) (s : Mat M 1) (A' X' : Mat M' K) (s' : Mat M' 1)
    (wl wr : Mat K N) (b : Mat 1 N) (p' : Fin M') (p : Fin M) (q : Fin N)
    (hA : ∀ k : Fin K, A' (ix2 p' k) = A (ix2 p k)) (hX : ∀ k : Fin K, X' (ix2 p' k) = X (ix2 p k))
    (hs : s' (ix2 p' (0 : Fin 1)) = s (ix2 p (0 : Fin 1))) :
    layer A' X' s' wl wr b (ix2 p' q) = layer A X s wl wr b (ix2 p q) := by
  show (mm (scaleRows A' s') wl (ix2 p' q) + mm X' wr (ix2 p' q)) + b (ix2 (0 : Fin 1) q)
    = (mm (scaleRows A s) wl (ix2 p q) + mm X wr (ix2 p q)) + b (ix2 (0 : Fin 1) q)
  simp only [mm_apply, scaleRows_apply, hA, hX, hs]

/-- The second layer and the head: an entry depends on one row of the aggregate, of the hidden rows and of the factor. -/
theorem top_rows {M M' K N P Q : ℕ} (A H : Mat M K) (s : Mat M 1) (A' H' : Mat M' K) (s' : Mat M' 1)
    (wl wr : Mat K N) (b : Mat 1 N) (w1 : Mat N P) (c1' : Mat 1 P) (w2 : Mat P Q) (c2 : Mat 1 Q)
    (p' : Fin M') (p : Fin M) (r : Fin Q)
    (hA : ∀ k : Fin K, A' (ix2 p' k) = A (ix2 p k)) (hH : ∀ k : Fin K, H' (ix2 p' k) = H (ix2 p k))
    (hs : s' (ix2 p' (0 : Fin 1)) = s (ix2 p (0 : Fin 1))) :
    top A' H' s' wl wr b w1 c1' w2 c2 (ix2 p' r) = top A H s wl wr b w1 c1' w2 c2 (ix2 p r) := by
  show mm (addRow (mm (layer A' H' s' wl wr b) w1) c1') w2 (ix2 p' r) + c2 (ix2 (0 : Fin 1) r)
    = mm (addRow (mm (layer A H s wl wr b) w1) c1') w2 (ix2 p r) + c2 (ix2 (0 : Fin 1) r)
  rw [mm_apply, mm_apply]
  refine congrArg (· + c2 (ix2 (0 : Fin 1) r)) (Finset.sum_congr rfl fun k _ => ?_)
  rw [addRow_apply, addRow_apply, mm_apply, mm_apply]
  refine congrArg (fun t => (t + c1' (ix2 (0 : Fin 1) k)) * w2 (ix2 k r)) (Finset.sum_congr rfl fun k' _ => ?_)
  rw [layer_rows A H s A' H' s' wl wr b p' p k' hA hH hs]

end Cert.SageNet

end
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.LibMeanAffine.lean ====
import Mathlib.Data.EReal.Inv
import Mathlib.Algebra.BigOperators.Group.Finset.Basic
import Idealize.ShloMosaic.PureOps.Ideal

/-!
# The mean of affine images is the affine image of the mean

A graph layer averages, over the finite nonempty set `H` of edges arriving at a node, the messages of their
source nodes.  Applying the affine map `row ↦ (∑ l, row l · W l) + b` to every message before averaging gives
the same value as averaging the raw rows and applying the affine map once afterwards:

  `(∑_{e∈H} ((∑_l x e l · W l) + b)) / |H| = (∑_l ((∑_{e∈H} x e l) / |H|) · W l) + b`,

because `∑_{e∈H} ((∑_l x e l · W l) + b) = (∑_l (∑_{e∈H} x e l) · W l) + |H| · b` and `|H| ≥ 1`, so that
`max(|H|, 1) = |H| ≠ 0`.  On the extended reals distributivity fails at the infinities, so the data enter as
coercions of real numbers; every expression is then the coercion of a real expression and the identity is
proved over `ℝ`.  The quotient is the total quotient `Ideal.div`, which off a zero divisor is multiplication
by the inverse.
-/

noncomputable section

namespace Cert.MeanAffine

open Idealize.ShloMosaic

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zero plus a sum of ones over `H` is the cardinality of `H`. -/
theorem count_eq {ε : Type*} (H : Finset ε) :
    (0 : EReal) + ∑ _e ∈ H, (1 : EReal) = ((H.card : ℝ) : EReal) := by
  rw [zero_add, ← EReal.coe_one, ← coe_sum, Finset.sum_const, nsmul_eq_mul, mul_one]

/-- A nonempty set has at least one element, so clamping its cardinality below by one changes nothing. -/
theorem max_count {ε : Type*} {H : Finset ε} (hH : H.Nonempty) :
    max ((H.card : ℝ) : EReal) 1 = ((H.card : ℝ) : EReal) := by
  apply max_eq_left
  have h1 : (1 : ℝ) ≤ (H.card : ℝ) := by exact_mod_cast Finset.one_le_card.mpr hH
  exact_mod_cast h1

/-- A family of extended reals none of which is infinite is the coercion of a family of reals. -/
theorem exists_real {ι : Type*} (f : ι → EReal) (h : ∀ i, f i ≠ ⊤ ∧ f i ≠ ⊥) :
    ∃ r : ι → ℝ, ∀ i, f i = (r i : EReal) :=
  ⟨fun i => (f i).toReal, fun i => (EReal.coe_toReal (h i).1 (h i).2).symm⟩

/-- The identity over the reals: dividing the sum of the affine images by `c = |H|` is the affine image of the
    sums divided by `c`. -/
theorem real_mean_affine {ε : Type*} {n : ℕ} (H : Finset ε) (hc : (H.card : ℝ) ≠ 0)
    (x : ε → Fin n → ℝ) (W : Fin n → ℝ) (b : ℝ) :
    (∑ e ∈ H, ((∑ l : Fin n, x e l * W l) + b)) * (1 / (H.card : ℝ))
      = (∑ l : Fin n, (∑ e ∈ H, x e l) * (1 / (H.card : ℝ)) * W l) + b := by
  rw [Finset.sum_add_distrib, Finset.sum_const, nsmul_eq_mul, Finset.sum_comm, add_mul]
  congr 1
  · rw [Finset.sum_mul]
    refine Finset.sum_congr rfl fun l _ => ?_
    rw [← Finset.sum_mul]
    ring
  · field_simp

/-- The mean over a nonempty edge set of the affine images of real rows equals the affine image of the
    mean row, with the total quotient and the count clamped below by one. -/
theorem mean_affine {ε : Type*} {n : ℕ} (H : Finset ε) (hH : H.Nonempty) (x : ε → Fin n → ℝ)
    (W : Fin n → ℝ) (b : ℝ) :
    Ideal.div ((0 : EReal) + ∑ e ∈ H, ((∑ l : Fin n, (x e l : EReal) * (W l : EReal)) + (b : EReal)))
        (max ((0 : EReal) + ∑ _e ∈ H, (1 : EReal)) 1)
      = (∑ l : Fin n, Ideal.div ((0 : EReal) + ∑ e ∈ H, (x e l : EReal))
          (max ((0 : EReal) + ∑ _e ∈ H, (1 : EReal)) 1) * (W l : EReal)) + (b : EReal) := by
  have hc : (H.card : ℝ) ≠ 0 := by exact_mod_cast (Finset.card_pos.mpr hH).ne'
  rw [count_eq, max_count hH]
  simp only [Ideal.div_coe hc, zero_add, ← EReal.coe_mul, ← coe_sum, ← EReal.coe_add]
  rw [real_mean_affine H hc]

/-- The same identity with the edge set given as the edges of a finite type that satisfy a predicate. -/
theorem mean_affine_filter {ε : Type*} {n : ℕ} [Fintype ε] [DecidableEq ε] (P : ε → Prop) [DecidablePred P]
    (hP : (Finset.univ.filter P).Nonempty) (x : ε → Fin n → ℝ) (W : Fin n → ℝ) (b : ℝ) :
    Ideal.div ((0 : EReal) + ∑ e ∈ Finset.univ.filter P,
          ((∑ l : Fin n, (x e l : EReal) * (W l : EReal)) + (b : EReal)))
        (max ((0 : EReal) + ∑ _e ∈ Finset.univ.filter P, (1 : EReal)) 1)
      = (∑ l : Fin n, Ideal.div ((0 : EReal) + ∑ e ∈ Finset.univ.filter P, (x e l : EReal))
          (max ((0 : EReal) + ∑ _e ∈ Finset.univ.filter P, (1 : EReal)) 1) * (W l : EReal)) + (b : EReal) :=
  mean_affine (Finset.univ.filter P) hP x W b

end Cert.MeanAffine
-- ==== Proof.LibGcnStats.lean ====
/-
  The algebra on the extended reals that joins two ways of writing a normalised graph convolution followed by
  batch statistics.

  First half. With `c = 1/√deg` the reciprocal square root of a node's degree `deg = 1 + (number of arriving edges)`,
  one program computes `c · (∑ₑ t e · d e + h · c) + b` and the other `∑ₑ t e · (d e · c) + h · (1/deg) + b`. They agree
  because `c` is a nonnegative finite number — for such a factor multiplication distributes over any sum of extended
  reals — and `c · c = 1/deg`. No finiteness of the messages `t e` or of `h` is needed.

  Second half. The mean of `N = A·B` numbers summed block by block is the mean of all of them, and the one-pass
  variance `max (E[y²] − μ², 0)` equals the two-pass variance `E[(y − μ)²]` when every `y` is a real number: both
  are coercions of real expressions, `∑ (y − μ)² = ∑ y² − N μ²` for `μ = (∑ y)/N`, and the common value is nonnegative.
-/
import Idealize.ShloMosaic.PureOps.Ideal
import Idealize.ShloMosaic.PureOps.Ideal.Laws
import proofs.«160962_j23227183137544_1_alg».proof.Proof.LibFoldSum
import proofs.«160962_j23227183137544_1_alg».proof.Proof.LibMeanAffine

noncomputable section

namespace Cert.GcnStats

open Idealize.ShloMosaic

/-! ### Extended reals that are real numbers -/

/-- An extended real that is the coercion of a real number. -/
def IsReal (a : EReal) : Prop := ∃ r : ℝ, a = (r : EReal)

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem isReal_zero : IsReal 0 := ⟨0, EReal.coe_zero.symm⟩

theorem isReal_one : IsReal 1 := ⟨1, EReal.coe_one.symm⟩

theorem isReal_coe (r : ℝ) : IsReal (r : EReal) := ⟨r, rfl⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-! ### Two literals -/

/-- The pattern of `1.0` denotes the number one. -/
theorem ofBits_one : Ideal.ofBits .f32 0x3F800000#32 = (1 : EReal) := by
  simp [Ideal.ofBits, Ideal.ieee, -EReal.coe_mul]; norm_num

/-- The pattern of `100000.0`: exponent field 143, significand `2^23 + 0x435000 = 12800000`, and
    `12800000 · 2^(143 − 127 − 23) = 100000`. -/
theorem ofBits_1e5 : Ideal.ofBits .f32 0x47C35000#32 = ((100000 : ℝ) : EReal) := by
  simp [Ideal.ofBits, Ideal.ieee, -EReal.coe_mul]; norm_num

/-! ### The degree normalisation -/

/-- The degree `1 + (number of arriving edges)` is a positive real, so its reciprocal square root `c` is a nonnegative
    real number, `1/deg` is a real number, and `c · c = 1/deg`. -/
theorem deg_facts {ι : Type*} (S : Finset ι) (deg : EReal) (hdeg : deg = (0 + ∑ _e ∈ S, (1 : EReal)) + 1) :
    0 ≤ Ideal.rsqrt deg ∧ Ideal.rsqrt deg ≠ ⊤ ∧ IsReal (Ideal.rsqrt deg) ∧ IsReal (Ideal.div 1 deg) ∧
      Ideal.rsqrt deg * Ideal.rsqrt deg = Ideal.div 1 deg := by
  have hd : deg = (((S.card : ℝ) + 1 : ℝ) : EReal) := by
    rw [hdeg, Cert.MeanAffine.count_eq, EReal.coe_add, EReal.coe_one]
  have hpos : (0 : ℝ) < (S.card : ℝ) + 1 := by positivity
  have hrs : Ideal.rsqrt deg = (((Real.sqrt ((S.card : ℝ) + 1))⁻¹ : ℝ) : EReal) := by
    rw [hd, Ideal.rsqrt_coe, if_neg (not_lt.mpr hpos.le), if_neg hpos.ne']
  have hdv : Ideal.div 1 deg = ((1 / ((S.card : ℝ) + 1) : ℝ) : EReal) := by
    rw [hd, Ideal.div_coe hpos.ne', one_mul]
  refine ⟨?_, ?_, ?_, ?_, ?_⟩
  · rw [hrs]
    exact_mod_cast inv_nonneg.mpr (Real.sqrt_nonneg _)
  · rw [hrs]
    exact EReal.coe_ne_top _
  · rw [hrs]
    exact ⟨_, rfl⟩
  · rw [hdv]
    exact ⟨_, rfl⟩
  · rw [hrs, hdv, ← EReal.coe_mul]
    congr 1
    rw [← mul_inv, Real.mul_self_sqrt hpos.le, one_div]

/-- A nonnegative finite factor distributes over a finite sum of extended reals. -/
theorem mul_sum {ι : Type*} (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- One entry of the layer: the factor `c`, common to the edges arriving at the node, taken into the sum over those
    edges and into the self term, where `c · c = r`. -/
theorem y_entry {ι : Type*} (S : Finset ι) (c r : EReal) (h0 : 0 ≤ c) (ht : c ≠ ⊤) (hr : c * c = r)
    (t dS dG : ι → EReal) (hG : ∀ e ∈ S, dG e = c) (hp bq : EReal) :
    c * ((0 + ∑ e ∈ S, t e * dS e) + hp * c) + bq
      = ((0 + ∑ e ∈ S, t e * (dS e * dG e)) + hp * r) + bq := by
  rw [EReal.left_distrib_of_nonneg_of_ne_top h0 ht, zero_add, zero_add, mul_sum S c h0 ht, ← hr,
    mul_left_comm c hp c]
  congr 2
  refine Finset.sum_congr rfl fun e he => ?_
  rw [hG e he, mul_left_comm, mul_comm c (dS e)]

/-! ### Batch statistics from per-block partial sums -/

/-- A sum over the `N = A·B` rows is the sum over the `A` blocks of `B` consecutive rows of each block's sum, the row
    `r` of block `t` being row `B·t + r`. -/
theorem sum_by_blocks {A B N : ℕ} (hN : N = A * B) (blk : Fin A → Fin B → Fin N)
    (hblk : ∀ t r, (blk t r).val = B * t.val + r.val) (f : Fin N → EReal) :
    ∑ p : Fin N, f p = ∑ t : Fin A, ∑ r : Fin B, f (blk t r) := by
  rw [Cert.FoldSum.sum_blocks hN f]
  refine Finset.sum_congr rfl fun t _ => Finset.sum_congr rfl fun r _ => congrArg f (Fin.ext ?_)
  exact (hblk t r).symm

/-- The mean taken from per-block partial sums is the mean over all rows. -/
theorem mean_blocks {A B N : ℕ} (hN : N = A * B) (blk : Fin A → Fin B → Fin N)
    (hblk : ∀ t r, (blk t r).val = B * t.val + r.val) (y : Fin N → EReal) (n : EReal) :
    Ideal.div (0 + ∑ t : Fin A, (0 + ∑ r : Fin B, y (blk t r))) n = Ideal.div (0 + ∑ p : Fin N, y p) n := by
  rw [sum_by_blocks hN blk hblk y]
  simp only [zero_add]

/-- Over the reals, with `μ = (∑ z)/N`: `(∑ z²)/N − μ² = (∑ (z − μ)²)/N`. -/
theorem real_var {N : ℕ} (hpos : 0 < N) (z : Fin N → ℝ) (m : ℝ) (hm : m = (∑ p : Fin N, z p) * (1 / (N : ℝ))) :
    (∑ p : Fin N, z p * z p) * (1 / (N : ℝ)) - m * m = (∑ p : Fin N, (z p - m) * (z p - m)) * (1 / (N : ℝ)) := by
  have hN : (N : ℝ) ≠ 0 := by exact_mod_cast hpos.ne'
  have hs : ∑ p : Fin N, z p = (N : ℝ) * m := by rw [hm]; field_simp
  have h : ∀ p, (z p - m) * (z p - m) = z p * z p - 2 * m * z p + m * m := fun p => by ring
  simp only [h, Finset.sum_add_distrib, Finset.sum_sub_distrib, ← Finset.mul_sum, Finset.sum_const,
    Finset.card_univ, Fintype.card_fin, nsmul_eq_mul]
  rw [hs]
  field_simp
  ring

/-- The one-pass variance from per-block partial sums of squares, clamped below by zero, is the two-pass variance,
    when every entry is a real number. -/
theorem var_onepass {A B N : ℕ} (hN : N = A * B) (hpos : 0 < N) (blk : Fin A → Fin B → Fin N)
    (hblk : ∀ t r, (blk t r).val = B * t.val + r.val) (y : Fin N → EReal) (hy : ∀ p, IsReal (y p))
    (n : EReal) (hn : n = ((N : ℝ) : EReal)) (mu : EReal) (hmu : mu = Ideal.div (0 + ∑ p : Fin N, y p) n) :
    max (Ideal.div (0 + ∑ t : Fin A, (0 + ∑ r : Fin B, y (blk t r) * y (blk t r))) n - mu * mu) 0
      = Ideal.div (0 + ∑ p : Fin N, (y p - mu) * (y p - mu)) n := by
  have hNr : (N : ℝ) ≠ 0 := by exact_mod_cast hpos.ne'
  choose z hz using hy
  have hmu' : mu = (((∑ p : Fin N, z p) * (1 / (N : ℝ)) : ℝ) : EReal) := by
    rw [hmu, hn, Ideal.div_coe hNr, zero_add]
    simp only [hz, ← Cert.MeanAffine.coe_sum, ← EReal.coe_mul]
  have hL : (0 + ∑ t : Fin A, (0 + ∑ r : Fin B, y (blk t r) * y (blk t r)))
      = ((∑ p : Fin N, z p * z p : ℝ) : EReal) := by
    simp only [zero_add]
    rw [← sum_by_blocks hN blk hblk (fun p => y p * y p)]
    simp only [hz, ← EReal.coe_mul, ← Cert.MeanAffine.coe_sum]
  rw [hL, hn, Ideal.div_coe hNr, Ideal.div_coe hNr, hmu', zero_add]
  simp only [hz, ← EReal.coe_mul, ← EReal.coe_sub, ← Cert.MeanAffine.coe_sum]
  rw [real_var hpos z _ rfl]
  apply max_eq_left
  have h0 : (0 : ℝ) ≤ (∑ p : Fin N, (z p - (∑ p : Fin N, z p) * (1 / (N : ℝ))) * (z p - (∑ p : Fin N, z p) * (1 / (N : ℝ))))
      * (1 / (N : ℝ)) :=
    mul_nonneg (Finset.sum_nonneg fun p _ => mul_self_nonneg _) (by positivity)
  exact_mod_cast h0

/-- A real number divided by a nonzero real number is a real number. -/
theorem isReal_div_coe {a : EReal} (ha : IsReal a) {N : ℝ} (hN : N ≠ 0) : IsReal (Ideal.div a (N : EReal)) := by
  rw [Ideal.div_coe hN]
  exact ha.mul (isReal_coe _)

/-- The reciprocal square root of a positive real number is a real number. -/
theorem isReal_rsqrt_pos {a : EReal} (ha : IsReal a) (hpos : 0 < a) : IsReal (Ideal.rsqrt a) := by
  obtain ⟨x, rfl⟩ := ha
  have hx : 0 < x := by exact_mod_cast hpos
  rw [Ideal.rsqrt_coe, if_neg (not_lt.mpr hx.le), if_neg hx.ne']
  exact ⟨_, rfl⟩

end Cert.GcnStats

end
-- ==== Proof.LibSageBn.lean ====
/-
  Two mean-aggregating graph layers with a batch normalisation between them, as whole-array functions on the
  extended reals.

  A layer takes the sum `A` of every node's in-neighbours' rows, the nodes' own rows `X`, a per-node factor `s` (one
  column: the reciprocal of the in-degree clamped below by one), two weight matrices and a one-row bias, and forms
  `(A scaled row by row by s) · wl + X · wr + b`.  Between the layers every column `q` of the first layer's result
  `Y` is normalised: with `μ q = (0 + ∑ₚ Y (p, q)) / n` and a variance `v q`, the entry becomes
  `max (((Y (p, q) − μ q) · rsqrt (v q + ε)) · γ q + β q, 0)`.

  The variance is written in two ways.  One pass: `max ((0 + ∑ₚ Y (p, q)²) / n − μ q · μ q, 0)`.  Two passes:
  `(0 + ∑ₚ (Y (p, q) − μ q)²) / n`.  Over the real numbers, with `n` the number of rows,
  `(∑ y²)/n − μ² = (∑ (y − μ)²)/n ≥ 0`, so the two agree when every entry of `Y` is a real number; on the extended
  reals they need not (an infinite entry makes `∞ − ∞` appear on one side only), which is why the entries' finiteness
  is asked for.

  The aggregation `agg` is a parameter: both programs aggregate by the same gather and segment sum.
-/
import proofs.«160962_j23227183137544_1_alg».proof.Proof.LibSageNet
import proofs.«160962_j23227183137544_1_alg».proof.Proof.LibGcnStats

noncomputable section

open scoped BigOperators

namespace Cert.SageBn

open Idealize.ShloMosaic Idealize.ShloMosaic.ValueIdx Cert.Dense Cert.RowScale Cert.BiasRow Cert.SageDense Cert.SageNet
  Cert.GcnStats

/-- The column means as a one-row array: `(0 + ∑ₚ Y (p, q)) / n`. -/
def colMean {M K : ℕ} (n : EReal) (Y : Mat M K) : Mat 1 K :=
  fun i => Ideal.div (0 + ∑ p : Fin M, Y (ix2 p (c1 i))) n

/-- The one-pass column variances: `max ((0 + ∑ₚ Y (p, q)²) / n − μ q · μ q, 0)`. -/
def varOne {M K : ℕ} (n : EReal) (Y : Mat M K) : Mat 1 K :=
  fun i => max (Ideal.div (0 + ∑ p : Fin M, Y (ix2 p (c1 i)) * Y (ix2 p (c1 i))) n - colMean n Y i * colMean n Y i) 0

/-- The two-pass column variances: `(0 + ∑ₚ (Y (p, q) − μ q)²) / n`. -/
def varTwo {M K : ℕ} (n : EReal) (Y : Mat M K) : Mat 1 K :=
  fun i => Ideal.div (0 + ∑ p : Fin M, (Y (ix2 p (c1 i)) - colMean n Y i) * (Y (ix2 p (c1 i)) - colMean n Y i)) n

/-- Normalise every column by its mean and variance, scale, shift and rectify. -/
def bnRelu {M K : ℕ} (Y : Mat M K) (mu var ga be : Mat 1 K) (eps : EReal) : Mat M K :=
  fun i => max ((((Y i - mu (ix2 (0 : Fin 1) (c1 i))) * Ideal.rsqrt (var (ix2 (0 : Fin 1) (c1 i)) + eps))
    * ga (ix2 (0 : Fin 1) (c1 i))) + be (ix2 (0 : Fin 1) (c1 i))) 0

theorem bnRelu_apply {M K : ℕ} (Y : Mat M K) (mu var ga be : Mat 1 K) (eps : EReal) (p : Fin M) (q : Fin K) :
    bnRelu Y mu var ga be eps (ix2 p q)
      = max ((((Y (ix2 p q) - mu (ix2 (0 : Fin 1) q)) * Ideal.rsqrt (var (ix2 (0 : Fin 1) q) + eps))
        * ga (ix2 (0 : Fin 1) q)) + be (ix2 (0 : Fin 1) q)) 0 := rfl

/-- The network: a layer, the normalisation with the variance `var` of the first layer's result, a second layer over the
    aggregate of the normalised rows. -/
def net {M K P : ℕ} (var : EReal → Mat M K → Mat 1 K) (agg : Mat M K → Mat M K) (s : Mat M 1) (x : Mat M K)
    (wl1 wr1 : Mat K K) (b1 ga be : Mat 1 K) (wl2 wr2 : Mat K P) (b2 : Mat 1 P) (n eps : EReal) : Mat M P :=
  layer (agg (bnRelu (layer (agg x) x s wl1 wr1 b1) (colMean n (layer (agg x) x s wl1 wr1 b1))
      (var n (layer (agg x) x s wl1 wr1 b1)) ga be eps))
    (bnRelu (layer (agg x) x s wl1 wr1 b1) (colMean n (layer (agg x) x s wl1 wr1 b1))
      (var n (layer (agg x) x s wl1 wr1 b1)) ga be eps) s wl2 wr2 b2

/-- When every entry is a real number and `n` is the number of rows, the one-pass variance is the two-pass one. -/
theorem varOne_eq_varTwo {M K : ℕ} (hpos : 0 < M) (n : EReal) (hn : n = ((M : ℝ) : EReal)) (Y : Mat M K)
    (hY : ∀ i, IsReal (Y i)) : varOne n Y = varTwo n Y := by
  funext i
  have h := var_onepass (A := 1) (B := M) (N := M) (one_mul M).symm hpos (fun _ r => r)
    (fun t r => by
      obtain rfl : t = 0 := Subsingleton.elim _ _
      show r.val = M * 0 + r.val
      omega)
    (fun p => Y (ix2 p (c1 i))) (fun p => hY _) n hn (colMean n Y i) rfl
  simp only [Fin.sum_univ_one, zero_add] at h
  show max (Ideal.div (0 + ∑ p : Fin M, Y (ix2 p (c1 i)) * Y (ix2 p (c1 i))) n - colMean n Y i * colMean n Y i) 0
    = Ideal.div (0 + ∑ p : Fin M, (Y (ix2 p (c1 i)) - colMean n Y i) * (Y (ix2 p (c1 i)) - colMean n Y i)) n
  simp only [zero_add]
  exact h

/-- The two networks agree when the first layer's result is real everywhere. -/
theorem net_one_eq_two {M K P : ℕ} (hpos : 0 < M) (agg : Mat M K → Mat M K) (s : Mat M 1) (x : Mat M K)
    (wl1 wr1 : Mat K K) (b1 ga be : Mat 1 K) (wl2 wr2 : Mat K P) (b2 : Mat 1 P) (n eps : EReal)
    (hn : n = ((M : ℝ) : EReal)) (hY : ∀ i, IsReal (layer (agg x) x s wl1 wr1 b1 i)) :
    net varOne agg s x wl1 wr1 b1 ga be wl2 wr2 b2 n eps = net varTwo agg s x wl1 wr1 b1 ga be wl2 wr2 b2 n eps := by
  unfold net
  rw [varOne_eq_varTwo hpos n hn _ hY]

/-- A layer's entry is a real number when every array it reads holds real numbers. -/
theorem isReal_layer {M K N : ℕ} (A X : Mat M K) (s : Mat M 1) (wl wr : Mat K N) (b : Mat 1 N)
    (hA : ∀ i, IsReal (A i)) (hX : ∀ i, IsReal (X i)) (hs : ∀ i, IsReal (s i)) (hl : ∀ i, IsReal (wl i))
    (hr : ∀ i, IsReal (wr i)) (hb : ∀ i, IsReal (b i)) (i : (⟨2, ![M, N]⟩ : Shape).Idx) :
    IsReal (layer A X s wl wr b i) := by
  show IsReal ((mm (scaleRows A s) wl i + mm X wr i) + b (ix2 (0 : Fin 1) (c1 i)))
  refine IsReal.add (IsReal.add ?_ ?_) (hb _)
  · exact isReal_sum _ _ fun k _ => IsReal.mul (IsReal.mul (hA _) (hs _)) (hl _)
  · exact isReal_sum _ _ fun k _ => IsReal.mul (hX _) (hr _)

end Cert.SageBn

end
-- ==== Proof.Spec.lean ====
/-
  The mathematics both programs compute, on the extended reals, as whole-array functions of an already
  aggregated feature array: a dense step (matrix product plus one bias row), the column statistics over the
  rows (mean; variance in its one-pass form E[y²] − μ², and in its two-pass form E[(y − μ)²]), and the
  normalised, scaled, shifted and rectified result.  The two variance forms agree on arrays of real numbers,
  which is the one place where finiteness of the inputs is used.
-/
import proofs.«160962_j23227183137544_1_alg».proof.Proof.LibSageBn
import proofs.«160962_j23227183137544_1_alg».proof.Proof.LibBiasRow
import proofs.«160962_j23227183137544_1_alg».proof.Proof.LibDense
import proofs.«160962_j23227183137544_1_alg».proof.Proof.LibGcnStats

noncomputable section

open scoped BigOperators

namespace Cert.Spec

open Idealize.ShloMosaic Idealize.ShloMosaic.ValueIdx Cert.Dense Cert.BiasRow Cert.SageBn Cert.GcnStats

/-- The number of rows as the programs write it: the f32 word of 100000. -/
def n : EReal := Ideal.ofBits .f32 0x47C35000#32
/-- The variance offset as the programs write it: the f32 word nearest 1e-5. -/
def eps : EReal := Ideal.ofBits .f32 0x3727C5AC#32

/-- The one-pass column variances WITHOUT a clamp: `(0 + ∑ₚ Y(p,q)²) / n − μ q · μ q`. -/
def varK {M K : ℕ} (n : EReal) (Y : Mat M K) : Mat 1 K :=
  fun i => Ideal.div (0 + ∑ p : Fin M, Y (ix2 p (c1 i)) * Y (ix2 p (c1 i))) n - colMean n Y i * colMean n Y i

/-- The dense step: `A · W` plus the bias row on every row. -/
def dense {M K K' : ℕ} (A : Mat M K) (W : Mat K K') (b : Mat 1 K') : Mat M K' := addRow (mm A W) b

/-- One layer after the aggregation, the variance functional a parameter. -/
def layer {M K : ℕ} (var : EReal → Mat M K → Mat 1 K) (A : Mat M K) (W : Mat K K) (b ga be : Mat 1 K) : Mat M K :=
  bnRelu (dense A W b) (colMean n (dense A W b)) (var n (dense A W b)) ga be eps

/-- Layer `l` of a stack of three square matrices. -/
def slabW (Ws : (⟨3, ![3, 128, 128]⟩ : Shape).Idx → EReal) (l : Fin 3) : Mat 128 128 :=
  fun i => Ws (ix3 l (c0 i) (c1 i))

/-- Row `l` of a stack of three rows, as a one-row array. -/
def rowOf (bs : Mat 3 128) (l : Fin 3) : Mat 1 128 := fun i => bs (ix2 l (c1 i))

end Cert.Spec

end
-- ==== Proof.KIHostTerms.lean ====
/-
  The host's small layout and statistics terms, read at an index, on the extended reals.

  Between two kernel regions the host turns the two accumulated rows (the column sums of z and of z²) into the
  mean row and the reciprocal-standard-deviation row: each row is cast to a vector, divided by the row count,
  combined as E[z²] − μ·μ, offset by the variance epsilon, passed through the reciprocal square root and cast
  back to a row.  A cast to a vector and back is the identity, and every operation in between is pointwise, so
  the result at an index is the scalar formula at that index.  A layer's weight matrix, bias row, scale row and
  shift row are unit slices of the stacked parameters, cast to the rank below: at an index they read the stack
  at the layer's number and the same remaining coordinates.
-/
import proofs.«160962_j23227183137544_1_alg».proof.KernelIdeal
import proofs.«160962_j23227183137544_1_alg».proof.Proof.Spec

noncomputable section

namespace Cert.KernelIdeal.HostTerms

open Cert.KernelIdeal
open Idealize.ShloMosaic Idealize.ShloMosaic.ValueIdx
open Cert.Dense

/-- The mean row: the sum row cast to a vector, divided by the row count, cast back. -/
theorem meanRow_eq (s1 : S1x128.Idx → EReal) (h1 : S1x128.ShapeCasts S128) (h2 : S128.ShapeCasts S1x128)
    (hb : S_.BroadcastsInDim S128 ![]) :
    shapeCast S1x128
        (Host.divf (F := Ideal) (φ := .f32) (shapeCast S128 s1 h1)
          (broadcastInDim S128 ![] hb (constant (F := Ideal) S_ .f32 0x47C35000#32))) h2
      = fun i => Ideal.div (s1 i) Cert.Spec.n := by
  funext i
  show Ideal.div (shapeCast S1x128 (shapeCast S128 s1 h1) h2 i) Cert.Spec.n = _
  rw [shapeCast_shapeCast]

/-- The reciprocal-standard-deviation row: `rsqrt ((Σz²/n − (Σz/n)·(Σz/n)) + eps)` entry by entry. -/
theorem invstdRow_eq (s1 s2 : S1x128.Idx → EReal) (h1 : S1x128.ShapeCasts S128) (h2 : S128.ShapeCasts S1x128)
    (hb : S_.BroadcastsInDim S128 ![]) :
    shapeCast S1x128
        (Host.rsqrt (F := Ideal) (φ := .f32)
          (addf
            (subf
              (Host.divf (shapeCast S128 s2 h1) (broadcastInDim S128 ![] hb (constant (F := Ideal) S_ .f32 0x47C35000#32)))
              (mulf
                (Host.divf (shapeCast S128 s1 h1) (broadcastInDim S128 ![] hb (constant (F := Ideal) S_ .f32 0x47C35000#32)))
                (Host.divf (shapeCast S128 s1 h1) (broadcastInDim S128 ![] hb (constant (F := Ideal) S_ .f32 0x47C35000#32)))))
            (broadcastInDim S128 ![] hb (constant (F := Ideal) S_ .f32 0x3727C5AC#32)))) h2
      = fun i => Ideal.rsqrt ((Ideal.div (s2 i) Cert.Spec.n - Ideal.div (s1 i) Cert.Spec.n * Ideal.div (s1 i) Cert.Spec.n)
                    + Cert.Spec.eps) := by
  funext i
  show Ideal.rsqrt ((Ideal.div (shapeCast S1x128 (shapeCast S128 s2 h1) h2 i) Cert.Spec.n
        - Ideal.div (shapeCast S1x128 (shapeCast S128 s1 h1) h2 i) Cert.Spec.n
          * Ideal.div (shapeCast S1x128 (shapeCast S128 s1 h1) h2 i) Cert.Spec.n) + Cert.Spec.eps) = _
  rw [shapeCast_shapeCast, shapeCast_shapeCast]

/-- Row `l` of a stack of three rows, sliced out as a one-row array, cast to a vector and back. -/
theorem rowSlice_eq (a : S3x128.Idx → EReal) (o : ℕ) (l : Fin 3) (hl : l.val = o)
    (hs : S3x128.Slices ![o, 0] S1x128) (h1 : S1x128.ShapeCasts S128) (h2 : S128.ShapeCasts S1x128) :
    shapeCast S1x128 (shapeCast S128 (extractStridedSlice S1x128 ![o, 0] a hs) h1) h2 = Cert.Spec.rowOf a l := by
  rw [shapeCast_shapeCast]
  funext i
  exact extractStridedSlice_apply ![o, 0] a hs i (ix2 l (c1 i)) (fun ax => by
    match ax with
    | ⟨0, _⟩ =>
      show l.val = o + (i 0).val
      have := idx2_lt0 i
      omega
    | ⟨1, _⟩ =>
      show (i 1).val = 0 + (i 1).val
      omega)

/-- Matrix `l` of a stack of three square matrices, sliced out with a unit leading axis and cast to rank two. -/
theorem slabSlice_eq (a : S3x128x128.Idx → EReal) (o : ℕ) (l : Fin 3) (hl : l.val = o)
    (hs : S3x128x128.Slices ![o, 0, 0] S1x128x128) (h1 : S1x128x128.ShapeCasts S128x128) :
    shapeCast S128x128 (extractStridedSlice S1x128x128 ![o, 0, 0] a hs) h1 = Cert.Spec.slabW a l := by
  funext i
  obtain ⟨p, q, rfl⟩ : ∃ (p : Fin 128) (q : Fin 128), i = ix2 p q := ⟨i 0, i 1, eq_ix2 i⟩
  rw [shapeCast_1ab_ab_apply]
  exact extractStridedSlice_apply ![o, 0, 0] a hs (ix3 (0 : Fin 1) p q) (ix3 l p q) (fun ax => by
    match ax with
    | ⟨0, _⟩ =>
      show l.val = o + 0
      omega
    | ⟨1, _⟩ =>
      show p.val = 0 + p.val
      omega
    | ⟨2, _⟩ =>
      show q.val = 0 + q.val
      omega)

end Cert.KernelIdeal.HostTerms

end
-- ==== Proof.KIHost0.lean ====
/-
  What the host computes before the first kernel region, from any buffer contents `W`: the two edge lists with a
  self-loop per node appended, the two degree factors as columns, the first layer's aggregate of the feature array
  (the edge aggregation of the two index arguments applied to it), and the first layer's weight matrix and bias row
  (matrix 0 and row 0 of the stacked parameters).
-/
import proofs.«160962_j23227183137544_1_alg».proof.Proof.Gen.KernelIdeal.Launch
import proofs.«160962_j23227183137544_1_alg».proof.Proof.KAgg
import proofs.«160962_j23227183137544_1_alg».proof.Proof.KIHostTerms

set_option maxRecDepth 16384

noncomputable section

namespace Cert.KernelIdeal.Host

open Cert.KernelIdeal Cert.KernelIdeal.Gen
open Idealize.ShloMosaic Idealize.ShloMosaic.TcCoe Idealize.ShloMosaic.ValueIdx
open Idealize.SL.Sem Idealize.ShloMosaic.StableHlo

variable (W : Valuation τ sig (Elt Ideal))

/-- The source list with its self-loops. -/
theorem after0_srcLoops :
    StableHlo.after (hostOps0 (F := Ideal)) W (Proc.devRef .tc main_v1)
      = KAgg.withLoops (F := Ideal) (W (Proc.devRef .tc main_arg5)) := by
  after_results_simp
  rfl

/-- The destination list with its self-loops. -/
theorem after0_dstLoops :
    StableHlo.after (hostOps0 (F := Ideal)) W (Proc.devRef .tc main_v2)
      = KAgg.withLoops (F := Ideal) (W (Proc.devRef .tc main_arg6)) := by
  after_results_simp
  rfl

/-- The out-degree factor column. -/
theorem after0_invOut :
    StableHlo.after (hostOps0 (F := Ideal)) W (Proc.devRef .tc main_v13)
      = KAgg.invCol (F := Ideal) (W (Proc.devRef .tc main_arg5)) := by
  after_results_simp
  rfl

/-- The in-degree factor column. -/
theorem after0_invIn :
    StableHlo.after (hostOps0 (F := Ideal)) W (Proc.devRef .tc main_v17)
      = KAgg.invCol (F := Ideal) (W (Proc.devRef .tc main_arg6)) := by
  after_results_simp
  rfl

set_option maxHeartbeats 400000 in
/-- The first layer's aggregate. -/
theorem after0_agg :
    StableHlo.after (hostOps0 (F := Ideal)) W (Proc.devRef .tc main_v31)
      = KAgg.agg (F := Ideal) (W (Proc.devRef .tc main_arg5)) (W (Proc.devRef .tc main_arg6))
          (W (Proc.devRef .tc main_arg0)) := by
  after_results_simp
  rfl

/-- The first layer's weight matrix. -/
theorem after0_weight :
    StableHlo.after (hostOps0 (F := Ideal)) W (Proc.devRef .tc main_v33)
      = Cert.Spec.slabW (W (Proc.devRef .tc main_arg1)) 0 := by
  after_results_simp
  exact HostTerms.slabSlice_eq _ 0 0 rfl _ _

/-- The first layer's bias row. -/
theorem after0_bias :
    StableHlo.after (hostOps0 (F := Ideal)) W (Proc.devRef .tc main_v36)
      = Cert.Spec.rowOf (W (Proc.devRef .tc main_arg2)) 0 := by
  after_results_simp
  exact HostTerms.rowSlice_eq _ 0 0 rfl _ _ _

end Cert.KernelIdeal.Host

end
-- ==== Proof.KIHost1.lean ====
/-
  What the host computes between the product-and-statistics region of layer 0 and its normalise-and-rectify
  region, from any buffer contents `W`: the mean row is the accumulated sum row divided by the row count, the
  reciprocal-standard-deviation row is `rsqrt ((Σz²/n − μ·μ) + eps)` entry by entry, and the scale and shift rows
  are row 0 of the two stacked parameter arrays.  The region's product array is not written.
-/
import proofs.«160962_j23227183137544_1_alg».proof.Proof.Gen.KernelIdeal.Launch
import proofs.«160962_j23227183137544_1_alg».proof.Proof.KIHostTerms

noncomputable section

namespace Cert.KernelIdeal.Host

open Cert.KernelIdeal Cert.KernelIdeal.Gen
open Idealize.ShloMosaic Idealize.ShloMosaic.TcCoe Idealize.ShloMosaic.ValueIdx
open Idealize.SL.Sem Idealize.ShloMosaic.StableHlo

variable (W : Valuation τ sig (Elt Ideal))

/-- The mean row after the stretch. -/
theorem after1_mean :
    StableHlo.after (hostOps1 (F := Ideal)) W (Proc.devRef .tc main_v53)
      = fun i => Ideal.div (W (Proc.devRef .tc main_v37_1) i) Cert.Spec.n := by
  after_results
  exact HostTerms.meanRow_eq _ _ _ _

/-- The reciprocal-standard-deviation row after the stretch. -/
theorem after1_invstd :
    StableHlo.after (hostOps1 (F := Ideal)) W (Proc.devRef .tc main_v54)
      = fun i => Ideal.rsqrt ((Ideal.div (W (Proc.devRef .tc main_v37_2) i) Cert.Spec.n
            - Ideal.div (W (Proc.devRef .tc main_v37_1) i) Cert.Spec.n * Ideal.div (W (Proc.devRef .tc main_v37_1) i) Cert.Spec.n)
          + Cert.Spec.eps) := by
  after_results
  exact HostTerms.invstdRow_eq _ _ _ _ _

/-- The scale row after the stretch. -/
theorem after1_gamma :
    StableHlo.after (hostOps1 (F := Ideal)) W (Proc.devRef .tc main_v55)
      = Cert.Spec.rowOf (W (Proc.devRef .tc main_arg3)) 0 := by
  after_results
  exact HostTerms.rowSlice_eq _ 0 0 rfl _ _ _

/-- The shift row after the stretch. -/
theorem after1_beta :
    StableHlo.after (hostOps1 (F := Ideal)) W (Proc.devRef .tc main_v56)
      = Cert.Spec.rowOf (W (Proc.devRef .tc main_arg4)) 0 := by
  after_results
  exact HostTerms.rowSlice_eq _ 0 0 rfl _ _ _

end Cert.KernelIdeal.Host

end
-- ==== Proof.KIHost2.lean ====
/-
  What the host computes between layer 0's normalise-and-rectify region and layer 1's product-and-statistics
  region, from any buffer contents `W` that still hold the two extended edge lists and the two degree-factor
  columns: the aggregate of the previous layer's output, and layer 1's weight matrix and bias row (matrix 1 and
  row 1 of the stacked parameters).
-/
import proofs.«160962_j23227183137544_1_alg».proof.Proof.Gen.KernelIdeal.Launch
import proofs.«160962_j23227183137544_1_alg».proof.Proof.KAgg
import proofs.«160962_j23227183137544_1_alg».proof.Proof.KIHostTerms

set_option maxRecDepth 16384

noncomputable section

namespace Cert.KernelIdeal.Host

open Cert.KernelIdeal Cert.KernelIdeal.Gen
open Idealize.ShloMosaic Idealize.ShloMosaic.TcCoe Idealize.ShloMosaic.ValueIdx
open Idealize.SL.Sem Idealize.ShloMosaic.StableHlo

variable (W : Valuation τ sig (Elt Ideal))

set_option maxHeartbeats 400000 in
/-- Layer 1's aggregate, when the carried buffers are those of the index arrays `src`, `dst`. -/
theorem after2_agg (src dst : (⟨S1600000, .i32⟩ : BufTy).Contents (Elt Ideal))
    (h1 : W (Proc.devRef .tc main_v1) = KAgg.withLoops (F := Ideal) src)
    (h2 : W (Proc.devRef .tc main_v2) = KAgg.withLoops (F := Ideal) dst)
    (h13 : W (Proc.devRef .tc main_v13) = KAgg.invCol (F := Ideal) src)
    (h17 : W (Proc.devRef .tc main_v17) = KAgg.invCol (F := Ideal) dst) :
    StableHlo.after (hostOps2 (F := Ideal)) W (Proc.devRef .tc main_v71)
      = KAgg.agg (F := Ideal) src dst (W (Proc.devRef .tc main_v57)) := by
  after_results_simp
  rw [h1, h2, h13, h17]
  rfl

/-- Layer 1's weight matrix. -/
theorem after2_weight :
    StableHlo.after (hostOps2 (F := Ideal)) W (Proc.devRef .tc main_v73)
      = Cert.Spec.slabW (W (Proc.devRef .tc main_arg1)) 1 := by
  after_results
  exact HostTerms.slabSlice_eq _ 1 1 rfl _ _

/-- Layer 1's bias row. -/
theorem after2_bias :
    StableHlo.after (hostOps2 (F := Ideal)) W (Proc.devRef .tc main_v76)
      = Cert.Spec.rowOf (W (Proc.devRef .tc main_arg2)) 1 := by
  after_results
  exact HostTerms.rowSlice_eq _ 1 1 rfl _ _ _

end Cert.KernelIdeal.Host

end
-- ==== Proof.KIHost3.lean ====
/-
  What the host computes between the product-and-statistics region of layer 1 and its normalise-and-rectify
  region, from any buffer contents `W`: the mean row is the accumulated sum row divided by the row count, the
  reciprocal-standard-deviation row is `rsqrt ((Σz²/n − μ·μ) + eps)` entry by entry, and the scale and shift rows
  are row 1 of the two stacked parameter arrays.  The region's product array is not written.
-/
import proofs.«160962_j23227183137544_1_alg».proof.Proof.Gen.KernelIdeal.Launch
import proofs.«160962_j23227183137544_1_alg».proof.Proof.KIHostTerms

noncomputable section

namespace Cert.KernelIdeal.Host

open Cert.KernelIdeal Cert.KernelIdeal.Gen
open Idealize.ShloMosaic Idealize.ShloMosaic.TcCoe Idealize.ShloMosaic.ValueIdx
open Idealize.SL.Sem Idealize.ShloMosaic.StableHlo

variable (W : Valuation τ sig (Elt Ideal))

/-- The mean row after the stretch. -/
theorem after3_mean :
    StableHlo.after (hostOps3 (F := Ideal)) W (Proc.devRef .tc main_v93)
      = fun i => Ideal.div (W (Proc.devRef .tc main_v77_1) i) Cert.Spec.n := by
  after_results
  exact HostTerms.meanRow_eq _ _ _ _

/-- The reciprocal-standard-deviation row after the stretch. -/
theorem after3_invstd :
    StableHlo.after (hostOps3 (F := Ideal)) W (Proc.devRef .tc main_v94)
      = fun i => Ideal.rsqrt ((Ideal.div (W (Proc.devRef .tc main_v77_2) i) Cert.Spec.n
            - Ideal.div (W (Proc.devRef .tc main_v77_1) i) Cert.Spec.n * Ideal.div (W (Proc.devRef .tc main_v77_1) i) Cert.Spec.n)
          + Cert.Spec.eps) := by
  after_results
  exact HostTerms.invstdRow_eq _ _ _ _ _

/-- The scale row after the stretch. -/
theorem after3_gamma :
    StableHlo.after (hostOps3 (F := Ideal)) W (Proc.devRef .tc main_v95)
      = Cert.Spec.rowOf (W (Proc.devRef .tc main_arg3)) 1 := by
  after_results
  exact HostTerms.rowSlice_eq _ 1 1 rfl _ _ _

/-- The shift row after the stretch. -/
theorem after3_beta :
    StableHlo.after (hostOps3 (F := Ideal)) W (Proc.devRef .tc main_v96)
      = Cert.Spec.rowOf (W (Proc.devRef .tc main_arg4)) 1 := by
  after_results
  exact HostTerms.rowSlice_eq _ 1 1 rfl _ _ _

end Cert.KernelIdeal.Host

end
-- ==== Proof.KIHost4.lean ====
/-
  What the host computes between layer 1's normalise-and-rectify region and layer 2's product-and-statistics
  region, from any buffer contents `W` that still hold the two extended edge lists and the two degree-factor
  columns: the aggregate of the previous layer's output, and layer 2's weight matrix and bias row (matrix 2 and
  row 2 of the stacked parameters).
-/
import proofs.«160962_j23227183137544_1_alg».proof.Proof.Gen.KernelIdeal.Launch
import proofs.«160962_j23227183137544_1_alg».proof.Proof.KAgg
import proofs.«160962_j23227183137544_1_alg».proof.Proof.KIHostTerms

set_option maxRecDepth 16384

noncomputable section

namespace Cert.KernelIdeal.Host

open Cert.KernelIdeal Cert.KernelIdeal.Gen
open Idealize.ShloMosaic Idealize.ShloMosaic.TcCoe Idealize.ShloMosaic.ValueIdx
open Idealize.SL.Sem Idealize.ShloMosaic.StableHlo

variable (W : Valuation τ sig (Elt Ideal))

set_option maxHeartbeats 400000 in
/-- Layer 2's aggregate, when the carried buffers are those of the index arrays `src`, `dst`. -/
theorem after4_agg (src dst : (⟨S1600000, .i32⟩ : BufTy).Contents (Elt Ideal))
    (h1 : W (Proc.devRef .tc main_v1) = KAgg.withLoops (F := Ideal) src)
    (h2 : W (Proc.devRef .tc main_v2) = KAgg.withLoops (F := Ideal) dst)
    (h13 : W (Proc.devRef .tc main_v13) = KAgg.invCol (F := Ideal) src)
    (h17 : W (Proc.devRef .tc main_v17) = KAgg.invCol (F := Ideal) dst) :
    StableHlo.after (hostOps4 (F := Ideal)) W (Proc.devRef .tc main_v111)
      = KAgg.agg (F := Ideal) src dst (W (Proc.devRef .tc main_v97)) := by
  after_results_simp
  rw [h1, h2, h13, h17]
  rfl

/-- Layer 2's weight matrix. -/
theorem after4_weight :
    StableHlo.after (hostOps4 (F := Ideal)) W (Proc.devRef .tc main_v113)
      = Cert.Spec.slabW (W (Proc.devRef .tc main_arg1)) 2 := by
  after_results
  exact HostTerms.slabSlice_eq _ 2 2 rfl _ _

/-- Layer 2's bias row. -/
theorem after4_bias :
    StableHlo.after (hostOps4 (F := Ideal)) W (Proc.devRef .tc main_v116)
      = Cert.Spec.rowOf (W (Proc.devRef .tc main_arg2)) 2 := by
  after_results
  exact HostTerms.rowSlice_eq _ 2 2 rfl _ _ _

end Cert.KernelIdeal.Host

end
-- ==== Proof.KIHost5.lean ====
/-
  What the host computes between the product-and-statistics region of layer 2 and its normalise-and-rectify
  region, from any buffer contents `W`: the mean row is the accumulated sum row divided by the row count, the
  reciprocal-standard-deviation row is `rsqrt ((Σz²/n − μ·μ) + eps)` entry by entry, and the scale and shift rows
  are row 2 of the two stacked parameter arrays.  The region's product array is not written.
-/
import proofs.«160962_j23227183137544_1_alg».proof.Proof.Gen.KernelIdeal.Launch
import proofs.«160962_j23227183137544_1_alg».proof.Proof.KIHostTerms

noncomputable section

namespace Cert.KernelIdeal.Host

open Cert.KernelIdeal Cert.KernelIdeal.Gen
open Idealize.ShloMosaic Idealize.ShloMosaic.TcCoe Idealize.ShloMosaic.ValueIdx
open Idealize.SL.Sem Idealize.ShloMosaic.StableHlo

variable (W : Valuation τ sig (Elt Ideal))

/-- The mean row after the stretch. -/
theorem after5_mean :
    StableHlo.after (hostOps5 (F := Ideal)) W (Proc.devRef .tc main_v133)
      = fun i => Ideal.div (W (Proc.devRef .tc main_v117_1) i) Cert.Spec.n := by
  after_results
  exact HostTerms.meanRow_eq _ _ _ _

/-- The reciprocal-standard-deviation row after the stretch. -/
theorem after5_invstd :
    StableHlo.after (hostOps5 (F := Ideal)) W (Proc.devRef .tc main_v134)
      = fun i => Ideal.rsqrt ((Ideal.div (W (Proc.devRef .tc main_v117_2) i) Cert.Spec.n
            - Ideal.div (W (Proc.devRef .tc main_v117_1) i) Cert.Spec.n * Ideal.div (W (Proc.devRef .tc main_v117_1) i) Cert.Spec.n)
          + Cert.Spec.eps) := by
  after_results
  exact HostTerms.invstdRow_eq _ _ _ _ _

/-- The scale row after the stretch. -/
theorem after5_gamma :
    StableHlo.after (hostOps5 (F := Ideal)) W (Proc.devRef .tc main_v135)
      = Cert.Spec.rowOf (W (Proc.devRef .tc main_arg3)) 2 := by
  after_results
  exact HostTerms.rowSlice_eq _ 2 2 rfl _ _ _

/-- The shift row after the stretch. -/
theorem after5_beta :
    StableHlo.after (hostOps5 (F := Ideal)) W (Proc.devRef .tc main_v136)
      = Cert.Spec.rowOf (W (Proc.devRef .tc main_arg4)) 2 := by
  after_results
  exact HostTerms.rowSlice_eq _ 2 2 rfl _ _ _

end Cert.KernelIdeal.Host

end
-- ==== Proof.KIHost.lean ====
/-
  The host stretches of @main between the kernel regions, as equations between the buffer contents at consecutive
  boundaries of the run: before the first region the host builds the extended edge lists, the two degree-factor
  columns, the first aggregate and the first layer's parameters; after each product-and-statistics region it turns
  the two accumulated rows into the mean row and the reciprocal-standard-deviation row and slices the layer's scale
  and shift rows; after each normalise-and-rectify region but the last it aggregates that region's output with the
  edge lists and factor columns carried unchanged from the first stretch, and slices the next layer's parameters.
  No region and no stretch writes an argument, the extended edge lists or the factor columns.
-/
import proofs.«160962_j23227183137544_1_alg».proof.Proof.KIRun
import proofs.«160962_j23227183137544_1_alg».proof.Proof.KIHost0
import proofs.«160962_j23227183137544_1_alg».proof.Proof.KIHost1
import proofs.«160962_j23227183137544_1_alg».proof.Proof.KIHost2
import proofs.«160962_j23227183137544_1_alg».proof.Proof.KIHost3
import proofs.«160962_j23227183137544_1_alg».proof.Proof.KIHost4
import proofs.«160962_j23227183137544_1_alg».proof.Proof.KIHost5

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

/-! ## What no region and no earlier stretch writes is carried to each stretch's entry -/

theorem W1_keep (c : Dev nD) (b : Ref sig .tc) (h0 : b ∉ hostOps0_W) :
    W1 m c (Proc.devRef .tc b) = m ((c : Thread nD τ).loc b) :=
  StableHlo.after_of_writes_sub hostOps0 _ hostOps0_writes h0

theorem W2_keep (c : Dev nD) (b : Ref sig .tc) (r0 : ∀ w, Pipeline.arrRef spec0 w ≠ b) :
    W2 m c (Proc.devRef .tc b) = W1 m c (Proc.devRef .tc b) := W2_of_ne m c b r0

theorem W4_keep (c : Dev nD) (b : Ref sig .tc) (r0 : ∀ w, Pipeline.arrRef spec0 w ≠ b) (h1 : b ∉ hostOps1_W)
    (r1 : ∀ w, Pipeline.arrRef spec1 w ≠ b) : W4 m c (Proc.devRef .tc b) = W1 m c (Proc.devRef .tc b) :=
  (W4_of_ne m c b r1).trans
    ((StableHlo.after_of_writes_sub hostOps1 _ hostOps1_writes h1).trans (W2_keep m c b r0))

theorem W6_keep (c : Dev nD) (b : Ref sig .tc) (r0 : ∀ w, Pipeline.arrRef spec0 w ≠ b) (h1 : b ∉ hostOps1_W)
    (r1 : ∀ w, Pipeline.arrRef spec1 w ≠ b) (h2 : b ∉ hostOps2_W) (r2 : ∀ w, Pipeline.arrRef spec2 w ≠ b) :
    W6 m c (Proc.devRef .tc b) = W1 m c (Proc.devRef .tc b) :=
  (W6_of_ne m c b r2).trans
    ((StableHlo.after_of_writes_sub hostOps2 _ hostOps2_writes h2).trans (W4_keep m c b r0 h1 r1))

theorem W8_keep (c : Dev nD) (b : Ref sig .tc) (r0 : ∀ w, Pipeline.arrRef spec0 w ≠ b) (h1 : b ∉ hostOps1_W)
    (r1 : ∀ w, Pipeline.arrRef spec1 w ≠ b) (h2 : b ∉ hostOps2_W) (r2 : ∀ w, Pipeline.arrRef spec2 w ≠ b)
    (h3 : b ∉ hostOps3_W) (r3 : ∀ w, Pipeline.arrRef spec3 w ≠ b) :
    W8 m c (Proc.devRef .tc b) = W1 m c (Proc.devRef .tc b) :=
  (W8_of_ne m c b r3).trans
    ((StableHlo.after_of_writes_sub hostOps3 _ hostOps3_writes h3).trans (W6_keep m c b r0 h1 r1 h2 r2))

theorem W10_keep (c : Dev nD) (b : Ref sig .tc) (r0 : ∀ w, Pipeline.arrRef spec0 w ≠ b) (h1 : b ∉ hostOps1_W)
    (r1 : ∀ w, Pipeline.arrRef spec1 w ≠ b) (h2 : b ∉ hostOps2_W) (r2 : ∀ w, Pipeline.arrRef spec2 w ≠ b)
    (h3 : b ∉ hostOps3_W) (r3 : ∀ w, Pipeline.arrRef spec3 w ≠ b) (h4 : b ∉ hostOps4_W)
    (r4 : ∀ w, Pipeline.arrRef spec4 w ≠ b) :
    W10 m c (Proc.devRef .tc b) = W1 m c (Proc.devRef .tc b) :=
  (W10_of_ne m c b r4).trans
    ((StableHlo.after_of_writes_sub hostOps4 _ hostOps4_writes h4).trans (W8_keep m c b r0 h1 r1 h2 r2 h3 r3))

/-! ## The first stretch -/

theorem W1_srcLoops (c : Dev nD) :
    W1 m c (Proc.devRef .tc main_v1) = KAgg.withLoops (F := Ideal) (m ((c : Thread nD τ).loc main_arg5)) :=
  Host.after0_srcLoops (W0 m c)
theorem W1_dstLoops (c : Dev nD) :
    W1 m c (Proc.devRef .tc main_v2) = KAgg.withLoops (F := Ideal) (m ((c : Thread nD τ).loc main_arg6)) :=
  Host.after0_dstLoops (W0 m c)
theorem W1_invOut (c : Dev nD) :
    W1 m c (Proc.devRef .tc main_v13) = KAgg.invCol (F := Ideal) (m ((c : Thread nD τ).loc main_arg5)) :=
  Host.after0_invOut (W0 m c)
theorem W1_invIn (c : Dev nD) :
    W1 m c (Proc.devRef .tc main_v17) = KAgg.invCol (F := Ideal) (m ((c : Thread nD τ).loc main_arg6)) :=
  Host.after0_invIn (W0 m c)
theorem W1_agg (c : Dev nD) :
    W1 m c (Proc.devRef .tc main_v31)
      = KAgg.agg (F := Ideal) (m ((c : Thread nD τ).loc main_arg5)) (m ((c : Thread nD τ).loc main_arg6))
          (m ((c : Thread nD τ).loc main_arg0)) :=
  Host.after0_agg (W0 m c)
theorem W1_weight (c : Dev nD) :
    W1 m c (Proc.devRef .tc main_v33) = Cert.Spec.slabW (m ((c : Thread nD τ).loc main_arg1)) 0 :=
  Host.after0_weight (W0 m c)
theorem W1_bias (c : Dev nD) :
    W1 m c (Proc.devRef .tc main_v36) = Cert.Spec.rowOf (m ((c : Thread nD τ).loc main_arg2)) 0 :=
  Host.after0_bias (W0 m c)

/-! ## The arguments and the carried buffers at the later stretches' entries -/

theorem W2_arg3 (c : Dev nD) : W2 m c (Proc.devRef .tc main_arg3) = m ((c : Thread nD τ).loc main_arg3) :=
  (W2_keep m c main_arg3 (by decide)).trans (W1_keep m c main_arg3 (by decide))
theorem W2_arg4 (c : Dev nD) : W2 m c (Proc.devRef .tc main_arg4) = m ((c : Thread nD τ).loc main_arg4) :=
  (W2_keep m c main_arg4 (by decide)).trans (W1_keep m c main_arg4 (by decide))
theorem W4_arg1 (c : Dev nD) : W4 m c (Proc.devRef .tc main_arg1) = m ((c : Thread nD τ).loc main_arg1) :=
  (W4_keep m c main_arg1 (by decide) (by decide) (by decide)).trans (W1_keep m c main_arg1 (by decide))
theorem W4_arg2 (c : Dev nD) : W4 m c (Proc.devRef .tc main_arg2) = m ((c : Thread nD τ).loc main_arg2) :=
  (W4_keep m c main_arg2 (by decide) (by decide) (by decide)).trans (W1_keep m c main_arg2 (by decide))
theorem W6_arg3 (c : Dev nD) : W6 m c (Proc.devRef .tc main_arg3) = m ((c : Thread nD τ).loc main_arg3) :=
  (W6_keep m c main_arg3 (by decide) (by decide) (by decide) (by decide) (by decide)).trans (W1_keep m c main_arg3 (by decide))
theorem W6_arg4 (c : Dev nD) : W6 m c (Proc.devRef .tc main_arg4) = m ((c : Thread nD τ).loc main_arg4) :=
  (W6_keep m c main_arg4 (by decide) (by decide) (by decide) (by decide) (by decide)).trans (W1_keep m c main_arg4 (by decide))
theorem W8_arg1 (c : Dev nD) : W8 m c (Proc.devRef .tc main_arg1) = m ((c : Thread nD τ).loc main_arg1) :=
  (W8_keep m c main_arg1 (by decide) (by decide) (by decide) (by decide) (by decide) (by decide) (by decide)).trans (W1_keep m c main_arg1 (by decide))
theorem W8_arg2 (c : Dev nD) : W8 m c (Proc.devRef .tc main_arg2) = m ((c : Thread nD τ).loc main_arg2) :=
  (W8_keep m c main_arg2 (by decide) (by decide) (by decide) (by decide) (by decide) (by decide) (by decide)).trans (W1_keep m c main_arg2 (by decide))
theorem W10_arg3 (c : Dev nD) : W10 m c (Proc.devRef .tc main_arg3) = m ((c : Thread nD τ).loc main_arg3) :=
  (W10_keep m c main_arg3 (by decide) (by decide) (by decide) (by decide) (by decide) (by decide) (by decide) (by decide) (by decide)).trans (W1_keep m c main_arg3 (by decide))
theorem W10_arg4 (c : Dev nD) : W10 m c (Proc.devRef .tc main_arg4) = m ((c : Thread nD τ).loc main_arg4) :=
  (W10_keep m c main_arg4 (by decide) (by decide) (by decide) (by decide) (by decide) (by decide) (by decide) (by decide) (by decide)).trans (W1_keep m c main_arg4 (by decide))

theorem W4_srcLoops (c : Dev nD) :
    W4 m c (Proc.devRef .tc main_v1) = KAgg.withLoops (F := Ideal) (m ((c : Thread nD τ).loc main_arg5)) :=
  (W4_keep m c main_v1 (by decide) (by decide) (by decide)).trans (W1_srcLoops m c)
theorem W4_dstLoops (c : Dev nD) :
    W4 m c (Proc.devRef .tc main_v2) = KAgg.withLoops (F := Ideal) (m ((c : Thread nD τ).loc main_arg6)) :=
  (W4_keep m c main_v2 (by decide) (by decide) (by decide)).trans (W1_dstLoops m c)
theorem W4_invOut (c : Dev nD) :
    W4 m c (Proc.devRef .tc main_v13) = KAgg.invCol (F := Ideal) (m ((c : Thread nD τ).loc main_arg5)) :=
  (W4_keep m c main_v13 (by decide) (by decide) (by decide)).trans (W1_invOut m c)
theorem W4_invIn (c : Dev nD) :
    W4 m c (Proc.devRef .tc main_v17) = KAgg.invCol (F := Ideal) (m ((c : Thread nD τ).loc main_arg6)) :=
  (W4_keep m c main_v17 (by decide) (by decide) (by decide)).trans (W1_invIn m c)
theorem W8_srcLoops (c : Dev nD) :
    W8 m c (Proc.devRef .tc main_v1) = KAgg.withLoops (F := Ideal) (m ((c : Thread nD τ).loc main_arg5)) :=
  (W8_keep m c main_v1 (by decide) (by decide) (by decide) (by decide) (by decide) (by decide) (by decide)).trans (W1_srcLoops m c)
theorem W8_dstLoops (c : Dev nD) :
    W8 m c (Proc.devRef .tc main_v2) = KAgg.withLoops (F := Ideal) (m ((c : Thread nD τ).loc main_arg6)) :=
  (W8_keep m c main_v2 (by decide) (by decide) (by decide) (by decide) (by decide) (by decide) (by decide)).trans (W1_dstLoops m c)
theorem W8_invOut (c : Dev nD) :
    W8 m c (Proc.devRef .tc main_v13) = KAgg.invCol (F := Ideal) (m ((c : Thread nD τ).loc main_arg5)) :=
  (W8_keep m c main_v13 (by decide) (by decide) (by decide) (by decide) (by decide) (by decide) (by decide)).trans (W1_invOut m c)
theorem W8_invIn (c : Dev nD) :
    W8 m c (Proc.devRef .tc main_v17) = KAgg.invCol (F := Ideal) (m ((c : Thread nD τ).loc main_arg6)) :=
  (W8_keep m c main_v17 (by decide) (by decide) (by decide) (by decide) (by decide) (by decide) (by decide)).trans (W1_invIn m c)

/-! ## Layer 0: from the statistics rows to the four rows of the normalise-and-rectify region -/

theorem W3_mean (c : Dev nD) :
    W3 m c (Proc.devRef .tc main_v53)
      = fun i => Ideal.div (W2 m c (Proc.devRef .tc main_v37_1) i) Cert.Spec.n :=
  Host.after1_mean (W2 m c)
theorem W3_invstd (c : Dev nD) :
    W3 m c (Proc.devRef .tc main_v54)
      = fun i => Ideal.rsqrt ((Ideal.div (W2 m c (Proc.devRef .tc main_v37_2) i) Cert.Spec.n
            - Ideal.div (W2 m c (Proc.devRef .tc main_v37_1) i) Cert.Spec.n
              * Ideal.div (W2 m c (Proc.devRef .tc main_v37_1) i) Cert.Spec.n)
          + Cert.Spec.eps) :=
  Host.after1_invstd (W2 m c)
theorem W3_gamma (c : Dev nD) :
    W3 m c (Proc.devRef .tc main_v55) = Cert.Spec.rowOf (m ((c : Thread nD τ).loc main_arg3)) 0 :=
  (Host.after1_gamma (W2 m c)).trans (by rw [W2_arg3 m c])
theorem W3_beta (c : Dev nD) :
    W3 m c (Proc.devRef .tc main_v56) = Cert.Spec.rowOf (m ((c : Thread nD τ).loc main_arg4)) 0 :=
  (Host.after1_beta (W2 m c)).trans (by rw [W2_arg4 m c])
theorem W3_z (c : Dev nD) :
    W3 m c (Proc.devRef .tc main_v37_0) = W2 m c (Proc.devRef .tc main_v37_0) :=
  StableHlo.after_of_writes_sub hostOps1 _ hostOps1_writes (by decide)

/-! ## Layer 1: the aggregate of the previous layer's output, the weight matrix and the bias row -/

theorem W5_agg (c : Dev nD) :
    W5 m c (Proc.devRef .tc main_v71)
      = KAgg.agg (F := Ideal) (m ((c : Thread nD τ).loc main_arg5)) (m ((c : Thread nD τ).loc main_arg6))
          (W4 m c (Proc.devRef .tc main_v57)) :=
  Host.after2_agg (W4 m c) _ _ (W4_srcLoops m c) (W4_dstLoops m c) (W4_invOut m c) (W4_invIn m c)
theorem W5_weight (c : Dev nD) :
    W5 m c (Proc.devRef .tc main_v73) = Cert.Spec.slabW (m ((c : Thread nD τ).loc main_arg1)) 1 :=
  (Host.after2_weight (W4 m c)).trans (by rw [W4_arg1 m c])
theorem W5_bias (c : Dev nD) :
    W5 m c (Proc.devRef .tc main_v76) = Cert.Spec.rowOf (m ((c : Thread nD τ).loc main_arg2)) 1 :=
  (Host.after2_bias (W4 m c)).trans (by rw [W4_arg2 m c])

/-! ## Layer 1: from the statistics rows to the four rows of the normalise-and-rectify region -/

theorem W7_mean (c : Dev nD) :
    W7 m c (Proc.devRef .tc main_v93)
      = fun i => Ideal.div (W6 m c (Proc.devRef .tc main_v77_1) i) Cert.Spec.n :=
  Host.after3_mean (W6 m c)
theorem W7_invstd (c : Dev nD) :
    W7 m c (Proc.devRef .tc main_v94)
      = fun i => Ideal.rsqrt ((Ideal.div (W6 m c (Proc.devRef .tc main_v77_2) i) Cert.Spec.n
            - Ideal.div (W6 m c (Proc.devRef .tc main_v77_1) i) Cert.Spec.n
              * Ideal.div (W6 m c (Proc.devRef .tc main_v77_1) i) Cert.Spec.n)
          + Cert.Spec.eps) :=
  Host.after3_invstd (W6 m c)
theorem W7_gamma (c : Dev nD) :
    W7 m c (Proc.devRef .tc main_v95) = Cert.Spec.rowOf (m ((c : Thread nD τ).loc main_arg3)) 1 :=
  (Host.after3_gamma (W6 m c)).trans (by rw [W6_arg3 m c])
theorem W7_beta (c : Dev nD) :
    W7 m c (Proc.devRef .tc main_v96) = Cert.Spec.rowOf (m ((c : Thread nD τ).loc main_arg4)) 1 :=
  (Host.after3_beta (W6 m c)).trans (by rw [W6_arg4 m c])
theorem W7_z (c : Dev nD) :
    W7 m c (Proc.devRef .tc main_v77_0) = W6 m c (Proc.devRef .tc main_v77_0) :=
  StableHlo.after_of_writes_sub hostOps3 _ hostOps3_writes (by decide)

/-! ## Layer 2: the aggregate of the previous layer's output, the weight matrix and the bias row -/

theorem W9_agg (c : Dev nD) :
    W9 m c (Proc.devRef .tc main_v111)
      = KAgg.agg (F := Ideal) (m ((c : Thread nD τ).loc main_arg5)) (m ((c : Thread nD τ).loc main_arg6))
          (W8 m c (Proc.devRef .tc main_v97)) :=
  Host.after4_agg (W8 m c) _ _ (W8_srcLoops m c) (W8_dstLoops m c) (W8_invOut m c) (W8_invIn m c)
theorem W9_weight (c : Dev nD) :
    W9 m c (Proc.devRef .tc main_v113) = Cert.Spec.slabW (m ((c : Thread nD τ).loc main_arg1)) 2 :=
  (Host.after4_weight (W8 m c)).trans (by rw [W8_arg1 m c])
theorem W9_bias (c : Dev nD) :
    W9 m c (Proc.devRef .tc main_v116) = Cert.Spec.rowOf (m ((c : Thread nD τ).loc main_arg2)) 2 :=
  (Host.after4_bias (W8 m c)).trans (by rw [W8_arg2 m c])

/-! ## Layer 2: from the statistics rows to the four rows of the normalise-and-rectify region -/

theorem W11_mean (c : Dev nD) :
    W11 m c (Proc.devRef .tc main_v133)
      = fun i => Ideal.div (W10 m c (Proc.devRef .tc main_v117_1) i) Cert.Spec.n :=
  Host.after5_mean (W10 m c)
theorem W11_invstd (c : Dev nD) :
    W11 m c (Proc.devRef .tc main_v134)
      = fun i => Ideal.rsqrt ((Ideal.div (W10 m c (Proc.devRef .tc main_v117_2) i) Cert.Spec.n
            - Ideal.div (W10 m c (Proc.devRef .tc main_v117_1) i) Cert.Spec.n
              * Ideal.div (W10 m c (Proc.devRef .tc main_v117_1) i) Cert.Spec.n)
          + Cert.Spec.eps) :=
  Host.after5_invstd (W10 m c)
theorem W11_gamma (c : Dev nD) :
    W11 m c (Proc.devRef .tc main_v135) = Cert.Spec.rowOf (m ((c : Thread nD τ).loc main_arg3)) 2 :=
  (Host.after5_gamma (W10 m c)).trans (by rw [W10_arg3 m c])
theorem W11_beta (c : Dev nD) :
    W11 m c (Proc.devRef .tc main_v136) = Cert.Spec.rowOf (m ((c : Thread nD τ).loc main_arg4)) 2 :=
  (Host.after5_beta (W10 m c)).trans (by rw [W10_arg4 m c])
theorem W11_z (c : Dev nD) :
    W11 m c (Proc.devRef .tc main_v117_0) = W10 m c (Proc.devRef .tc main_v117_0) :=
  StableHlo.after_of_writes_sub hostOps5 _ hostOps5_writes (by decide)

end Cert.KernelIdeal.Hand

end
-- ==== Proof.KIReadA0.lean ====
/-
  The stores the body of region 0 makes into its three outputs' buffers, read back: at the first grid point the block's
  result, and the two statistics rows started from the zero rows just stored; at a later point the block's result, and the
  two statistics rows continued from the rows found in the buffers.  Every store and load is of a whole buffer, so the
  last store into a buffer is what it holds, and a load after a store reads the stored value.
-/
import proofs.«160962_j23227183137544_1_alg».proof.Proof.KIRunA0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

/-! ### The first point -/

theorem readA0_3 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) :
    VO0_3.read (Elt F) (VO0_3.writes (Elt F) VO0_3.junk (kernelRun0_A c i arg1 harg1 arg2 harg2 arg3 harg3 arg4 harg4 arg5 harg5 arg6 harg6 hc0 x0 x1 x2).1.1) = k0_pay3 x0 x1 x2 := by
  rw [View.read_writes_junk_eq_canon]
  unfold kernelRun0_A
  dsimp only
  sl_unfold_words
  rw [View.canon_unit_zero (S := S10000x128) hz2]
  simp only [View.readAt_eq_ld, harg1.read_unread, harg2.read_unread, harg3.read_unread, harg5.read_unread,
    harg6.read_unread, View.ld_unit_zero (S := S10000x128) hz2, View.ld_unit_zero (S := S128x128) hz2,
    View.ld_unit_zero (S := S1x128) hz2]

theorem readA0_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) :
    VO0_4.read (Elt F) (VO0_4.writes (Elt F) VO0_4.junk (kernelRun0_A c i arg1 harg1 arg2 harg2 arg3 harg3 arg4 harg4 arg5 harg5 arg6 harg6 hc0 x0 x1 x2).1.2.1) = k0_pay4 x0 x1 x2 (k0_pay1 (F := F)) := by
  rw [View.read_writes_junk_eq_canon]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg5.read_unread,
    harg6.read_unread, View.ld_unit_zero (S := S10000x128) hz2, View.ld_unit_zero (S := S128x128) hz2,
    View.ld_unit_zero (S := S1x128) hz2]

theorem readA0_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) :
    VO0_5.read (Elt F) (VO0_5.writes (Elt F) VO0_5.junk (kernelRun0_A c i arg1 harg1 arg2 harg2 arg3 harg3 arg4 harg4 arg5 harg5 arg6 harg6 hc0 x0 x1 x2).1.2.2) = k0_pay5 x0 x1 x2 (k0_pay2 (F := F)) := by
  rw [View.read_writes_junk_eq_canon]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg5.read_unread,
    harg6.read_unread, View.ld_unit_zero (S := S10000x128) hz2, View.ld_unit_zero (S := S128x128) hz2,
    View.ld_unit_zero (S := S1x128) hz2]

/-! ### A later point -/

theorem readB0_3 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) :
    VO0_3.read (Elt F) (VO0_3.writes (Elt F) VO0_3.junk (kernelRun0_B c i arg1 harg1 arg2 harg2 arg3 harg3 arg4 harg4 arg5 harg5 arg6 harg6 hc0 x0 x1 x2 xo4 xo5).1.1) = k0_pay3 x0 x1 x2 := by
  rw [View.read_writes_junk_eq_canon]
  unfold kernelRun0_B
  dsimp only
  sl_unfold_words
  rw [View.canon_unit_zero (S := S10000x128) hz2]
  simp only [View.readAt_eq_ld, harg1.read_unread, harg2.read_unread, harg3.read_unread, harg5.read_unread,
    harg6.read_unread, View.ld_unit_zero (S := S10000x128) hz2, View.ld_unit_zero (S := S128x128) hz2,
    View.ld_unit_zero (S := S1x128) hz2]

theorem readB0_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) :
    VO0_4.read (Elt F) (VO0_4.writes (Elt F) VO0_4.junk (kernelRun0_B c i arg1 harg1 arg2 harg2 arg3 harg3 arg4 harg4 arg5 harg5 arg6 harg6 hc0 x0 x1 x2 xo4 xo5).1.2.1) = k0_pay4 x0 x1 x2 xo4 := by
  rw [View.read_writes_junk_eq_canon]
  unfold kernelRun0_B
  dsimp only
  sl_unfold_words
  rw [View.canon_unit_zero (S := S1x128) hz2]
  simp only [View.readAt_eq_ld, harg1.read_unread, harg2.read_unread, harg3.read_unread, harg5.read_unread,
    harg6.read_unread, View.ld_unit_zero (S := S10000x128) hz2, View.ld_unit_zero (S := S128x128) hz2,
    View.ld_unit_zero (S := S1x128) hz2]

theorem readB0_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) :
    VO0_5.read (Elt F) (VO0_5.writes (Elt F) VO0_5.junk (kernelRun0_B c i arg1 harg1 arg2 harg2 arg3 harg3 arg4 harg4 arg5 harg5 arg6 harg6 hc0 x0 x1 x2 xo4 xo5).1.2.2) = k0_pay5 x0 x1 x2 xo5 := by
  rw [View.read_writes_junk_eq_canon]
  unfold kernelRun0_B
  dsimp only
  sl_unfold_words
  rw [View.canon_unit_zero (S := S1x128) hz2]
  simp only [View.readAt_eq_ld, harg1.read_unread, harg2.read_unread, harg3.read_unread, harg5.read_unread,
    harg6.read_unread, View.ld_unit_zero (S := S10000x128) hz2, View.ld_unit_zero (S := S128x128) hz2,
    View.ld_unit_zero (S := S1x128) hz2]

end Cert.KernelIdeal.Hand

end
-- ==== Proof.KIOutA0.lean ====
/-
  What the body of region 0 leaves in the three outputs' buffers, in terms of its payloads: at the first grid point the
  block's result and the two statistics rows started from zero rows; at a later point the block's result and the two
  statistics rows continued from the rows the point before left.
-/
import proofs.«160962_j23227183137544_1_alg».proof.Proof.KIRegA0
import proofs.«160962_j23227183137544_1_alg».proof.Proof.KIReadA0

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

theorem out0_A_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) :
    out0_A c i arg1 harg1 arg2 harg2 arg3 harg3 arg4 harg4 arg5 harg5 arg6 harg6 hc0 x0 x1 x2
      = (k0_pay3 x0 x1 x2, k0_pay4 x0 x1 x2 (k0_pay1 (F := F)), k0_pay5 x0 x1 x2 (k0_pay2 (F := F))) := by
  unfold out0_A
  rw [readA0_3, readA0_4, readA0_5]

theorem out0_B_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) :
    out0_B c i arg1 harg1 arg2 harg2 arg3 harg3 arg4 harg4 arg5 harg5 arg6 harg6 hc0 x0 x1 x2 xo4 xo5
      = (k0_pay3 x0 x1 x2, k0_pay4 x0 x1 x2 xo4, k0_pay5 x0 x1 x2 xo5) := by
  unfold out0_B
  rw [readB0_3, readB0_4, readB0_5]

theorem out0_A_1 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) :
    (out0_A c i arg1 harg1 arg2 harg2 arg3 harg3 arg4 harg4 arg5 harg5 arg6 harg6 hc0 x0 x1 x2).1 = k0_pay3 x0 x1 x2 := by
  rw [out0_A_eq]
theorem out0_A_2 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) :
    (out0_A c i arg1 harg1 arg2 harg2 arg3 harg3 arg4 harg4 arg5 harg5 arg6 harg6 hc0 x0 x1 x2).2.1
      = k0_pay4 x0 x1 x2 (k0_pay1 (F := F)) := by
  rw [out0_A_eq]
theorem out0_A_3 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x128 .f32) (x1 : Vec F S128x128 .f32) (x2 : Vec F S1x128 .f32) :
    (out0_A c i arg1 harg1 arg2 harg2 arg3 harg3 arg4 harg4 arg5 harg5 arg6 harg6 hc0 x0 x1 x2).2.2
      = k0_pay5 x0 x1 x2 (k0_pay2 (F := F)) := by
  rw [out0_A_eq]

theorem out0_B_1 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) :
    (out0_B c i arg1 harg1 arg2 harg2 arg3 harg3 arg4 harg4 arg5 harg5 arg6 harg6 hc0 x0 x1 x2 xo4 xo5).1
      = k0_pay3 x0 x1 x2 := by
  rw [out0_B_eq]
theorem out0_B_2 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) :
    (out0_B c i arg1 harg1 arg2 harg2 arg3 harg3 arg4 harg4 arg5 harg5 arg6 harg6 hc0 x0 x1 x2 xo4 xo5).2.1
      = k0_pay4 x0 x1 x2 xo4 := by
  rw [out0_B_eq]
theorem out0_B_3 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x128 .f32) (x1 : Vec F S128x128 .f32) (x2 : Vec F S1x128 .f32) (xo4 : Vec F S1x128 .f32) (xo5 : Vec F S1x128 .f32) :
    (out0_B c i arg1 harg1 arg2 harg2 arg3 harg3 arg4 harg4 arg5 harg5 arg6 harg6 hc0 x0 x1 x2 xo4 xo5).2.2
      = k0_pay5 x0 x1 x2 xo5 := by
  rw [out0_B_eq]

end Cert.KernelIdeal.Hand

end
-- ==== Proof.LibCarriedRow.lean ====
/-
  A row of running totals carried in a buffer, read back: general lemmas.

  Stores that each cover their whole buffer: a load of the whole buffer after such stores reads the value of the
  LAST one, whatever came before (`readCov_cons_unit_zero`; the library has the one-store case).

  A `[1, 1, c]` row kept in a buffer and used as a vector `[c]` or as a `[1, c]` row: the three shape casts read at
  an index (`cast_11c_c`, `cast_c_11c`, `cast_11c_1c`).

  On the extended reals, the sum of an `[n, c]` array along its FIRST axis reads, at column `d`, the sum over the
  `n` rows of the column's entries (`colSum_apply`): the column totals of a block of rows.

  All at any extents.
-/
import Idealize.ShloMosaic.Lib.Pipeline.Value
import Idealize.ShloMosaic.Lib.ValueIdx
import Idealize.ShloMosaic.PureOps.Ideal.Laws

noncomputable section

open scoped BigOperators

namespace Cert.CarriedRow

open Idealize.ShloMosaic Idealize.ShloMosaic.ValueIdx

section stores
variable {Val : EltTy → Type} {S : Shape} {e : EltTy}

/-- A load of the whole buffer, after stores of which the LAST covers the whole buffer, reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]
end stores

section layout
variable {α : Type}

/-- A `[1, 1, c]` row read as a vector. -/
theorem cast_11c_c {c : ℕ} (x : (⟨3, ![1, 1, c]⟩ : Shape).Idx → α) (h : (⟨3, ![1, 1, c]⟩ : Shape).ShapeCasts ⟨1, ![c]⟩)
    (d : Fin c) : shapeCast ⟨1, ![c]⟩ x h (ix1 d) = x (ix3 (0 : Fin 1) (0 : Fin 1) d) :=
  shapeCast_apply x h _ _ (by
    rw [Shape.rowMajor_val_three, Shape.rowMajor_val_one]
    show (0 * 1 + 0) * c + d.val = d.val
    simp)

/-- A vector read as a `[1, 1, c]` row. -/
theorem cast_c_11c {c : ℕ} (x : (⟨1, ![c]⟩ : Shape).Idx → α) (h : (⟨1, ![c]⟩ : Shape).ShapeCasts ⟨3, ![1, 1, c]⟩)
    (u v : Fin 1) (d : Fin c) : shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, c]` row read as a `[1, c]` row. -/
theorem cast_11c_1c {c : ℕ} (x : (⟨3, ![1, 1, c]⟩ : Shape).Idx → α) (h : (⟨3, ![1, 1, c]⟩ : Shape).ShapeCasts ⟨2, ![1, c]⟩)
    (u : Fin 1) (d : Fin c) : shapeCast ⟨2, ![1, c]⟩ x h (ix2 u d) = x (ix3 (0 : Fin 1) (0 : Fin 1) d) :=
  shapeCast_apply x h _ _ (by
    have hu : u.val = 0 := by omega
    rw [Shape.rowMajor_val_three, Shape.rowMajor_val_two]
    show (0 * 1 + 0) * c + d.val = u.val * c + d.val
    simp [hu])
end layout

/-- The sum of an `[n, c]` array along its first axis reads, at column `d`, the sum of the column's entries. -/
theorem colSum_apply {n c : ℕ} (src : FVec Ideal ⟨2, ![n, c]⟩ .f32)
    (h : (⟨2, ![n, c]⟩ : Shape).Reduces [0] ⟨1, ![c]⟩) (hφ : FKind.Formats .f32)
    (hacc : (0x00000000#32 : BitVec 32) = 0x00000000#32) (d : Fin c) :
    multiReduction .add [0] ⟨1, ![c]⟩ src 0x00000000#32 h hφ hacc (ix1 d) = ∑ p : Fin n, src (ix2 p d) := by
  refine (Ideal.multiReduction_add_single src 0x00000000#32 h hφ hacc (ix1 d)).trans ?_
  refine Finset.sum_congr rfl fun k _ => congrArg src (funext fun ax => Fin.ext ?_)
  match ax with
  | ⟨0, _⟩ => rfl
  | ⟨1, _⟩ => rfl

end Cert.CarriedRow

end
-- ==== Proof.KAPay.lean ====
/-
  The payloads of the product-and-statistics body on the extended reals, read at an index.

  The block of rows `x` times the weight `w` plus the bias row `b` on every row: the narrowing to a shorter float
  format is the identity on the extended reals, a shape cast to the same shape is the identity, and a matrix product
  into a zero accumulator is the matrix product.  The two carried rows: the row `s` plus the column sums of the
  block's result, and plus the column sums of its squares; a sum along the first axis from the zero word reads, at a
  column, the sum over the rows.  The two initial rows are zero.
-/
import proofs.«160962_j23227183137544_1_alg».proof.Proof.Gen.KernelIdeal.Skeleton
import proofs.«160962_j23227183137544_1_alg».proof.Proof.LibDense
import proofs.«160962_j23227183137544_1_alg».proof.Proof.LibBiasRow
import proofs.«160962_j23227183137544_1_alg».proof.Proof.LibCarriedRow

noncomputable section

open scoped BigOperators

namespace Cert.KernelIdeal.Hand

open Idealize.ShloMosaic Idealize.ShloMosaic.ValueIdx Idealize.SL.Sem Cert.KernelIdeal Cert.KernelIdeal.Gen
  Cert.KernelIdeal.Facts₀ Cert.KernelIdeal.Facts Cert.Dense Cert.BiasRow Cert.CarriedRow

/-! ### At any extents -/

/-- A row plus the column sums of an array, the row cast to its own shape and the sums laid out as a row. -/
theorem carried_sum_apply {n c : ℕ} (s : FVec Ideal ⟨2, ![1, c]⟩ .f32) (Y : FVec Ideal ⟨2, ![n, c]⟩ .f32)
    (h1 : (⟨2, ![1, c]⟩ : Shape).ShapeCasts ⟨2, ![1, c]⟩) (hr : (⟨2, ![n, c]⟩ : Shape).Reduces [0] ⟨1, ![c]⟩)
    (hφ : FKind.Formats .f32) (hacc : (0x00000000#32 : BitVec 32) = 0x00000000#32)
    (h2 : (⟨1, ![c]⟩ : Shape).ShapeCasts ⟨2, ![1, c]⟩) (q : Fin c) :
    addf (shapeCast ⟨2, ![1, c]⟩ s h1)
        (shapeCast ⟨2, ![1, c]⟩ (multiReduction .add [0] ⟨1, ![c]⟩ Y 0x00000000#32 hr hφ hacc) h2) (ix2 (0 : Fin 1) q)
      = s (ix2 (0 : Fin 1) q) + ∑ p : Fin n, Y (ix2 p q) := by
  show shapeCast ⟨2, ![1, c]⟩ s h1 (ix2 (0 : Fin 1) q)
      + shapeCast ⟨2, ![1, c]⟩ (multiReduction .add [0] ⟨1, ![c]⟩ Y 0x00000000#32 hr hφ hacc) h2 (ix2 (0 : Fin 1) q) = _
  rw [shapeCast_self, shapeCast_a_1a_apply, colSum_apply]

/-- A block of rows times a weight into a zero accumulator, plus a bias row on every row, with the narrowing of the
    operands and the casts to their own shapes: the dense step. -/
theorem dense_block_eq {M K N : ℕ} (D : DotDims ⟨2, ![M, K]⟩ ⟨2, ![K, N]⟩ ⟨2, ![M, N]⟩)
    (d1 : D.lhsContracting = [1]) (d2 : D.rhsContracting = [0]) (d3 : D.lhsNonContracting = [0])
    (d4 : D.rhsNonContracting = [1]) (d5 : D.lhsBatch = []) (d6 : D.rhsBatch = [])
    (x : FVec Ideal ⟨2, ![M, K]⟩ .f32) (w : FVec Ideal ⟨2, ![K, N]⟩ .f32) (b : FVec Ideal ⟨2, ![1, N]⟩ .f32)
    (hx : (⟨2, ![M, K]⟩ : Shape).ShapeCasts ⟨2, ![M, K]⟩) (hw : (⟨2, ![K, N]⟩ : Shape).ShapeCasts ⟨2, ![K, N]⟩)
    (hb : (⟨2, ![1, N]⟩ : Shape).ShapeCasts ⟨2, ![1, N]⟩) (ht : FTy.bits .bf16 < FTy.bits .f32)
    (hB : (⟨2, ![1, N]⟩ : Shape).Broadcasts ⟨2, ![M, N]⟩) :
    addf (matmul (F := Ideal) D none (truncf .bf16 (shapeCast ⟨2, ![M, K]⟩ x hx) ht)
          (truncf .bf16 (shapeCast ⟨2, ![K, N]⟩ w hw) ht) (constant ⟨2, ![M, N]⟩ .f32 0x00000000#32))
        (broadcastTo ⟨2, ![M, N]⟩ (shapeCast ⟨2, ![1, N]⟩ b hb) hB)
      = addRow (mm x w) b := by
  rw [shapeCast_self, shapeCast_self, shapeCast_self, matmul_zero_eq_mm D d1 d2 d3 d4 d5 d6]
  exact vecAddRow _ b hB

/-! ### The body of region 0 -/

/-- The block's result is the dense step of the block. -/
theorem k0_pay3_eq (x : FVec Ideal S10000x128 .f32) (w : FVec Ideal S128x128 .f32) (b : FVec Ideal S1x128 .f32) :
    k0_pay3 (F := Ideal) x w b = addRow (mm x w) b := by
  unfold k0_pay3
  dsimp only
  exact dense_block_eq _ rfl rfl rfl rfl rfl rfl x w b _ _ _ _ _

theorem k0_pay3_apply (x : FVec Ideal S10000x128 .f32) (w : FVec Ideal S128x128 .f32) (b : FVec Ideal S1x128 .f32)
    (r : Fin 10000) (q : Fin 128) :
    k0_pay3 (F := Ideal) x w b (ix2 r q) = (∑ k : Fin 128, x (ix2 r k) * w (ix2 k q)) + b (ix2 (0 : Fin 1) q) := by
  rw [k0_pay3_eq]
  rfl

/-- The carried row of sums: the row plus the column sums of the block's result. -/
theorem k0_pay4_apply (x : FVec Ideal S10000x128 .f32) (w : FVec Ideal S128x128 .f32) (b s : FVec Ideal S1x128 .f32)
    (q : Fin 128) :
    k0_pay4 (F := Ideal) x w b s (ix2 (0 : Fin 1) q)
      = s (ix2 (0 : Fin 1) q) + ∑ r : Fin 10000, k0_pay3 (F := Ideal) x w b (ix2 r q) := by
  unfold k0_pay4
  dsimp only
  exact carried_sum_apply s (k0_pay3 (F := Ideal) x w b) _ _ _ _ _ q

/-- The carried row of sums of squares: the row plus the column sums of the squares of the block's result. -/
theorem k0_pay5_apply (x : FVec Ideal S10000x128 .f32) (w : FVec Ideal S128x128 .f32) (b s : FVec Ideal S1x128 .f32)
    (q : Fin 128) :
    k0_pay5 (F := Ideal) x w b s (ix2 (0 : Fin 1) q)
      = s (ix2 (0 : Fin 1) q)
        + ∑ r : Fin 10000, k0_pay3 (F := Ideal) x w b (ix2 r q) * k0_pay3 (F := Ideal) x w b (ix2 r q) := by
  unfold k0_pay5
  dsimp only
  exact carried_sum_apply s (mulf (k0_pay3 (F := Ideal) x w b) (k0_pay3 (F := Ideal) x w b)) _ _ _ _ _ q

/-- The two initial rows are zero. -/
theorem k0_pay1_apply (i : S1x128.Idx) : k0_pay1 (F := Ideal) i = 0 := Ideal.ofBits_zero_f32

theorem k0_pay2_apply (i : S1x128.Idx) : k0_pay2 (F := Ideal) i = 0 := Ideal.ofBits_zero_f32

/-! ### The body of region 2 -/

/-- The block's result is the dense step of the block. -/
theorem k2_pay3_eq (x : FVec Ideal S10000x128 .f32) (w : FVec Ideal S128x128 .f32) (b : FVec Ideal S1x128 .f32) :
    k2_pay3 (F := Ideal) x w b = addRow (mm x w) b := by
  unfold k2_pay3
  dsimp only
  exact dense_block_eq _ rfl rfl rfl rfl rfl rfl x w b _ _ _ _ _

theorem k2_pay3_apply (x : FVec Ideal S10000x128 .f32) (w : FVec Ideal S128x128 .f32) (b : FVec Ideal S1x128 .f32)
    (r : Fin 10000) (q : Fin 128) :
    k2_pay3 (F := Ideal) x w b (ix2 r q) = (∑ k : Fin 128, x (ix2 r k) * w (ix2 k q)) + b (ix2 (0 : Fin 1) q) := by
  rw [k2_pay3_eq]
  rfl

/-- The carried row of sums: the row plus the column sums of the block's result. -/
theorem k2_pay4_apply (x : FVec Ideal S10000x128 .f32) (w : FVec Ideal S128x128 .f32) (b s : FVec Ideal S1x128 .f32)
    (q : Fin 128) :
    k2_pay4 (F := Ideal) x w b s (ix2 (0 : Fin 1) q)
      = s (ix2 (0 : Fin 1) q) + ∑ r : Fin 10000, k2_pay3 (F := Ideal) x w b (ix2 r q) := by
  unfold k2_pay4
  dsimp only
  exact carried_sum_apply s (k2_pay3 (F := Ideal) x w b) _ _ _ _ _ q

/-- The carried row of sums of squares: the row plus the column sums of the squares of the block's result. -/
theorem k2_pay5_apply (x : FVec Ideal S10000x128 .f32) (w : FVec Ideal S128x128 .f32) (b s : FVec Ideal S1x128 .f32)
    (q : Fin 128) :
    k2_pay5 (F := Ideal) x w b s (ix2 (0 : Fin 1) q)
      = s (ix2 (0 : Fin 1) q)
        + ∑ r : Fin 10000, k2_pay3 (F := Ideal) x w b (ix2 r q) * k2_pay3 (F := Ideal) x w b (ix2 r q) := by
  unfold k2_pay5
  dsimp only
  exact carried_sum_apply s (mulf (k2_pay3 (F := Ideal) x w b) (k2_pay3 (F := Ideal) x w b)) _ _ _ _ _ q

/-- The two initial rows are zero. -/
theorem k2_pay1_apply (i : S1x128.Idx) : k2_pay1 (F := Ideal) i = 0 := Ideal.ofBits_zero_f32

theorem k2_pay2_apply (i : S1x128.Idx) : k2_pay2 (F := Ideal) i = 0 := Ideal.ofBits_zero_f32

/-! ### The body of region 4 -/

/-- The block's result is the dense step of the block. -/
theorem k4_pay3_eq (x : FVec Ideal S10000x128 .f32) (w : FVec Ideal S128x128 .f32) (b : FVec Ideal S1x128 .f32) :
    k4_pay3 (F := Ideal) x w b = addRow (mm x w) b := by
  unfold k4_pay3
  dsimp only
  exact dense_block_eq _ rfl rfl rfl rfl rfl rfl x w b _ _ _ _ _

theorem k4_pay3_apply (x : FVec Ideal S10000x128 .f32) (w : FVec Ideal S128x128 .f32) (b : FVec Ideal S1x128 .f32)
    (r : Fin 10000) (q : Fin 128) :
    k4_pay3 (F := Ideal) x w b (ix2 r q) = (∑ k : Fin 128, x (ix2 r k) * w (ix2 k q)) + b (ix2 (0 : Fin 1) q) := by
  rw [k4_pay3_eq]
  rfl

/-- The carried row of sums: the row plus the column sums of the block's result. -/
theorem k4_pay4_apply (x : FVec Ideal S10000x128 .f32) (w : FVec Ideal S128x128 .f32) (b s : FVec Ideal S1x128 .f32)
    (q : Fin 128) :
    k4_pay4 (F := Ideal) x w b s (ix2 (0 : Fin 1) q)
      = s (ix2 (0 : Fin 1) q) + ∑ r : Fin 10000, k4_pay3 (F := Ideal) x w b (ix2 r q) := by
  unfold k4_pay4
  dsimp only
  exact carried_sum_apply s (k4_pay3 (F := Ideal) x w b) _ _ _ _ _ q

/-- The carried row of sums of squares: the row plus the column sums of the squares of the block's result. -/
theorem k4_pay5_apply (x : FVec Ideal S10000x128 .f32) (w : FVec Ideal S128x128 .f32) (b s : FVec Ideal S1x128 .f32)
    (q : Fin 128) :
    k4_pay5 (F := Ideal) x w b s (ix2 (0 : Fin 1) q)
      = s (ix2 (0 : Fin 1) q)
        + ∑ r : Fin 10000, k4_pay3 (F := Ideal) x w b (ix2 r q) * k4_pay3 (F := Ideal) x w b (ix2 r q) := by
  unfold k4_pay5
  dsimp only
  exact carried_sum_apply s (mulf (k4_pay3 (F := Ideal) x w b) (k4_pay3 (F := Ideal) x w b)) _ _ _ _ _ q

/-- The two initial rows are zero. -/
theorem k4_pay1_apply (i : S1x128.Idx) : k4_pay1 (F := Ideal) i = 0 := Ideal.ofBits_zero_f32

theorem k4_pay2_apply (i : S1x128.Idx) : k4_pay2 (F := Ideal) i = 0 := Ideal.ofBits_zero_f32

end Cert.KernelIdeal.Hand

end
-- ==== Proof.KAMath.lean ====
/-
  One grid point of the product-and-statistics body against the whole arrays.  The hundred thousand rows come in ten
  blocks of ten thousand; row `r` of block `t` is row `10000 t + r`.  On a block of the aggregate the body's result is
  the dense step's rows of that block; the carried row of sums after the blocks `0 … n` is the sum of their column sums
  (likewise for the squares), and the ten blocks' column sums add up to the column sum over all rows.
-/
import proofs.«160962_j23227183137544_1_alg».proof.Proof.KAPay
import proofs.«160962_j23227183137544_1_alg».proof.Proof.Spec
import proofs.«160962_j23227183137544_1_alg».proof.Proof.LibGcnStats

noncomputable section

open scoped BigOperators

namespace Cert.KernelIdeal.Hand

open Idealize.ShloMosaic Idealize.ShloMosaic.ValueIdx Cert.KernelIdeal Cert.KernelIdeal.Gen Cert.Dense Cert.BiasRow
  Cert.Spec Cert.GcnStats

/-- Row `r` of block `t` among all rows. -/
def rowIx (t : Fin 10) (r : Fin 10000) : Fin 100000 := ⟨10000 * t.val + r.val, by omega⟩

theorem rowIx_val (t : Fin 10) (r : Fin 10000) : (rowIx t r).val = 10000 * t.val + r.val := rfl

/-- The entrywise squares of an array. -/
def sqMat (Z : Mat 100000 128) : Mat 100000 128 := fun i => Z i * Z i

/-- The sum of column `q` over the rows of block `t` (zero past the last block). -/
def blockSum (Z : Mat 100000 128) (q : Fin 128) (t : ℕ) : EReal :=
  if h : t < 10 then ∑ r : Fin 10000, Z (ix2 (rowIx ⟨t, h⟩ r) q) else 0

theorem blockSum_of_lt (Z : Mat 100000 128) (q : Fin 128) (t : Fin 10) :
    blockSum Z q t.val = ∑ r : Fin 10000, Z (ix2 (rowIx t r) q) := dif_pos t.isLt

/-- The ten blocks' column sums add up to the column sum over all rows. -/
theorem sum_blockSum (Z : Mat 100000 128) (q : Fin 128) :
    ∑ t ∈ Finset.range 10, blockSum Z q t = ∑ p : Fin 100000, Z (ix2 p q) := by
  rw [Finset.sum_range (fun t => blockSum Z q t),
    sum_by_blocks (A := 10) (B := 10000) (N := 100000) (by norm_num) rowIx rowIx_val (fun p => Z (ix2 p q))]
  exact Finset.sum_congr rfl fun t _ => blockSum_of_lt Z q t

/-! ### The body of region 0 -/

/-- On block `t` of the aggregate, the body's result is the dense step's rows of that block. -/
theorem k0_pay3_block (A : Mat 100000 128) (W : Mat 128 128) (b : Mat 1 128) (x : FVec Ideal S10000x128 .f32)
    (t : Fin 10) (hx : ∀ (r : Fin 10000) (k : Fin 128), x (ix2 r k) = A (ix2 (rowIx t r) k)) (r : Fin 10000)
    (q : Fin 128) : k0_pay3 (F := Ideal) x W b (ix2 r q) = dense A W b (ix2 (rowIx t r) q) := by
  rw [k0_pay3_apply]
  show _ = (∑ k : Fin 128, A (ix2 (rowIx t r) k) * W (ix2 k q)) + b (ix2 (0 : Fin 1) q)
  simp only [hx]

/-- The carried row of sums, continued over block `t`: the row plus the block's column sum. -/
theorem k0_pay4_block (A : Mat 100000 128) (W : Mat 128 128) (b : Mat 1 128) (x : FVec Ideal S10000x128 .f32)
    (s : FVec Ideal S1x128 .f32) (t : Fin 10)
    (hx : ∀ (r : Fin 10000) (k : Fin 128), x (ix2 r k) = A (ix2 (rowIx t r) k)) (q : Fin 128) :
    k0_pay4 (F := Ideal) x W b s (ix2 (0 : Fin 1) q) = s (ix2 (0 : Fin 1) q) + blockSum (dense A W b) q t.val := by
  rw [k0_pay4_apply, blockSum_of_lt]
  simp only [k0_pay3_block A W b x t hx]

/-- The carried row of sums of squares, continued over block `t`. -/
theorem k0_pay5_block (A : Mat 100000 128) (W : Mat 128 128) (b : Mat 1 128) (x : FVec Ideal S10000x128 .f32)
    (s : FVec Ideal S1x128 .f32) (t : Fin 10)
    (hx : ∀ (r : Fin 10000) (k : Fin 128), x (ix2 r k) = A (ix2 (rowIx t r) k)) (q : Fin 128) :
    k0_pay5 (F := Ideal) x W b s (ix2 (0 : Fin 1) q)
      = s (ix2 (0 : Fin 1) q) + blockSum (sqMat (dense A W b)) q t.val := by
  rw [k0_pay5_apply, blockSum_of_lt]
  simp only [k0_pay3_block A W b x t hx]
  rfl

/-! ### The body of region 2 -/

/-- On block `t` of the aggregate, the body's result is the dense step's rows of that block. -/
theorem k2_pay3_block (A : Mat 100000 128) (W : Mat 128 128) (b : Mat 1 128) (x : FVec Ideal S10000x128 .f32)
    (t : Fin 10) (hx : ∀ (r : Fin 10000) (k : Fin 128), x (ix2 r k) = A (ix2 (rowIx t r) k)) (r : Fin 10000)
    (q : Fin 128) : k2_pay3 (F := Ideal) x W b (ix2 r q) = dense A W b (ix2 (rowIx t r) q) := by
  rw [k2_pay3_apply]
  show _ = (∑ k : Fin 128, A (ix2 (rowIx t r) k) * W (ix2 k q)) + b (ix2 (0 : Fin 1) q)
  simp only [hx]

/-- The carried row of sums, continued over block `t`: the row plus the block's column sum. -/
theorem k2_pay4_block (A : Mat 100000 128) (W : Mat 128 128) (b : Mat 1 128) (x : FVec Ideal S10000x128 .f32)
    (s : FVec Ideal S1x128 .f32) (t : Fin 10)
    (hx : ∀ (r : Fin 10000) (k : Fin 128), x (ix2 r k) = A (ix2 (rowIx t r) k)) (q : Fin 128) :
    k2_pay4 (F := Ideal) x W b s (ix2 (0 : Fin 1) q) = s (ix2 (0 : Fin 1) q) + blockSum (dense A W b) q t.val := by
  rw [k2_pay4_apply, blockSum_of_lt]
  simp only [k2_pay3_block A W b x t hx]

/-- The carried row of sums of squares, continued over block `t`. -/
theorem k2_pay5_block (A : Mat 100000 128) (W : Mat 128 128) (b : Mat 1 128) (x : FVec Ideal S10000x128 .f32)
    (s : FVec Ideal S1x128 .f32) (t : Fin 10)
    (hx : ∀ (r : Fin 10000) (k : Fin 128), x (ix2 r k) = A (ix2 (rowIx t r) k)) (q : Fin 128) :
    k2_pay5 (F := Ideal) x W b s (ix2 (0 : Fin 1) q)
      = s (ix2 (0 : Fin 1) q) + blockSum (sqMat (dense A W b)) q t.val := by
  rw [k2_pay5_apply, blockSum_of_lt]
  simp only [k2_pay3_block A W b x t hx]
  rfl

/-! ### The body of region 4 -/

/-- On block `t` of the aggregate, the body's result is the dense step's rows of that block. -/
theorem k4_pay3_block (A : Mat 100000 128) (W : Mat 128 128) (b : Mat 1 128) (x : FVec Ideal S10000x128 .f32)
    (t : Fin 10) (hx : ∀ (r : Fin 10000) (k : Fin 128), x (ix2 r k) = A (ix2 (rowIx t r) k)) (r : Fin 10000)
    (q : Fin 128) : k4_pay3 (F := Ideal) x W b (ix2 r q) = dense A W b (ix2 (rowIx t r) q) := by
  rw [k4_pay3_apply]
  show _ = (∑ k : Fin 128, A (ix2 (rowIx t r) k) * W (ix2 k q)) + b (ix2 (0 : Fin 1) q)
  simp only [hx]

/-- The carried row of sums, continued over block `t`: the row plus the block's column sum. -/
theorem k4_pay4_block (A : Mat 100000 128) (W : Mat 128 128) (b : Mat 1 128) (x : FVec Ideal S10000x128 .f32)
    (s : FVec Ideal S1x128 .f32) (t : Fin 10)
    (hx : ∀ (r : Fin 10000) (k : Fin 128), x (ix2 r k) = A (ix2 (rowIx t r) k)) (q : Fin 128) :
    k4_pay4 (F := Ideal) x W b s (ix2 (0 : Fin 1) q) = s (ix2 (0 : Fin 1) q) + blockSum (dense A W b) q t.val := by
  rw [k4_pay4_apply, blockSum_of_lt]
  simp only [k4_pay3_block A W b x t hx]

/-- The carried row of sums of squares, continued over block `t`. -/
theorem k4_pay5_block (A : Mat 100000 128) (W : Mat 128 128) (b : Mat 1 128) (x : FVec Ideal S10000x128 .f32)
    (s : FVec Ideal S1x128 .f32) (t : Fin 10)
    (hx : ∀ (r : Fin 10000) (k : Fin 128), x (ix2 r k) = A (ix2 (rowIx t r) k)) (q : Fin 128) :
    k4_pay5 (F := Ideal) x W b s (ix2 (0 : Fin 1) q)
      = s (ix2 (0 : Fin 1) q) + blockSum (sqMat (dense A W b)) q t.val := by
  rw [k4_pay5_apply, blockSum_of_lt]
  simp only [k4_pay3_block A W b x t hx]
  rfl

end Cert.KernelIdeal.Hand

end
-- ==== Proof.KABlk0.lean ====
/-
  The windows of region 0 against their arrays.  The aggregate and the product come in ten blocks of ten thousand rows,
  block `t` holding the rows `10000 t … 10000 t + 9999`; the weight, the bias row and the two statistics rows are each one
  block, the whole array, at every grid point.  A block read through its window is the array at the shifted rows; the ten
  row blocks of the product cover its array, and the one block of a statistics row, written back at the last point, is
  its array.
-/
import proofs.«160962_j23227183137544_1_alg».proof.Proof.Gen.KernelIdeal.Launch
import proofs.«160962_j23227183137544_1_alg».proof.Proof.Gen.KernelIdeal.Points
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.SL Idealize.SL.Sem
open Idealize.ShloMosaic.Pipeline (Dat Cfg Window)

variable {F : FTy → Type} [FloatOps F]

/-- The printed index maps over the grid: the row-blocked windows move with the point, the others stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ### The inputs -/

/-- Row `r` of block `t` of the aggregate is row `10000 t + r` of the array. -/
theorem blk0_0_apply (c : Dev nD) (X : Buf (Elt F) ((c : Thread nD τ).loc main_v31)) (t : Fin cfg0.N)
    (r : Fin 10000) (k : Fin 128) (p : Fin 100000) (hp : p.val = 10000 * t.val + r.val) :
    (((cfg0.win 0).blk t).view.read (Elt F) X : S10000x128.Idx → F .f32) (ix2 r k)
      = (X : S100000x128.Idx → F .f32) (ix2 p k) := by
  rw [View.read_apply]
  refine congrArg X (funext fun a => Fin.ext ?_)
  match a with
  | ⟨0, _⟩ =>
    show win0_0.index t (0 : Fin 2) * 10000 + 1 * r.val = p.val
    rw [(idx0 t).1, hp]; omega
  | ⟨1, _⟩ =>
    show win0_0.index t (1 : Fin 2) * 128 + 1 * k.val = k.val
    rw [(idx0 t).2.1]; omega

/-- The weight's one block is the weight. -/
theorem blk0_1_eq (c : Dev nD) (X : Buf (Elt F) ((c : Thread nD τ).loc main_v33)) (t : Fin cfg0.N) :
    (((cfg0.win 1).blk t).view.read (Elt F) X : S128x128.Idx → F .f32) = (X : S128x128.Idx → F .f32) := by
  funext j
  rw [View.read_apply]
  refine congrArg X (funext fun a => Fin.ext ?_)
  match a with
  | ⟨0, _⟩ =>
    show win0_1.index t (0 : Fin 2) * 128 + 1 * (j 0).val = (j 0).val
    rw [(idx0 t).2.2.1]; omega
  | ⟨1, _⟩ =>
    show win0_1.index t (1 : Fin 2) * 128 + 1 * (j 1).val = (j 1).val
    rw [(idx0 t).2.2.2.1]; omega

/-- The bias row's one block is the bias row. -/
theorem blk0_2_eq (c : Dev nD) (X : Buf (Elt F) ((c : Thread nD τ).loc main_v36)) (t : Fin cfg0.N) :
    (((cfg0.win 2).blk t).view.read (Elt F) X : S1x128.Idx → F .f32) = (X : S1x128.Idx → F .f32) := by
  funext j
  rw [View.read_apply]
  refine congrArg X (funext fun a => Fin.ext ?_)
  match a with
  | ⟨0, _⟩ =>
    show win0_2.index t (0 : Fin 2) * 1 + 1 * (j 0).val = (j 0).val
    rw [(idx0 t).2.2.2.2.1]; omega
  | ⟨1, _⟩ =>
    show win0_2.index t (1 : Fin 2) * 128 + 1 * (j 1).val = (j 1).val
    rw [(idx0 t).2.2.2.2.2.1]; omega

/-! ### The product, in row blocks -/

/-- A block whose row `r` is the array's row `10000 t + r` is what point `t` writes back of the array. -/
theorem flush0_3_of (c : Dev nD) (G : Buf (Elt F) ((c : Thread nD τ).loc main_v37_0)) (t : Fin cfg0.N)
    (Y : S10000x128.Idx → F .f32)
    (h : ∀ (r : Fin 10000) (q : Fin 128) (p : Fin 100000), p.val = 10000 * t.val + r.val →
      Y (ix2 r q) = (G : S100000x128.Idx → F .f32) (ix2 p q)) :
    (cfg0.win 3).cut (grid0.coords t) Y = ((cfg0.win 3).blk t).view.read (Elt F) G := by
  have hN : cfg0.N = 10 := N_0
  have ht : t.val < 10 := hN ▸ t.isLt
  funext j
  rw [View.read_apply]
  have hj0 : (j 0).val < 10000 := (j 0).isLt
  have hj1 : (j 1).val < 128 := (j 1).isLt
  have e := h ⟨(j 0).val, hj0⟩ ⟨(j 1).val, hj1⟩ ⟨10000 * t.val + (j 0).val, by omega⟩ rfl
  refine Eq.trans (congrArg Y (funext fun a => Fin.ext ?_)) (e.trans (congrArg G (funext fun a => Fin.ext ?_)))
  · match a with
    | ⟨0, _⟩ => rfl
    | ⟨1, _⟩ => rfl
  · match a with
    | ⟨0, _⟩ =>
      show 10000 * t.val + (j 0).val = win0_3.index t (0 : Fin 2) * 10000 + 1 * (j 0).val
      rw [(idx0 t).2.2.2.2.2.2.1]; omega
    | ⟨1, _⟩ =>
      show (j 1).val = win0_3.index t (1 : Fin 2) * 128 + 1 * (j 1).val
      rw [(idx0 t).2.2.2.2.2.2.2.1]; omega

/-- An index of the product's array is in point `t`'s block iff each coordinate is in the block's range. -/
theorem mem_blk0_3 (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v37_0).slice (win0_3.rect t)).set ↔ _
  rw [View.set_slice_whole, Rect.mem_set_unit]
  exact Iff.rfl

/-- Row `p` is covered by point `p / 10000`. -/
theorem cover0_3 (i : S100000x128.Idx) :
    ∃ t : Fin cfg0.N, (cfg0.win 3).flush t = true ∧ i ∈ ((cfg0.win 3).blk t).view.set := by
  have hN : cfg0.N = 10 := N_0
  have hi0 : (i 0).val < 100000 := (i 0).isLt
  have hi1 : (i 1).val < 128 := (i 1).isLt
  refine ⟨⟨(i 0).val / 10000, by omega⟩, flush0_3 _, ?_⟩
  rw [mem_blk0_3]
  have e0 := (idx0 ⟨(i 0).val / 10000, by omega⟩).2.2.2.2.2.2.1
  have e1 := (idx0 ⟨(i 0).val / 10000, by omega⟩).2.2.2.2.2.2.2.1
  intro a
  match a with
  | ⟨0, _⟩ =>
    show win0_3.index _ (0 : Fin 2) * 10000 ≤ (i 0).val ∧ (i 0).val < win0_3.index _ (0 : Fin 2) * 10000 + 10000
    rw [e0]; dsimp only; omega
  | ⟨1, _⟩ =>
    show win0_3.index _ (1 : Fin 2) * 128 ≤ (i 1).val ∧ (i 1).val < win0_3.index _ (1 : Fin 2) * 128 + 128
    rw [e1]; omega

/-! ### Statistics row 1 (window 4) -/

/-- The row's one block is the whole row: what a point writes back of a row is the row. -/
theorem flush0_4_of (c : Dev nD) (G : Buf (Elt F) ((c : Thread nD τ).loc main_v37_1)) (t : Fin cfg0.N)
    (Y : S1x128.Idx → F .f32) (h : Y = (G : S1x128.Idx → F .f32)) :
    (cfg0.win 4).cut (grid0.coords t) Y = ((cfg0.win 4).blk t).view.read (Elt F) G := by
  rw [h]
  funext j
  rw [View.read_apply]
  refine congrArg G (funext fun a => Fin.ext ?_)
  match a with
  | ⟨0, _⟩ =>
    show (j 0).val = win0_4.index t (0 : Fin 2) * 1 + 1 * (j 0).val
    rw [(idx0 t).2.2.2.2.2.2.2.2.1]; omega
  | ⟨1, _⟩ =>
    show (j 1).val = win0_4.index t (1 : Fin 2) * 128 + 1 * (j 1).val
    rw [(idx0 t).2.2.2.2.2.2.2.2.2.1]; omega

theorem mem_blk0_4 (t : Fin cfg0.N) (i : S1x128.Idx) :
    i ∈ ((cfg0.win 4).blk t).view.set ↔ ∀ a : Fin 2, win0_4.index t a * S1x128.size a ≤ (i a).val
      ∧ (i a).val < win0_4.index t a * S1x128.size a + S1x128.size a := by
  show i ∈ ((View.whole main_v37_1).slice (win0_4.rect t)).set ↔ _
  rw [View.set_slice_whole, Rect.mem_set_unit]
  exact Iff.rfl

/-- The last point, the one that writes the row back, covers it. -/
theorem cover0_4 (i : S1x128.Idx) :
    ∃ t : Fin cfg0.N, (cfg0.win 4).flush t = true ∧ i ∈ ((cfg0.win 4).blk t).view.set := by
  have hi0 : (i 0).val < 1 := (i 0).isLt
  have hi1 : (i 1).val < 128 := (i 1).isLt
  refine ⟨t0_9, (flush0_4 t0_9).mpr rfl, ?_⟩
  rw [mem_blk0_4]
  have e0 := (idx0 t0_9).2.2.2.2.2.2.2.2.1
  have e1 := (idx0 t0_9).2.2.2.2.2.2.2.2.2.1
  intro a
  match a with
  | ⟨0, _⟩ =>
    show win0_4.index t0_9 (0 : Fin 2) * 1 ≤ (i 0).val ∧ (i 0).val < win0_4.index t0_9 (0 : Fin 2) * 1 + 1
    rw [e0]; omega
  | ⟨1, _⟩ =>
    show win0_4.index t0_9 (1 : Fin 2) * 128 ≤ (i 1).val ∧ (i 1).val < win0_4.index t0_9 (1 : Fin 2) * 128 + 128
    rw [e1]; omega

/-! ### Statistics row 2 (window 5) -/

/-- The row's one block is the whole row: what a point writes back of a row is the row. -/
theorem flush0_5_of (c : Dev nD) (G : Buf (Elt F) ((c : Thread nD τ).loc main_v37_2)) (t : Fin cfg0.N)
    (Y : S1x128.Idx → F .f32) (h : Y = (G : S1x128.Idx → F .f32)) :
    (cfg0.win 5).cut (grid0.coords t) Y = ((cfg0.win 5).blk t).view.read (Elt F) G := by
  rw [h]
  funext j
  rw [View.read_apply]
  refine congrArg G (funext fun a => Fin.ext ?_)
  match a with
  | ⟨0, _⟩ =>
    show (j 0).val = win0_5.index t (0 : Fin 2) * 1 + 1 * (j 0).val
    rw [(idx0 t).2.2.2.2.2.2.2.2.2.2.1]; omega
  | ⟨1, _⟩ =>
    show (j 1).val = win0_5.index t (1 : Fin 2) * 128 + 1 * (j 1).val
    rw [(idx0 t).2.2.2.2.2.2.2.2.2.2.2]; omega

theorem mem_blk0_5 (t : Fin cfg0.N) (i : S1x128.Idx) :
    i ∈ ((cfg0.win 5).blk t).view.set ↔ ∀ a : Fin 2, win0_5.index t a * S1x128.size a ≤ (i a).val
      ∧ (i a).val < win0_5.index t a * S1x128.size a + S1x128.size a := by
  show i ∈ ((View.whole main_v37_2).slice (win0_5.rect t)).set ↔ _
  rw [View.set_slice_whole, Rect.mem_set_unit]
  exact Iff.rfl

/-- The last point, the one that writes the row back, covers it. -/
theorem cover0_5 (i : S1x128.Idx) :
    ∃ t : Fin cfg0.N, (cfg0.win 5).flush t = true ∧ i ∈ ((cfg0.win 5).blk t).view.set := by
  have hi0 : (i 0).val < 1 := (i 0).isLt
  have hi1 : (i 1).val < 128 := (i 1).isLt
  refine ⟨t0_9, (flush0_5 t0_9).mpr rfl, ?_⟩
  rw [mem_blk0_5]
  have e0 := (idx0 t0_9).2.2.2.2.2.2.2.2.2.2.1
  have e1 := (idx0 t0_9).2.2.2.2.2.2.2.2.2.2.2
  intro a
  match a with
  | ⟨0, _⟩ =>
    show win0_5.index t0_9 (0 : Fin 2) * 1 ≤ (i 0).val ∧ (i 0).val < win0_5.index t0_9 (0 : Fin 2) * 1 + 1
    rw [e0]; omega
  | ⟨1, _⟩ =>
    show win0_5.index t0_9 (1 : Fin 2) * 128 ≤ (i 1).val ∧ (i 1).val < win0_5.index t0_9 (1 : Fin 2) * 128 + 128
    rw [e1]; omega

end Cert.KernelIdeal.Hand

end
-- ==== Proof.KIValA0.lean ====
/-
  The arrays region 0 leaves, on the extended reals, at any contents the region is entered with.  With `Z` the dense
  step (the aggregate times the weight plus the bias row) of the entry contents: the product's array ends holding `Z`
  — point `t` writes back the rows `10000 t … 10000 t + 9999` of `Z`, and the ten points cover the array —, and the two
  statistics rows end holding the column sums of `Z` and of its squares: after the points `0 … n` a row holds the sum of
  the column sums of the blocks `0 … n` (by induction on the point), the last point writes the row back, and the ten
  blocks' sums add up to the sum over all rows.
-/
import proofs.«160962_j23227183137544_1_alg».proof.Proof.KIRegA0
import proofs.«160962_j23227183137544_1_alg».proof.Proof.KIOutA0
import proofs.«160962_j23227183137544_1_alg».proof.Proof.KAMath
import proofs.«160962_j23227183137544_1_alg».proof.Proof.KABlk0

set_option maxRecDepth 16384

noncomputable section

open scoped BigOperators

namespace Cert.KernelIdeal.Hand

open Cert.KernelIdeal Cert.KernelIdeal.Gen
open Idealize.ShloMosaic Idealize.ShloMosaic.ValueIdx Idealize.ShloMosaic.TcCoe
open Idealize.SL Idealize.SL.Sem
open Idealize.ShloMosaic.Pipeline (Dat Cfg Window)
open Cert.Dense Cert.Spec

variable (V : (c : Dev nD) → (b : Ref sig .tc) → Buf (Elt Ideal) ((c : Thread nD τ).loc b))

/-- The dense step of the arrays the region is entered with. -/
def Z0 (c : Dev nD) : Mat 100000 128 := dense (V c main_v31) (V c main_v33) (V c main_v36)

/-! ### The input blocks -/

theorem iblk0_0_apply (c : Dev nD) (t : Fin cfg0.N) (ht : t.val < 10) (r : Fin 10000) (k : Fin 128) :
    (iblk0 V c 0 t : S10000x128.Idx → EReal) (ix2 r k)
      = (V c main_v31 : S100000x128.Idx → EReal) (ix2 (rowIx ⟨t.val, ht⟩ r) k) :=
  blk0_0_apply c (V c main_v31) t r k _ rfl

theorem iblk0_1_eq (c : Dev nD) (t : Fin cfg0.N) : (iblk0 V c 1 t : S128x128.Idx → EReal) = V c main_v33 :=
  blk0_1_eq c (V c main_v33) t

theorem iblk0_2_eq (c : Dev nD) (t : Fin cfg0.N) : (iblk0 V c 2 t : S1x128.Idx → EReal) = V c main_v36 :=
  blk0_2_eq c (V c main_v36) t

/-! ### The product -/

/-- At every point the body leaves the block's result in the product's buffer. -/
theorem outs0_1 (c : Dev nD) (t : Fin cfg0.N) :
    (outsAt0 V c t.val t.isLt).1 = k0_pay3 (iblk0 V c 0 t) (iblk0 V c 1 t) (iblk0 V c 2 t) := by
  by_cases h0 : t.val % 10 = 0
  · rw [outsAt0_A V c t h0, out0_A_1]
  · rw [outsAt0_B V c t h0, out0_B_1]

/-- What point `t` writes back is its block of rows of `Z`. -/
theorem flushed0_3_eq (c : Dev nD) (t : Fin cfg0.N) :
    (dat0 V c).flushed 3 t = ((cfg0.win 3).blk t).view.read (Elt Ideal) (Z0 V c) := by
  have hN : cfg0.N = 10 := N_0
  have ht : t.val < 10 := hN ▸ t.isLt
  show (cfg0.win 3).cut (grid0.coords t) ((dat0 V c).after 3 t) = _
  rw [after0_3, outs0_1]
  refine flush0_3_of (F := Ideal) c (Z0 V c) t _ fun r q p hp => ?_
  obtain rfl : p = rowIx ⟨t.val, ht⟩ r := Fin.ext hp
  rw [iblk0_1_eq, iblk0_2_eq]
  exact k0_pay3_block (V c main_v31) (V c main_v33) (V c main_v36) (iblk0 V c 0 t) ⟨t.val, ht⟩
    (fun r k => iblk0_0_apply V c t ht r k) r q

/-- The product's array ends holding `Z`. -/
theorem arrAt0_3 (c : Dev nD) : (dat0 V c).arrAt 3 cfg0.N = Z0 V c :=
  (dat0 V c).arrAt_eq_of_cover 3 (Z0 V c) (fun t _ => flushed0_3_eq V c t) cover0_3

/-! ### The two statistics rows -/

/-- After the points `0 … n` the first statistics row holds the sum of the column sums of the blocks `0 … n`. -/
theorem outs0_2 (c : Dev nD) : ∀ (n : ℕ) (hn : n < cfg0.N) (q : Fin 128),
    ((outsAt0 V c n hn).2.1 : S1x128.Idx → EReal) (ix2 (0 : Fin 1) q)
      = ∑ t ∈ Finset.range (n + 1), blockSum (Z0 V c) q t
  | 0, hn, q => by
    have hN : cfg0.N = 10 := N_0
    rw [outsAt0_A V c ⟨0, hn⟩ rfl, out0_A_2, iblk0_1_eq, iblk0_2_eq,
      k0_pay4_block (V c main_v31) (V c main_v33) (V c main_v36) _ _ ⟨0, by omega⟩
        (fun r k => iblk0_0_apply V c ⟨0, hn⟩ (by omega) r k) q,
      k0_pay1_apply, zero_add, Finset.sum_range_one]
    rfl
  | n + 1, hn, q => by
    have hN : cfg0.N = 10 := N_0
    have hB : ¬(⟨n + 1, hn⟩ : Fin cfg0.N).val % 10 = 0 := by dsimp only; omega
    rw [outsAt0_B V c ⟨n + 1, hn⟩ hB, out0_B_2, iblk0_1_eq, iblk0_2_eq,
      k0_pay4_block (V c main_v31) (V c main_v33) (V c main_v36) _ _ ⟨n + 1, by omega⟩
        (fun r k => iblk0_0_apply V c ⟨n + 1, hn⟩ (by omega) r k) q,
      Finset.sum_range_succ _ (n + 1)]
    exact congrArg₂ (· + ·) (outs0_2 c n _ q) rfl

/-- After the points `0 … n` the second statistics row holds the sum of the column sums of squares of the blocks. -/
theorem outs0_3 (c : Dev nD) : ∀ (n : ℕ) (hn : n < cfg0.N) (q : Fin 128),
    ((outsAt0 V c n hn).2.2 : S1x128.Idx → EReal) (ix2 (0 : Fin 1) q)
      = ∑ t ∈ Finset.range (n + 1), blockSum (sqMat (Z0 V c)) q t
  | 0, hn, q => by
    have hN : cfg0.N = 10 := N_0
    rw [outsAt0_A V c ⟨0, hn⟩ rfl, out0_A_3, iblk0_1_eq, iblk0_2_eq,
      k0_pay5_block (V c main_v31) (V c main_v33) (V c main_v36) _ _ ⟨0, by omega⟩
        (fun r k => iblk0_0_apply V c ⟨0, hn⟩ (by omega) r k) q,
      k0_pay2_apply, zero_add, Finset.sum_range_one]
    rfl
  | n + 1, hn, q => by
    have hN : cfg0.N = 10 := N_0
    have hB : ¬(⟨n + 1, hn⟩ : Fin cfg0.N).val % 10 = 0 := by dsimp only; omega
    rw [outsAt0_B V c ⟨n + 1, hn⟩ hB, out0_B_3, iblk0_1_eq, iblk0_2_eq,
      k0_pay5_block (V c main_v31) (V c main_v33) (V c main_v36) _ _ ⟨n + 1, by omega⟩
        (fun r k => iblk0_0_apply V c ⟨n + 1, hn⟩ (by omega) r k) q,
      Finset.sum_range_succ _ (n + 1)]
    exact congrArg₂ (· + ·) (outs0_3 c n _ q) rfl

/-- The first statistics row ends holding the column sums of `Z`. -/
theorem arrAt0_4 (c : Dev nD) :
    (dat0 V c).arrAt 4 cfg0.N = fun i : S1x128.Idx => 0 + ∑ p : Fin 100000, Z0 V c (ix2 p (c1 i)) := by
  refine (dat0 V c).arrAt_eq_of_cover 4 _ (fun t hf => ?_) cover0_4
  have hN : cfg0.N = 10 := N_0
  have h9 : t.val + 1 = 10 := by have := (flush0_4 t).mp hf; have := t.isLt; omega
  show (cfg0.win 4).cut (grid0.coords t) ((dat0 V c).after 4 t) = _
  rw [after0_4]
  refine flush0_4_of (F := Ideal) c _ t _ (funext fun i => ?_)
  obtain ⟨u, q, rfl⟩ : ∃ (u : Fin 1) (q : Fin 128), i = ix2 u q := ⟨i 0, i 1, eq_ix2 i⟩
  obtain rfl : u = 0 := Subsingleton.elim _ _
  refine ((outs0_2 V c t.val t.isLt q).trans ?_).trans (zero_add _).symm
  rw [h9]
  exact sum_blockSum (Z0 V c) q

/-- The second statistics row ends holding the column sums of the squares of `Z`. -/
theorem arrAt0_5 (c : Dev nD) :
    (dat0 V c).arrAt 5 cfg0.N
      = fun i : S1x128.Idx => 0 + ∑ p : Fin 100000, Z0 V c (ix2 p (c1 i)) * Z0 V c (ix2 p (c1 i)) := by
  refine (dat0 V c).arrAt_eq_of_cover 5 _ (fun t hf => ?_) cover0_5
  have hN : cfg0.N = 10 := N_0
  have h9 : t.val + 1 = 10 := by have := (flush0_5 t).mp hf; have := t.isLt; omega
  show (cfg0.win 5).cut (grid0.coords t) ((dat0 V c).after 5 t) = _
  rw [after0_5]
  refine flush0_5_of (F := Ideal) c _ t _ (funext fun i => ?_)
  obtain ⟨u, q, rfl⟩ : ∃ (u : Fin 1) (q : Fin 128), i = ix2 u q := ⟨i 0, i 1, eq_ix2 i⟩
  obtain rfl : u = 0 := Subsingleton.elim _ _
  refine ((outs0_3 V c t.val t.isLt q).trans ?_).trans (zero_add _).symm
  rw [h9]
  exact sum_blockSum (sqMat (Z0 V c)) q

end Cert.KernelIdeal.Hand

end
-- ==== Proof.KIReadA2.lean ====
/-
  The stores the body of region 2 makes into its three outputs' buffers, read back: at the first grid point the block's
  result, and the two statistics rows started from the zero rows just stored; at a later point the block's result, and the
  two statistics rows continued from the rows found in the buffers.  Every store and load is of a whole buffer, so the
  last store into a buffer is what it holds, and a load after a store reads the stored value.
-/
import proofs.«160962_j23227183137544_1_alg».proof.Proof.KIRunA2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2_2 : (![0, 0] : Fin 2 → Nat) = fun _ => 0 := funext fun a => by fin_cases a <;> rfl

/-! ### The first point -/

theorem readA2_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) :
    VO2_3.read (Elt F) (VO2_3.writes (Elt F) VO2_3.junk (kernelRun2_A c i arg1 harg1 arg2 harg2 arg3 harg3 arg4 harg4 arg5 harg5 arg6 harg6 hc0 x0 x1 x2).1.1) = k2_pay3 x0 x1 x2 := by
  rw [View.read_writes_junk_eq_canon]
  unfold kernelRun2_A
  dsimp only
  sl_unfold_words
  rw [View.canon_unit_zero (S := S10000x128) hz2_2]
  simp only [View.readAt_eq_ld, harg1.read_unread, harg2.read_unread, harg3.read_unread, harg5.read_unread,
    harg6.read_unread, View.ld_unit_zero (S := S10000x128) hz2_2, View.ld_unit_zero (S := S128x128) hz2_2,
    View.ld_unit_zero (S := S1x128) hz2_2]

theorem readA2_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) :
    VO2_4.read (Elt F) (VO2_4.writes (Elt F) VO2_4.junk (kernelRun2_A c i arg1 harg1 arg2 harg2 arg3 harg3 arg4 harg4 arg5 harg5 arg6 harg6 hc0 x0 x1 x2).1.2.1) = k2_pay4 x0 x1 x2 (k2_pay1 (F := F)) := by
  rw [View.read_writes_junk_eq_canon]
  unfold kernelRun2_A
  dsimp only
  sl_unfold_words
  rw [View.canon_cons_unit_zero (S := S1x128) hz2_2, View.readCov_unit_zero (S := S1x128) _ hz2_2]
  simp only [View.readAt_eq_ld, harg1.read_unread, harg2.read_unread, harg3.read_unread, harg5.read_unread,
    harg6.read_unread, View.ld_unit_zero (S := S10000x128) hz2_2, View.ld_unit_zero (S := S128x128) hz2_2,
    View.ld_unit_zero (S := S1x128) hz2_2]

theorem readA2_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) :
    VO2_5.read (Elt F) (VO2_5.writes (Elt F) VO2_5.junk (kernelRun2_A c i arg1 harg1 arg2 harg2 arg3 harg3 arg4 harg4 arg5 harg5 arg6 harg6 hc0 x0 x1 x2).1.2.2) = k2_pay5 x0 x1 x2 (k2_pay2 (F := F)) := by
  rw [View.read_writes_junk_eq_canon]
  unfold kernelRun2_A
  dsimp only
  sl_unfold_words
  rw [View.canon_cons_unit_zero (S := S1x128) hz2_2, View.readCov_unit_zero (S := S1x128) _ hz2_2]
  simp only [View.readAt_eq_ld, harg1.read_unread, harg2.read_unread, harg3.read_unread, harg5.read_unread,
    harg6.read_unread, View.ld_unit_zero (S := S10000x128) hz2_2, View.ld_unit_zero (S := S128x128) hz2_2,
    View.ld_unit_zero (S := S1x128) hz2_2]

/-! ### A later point -/

theorem readB2_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) :
    VO2_3.read (Elt F) (VO2_3.writes (Elt F) VO2_3.junk (kernelRun2_B c i arg1 harg1 arg2 harg2 arg3 harg3 arg4 harg4 arg5 harg5 arg6 harg6 hc0 x0 x1 x2 xo4 xo5).1.1) = k2_pay3 x0 x1 x2 := by
  rw [View.read_writes_junk_eq_canon]
  unfold kernelRun2_B
  dsimp only
  sl_unfold_words
  rw [View.canon_unit_zero (S := S10000x128) hz2_2]
  simp only [View.readAt_eq_ld, harg1.read_unread, harg2.read_unread, harg3.read_unread, harg5.read_unread,
    harg6.read_unread, View.ld_unit_zero (S := S10000x128) hz2_2, View.ld_unit_zero (S := S128x128) hz2_2,
    View.ld_unit_zero (S := S1x128) hz2_2]

theorem readB2_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) :
    VO2_4.read (Elt F) (VO2_4.writes (Elt F) VO2_4.junk (kernelRun2_B c i arg1 harg1 arg2 harg2 arg3 harg3 arg4 harg4 arg5 harg5 arg6 harg6 hc0 x0 x1 x2 xo4 xo5).1.2.1) = k2_pay4 x0 x1 x2 xo4 := by
  rw [View.read_writes_junk_eq_canon]
  unfold kernelRun2_B
  dsimp only
  sl_unfold_words
  rw [View.canon_unit_zero (S := S1x128) hz2_2]
  simp only [View.readAt_eq_ld, harg1.read_unread, harg2.read_unread, harg3.read_unread, harg5.read_unread,
    harg6.read_unread, View.ld_unit_zero (S := S10000x128) hz2_2, View.ld_unit_zero (S := S128x128) hz2_2,
    View.ld_unit_zero (S := S1x128) hz2_2]

theorem readB2_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) :
    VO2_5.read (Elt F) (VO2_5.writes (Elt F) VO2_5.junk (kernelRun2_B c i arg1 harg1 arg2 harg2 arg3 harg3 arg4 harg4 arg5 harg5 arg6 harg6 hc0 x0 x1 x2 xo4 xo5).1.2.2) = k2_pay5 x0 x1 x2 xo5 := by
  rw [View.read_writes_junk_eq_canon]
  unfold kernelRun2_B
  dsimp only
  sl_unfold_words
  rw [View.canon_unit_zero (S := S1x128) hz2_2]
  simp only [View.readAt_eq_ld, harg1.read_unread, harg2.read_unread, harg3.read_unread, harg5.read_unread,
    harg6.read_unread, View.ld_unit_zero (S := S10000x128) hz2_2, View.ld_unit_zero (S := S128x128) hz2_2,
    View.ld_unit_zero (S := S1x128) hz2_2]

end Cert.KernelIdeal.Hand

end
-- ==== Proof.KIOutA2.lean ====
/-
  What the body of region 2 leaves in the three outputs' buffers, in terms of its payloads: at the first grid point the
  block's result and the two statistics rows started from zero rows; at a later point the block's result and the two
  statistics rows continued from the rows the point before left.
-/
import proofs.«160962_j23227183137544_1_alg».proof.Proof.KIRegA2
import proofs.«160962_j23227183137544_1_alg».proof.Proof.KIReadA2

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

theorem out2_A_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) :
    out2_A c i arg1 harg1 arg2 harg2 arg3 harg3 arg4 harg4 arg5 harg5 arg6 harg6 hc0 x0 x1 x2
      = (k2_pay3 x0 x1 x2, k2_pay4 x0 x1 x2 (k2_pay1 (F := F)), k2_pay5 x0 x1 x2 (k2_pay2 (F := F))) := by
  unfold out2_A
  rw [readA2_3, readA2_4, readA2_5]

theorem out2_B_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) :
    out2_B c i arg1 harg1 arg2 harg2 arg3 harg3 arg4 harg4 arg5 harg5 arg6 harg6 hc0 x0 x1 x2 xo4 xo5
      = (k2_pay3 x0 x1 x2, k2_pay4 x0 x1 x2 xo4, k2_pay5 x0 x1 x2 xo5) := by
  unfold out2_B
  rw [readB2_3, readB2_4, readB2_5]

theorem out2_A_1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) :
    (out2_A c i arg1 harg1 arg2 harg2 arg3 harg3 arg4 harg4 arg5 harg5 arg6 harg6 hc0 x0 x1 x2).1 = k2_pay3 x0 x1 x2 := by
  rw [out2_A_eq]
theorem out2_A_2 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) :
    (out2_A c i arg1 harg1 arg2 harg2 arg3 harg3 arg4 harg4 arg5 harg5 arg6 harg6 hc0 x0 x1 x2).2.1
      = k2_pay4 x0 x1 x2 (k2_pay1 (F := F)) := by
  rw [out2_A_eq]
theorem out2_A_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) :
    (out2_A c i arg1 harg1 arg2 harg2 arg3 harg3 arg4 harg4 arg5 harg5 arg6 harg6 hc0 x0 x1 x2).2.2
      = k2_pay5 x0 x1 x2 (k2_pay2 (F := F)) := by
  rw [out2_A_eq]

theorem out2_B_1 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) :
    (out2_B c i arg1 harg1 arg2 harg2 arg3 harg3 arg4 harg4 arg5 harg5 arg6 harg6 hc0 x0 x1 x2 xo4 xo5).1
      = k2_pay3 x0 x1 x2 := by
  rw [out2_B_eq]
theorem out2_B_2 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) :
    (out2_B c i arg1 harg1 arg2 harg2 arg3 harg3 arg4 harg4 arg5 harg5 arg6 harg6 hc0 x0 x1 x2 xo4 xo5).2.1
      = k2_pay4 x0 x1 x2 xo4 := by
  rw [out2_B_eq]
theorem out2_B_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) :
    (out2_B c i arg1 harg1 arg2 harg2 arg3 harg3 arg4 harg4 arg5 harg5 arg6 harg6 hc0 x0 x1 x2 xo4 xo5).2.2
      = k2_pay5 x0 x1 x2 xo5 := by
  rw [out2_B_eq]

end Cert.KernelIdeal.Hand

end
-- ==== Proof.KABlk2.lean ====
/-
  The windows of region 2 against their arrays.  The aggregate and the product come in ten blocks of ten thousand rows,
  block `t` holding the rows `10000 t … 10000 t + 9999`; the weight, the bias row and the two statistics rows are each one
  block, the whole array, at every grid point.  A block read through its window is the array at the shifted rows; the ten
  row blocks of the product cover its array, and the one block of a statistics row, written back at the last point, is
  its array.
-/
import proofs.«160962_j23227183137544_1_alg».proof.Proof.Gen.KernelIdeal.Launch
import proofs.«160962_j23227183137544_1_alg».proof.Proof.Gen.KernelIdeal.Points
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.SL Idealize.SL.Sem
open Idealize.ShloMosaic.Pipeline (Dat Cfg Window)

variable {F : FTy → Type} [FloatOps F]

/-- The printed index maps over the grid: the row-blocked windows move with the point, the others stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-! ### The inputs -/

/-- Row `r` of block `t` of the aggregate is row `10000 t + r` of the array. -/
theorem blk2_0_apply (c : Dev nD) (X : Buf (Elt F) ((c : Thread nD τ).loc main_v71)) (t : Fin cfg2.N)
    (r : Fin 10000) (k : Fin 128) (p : Fin 100000) (hp : p.val = 10000 * t.val + r.val) :
    (((cfg2.win 0).blk t).view.read (Elt F) X : S10000x128.Idx → F .f32) (ix2 r k)
      = (X : S100000x128.Idx → F .f32) (ix2 p k) := by
  rw [View.read_apply]
  refine congrArg X (funext fun a => Fin.ext ?_)
  match a with
  | ⟨0, _⟩ =>
    show win2_0.index t (0 : Fin 2) * 10000 + 1 * r.val = p.val
    rw [(idx2 t).1, hp]; omega
  | ⟨1, _⟩ =>
    show win2_0.index t (1 : Fin 2) * 128 + 1 * k.val = k.val
    rw [(idx2 t).2.1]; omega

/-- The weight's one block is the weight. -/
theorem blk2_1_eq (c : Dev nD) (X : Buf (Elt F) ((c : Thread nD τ).loc main_v73)) (t : Fin cfg2.N) :
    (((cfg2.win 1).blk t).view.read (Elt F) X : S128x128.Idx → F .f32) = (X : S128x128.Idx → F .f32) := by
  funext j
  rw [View.read_apply]
  refine congrArg X (funext fun a => Fin.ext ?_)
  match a with
  | ⟨0, _⟩ =>
    show win2_1.index t (0 : Fin 2) * 128 + 1 * (j 0).val = (j 0).val
    rw [(idx2 t).2.2.1]; omega
  | ⟨1, _⟩ =>
    show win2_1.index t (1 : Fin 2) * 128 + 1 * (j 1).val = (j 1).val
    rw [(idx2 t).2.2.2.1]; omega

/-- The bias row's one block is the bias row. -/
theorem blk2_2_eq (c : Dev nD) (X : Buf (Elt F) ((c : Thread nD τ).loc main_v76)) (t : Fin cfg2.N) :
    (((cfg2.win 2).blk t).view.read (Elt F) X : S1x128.Idx → F .f32) = (X : S1x128.Idx → F .f32) := by
  funext j
  rw [View.read_apply]
  refine congrArg X (funext fun a => Fin.ext ?_)
  match a with
  | ⟨0, _⟩ =>
    show win2_2.index t (0 : Fin 2) * 1 + 1 * (j 0).val = (j 0).val
    rw [(idx2 t).2.2.2.2.1]; omega
  | ⟨1, _⟩ =>
    show win2_2.index t (1 : Fin 2) * 128 + 1 * (j 1).val = (j 1).val
    rw [(idx2 t).2.2.2.2.2.1]; omega

/-! ### The product, in row blocks -/

/-- A block whose row `r` is the array's row `10000 t + r` is what point `t` writes back of the array. -/
theorem flush2_3_of (c : Dev nD) (G : Buf (Elt F) ((c : Thread nD τ).loc main_v77_0)) (t : Fin cfg2.N)
    (Y : S10000x128.Idx → F .f32)
    (h : ∀ (r : Fin 10000) (q : Fin 128) (p : Fin 100000), p.val = 10000 * t.val + r.val →
      Y (ix2 r q) = (G : S100000x128.Idx → F .f32) (ix2 p q)) :
    (cfg2.win 3).cut (grid2.coords t) Y = ((cfg2.win 3).blk t).view.read (Elt F) G := by
  have hN : cfg2.N = 10 := N_2
  have ht : t.val < 10 := hN ▸ t.isLt
  funext j
  rw [View.read_apply]
  have hj0 : (j 0).val < 10000 := (j 0).isLt
  have hj1 : (j 1).val < 128 := (j 1).isLt
  have e := h ⟨(j 0).val, hj0⟩ ⟨(j 1).val, hj1⟩ ⟨10000 * t.val + (j 0).val, by omega⟩ rfl
  refine Eq.trans (congrArg Y (funext fun a => Fin.ext ?_)) (e.trans (congrArg G (funext fun a => Fin.ext ?_)))
  · match a with
    | ⟨0, _⟩ => rfl
    | ⟨1, _⟩ => rfl
  · match a with
    | ⟨0, _⟩ =>
      show 10000 * t.val + (j 0).val = win2_3.index t (0 : Fin 2) * 10000 + 1 * (j 0).val
      rw [(idx2 t).2.2.2.2.2.2.1]; omega
    | ⟨1, _⟩ =>
      show (j 1).val = win2_3.index t (1 : Fin 2) * 128 + 1 * (j 1).val
      rw [(idx2 t).2.2.2.2.2.2.2.1]; omega

/-- An index of the product's array is in point `t`'s block iff each coordinate is in the block's range. -/
theorem mem_blk2_3 (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v77_0).slice (win2_3.rect t)).set ↔ _
  rw [View.set_slice_whole, Rect.mem_set_unit]
  exact Iff.rfl

/-- Row `p` is covered by point `p / 10000`. -/
theorem cover2_3 (i : S100000x128.Idx) :
    ∃ t : Fin cfg2.N, (cfg2.win 3).flush t = true ∧ i ∈ ((cfg2.win 3).blk t).view.set := by
  have hN : cfg2.N = 10 := N_2
  have hi0 : (i 0).val < 100000 := (i 0).isLt
  have hi1 : (i 1).val < 128 := (i 1).isLt
  refine ⟨⟨(i 0).val / 10000, by omega⟩, flush2_3 _, ?_⟩
  rw [mem_blk2_3]
  have e0 := (idx2 ⟨(i 0).val / 10000, by omega⟩).2.2.2.2.2.2.1
  have e1 := (idx2 ⟨(i 0).val / 10000, by omega⟩).2.2.2.2.2.2.2.1
  intro a
  match a with
  | ⟨0, _⟩ =>
    show win2_3.index _ (0 : Fin 2) * 10000 ≤ (i 0).val ∧ (i 0).val < win2_3.index _ (0 : Fin 2) * 10000 + 10000
    rw [e0]; dsimp only; omega
  | ⟨1, _⟩ =>
    show win2_3.index _ (1 : Fin 2) * 128 ≤ (i 1).val ∧ (i 1).val < win2_3.index _ (1 : Fin 2) * 128 + 128
    rw [e1]; omega

/-! ### Statistics row 1 (window 4) -/

/-- The row's one block is the whole row: what a point writes back of a row is the row. -/
theorem flush2_4_of (c : Dev nD) (G : Buf (Elt F) ((c : Thread nD τ).loc main_v77_1)) (t : Fin cfg2.N)
    (Y : S1x128.Idx → F .f32) (h : Y = (G : S1x128.Idx → F .f32)) :
    (cfg2.win 4).cut (grid2.coords t) Y = ((cfg2.win 4).blk t).view.read (Elt F) G := by
  rw [h]
  funext j
  rw [View.read_apply]
  refine congrArg G (funext fun a => Fin.ext ?_)
  match a with
  | ⟨0, _⟩ =>
    show (j 0).val = win2_4.index t (0 : Fin 2) * 1 + 1 * (j 0).val
    rw [(idx2 t).2.2.2.2.2.2.2.2.1]; omega
  | ⟨1, _⟩ =>
    show (j 1).val = win2_4.index t (1 : Fin 2) * 128 + 1 * (j 1).val
    rw [(idx2 t).2.2.2.2.2.2.2.2.2.1]; omega

theorem mem_blk2_4 (t : Fin cfg2.N) (i : S1x128.Idx) :
    i ∈ ((cfg2.win 4).blk t).view.set ↔ ∀ a : Fin 2, win2_4.index t a * S1x128.size a ≤ (i a).val
      ∧ (i a).val < win2_4.index t a * S1x128.size a + S1x128.size a := by
  show i ∈ ((View.whole main_v77_1).slice (win2_4.rect t)).set ↔ _
  rw [View.set_slice_whole, Rect.mem_set_unit]
  exact Iff.rfl

/-- The last point, the one that writes the row back, covers it. -/
theorem cover2_4 (i : S1x128.Idx) :
    ∃ t : Fin cfg2.N, (cfg2.win 4).flush t = true ∧ i ∈ ((cfg2.win 4).blk t).view.set := by
  have hi0 : (i 0).val < 1 := (i 0).isLt
  have hi1 : (i 1).val < 128 := (i 1).isLt
  refine ⟨t2_9, (flush2_4 t2_9).mpr rfl, ?_⟩
  rw [mem_blk2_4]
  have e0 := (idx2 t2_9).2.2.2.2.2.2.2.2.1
  have e1 := (idx2 t2_9).2.2.2.2.2.2.2.2.2.1
  intro a
  match a with
  | ⟨0, _⟩ =>
    show win2_4.index t2_9 (0 : Fin 2) * 1 ≤ (i 0).val ∧ (i 0).val < win2_4.index t2_9 (0 : Fin 2) * 1 + 1
    rw [e0]; omega
  | ⟨1, _⟩ =>
    show win2_4.index t2_9 (1 : Fin 2) * 128 ≤ (i 1).val ∧ (i 1).val < win2_4.index t2_9 (1 : Fin 2) * 128 + 128
    rw [e1]; omega

/-! ### Statistics row 2 (window 5) -/

/-- The row's one block is the whole row: what a point writes back of a row is the row. -/
theorem flush2_5_of (c : Dev nD) (G : Buf (Elt F) ((c : Thread nD τ).loc main_v77_2)) (t : Fin cfg2.N)
    (Y : S1x128.Idx → F .f32) (h : Y = (G : S1x128.Idx → F .f32)) :
    (cfg2.win 5).cut (grid2.coords t) Y = ((cfg2.win 5).blk t).view.read (Elt F) G := by
  rw [h]
  funext j
  rw [View.read_apply]
  refine congrArg G (funext fun a => Fin.ext ?_)
  match a with
  | ⟨0, _⟩ =>
    show (j 0).val = win2_5.index t (0 : Fin 2) * 1 + 1 * (j 0).val
    rw [(idx2 t).2.2.2.2.2.2.2.2.2.2.1]; omega
  | ⟨1, _⟩ =>
    show (j 1).val = win2_5.index t (1 : Fin 2) * 128 + 1 * (j 1).val
    rw [(idx2 t).2.2.2.2.2.2.2.2.2.2.2]; omega

theorem mem_blk2_5 (t : Fin cfg2.N) (i : S1x128.Idx) :
    i ∈ ((cfg2.win 5).blk t).view.set ↔ ∀ a : Fin 2, win2_5.index t a * S1x128.size a ≤ (i a).val
      ∧ (i a).val < win2_5.index t a * S1x128.size a + S1x128.size a := by
  show i ∈ ((View.whole main_v77_2).slice (win2_5.rect t)).set ↔ _
  rw [View.set_slice_whole, Rect.mem_set_unit]
  exact Iff.rfl

/-- The last point, the one that writes the row back, covers it. -/
theorem cover2_5 (i : S1x128.Idx) :
    ∃ t : Fin cfg2.N, (cfg2.win 5).flush t = true ∧ i ∈ ((cfg2.win 5).blk t).view.set := by
  have hi0 : (i 0).val < 1 := (i 0).isLt
  have hi1 : (i 1).val < 128 := (i 1).isLt
  refine ⟨t2_9, (flush2_5 t2_9).mpr rfl, ?_⟩
  rw [mem_blk2_5]
  have e0 := (idx2 t2_9).2.2.2.2.2.2.2.2.2.2.1
  have e1 := (idx2 t2_9).2.2.2.2.2.2.2.2.2.2.2
  intro a
  match a with
  | ⟨0, _⟩ =>
    show win2_5.index t2_9 (0 : Fin 2) * 1 ≤ (i 0).val ∧ (i 0).val < win2_5.index t2_9 (0 : Fin 2) * 1 + 1
    rw [e0]; omega
  | ⟨1, _⟩ =>
    show win2_5.index t2_9 (1 : Fin 2) * 128 ≤ (i 1).val ∧ (i 1).val < win2_5.index t2_9 (1 : Fin 2) * 128 + 128
    rw [e1]; omega

end Cert.KernelIdeal.Hand

end
-- ==== Proof.KIValA2.lean ====
/-
  The arrays region 2 leaves, on the extended reals, at any contents the region is entered with.  With `Z` the dense
  step (the aggregate times the weight plus the bias row) of the entry contents: the product's array ends holding `Z`
  — point `t` writes back the rows `10000 t … 10000 t + 9999` of `Z`, and the ten points cover the array —, and the two
  statistics rows end holding the column sums of `Z` and of its squares: after the points `0 … n` a row holds the sum of
  the column sums of the blocks `0 … n` (by induction on the point), the last point writes the row back, and the ten
  blocks' sums add up to the sum over all rows.
-/
import proofs.«160962_j23227183137544_1_alg».proof.Proof.KIRegA2
import proofs.«160962_j23227183137544_1_alg».proof.Proof.KIOutA2
import proofs.«160962_j23227183137544_1_alg».proof.Proof.KAMath
import proofs.«160962_j23227183137544_1_alg».proof.Proof.KABlk2

set_option maxRecDepth 16384

noncomputable section

open scoped BigOperators

namespace Cert.KernelIdeal.Hand

open Cert.KernelIdeal Cert.KernelIdeal.Gen
open Idealize.ShloMosaic Idealize.ShloMosaic.ValueIdx Idealize.ShloMosaic.TcCoe
open Idealize.SL Idealize.SL.Sem
open Idealize.ShloMosaic.Pipeline (Dat Cfg Window)
open Cert.Dense Cert.Spec

variable (V : (c : Dev nD) → (b : Ref sig .tc) → Buf (Elt Ideal) ((c : Thread nD τ).loc b))

/-- The dense step of the arrays the region is entered with. -/
def Z2 (c : Dev nD) : Mat 100000 128 := dense (V c main_v71) (V c main_v73) (V c main_v76)

/-! ### The input blocks -/

theorem iblk2_0_apply (c : Dev nD) (t : Fin cfg2.N) (ht : t.val < 10) (r : Fin 10000) (k : Fin 128) :
    (iblk2 V c 0 t : S10000x128.Idx → EReal) (ix2 r k)
      = (V c main_v71 : S100000x128.Idx → EReal) (ix2 (rowIx ⟨t.val, ht⟩ r) k) :=
  blk2_0_apply c (V c main_v71) t r k _ rfl

theorem iblk2_1_eq (c : Dev nD) (t : Fin cfg2.N) : (iblk2 V c 1 t : S128x128.Idx → EReal) = V c main_v73 :=
  blk2_1_eq c (V c main_v73) t

theorem iblk2_2_eq (c : Dev nD) (t : Fin cfg2.N) : (iblk2 V c 2 t : S1x128.Idx → EReal) = V c main_v76 :=
  blk2_2_eq c (V c main_v76) t

/-! ### The product -/

/-- At every point the body leaves the block's result in the product's buffer. -/
theorem outs2_1 (c : Dev nD) (t : Fin cfg2.N) :
    (outsAt2 V c t.val t.isLt).1 = k2_pay3 (iblk2 V c 0 t) (iblk2 V c 1 t) (iblk2 V c 2 t) := by
  by_cases h0 : t.val % 10 = 0
  · rw [outsAt2_A V c t h0, out2_A_1]
  · rw [outsAt2_B V c t h0, out2_B_1]

/-- What point `t` writes back is its block of rows of `Z`. -/
theorem flushed2_3_eq (c : Dev nD) (t : Fin cfg2.N) :
    (dat2 V c).flushed 3 t = ((cfg2.win 3).blk t).view.read (Elt Ideal) (Z2 V c) := by
  have hN : cfg2.N = 10 := N_2
  have ht : t.val < 10 := hN ▸ t.isLt
  show (cfg2.win 3).cut (grid2.coords t) ((dat2 V c).after 3 t) = _
  rw [after2_3, outs2_1]
  refine flush2_3_of (F := Ideal) c (Z2 V c) t _ fun r q p hp => ?_
  obtain rfl : p = rowIx ⟨t.val, ht⟩ r := Fin.ext hp
  rw [iblk2_1_eq, iblk2_2_eq]
  exact k2_pay3_block (V c main_v71) (V c main_v73) (V c main_v76) (iblk2 V c 0 t) ⟨t.val, ht⟩
    (fun r k => iblk2_0_apply V c t ht r k) r q

/-- The product's array ends holding `Z`. -/
theorem arrAt2_3 (c : Dev nD) : (dat2 V c).arrAt 3 cfg2.N = Z2 V c :=
  (dat2 V c).arrAt_eq_of_cover 3 (Z2 V c) (fun t _ => flushed2_3_eq V c t) cover2_3

/-! ### The two statistics rows -/

/-- After the points `0 … n` the first statistics row holds the sum of the column sums of the blocks `0 … n`. -/
theorem outs2_2 (c : Dev nD) : ∀ (n : ℕ) (hn : n < cfg2.N) (q : Fin 128),
    ((outsAt2 V c n hn).2.1 : S1x128.Idx → EReal) (ix2 (0 : Fin 1) q)
      = ∑ t ∈ Finset.range (n + 1), blockSum (Z2 V c) q t
  | 0, hn, q => by
    have hN : cfg2.N = 10 := N_2
    rw [outsAt2_A V c ⟨0, hn⟩ rfl, out2_A_2, iblk2_1_eq, iblk2_2_eq,
      k2_pay4_block (V c main_v71) (V c main_v73) (V c main_v76) _ _ ⟨0, by omega⟩
        (fun r k => iblk2_0_apply V c ⟨0, hn⟩ (by omega) r k) q,
      k2_pay1_apply, zero_add, Finset.sum_range_one]
    rfl
  | n + 1, hn, q => by
    have hN : cfg2.N = 10 := N_2
    have hB : ¬(⟨n + 1, hn⟩ : Fin cfg2.N).val % 10 = 0 := by dsimp only; omega
    rw [outsAt2_B V c ⟨n + 1, hn⟩ hB, out2_B_2, iblk2_1_eq, iblk2_2_eq,
      k2_pay4_block (V c main_v71) (V c main_v73) (V c main_v76) _ _ ⟨n + 1, by omega⟩
        (fun r k => iblk2_0_apply V c ⟨n + 1, hn⟩ (by omega) r k) q,
      Finset.sum_range_succ _ (n + 1)]
    exact congrArg₂ (· + ·) (outs2_2 c n _ q) rfl

/-- After the points `0 … n` the second statistics row holds the sum of the column sums of squares of the blocks. -/
theorem outs2_3 (c : Dev nD) : ∀ (n : ℕ) (hn : n < cfg2.N) (q : Fin 128),
    ((outsAt2 V c n hn).2.2 : S1x128.Idx → EReal) (ix2 (0 : Fin 1) q)
      = ∑ t ∈ Finset.range (n + 1), blockSum (sqMat (Z2 V c)) q t
  | 0, hn, q => by
    have hN : cfg2.N = 10 := N_2
    rw [outsAt2_A V c ⟨0, hn⟩ rfl, out2_A_3, iblk2_1_eq, iblk2_2_eq,
      k2_pay5_block (V c main_v71) (V c main_v73) (V c main_v76) _ _ ⟨0, by omega⟩
        (fun r k => iblk2_0_apply V c ⟨0, hn⟩ (by omega) r k) q,
      k2_pay2_apply, zero_add, Finset.sum_range_one]
    rfl
  | n + 1, hn, q => by
    have hN : cfg2.N = 10 := N_2
    have hB : ¬(⟨n + 1, hn⟩ : Fin cfg2.N).val % 10 = 0 := by dsimp only; omega
    rw [outsAt2_B V c ⟨n + 1, hn⟩ hB, out2_B_3, iblk2_1_eq, iblk2_2_eq,
      k2_pay5_block (V c main_v71) (V c main_v73) (V c main_v76) _ _ ⟨n + 1, by omega⟩
        (fun r k => iblk2_0_apply V c ⟨n + 1, hn⟩ (by omega) r k) q,
      Finset.sum_range_succ _ (n + 1)]
    exact congrArg₂ (· + ·) (outs2_3 c n _ q) rfl

/-- The first statistics row ends holding the column sums of `Z`. -/
theorem arrAt2_4 (c : Dev nD) :
    (dat2 V c).arrAt 4 cfg2.N = fun i : S1x128.Idx => 0 + ∑ p : Fin 100000, Z2 V c (ix2 p (c1 i)) := by
  refine (dat2 V c).arrAt_eq_of_cover 4 _ (fun t hf => ?_) cover2_4
  have hN : cfg2.N = 10 := N_2
  have h9 : t.val + 1 = 10 := by have := (flush2_4 t).mp hf; have := t.isLt; omega
  show (cfg2.win 4).cut (grid2.coords t) ((dat2 V c).after 4 t) = _
  rw [after2_4]
  refine flush2_4_of (F := Ideal) c _ t _ (funext fun i => ?_)
  obtain ⟨u, q, rfl⟩ : ∃ (u : Fin 1) (q : Fin 128), i = ix2 u q := ⟨i 0, i 1, eq_ix2 i⟩
  obtain rfl : u = 0 := Subsingleton.elim _ _
  refine ((outs2_2 V c t.val t.isLt q).trans ?_).trans (zero_add _).symm
  rw [h9]
  exact sum_blockSum (Z2 V c) q

/-- The second statistics row ends holding the column sums of the squares of `Z`. -/
theorem arrAt2_5 (c : Dev nD) :
    (dat2 V c).arrAt 5 cfg2.N
      = fun i : S1x128.Idx => 0 + ∑ p : Fin 100000, Z2 V c (ix2 p (c1 i)) * Z2 V c (ix2 p (c1 i)) := by
  refine (dat2 V c).arrAt_eq_of_cover 5 _ (fun t hf => ?_) cover2_5
  have hN : cfg2.N = 10 := N_2
  have h9 : t.val + 1 = 10 := by have := (flush2_5 t).mp hf; have := t.isLt; omega
  show (cfg2.win 5).cut (grid2.coords t) ((dat2 V c).after 5 t) = _
  rw [after2_5]
  refine flush2_5_of (F := Ideal) c _ t _ (funext fun i => ?_)
  obtain ⟨u, q, rfl⟩ : ∃ (u : Fin 1) (q : Fin 128), i = ix2 u q := ⟨i 0, i 1, eq_ix2 i⟩
  obtain rfl : u = 0 := Subsingleton.elim _ _
  refine ((outs2_3 V c t.val t.isLt q).trans ?_).trans (zero_add _).symm
  rw [h9]
  exact sum_blockSum (sqMat (Z2 V c)) q

end Cert.KernelIdeal.Hand

end
-- ==== Proof.KIReadA4.lean ====
/-
  The stores the body of region 4 makes into its three outputs' buffers, read back: at the first grid point the block's
  result, and the two statistics rows started from the zero rows just stored; at a later point the block's result, and the
  two statistics rows continued from the rows found in the buffers.  Every store and load is of a whole buffer, so the
  last store into a buffer is what it holds, and a load after a store reads the stored value.
-/
import proofs.«160962_j23227183137544_1_alg».proof.Proof.KIRunA4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2_4 : (![0, 0] : Fin 2 → Nat) = fun _ => 0 := funext fun a => by fin_cases a <;> rfl

/-! ### The first point -/

theorem readA4_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) :
    VO4_3.read (Elt F) (VO4_3.writes (Elt F) VO4_3.junk (kernelRun4_A c i arg1 harg1 arg2 harg2 arg3 harg3 arg4 harg4 arg5 harg5 arg6 harg6 hc0 x0 x1 x2).1.1) = k4_pay3 x0 x1 x2 := by
  rw [View.read_writes_junk_eq_canon]
  unfold kernelRun4_A
  dsimp only
  sl_unfold_words
  rw [View.canon_unit_zero (S := S10000x128) hz2_4]
  simp only [View.readAt_eq_ld, harg1.read_unread, harg2.read_unread, harg3.read_unread, harg5.read_unread,
    harg6.read_unread, View.ld_unit_zero (S := S10000x128) hz2_4, View.ld_unit_zero (S := S128x128) hz2_4,
    View.ld_unit_zero (S := S1x128) hz2_4]

theorem readA4_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) :
    VO4_4.read (Elt F) (VO4_4.writes (Elt F) VO4_4.junk (kernelRun4_A c i arg1 harg1 arg2 harg2 arg3 harg3 arg4 harg4 arg5 harg5 arg6 harg6 hc0 x0 x1 x2).1.2.1) = k4_pay4 x0 x1 x2 (k4_pay1 (F := F)) := by
  rw [View.read_writes_junk_eq_canon]
  unfold kernelRun4_A
  dsimp only
  sl_unfold_words
  rw [View.canon_cons_unit_zero (S := S1x128) hz2_4, View.readCov_unit_zero (S := S1x128) _ hz2_4]
  simp only [View.readAt_eq_ld, harg1.read_unread, harg2.read_unread, harg3.read_unread, harg5.read_unread,
    harg6.read_unread, View.ld_unit_zero (S := S10000x128) hz2_4, View.ld_unit_zero (S := S128x128) hz2_4,
    View.ld_unit_zero (S := S1x128) hz2_4]

theorem readA4_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) :
    VO4_5.read (Elt F) (VO4_5.writes (Elt F) VO4_5.junk (kernelRun4_A c i arg1 harg1 arg2 harg2 arg3 harg3 arg4 harg4 arg5 harg5 arg6 harg6 hc0 x0 x1 x2).1.2.2) = k4_pay5 x0 x1 x2 (k4_pay2 (F := F)) := by
  rw [View.read_writes_junk_eq_canon]
  unfold kernelRun4_A
  dsimp only
  sl_unfold_words
  rw [View.canon_cons_unit_zero (S := S1x128) hz2_4, View.readCov_unit_zero (S := S1x128) _ hz2_4]
  simp only [View.readAt_eq_ld, harg1.read_unread, harg2.read_unread, harg3.read_unread, harg5.read_unread,
    harg6.read_unread, View.ld_unit_zero (S := S10000x128) hz2_4, View.ld_unit_zero (S := S128x128) hz2_4,
    View.ld_unit_zero (S := S1x128) hz2_4]

/-! ### A later point -/

theorem readB4_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) :
    VO4_3.read (Elt F) (VO4_3.writes (Elt F) VO4_3.junk (kernelRun4_B c i arg1 harg1 arg2 harg2 arg3 harg3 arg4 harg4 arg5 harg5 arg6 harg6 hc0 x0 x1 x2 xo4 xo5).1.1) = k4_pay3 x0 x1 x2 := by
  rw [View.read_writes_junk_eq_canon]
  unfold kernelRun4_B
  dsimp only
  sl_unfold_words
  rw [View.canon_unit_zero (S := S10000x128) hz2_4]
  simp only [View.readAt_eq_ld, harg1.read_unread, harg2.read_unread, harg3.read_unread, harg5.read_unread,
    harg6.read_unread, View.ld_unit_zero (S := S10000x128) hz2_4, View.ld_unit_zero (S := S128x128) hz2_4,
    View.ld_unit_zero (S := S1x128) hz2_4]

theorem readB4_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) :
    VO4_4.read (Elt F) (VO4_4.writes (Elt F) VO4_4.junk (kernelRun4_B c i arg1 harg1 arg2 harg2 arg3 harg3 arg4 harg4 arg5 harg5 arg6 harg6 hc0 x0 x1 x2 xo4 xo5).1.2.1) = k4_pay4 x0 x1 x2 xo4 := by
  rw [View.read_writes_junk_eq_canon]
  unfold kernelRun4_B
  dsimp only
  sl_unfold_words
  rw [View.canon_unit_zero (S := S1x128) hz2_4]
  simp only [View.readAt_eq_ld, harg1.read_unread, harg2.read_unread, harg3.read_unread, harg5.read_unread,
    harg6.read_unread, View.ld_unit_zero (S := S10000x128) hz2_4, View.ld_unit_zero (S := S128x128) hz2_4,
    View.ld_unit_zero (S := S1x128) hz2_4]

theorem readB4_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) :
    VO4_5.read (Elt F) (VO4_5.writes (Elt F) VO4_5.junk (kernelRun4_B c i arg1 harg1 arg2 harg2 arg3 harg3 arg4 harg4 arg5 harg5 arg6 harg6 hc0 x0 x1 x2 xo4 xo5).1.2.2) = k4_pay5 x0 x1 x2 xo5 := by
  rw [View.read_writes_junk_eq_canon]
  unfold kernelRun4_B
  dsimp only
  sl_unfold_words
  rw [View.canon_unit_zero (S := S1x128) hz2_4]
  simp only [View.readAt_eq_ld, harg1.read_unread, harg2.read_unread, harg3.read_unread, harg5.read_unread,
    harg6.read_unread, View.ld_unit_zero (S := S10000x128) hz2_4, View.ld_unit_zero (S := S128x128) hz2_4,
    View.ld_unit_zero (S := S1x128) hz2_4]

end Cert.KernelIdeal.Hand

end
-- ==== Proof.KIOutA4.lean ====
/-
  What the body of region 4 leaves in the three outputs' buffers, in terms of its payloads: at the first grid point the
  block's result and the two statistics rows started from zero rows; at a later point the block's result and the two
  statistics rows continued from the rows the point before left.
-/
import proofs.«160962_j23227183137544_1_alg».proof.Proof.KIRegA4
import proofs.«160962_j23227183137544_1_alg».proof.Proof.KIReadA4

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

theorem out4_A_eq (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) :
    out4_A c i arg1 harg1 arg2 harg2 arg3 harg3 arg4 harg4 arg5 harg5 arg6 harg6 hc0 x0 x1 x2
      = (k4_pay3 x0 x1 x2, k4_pay4 x0 x1 x2 (k4_pay1 (F := F)), k4_pay5 x0 x1 x2 (k4_pay2 (F := F))) := by
  unfold out4_A
  rw [readA4_3, readA4_4, readA4_5]

theorem out4_B_eq (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) :
    out4_B c i arg1 harg1 arg2 harg2 arg3 harg3 arg4 harg4 arg5 harg5 arg6 harg6 hc0 x0 x1 x2 xo4 xo5
      = (k4_pay3 x0 x1 x2, k4_pay4 x0 x1 x2 xo4, k4_pay5 x0 x1 x2 xo5) := by
  unfold out4_B
  rw [readB4_3, readB4_4, readB4_5]

theorem out4_A_1 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) :
    (out4_A c i arg1 harg1 arg2 harg2 arg3 harg3 arg4 harg4 arg5 harg5 arg6 harg6 hc0 x0 x1 x2).1 = k4_pay3 x0 x1 x2 := by
  rw [out4_A_eq]
theorem out4_A_2 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) :
    (out4_A c i arg1 harg1 arg2 harg2 arg3 harg3 arg4 harg4 arg5 harg5 arg6 harg6 hc0 x0 x1 x2).2.1
      = k4_pay4 x0 x1 x2 (k4_pay1 (F := F)) := by
  rw [out4_A_eq]
theorem out4_A_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) :
    (out4_A c i arg1 harg1 arg2 harg2 arg3 harg3 arg4 harg4 arg5 harg5 arg6 harg6 hc0 x0 x1 x2).2.2
      = k4_pay5 x0 x1 x2 (k4_pay2 (F := F)) := by
  rw [out4_A_eq]

theorem out4_B_1 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) :
    (out4_B c i arg1 harg1 arg2 harg2 arg3 harg3 arg4 harg4 arg5 harg5 arg6 harg6 hc0 x0 x1 x2 xo4 xo5).1
      = k4_pay3 x0 x1 x2 := by
  rw [out4_B_eq]
theorem out4_B_2 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) :
    (out4_B c i arg1 harg1 arg2 harg2 arg3 harg3 arg4 harg4 arg5 harg5 arg6 harg6 hc0 x0 x1 x2 xo4 xo5).2.1
      = k4_pay4 x0 x1 x2 xo4 := by
  rw [out4_B_eq]
theorem out4_B_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) :
    (out4_B c i arg1 harg1 arg2 harg2 arg3 harg3 arg4 harg4 arg5 harg5 arg6 harg6 hc0 x0 x1 x2 xo4 xo5).2.2
      = k4_pay5 x0 x1 x2 xo5 := by
  rw [out4_B_eq]

end Cert.KernelIdeal.Hand

end
-- ==== Proof.KABlk4.lean ====
/-
  The windows of region 4 against their arrays.  The aggregate and the product come in ten blocks of ten thousand rows,
  block `t` holding the rows `10000 t … 10000 t + 9999`; the weight, the bias row and the two statistics rows are each one
  block, the whole array, at every grid point.  A block read through its window is the array at the shifted rows; the ten
  row blocks of the product cover its array, and the one block of a statistics row, written back at the last point, is
  its array.
-/
import proofs.«160962_j23227183137544_1_alg».proof.Proof.Gen.KernelIdeal.Launch
import proofs.«160962_j23227183137544_1_alg».proof.Proof.Gen.KernelIdeal.Points
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.SL Idealize.SL.Sem
open Idealize.ShloMosaic.Pipeline (Dat Cfg Window)

variable {F : FTy → Type} [FloatOps F]

/-- The printed index maps over the grid: the row-blocked windows move with the point, the others stay. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-! ### The inputs -/

/-- Row `r` of block `t` of the aggregate is row `10000 t + r` of the array. -/
theorem blk4_0_apply (c : Dev nD) (X : Buf (Elt F) ((c : Thread nD τ).loc main_v111)) (t : Fin cfg4.N)
    (r : Fin 10000) (k : Fin 128) (p : Fin 100000) (hp : p.val = 10000 * t.val + r.val) :
    (((cfg4.win 0).blk t).view.read (Elt F) X : S10000x128.Idx → F .f32) (ix2 r k)
      = (X : S100000x128.Idx → F .f32) (ix2 p k) := by
  rw [View.read_apply]
  refine congrArg X (funext fun a => Fin.ext ?_)
  match a with
  | ⟨0, _⟩ =>
    show win4_0.index t (0 : Fin 2) * 10000 + 1 * r.val = p.val
    rw [(idx4 t).1, hp]; omega
  | ⟨1, _⟩ =>
    show win4_0.index t (1 : Fin 2) * 128 + 1 * k.val = k.val
    rw [(idx4 t).2.1]; omega

/-- The weight's one block is the weight. -/
theorem blk4_1_eq (c : Dev nD) (X : Buf (Elt F) ((c : Thread nD τ).loc main_v113)) (t : Fin cfg4.N) :
    (((cfg4.win 1).blk t).view.read (Elt F) X : S128x128.Idx → F .f32) = (X : S128x128.Idx → F .f32) := by
  funext j
  rw [View.read_apply]
  refine congrArg X (funext fun a => Fin.ext ?_)
  match a with
  | ⟨0, _⟩ =>
    show win4_1.index t (0 : Fin 2) * 128 + 1 * (j 0).val = (j 0).val
    rw [(idx4 t).2.2.1]; omega
  | ⟨1, _⟩ =>
    show win4_1.index t (1 : Fin 2) * 128 + 1 * (j 1).val = (j 1).val
    rw [(idx4 t).2.2.2.1]; omega

/-- The bias row's one block is the bias row. -/
theorem blk4_2_eq (c : Dev nD) (X : Buf (Elt F) ((c : Thread nD τ).loc main_v116)) (t : Fin cfg4.N) :
    (((cfg4.win 2).blk t).view.read (Elt F) X : S1x128.Idx → F .f32) = (X : S1x128.Idx → F .f32) := by
  funext j
  rw [View.read_apply]
  refine congrArg X (funext fun a => Fin.ext ?_)
  match a with
  | ⟨0, _⟩ =>
    show win4_2.index t (0 : Fin 2) * 1 + 1 * (j 0).val = (j 0).val
    rw [(idx4 t).2.2.2.2.1]; omega
  | ⟨1, _⟩ =>
    show win4_2.index t (1 : Fin 2) * 128 + 1 * (j 1).val = (j 1).val
    rw [(idx4 t).2.2.2.2.2.1]; omega

/-! ### The product, in row blocks -/

/-- A block whose row `r` is the array's row `10000 t + r` is what point `t` writes back of the array. -/
theorem flush4_3_of (c : Dev nD) (G : Buf (Elt F) ((c : Thread nD τ).loc main_v117_0)) (t : Fin cfg4.N)
    (Y : S10000x128.Idx → F .f32)
    (h : ∀ (r : Fin 10000) (q : Fin 128) (p : Fin 100000), p.val = 10000 * t.val + r.val →
      Y (ix2 r q) = (G : S100000x128.Idx → F .f32) (ix2 p q)) :
    (cfg4.win 3).cut (grid4.coords t) Y = ((cfg4.win 3).blk t).view.read (Elt F) G := by
  have hN : cfg4.N = 10 := N_4
  have ht : t.val < 10 := hN ▸ t.isLt
  funext j
  rw [View.read_apply]
  have hj0 : (j 0).val < 10000 := (j 0).isLt
  have hj1 : (j 1).val < 128 := (j 1).isLt
  have e := h ⟨(j 0).val, hj0⟩ ⟨(j 1).val, hj1⟩ ⟨10000 * t.val + (j 0).val, by omega⟩ rfl
  refine Eq.trans (congrArg Y (funext fun a => Fin.ext ?_)) (e.trans (congrArg G (funext fun a => Fin.ext ?_)))
  · match a with
    | ⟨0, _⟩ => rfl
    | ⟨1, _⟩ => rfl
  · match a with
    | ⟨0, _⟩ =>
      show 10000 * t.val + (j 0).val = win4_3.index t (0 : Fin 2) * 10000 + 1 * (j 0).val
      rw [(idx4 t).2.2.2.2.2.2.1]; omega
    | ⟨1, _⟩ =>
      show (j 1).val = win4_3.index t (1 : Fin 2) * 128 + 1 * (j 1).val
      rw [(idx4 t).2.2.2.2.2.2.2.1]; omega

/-- An index of the product's array is in point `t`'s block iff each coordinate is in the block's range. -/
theorem mem_blk4_3 (t : Fin cfg4.N) (i : S100000x128.Idx) :
    i ∈ ((cfg4.win 3).blk t).view.set ↔ ∀ a : Fin 2, win4_3.index t a * S10000x128.size a ≤ (i a).val
      ∧ (i a).val < win4_3.index t a * S10000x128.size a + S10000x128.size a := by
  show i ∈ ((View.whole main_v117_0).slice (win4_3.rect t)).set ↔ _
  rw [View.set_slice_whole, Rect.mem_set_unit]
  exact Iff.rfl

/-- Row `p` is covered by point `p / 10000`. -/
theorem cover4_3 (i : S100000x128.Idx) :
    ∃ t : Fin cfg4.N, (cfg4.win 3).flush t = true ∧ i ∈ ((cfg4.win 3).blk t).view.set := by
  have hN : cfg4.N = 10 := N_4
  have hi0 : (i 0).val < 100000 := (i 0).isLt
  have hi1 : (i 1).val < 128 := (i 1).isLt
  refine ⟨⟨(i 0).val / 10000, by omega⟩, flush4_3 _, ?_⟩
  rw [mem_blk4_3]
  have e0 := (idx4 ⟨(i 0).val / 10000, by omega⟩).2.2.2.2.2.2.1
  have e1 := (idx4 ⟨(i 0).val / 10000, by omega⟩).2.2.2.2.2.2.2.1
  intro a
  match a with
  | ⟨0, _⟩ =>
    show win4_3.index _ (0 : Fin 2) * 10000 ≤ (i 0).val ∧ (i 0).val < win4_3.index _ (0 : Fin 2) * 10000 + 10000
    rw [e0]; dsimp only; omega
  | ⟨1, _⟩ =>
    show win4_3.index _ (1 : Fin 2) * 128 ≤ (i 1).val ∧ (i 1).val < win4_3.index _ (1 : Fin 2) * 128 + 128
    rw [e1]; omega

/-! ### Statistics row 1 (window 4) -/

/-- The row's one block is the whole row: what a point writes back of a row is the row. -/
theorem flush4_4_of (c : Dev nD) (G : Buf (Elt F) ((c : Thread nD τ).loc main_v117_1)) (t : Fin cfg4.N)
    (Y : S1x128.Idx → F .f32) (h : Y = (G : S1x128.Idx → F .f32)) :
    (cfg4.win 4).cut (grid4.coords t) Y = ((cfg4.win 4).blk t).view.read (Elt F) G := by
  rw [h]
  funext j
  rw [View.read_apply]
  refine congrArg G (funext fun a => Fin.ext ?_)
  match a with
  | ⟨0, _⟩ =>
    show (j 0).val = win4_4.index t (0 : Fin 2) * 1 + 1 * (j 0).val
    rw [(idx4 t).2.2.2.2.2.2.2.2.1]; omega
  | ⟨1, _⟩ =>
    show (j 1).val = win4_4.index t (1 : Fin 2) * 128 + 1 * (j 1).val
    rw [(idx4 t).2.2.2.2.2.2.2.2.2.1]; omega

theorem mem_blk4_4 (t : Fin cfg4.N) (i : S1x128.Idx) :
    i ∈ ((cfg4.win 4).blk t).view.set ↔ ∀ a : Fin 2, win4_4.index t a * S1x128.size a ≤ (i a).val
      ∧ (i a).val < win4_4.index t a * S1x128.size a + S1x128.size a := by
  show i ∈ ((View.whole main_v117_1).slice (win4_4.rect t)).set ↔ _
  rw [View.set_slice_whole, Rect.mem_set_unit]
  exact Iff.rfl

/-- The last point, the one that writes the row back, covers it. -/
theorem cover4_4 (i : S1x128.Idx) :
    ∃ t : Fin cfg4.N, (cfg4.win 4).flush t = true ∧ i ∈ ((cfg4.win 4).blk t).view.set := by
  have hi0 : (i 0).val < 1 := (i 0).isLt
  have hi1 : (i 1).val < 128 := (i 1).isLt
  refine ⟨t4_9, (flush4_4 t4_9).mpr rfl, ?_⟩
  rw [mem_blk4_4]
  have e0 := (idx4 t4_9).2.2.2.2.2.2.2.2.1
  have e1 := (idx4 t4_9).2.2.2.2.2.2.2.2.2.1
  intro a
  match a with
  | ⟨0, _⟩ =>
    show win4_4.index t4_9 (0 : Fin 2) * 1 ≤ (i 0).val ∧ (i 0).val < win4_4.index t4_9 (0 : Fin 2) * 1 + 1
    rw [e0]; omega
  | ⟨1, _⟩ =>
    show win4_4.index t4_9 (1 : Fin 2) * 128 ≤ (i 1).val ∧ (i 1).val < win4_4.index t4_9 (1 : Fin 2) * 128 + 128
    rw [e1]; omega

/-! ### Statistics row 2 (window 5) -/

/-- The row's one block is the whole row: what a point writes back of a row is the row. -/
theorem flush4_5_of (c : Dev nD) (G : Buf (Elt F) ((c : Thread nD τ).loc main_v117_2)) (t : Fin cfg4.N)
    (Y : S1x128.Idx → F .f32) (h : Y = (G : S1x128.Idx → F .f32)) :
    (cfg4.win 5).cut (grid4.coords t) Y = ((cfg4.win 5).blk t).view.read (Elt F) G := by
  rw [h]
  funext j
  rw [View.read_apply]
  refine congrArg G (funext fun a => Fin.ext ?_)
  match a with
  | ⟨0, _⟩ =>
    show (j 0).val = win4_5.index t (0 : Fin 2) * 1 + 1 * (j 0).val
    rw [(idx4 t).2.2.2.2.2.2.2.2.2.2.1]; omega
  | ⟨1, _⟩ =>
    show (j 1).val = win4_5.index t (1 : Fin 2) * 128 + 1 * (j 1).val
    rw [(idx4 t).2.2.2.2.2.2.2.2.2.2.2]; omega

theorem mem_blk4_5 (t : Fin cfg4.N) (i : S1x128.Idx) :
    i ∈ ((cfg4.win 5).blk t).view.set ↔ ∀ a : Fin 2, win4_5.index t a * S1x128.size a ≤ (i a).val
      ∧ (i a).val < win4_5.index t a * S1x128.size a + S1x128.size a := by
  show i ∈ ((View.whole main_v117_2).slice (win4_5.rect t)).set ↔ _
  rw [View.set_slice_whole, Rect.mem_set_unit]
  exact Iff.rfl

/-- The last point, the one that writes the row back, covers it. -/
theorem cover4_5 (i : S1x128.Idx) :
    ∃ t : Fin cfg4.N, (cfg4.win 5).flush t = true ∧ i ∈ ((cfg4.win 5).blk t).view.set := by
  have hi0 : (i 0).val < 1 := (i 0).isLt
  have hi1 : (i 1).val < 128 := (i 1).isLt
  refine ⟨t4_9, (flush4_5 t4_9).mpr rfl, ?_⟩
  rw [mem_blk4_5]
  have e0 := (idx4 t4_9).2.2.2.2.2.2.2.2.2.2.1
  have e1 := (idx4 t4_9).2.2.2.2.2.2.2.2.2.2.2
  intro a
  match a with
  | ⟨0, _⟩ =>
    show win4_5.index t4_9 (0 : Fin 2) * 1 ≤ (i 0).val ∧ (i 0).val < win4_5.index t4_9 (0 : Fin 2) * 1 + 1
    rw [e0]; omega
  | ⟨1, _⟩ =>
    show win4_5.index t4_9 (1 : Fin 2) * 128 ≤ (i 1).val ∧ (i 1).val < win4_5.index t4_9 (1 : Fin 2) * 128 + 128
    rw [e1]; omega

end Cert.KernelIdeal.Hand

end
-- ==== Proof.KIValA4.lean ====
/-
  The arrays region 4 leaves, on the extended reals, at any contents the region is entered with.  With `Z` the dense
  step (the aggregate times the weight plus the bias row) of the entry contents: the product's array ends holding `Z`
  — point `t` writes back the rows `10000 t … 10000 t + 9999` of `Z`, and the ten points cover the array —, and the two
  statistics rows end holding the column sums of `Z` and of its squares: after the points `0 … n` a row holds the sum of
  the column sums of the blocks `0 … n` (by induction on the point), the last point writes the row back, and the ten
  blocks' sums add up to the sum over all rows.
-/
import proofs.«160962_j23227183137544_1_alg».proof.Proof.KIRegA4
import proofs.«160962_j23227183137544_1_alg».proof.Proof.KIOutA4
import proofs.«160962_j23227183137544_1_alg».proof.Proof.KAMath
import proofs.«160962_j23227183137544_1_alg».proof.Proof.KABlk4

set_option maxRecDepth 16384

noncomputable section

open scoped BigOperators

namespace Cert.KernelIdeal.Hand

open Cert.KernelIdeal Cert.KernelIdeal.Gen
open Idealize.ShloMosaic Idealize.ShloMosaic.ValueIdx Idealize.ShloMosaic.TcCoe
open Idealize.SL Idealize.SL.Sem
open Idealize.ShloMosaic.Pipeline (Dat Cfg Window)
open Cert.Dense Cert.Spec

variable (V : (c : Dev nD) → (b : Ref sig .tc) → Buf (Elt Ideal) ((c : Thread nD τ).loc b))

/-- The dense step of the arrays the region is entered with. -/
def Z4 (c : Dev nD) : Mat 100000 128 := dense (V c main_v111) (V c main_v113) (V c main_v116)

/-! ### The input blocks -/

theorem iblk4_0_apply (c : Dev nD) (t : Fin cfg4.N) (ht : t.val < 10) (r : Fin 10000) (k : Fin 128) :
    (iblk4 V c 0 t : S10000x128.Idx → EReal) (ix2 r k)
      = (V c main_v111 : S100000x128.Idx → EReal) (ix2 (rowIx ⟨t.val, ht⟩ r) k) :=
  blk4_0_apply c (V c main_v111) t r k _ rfl

theorem iblk4_1_eq (c : Dev nD) (t : Fin cfg4.N) : (iblk4 V c 1 t : S128x128.Idx → EReal) = V c main_v113 :=
  blk4_1_eq c (V c main_v113) t

theorem iblk4_2_eq (c : Dev nD) (t : Fin cfg4.N) : (iblk4 V c 2 t : S1x128.Idx → EReal) = V c main_v116 :=
  blk4_2_eq c (V c main_v116) t

/-! ### The product -/

/-- At every point the body leaves the block's result in the product's buffer. -/
theorem outs4_1 (c : Dev nD) (t : Fin cfg4.N) :
    (outsAt4 V c t.val t.isLt).1 = k4_pay3 (iblk4 V c 0 t) (iblk4 V c 1 t) (iblk4 V c 2 t) := by
  by_cases h0 : t.val % 10 = 0
  · rw [outsAt4_A V c t h0, out4_A_1]
  · rw [outsAt4_B V c t h0, out4_B_1]

/-- What point `t` writes back is its block of rows of `Z`. -/
theorem flushed4_3_eq (c : Dev nD) (t : Fin cfg4.N) :
    (dat4 V c).flushed 3 t = ((cfg4.win 3).blk t).view.read (Elt Ideal) (Z4 V c) := by
  have hN : cfg4.N = 10 := N_4
  have ht : t.val < 10 := hN ▸ t.isLt
  show (cfg4.win 3).cut (grid4.coords t) ((dat4 V c).after 3 t) = _
  rw [after4_3, outs4_1]
  refine flush4_3_of (F := Ideal) c (Z4 V c) t _ fun r q p hp => ?_
  obtain rfl : p = rowIx ⟨t.val, ht⟩ r := Fin.ext hp
  rw [iblk4_1_eq, iblk4_2_eq]
  exact k4_pay3_block (V c main_v111) (V c main_v113) (V c main_v116) (iblk4 V c 0 t) ⟨t.val, ht⟩
    (fun r k => iblk4_0_apply V c t ht r k) r q

/-- The product's array ends holding `Z`. -/
theorem arrAt4_3 (c : Dev nD) : (dat4 V c).arrAt 3 cfg4.N = Z4 V c :=
  (dat4 V c).arrAt_eq_of_cover 3 (Z4 V c) (fun t _ => flushed4_3_eq V c t) cover4_3

/-! ### The two statistics rows -/

/-- After the points `0 … n` the first statistics row holds the sum of the column sums of the blocks `0 … n`. -/
theorem outs4_2 (c : Dev nD) : ∀ (n : ℕ) (hn : n < cfg4.N) (q : Fin 128),
    ((outsAt4 V c n hn).2.1 : S1x128.Idx → EReal) (ix2 (0 : Fin 1) q)
      = ∑ t ∈ Finset.range (n + 1), blockSum (Z4 V c) q t
  | 0, hn, q => by
    have hN : cfg4.N = 10 := N_4
    rw [outsAt4_A V c ⟨0, hn⟩ rfl, out4_A_2, iblk4_1_eq, iblk4_2_eq,
      k4_pay4_block (V c main_v111) (V c main_v113) (V c main_v116) _ _ ⟨0, by omega⟩
        (fun r k => iblk4_0_apply V c ⟨0, hn⟩ (by omega) r k) q,
      k4_pay1_apply, zero_add, Finset.sum_range_one]
    rfl
  | n + 1, hn, q => by
    have hN : cfg4.N = 10 := N_4
    have hB : ¬(⟨n + 1, hn⟩ : Fin cfg4.N).val % 10 = 0 := by dsimp only; omega
    rw [outsAt4_B V c ⟨n + 1, hn⟩ hB, out4_B_2, iblk4_1_eq, iblk4_2_eq,
      k4_pay4_block (V c main_v111) (V c main_v113) (V c main_v116) _ _ ⟨n + 1, by omega⟩
        (fun r k => iblk4_0_apply V c ⟨n + 1, hn⟩ (by omega) r k) q,
      Finset.sum_range_succ _ (n + 1)]
    exact congrArg₂ (· + ·) (outs4_2 c n _ q) rfl

/-- After the points `0 … n` the second statistics row holds the sum of the column sums of squares of the blocks. -/
theorem outs4_3 (c : Dev nD) : ∀ (n : ℕ) (hn : n < cfg4.N) (q : Fin 128),
    ((outsAt4 V c n hn).2.2 : S1x128.Idx → EReal) (ix2 (0 : Fin 1) q)
      = ∑ t ∈ Finset.range (n + 1), blockSum (sqMat (Z4 V c)) q t
  | 0, hn, q => by
    have hN : cfg4.N = 10 := N_4
    rw [outsAt4_A V c ⟨0, hn⟩ rfl, out4_A_3, iblk4_1_eq, iblk4_2_eq,
      k4_pay5_block (V c main_v111) (V c main_v113) (V c main_v116) _ _ ⟨0, by omega⟩
        (fun r k => iblk4_0_apply V c ⟨0, hn⟩ (by omega) r k) q,
      k4_pay2_apply, zero_add, Finset.sum_range_one]
    rfl
  | n + 1, hn, q => by
    have hN : cfg4.N = 10 := N_4
    have hB : ¬(⟨n + 1, hn⟩ : Fin cfg4.N).val % 10 = 0 := by dsimp only; omega
    rw [outsAt4_B V c ⟨n + 1, hn⟩ hB, out4_B_3, iblk4_1_eq, iblk4_2_eq,
      k4_pay5_block (V c main_v111) (V c main_v113) (V c main_v116) _ _ ⟨n + 1, by omega⟩
        (fun r k => iblk4_0_apply V c ⟨n + 1, hn⟩ (by omega) r k) q,
      Finset.sum_range_succ _ (n + 1)]
    exact congrArg₂ (· + ·) (outs4_3 c n _ q) rfl

/-- The first statistics row ends holding the column sums of `Z`. -/
theorem arrAt4_4 (c : Dev nD) :
    (dat4 V c).arrAt 4 cfg4.N = fun i : S1x128.Idx => 0 + ∑ p : Fin 100000, Z4 V c (ix2 p (c1 i)) := by
  refine (dat4 V c).arrAt_eq_of_cover 4 _ (fun t hf => ?_) cover4_4
  have hN : cfg4.N = 10 := N_4
  have h9 : t.val + 1 = 10 := by have := (flush4_4 t).mp hf; have := t.isLt; omega
  show (cfg4.win 4).cut (grid4.coords t) ((dat4 V c).after 4 t) = _
  rw [after4_4]
  refine flush4_4_of (F := Ideal) c _ t _ (funext fun i => ?_)
  obtain ⟨u, q, rfl⟩ : ∃ (u : Fin 1) (q : Fin 128), i = ix2 u q := ⟨i 0, i 1, eq_ix2 i⟩
  obtain rfl : u = 0 := Subsingleton.elim _ _
  refine ((outs4_2 V c t.val t.isLt q).trans ?_).trans (zero_add _).symm
  rw [h9]
  exact sum_blockSum (Z4 V c) q

/-- The second statistics row ends holding the column sums of the squares of `Z`. -/
theorem arrAt4_5 (c : Dev nD) :
    (dat4 V c).arrAt 5 cfg4.N
      = fun i : S1x128.Idx => 0 + ∑ p : Fin 100000, Z4 V c (ix2 p (c1 i)) * Z4 V c (ix2 p (c1 i)) := by
  refine (dat4 V c).arrAt_eq_of_cover 5 _ (fun t hf => ?_) cover4_5
  have hN : cfg4.N = 10 := N_4
  have h9 : t.val + 1 = 10 := by have := (flush4_5 t).mp hf; have := t.isLt; omega
  show (cfg4.win 5).cut (grid4.coords t) ((dat4 V c).after 5 t) = _
  rw [after4_5]
  refine flush4_5_of (F := Ideal) c _ t _ (funext fun i => ?_)
  obtain ⟨u, q, rfl⟩ : ∃ (u : Fin 1) (q : Fin 128), i = ix2 u q := ⟨i 0, i 1, eq_ix2 i⟩
  obtain rfl : u = 0 := Subsingleton.elim _ _
  refine ((outs4_3 V c t.val t.isLt q).trans ?_).trans (zero_add _).symm
  rw [h9]
  exact sum_blockSum (sqMat (Z4 V c)) q

end Cert.KernelIdeal.Hand

end
-- ==== Proof.SpecLaws.lean ====
/-
  Laws of the shared vocabulary on the extended reals: the two literals as numbers, the one-pass column variance
  `(∑ y²)/n − μ²` against the two-pass one `(∑ (y − μ)²)/n` on arrays of real numbers (over the reals, with
  `μ = (∑ y)/n`, `∑ (y − μ)² = ∑ y² − n μ²`), and closure of the real numbers under the dense step and under a
  normalised layer: a two-pass variance of real numbers is a nonnegative real, so adding a positive offset gives a
  positive real, whose reciprocal square root is a real number.
-/
import proofs.«160962_j23227183137544_1_alg».proof.Proof.Spec

noncomputable section

open scoped BigOperators

namespace Cert.Spec

open Idealize.ShloMosaic Idealize.ShloMosaic.ValueIdx Cert.Dense Cert.BiasRow Cert.SageBn Cert.GcnStats

/-- The row count is the number one hundred thousand. -/
theorem n_eq : n = ((100000 : ℝ) : EReal) := ofBits_1e5

/-- The variance offset is a positive real number: exponent field 110, significand `2^23 + 0x27C5AC = 10995116`,
    so the word denotes `10995116 · 2^(110 − 127 − 23)`. -/
theorem eps_pos : ∃ e : ℝ, 0 < e ∧ eps = (e : EReal) := by
  refine ⟨10995116 * (2 : ℝ) ^ (-40 : ℤ), by positivity, ?_⟩
  unfold eps
  simp [Ideal.ofBits, Ideal.ieee, -EReal.coe_mul]

/-- On an array of real numbers with `n` the number of rows, the unclamped one-pass variance is the two-pass one. -/
theorem varK_eq_varTwo_of {M K : ℕ} (hpos : 0 < M) (n : EReal) (hn : n = ((M : ℝ) : EReal)) (Y : Mat M K)
    (hY : ∀ i, IsReal (Y i)) : varK n Y = varTwo n Y := by
  funext i
  have hNr : (M : ℝ) ≠ 0 := by exact_mod_cast hpos.ne'
  choose z hz using fun p : Fin M => hY (ix2 p (c1 i))
  have hmu : colMean n Y i = (((∑ p : Fin M, z p) * (1 / (M : ℝ)) : ℝ) : EReal) := by
    show Ideal.div (0 + ∑ p : Fin M, Y (ix2 p (c1 i))) n = _
    rw [hn, Ideal.div_coe hNr, zero_add]
    simp only [hz, ← Cert.MeanAffine.coe_sum, ← EReal.coe_mul]
  show Ideal.div (0 + ∑ p : Fin M, Y (ix2 p (c1 i)) * Y (ix2 p (c1 i))) n - colMean n Y i * colMean n Y i
    = Ideal.div (0 + ∑ p : Fin M, (Y (ix2 p (c1 i)) - colMean n Y i) * (Y (ix2 p (c1 i)) - colMean n Y i)) n
  rw [hmu, hn, Ideal.div_coe hNr, Ideal.div_coe hNr, zero_add, zero_add]
  simp only [hz, ← EReal.coe_mul, ← EReal.coe_sub, ← Cert.MeanAffine.coe_sum]
  rw [real_var hpos z _ rfl]

theorem n_eq_cast : n = (((100000 : ℕ) : ℝ) : EReal) := by rw [n_eq, Nat.cast_ofNat]

/-- The same at the programs' row count. -/
theorem varK_eq_varTwo {K : ℕ} (Y : Mat 100000 K) (hY : ∀ i, IsReal (Y i)) : varK n Y = varTwo n Y :=
  varK_eq_varTwo_of (by norm_num) n n_eq_cast Y hY

/-- A layer with the one-pass variance is the layer with the two-pass variance when the dense step's result is real. -/
theorem layer_eq {K : ℕ} (A : Mat 100000 K) (W : Mat K K) (b ga be : Mat 1 K)
    (hZ : ∀ i, IsReal (dense A W b i)) : layer varK A W b ga be = layer varTwo A W b ga be := by
  unfold layer
  rw [varK_eq_varTwo _ hZ]

/-- The larger of two real numbers is a real number. -/
private theorem isReal_max {a b : EReal} (ha : IsReal a) (hb : IsReal b) : IsReal (max a b) := by
  rcases le_total a b with h | h
  · rw [max_eq_right h]; exact hb
  · rw [max_eq_left h]; exact ha

/-- The dense step of real arrays is real. -/
theorem isReal_dense {M K K' : ℕ} (A : Mat M K) (W : Mat K K') (b : Mat 1 K') (hA : ∀ i, IsReal (A i))
    (hW : ∀ i, IsReal (W i)) (hb : ∀ i, IsReal (b i)) : ∀ i, IsReal (dense A W b i) := by
  intro i
  show IsReal (mm A W i + b (ix2 (0 : Fin 1) (c1 i)))
  exact IsReal.add (isReal_sum _ _ fun k _ => IsReal.mul (hA _) (hW _)) (hb _)

/-- The column means of a real array over a nonzero real count are real. -/
theorem isReal_colMean {M K : ℕ} (n : EReal) {N : ℝ} (hN : N ≠ 0) (hn : n = (N : EReal)) (Y : Mat M K)
    (hY : ∀ i, IsReal (Y i)) : ∀ i, IsReal (colMean n Y i) := by
  intro i
  show IsReal (Ideal.div (0 + ∑ p : Fin M, Y (ix2 p (c1 i))) n)
  rw [hn]
  exact isReal_div_coe (isReal_zero.add (isReal_sum _ _ fun p _ => hY _)) hN

/-- The two-pass variance of a real array over a positive real count is a nonnegative real number. -/
theorem varTwo_nonneg_real {M K : ℕ} (n : EReal) {N : ℝ} (hN : 0 < N) (hn : n = (N : EReal)) (Y : Mat M K)
    (hY : ∀ i, IsReal (Y i)) (i : (⟨2, ![1, K]⟩ : Shape).Idx) : ∃ v : ℝ, 0 ≤ v ∧ varTwo n Y i = (v : EReal) := by
  obtain ⟨m, hm⟩ := isReal_colMean n hN.ne' hn Y hY i
  choose z hz using fun p : Fin M => hY (ix2 p (c1 i))
  refine ⟨(∑ p : Fin M, (z p - m) * (z p - m)) * (1 / N),
    mul_nonneg (Finset.sum_nonneg fun p _ => mul_self_nonneg _) (by positivity), ?_⟩
  show Ideal.div (0 + ∑ p : Fin M, (Y (ix2 p (c1 i)) - colMean n Y i) * (Y (ix2 p (c1 i)) - colMean n Y i)) n = _
  rw [hm, hn, Ideal.div_coe hN.ne', zero_add]
  simp only [hz, ← EReal.coe_mul, ← EReal.coe_sub, ← Cert.MeanAffine.coe_sum]

/-- A normalised layer of real arrays, with the two-pass variance, is real. -/
theorem isReal_layer {K : ℕ} (A : Mat 100000 K) (W : Mat K K) (b ga be : Mat 1 K)
    (hZ : ∀ i, IsReal (dense A W b i)) (hga : ∀ i, IsReal (ga i)) (hbe : ∀ i, IsReal (be i)) :
    ∀ i, IsReal (layer varTwo A W b ga be i) := by
  intro i
  obtain ⟨e, he0, he⟩ := eps_pos
  obtain ⟨v, hv0, hv⟩ := varTwo_nonneg_real n (N := 100000) (by norm_num) n_eq (dense A W b) hZ
    (ix2 (0 : Fin 1) (c1 i))
  have hmu := isReal_colMean n (N := 100000) (by norm_num) n_eq (dense A W b) hZ (ix2 (0 : Fin 1) (c1 i))
  have hrs : IsReal (Ideal.rsqrt (varTwo n (dense A W b) (ix2 (0 : Fin 1) (c1 i)) + eps)) := by
    rw [hv, he, ← EReal.coe_add]
    refine isReal_rsqrt_pos (isReal_coe _) ?_
    have : (0 : ℝ) < v + e := by linarith
    exact_mod_cast this
  show IsReal (max ((((dense A W b i - colMean n (dense A W b) (ix2 (0 : Fin 1) (c1 i)))
      * Ideal.rsqrt (varTwo n (dense A W b) (ix2 (0 : Fin 1) (c1 i)) + eps))
      * ga (ix2 (0 : Fin 1) (c1 i))) + be (ix2 (0 : Fin 1) (c1 i))) 0)
  exact isReal_max (((((hZ i).sub hmu).mul hrs).mul (hga _)).add (hbe _)) isReal_zero

/-- A slab of a real stack of matrices is real. -/
theorem isReal_slabW (Ws : (⟨3, ![3, 128, 128]⟩ : Shape).Idx → EReal) (h : ∀ i, IsReal (Ws i)) (l : Fin 3) :
    ∀ i, IsReal (slabW Ws l i) := fun _ => h _

/-- A row of a real stack of rows is real. -/
theorem isReal_rowOf (bs : Mat 3 128) (h : ∀ i, IsReal (bs i)) (l : Fin 3) : ∀ i, IsReal (rowOf bs l i) :=
  fun _ => h _

end Cert.Spec

end
-- ==== Proof.LayerCore.lean ====
/-
  A normalised layer from its stored statistics, and three layers of real arrays.

  The kernel program keeps, per layer, the dense step's result `Z`, the two rows of column sums `Σz` and `Σz²`, and
  from them the mean row `Σz/n` and the reciprocal-standard-deviation row `rsqrt ((Σz²/n − μ·μ) + ε)`; the layer's result
  is `max ((((Z − μ)·invstd)·γ) + β, 0)` entry by entry.  That is, by definition, the layer with the one-pass variance.
  On real arrays the one-pass variance is the two-pass one and the layer's result is real again, so a stack of three
  layers, each over an aggregation that keeps real arrays real, agrees for the two variances.
-/
import proofs.«160962_j23227183137544_1_alg».proof.Proof.Spec
import proofs.«160962_j23227183137544_1_alg».proof.Proof.SpecLaws

noncomputable section

open scoped BigOperators

namespace Cert.Spec

open Idealize.ShloMosaic Idealize.ShloMosaic.ValueIdx Cert.Dense Cert.BiasRow Cert.SageBn Cert.GcnStats

/-- The normalised array computed from the stored sums, mean row and reciprocal-standard-deviation row is the layer with
    the one-pass variance. -/
theorem layer_of_stats {M K : ℕ} (A : Mat M K) (Wt : Mat K K) (b ga be : Mat 1 K)
    (Z : Mat M K) (s1 s2 mean invstd : Mat 1 K) (out : Mat M K)
    (hZ : Z = dense A Wt b)
    (hs1 : s1 = fun i => 0 + ∑ p : Fin M, Z (ix2 p (c1 i)))
    (hs2 : s2 = fun i => 0 + ∑ p : Fin M, Z (ix2 p (c1 i)) * Z (ix2 p (c1 i)))
    (hmean : mean = fun i => Ideal.div (s1 i) n)
    (hinv : invstd = fun i => Ideal.rsqrt ((Ideal.div (s2 i) n - Ideal.div (s1 i) n * Ideal.div (s1 i) n) + eps))
    (hout : out = fun i => max ((((Z i - mean (ix2 (0 : Fin 1) (c1 i))) * invstd (ix2 (0 : Fin 1) (c1 i)))
      * ga (ix2 (0 : Fin 1) (c1 i))) + be (ix2 (0 : Fin 1) (c1 i))) 0) :
    out = layer varK A Wt b ga be := by
  subst hs1 hs2 hmean hinv hout hZ
  rfl

/-- One layer on real arrays: the two variances agree and the result is real. -/
theorem layer_real {K : ℕ} (A : Mat 100000 K) (Wt : Mat K K) (b ga be : Mat 1 K) (hA : ∀ i, IsReal (A i))
    (hW : ∀ i, IsReal (Wt i)) (hb : ∀ i, IsReal (b i)) (hga : ∀ i, IsReal (ga i)) (hbe : ∀ i, IsReal (be i)) :
    layer varK A Wt b ga be = layer varTwo A Wt b ga be ∧ ∀ i, IsReal (layer varTwo A Wt b ga be i) :=
  ⟨layer_eq A Wt b ga be (isReal_dense A Wt b hA hW hb),
    isReal_layer A Wt b ga be (isReal_dense A Wt b hA hW hb) hga hbe⟩

/-- Three layers, each over the aggregate of the previous one's result: with real parameters and features, and an
    aggregation that keeps real arrays real, the three results agree for the two variances. -/
theorem net3_eq {K : ℕ} (agg : Mat 100000 K → Mat 100000 K) (hagg : ∀ h, (∀ i, IsReal (h i)) → ∀ i, IsReal (agg h i))
    (x : Mat 100000 K) (hx : ∀ i, IsReal (x i))
    (W0 W1 W2 : Mat K K) (b0 b1 b2 g0 g1 g2 e0 e1 e2 : Mat 1 K)
    (hW0 : ∀ i, IsReal (W0 i)) (hW1 : ∀ i, IsReal (W1 i)) (hW2 : ∀ i, IsReal (W2 i))
    (hb0 : ∀ i, IsReal (b0 i)) (hb1 : ∀ i, IsReal (b1 i)) (hb2 : ∀ i, IsReal (b2 i))
    (hg0 : ∀ i, IsReal (g0 i)) (hg1 : ∀ i, IsReal (g1 i)) (hg2 : ∀ i, IsReal (g2 i))
    (he0 : ∀ i, IsReal (e0 i)) (he1 : ∀ i, IsReal (e1 i)) (he2 : ∀ i, IsReal (e2 i)) :
    layer varK (agg x) W0 b0 g0 e0 = layer varTwo (agg x) W0 b0 g0 e0
      ∧ layer varK (agg (layer varK (agg x) W0 b0 g0 e0)) W1 b1 g1 e1
          = layer varTwo (agg (layer varTwo (agg x) W0 b0 g0 e0)) W1 b1 g1 e1
      ∧ layer varK (agg (layer varK (agg (layer varK (agg x) W0 b0 g0 e0)) W1 b1 g1 e1)) W2 b2 g2 e2
          = layer varTwo (agg (layer varTwo (agg (layer varTwo (agg x) W0 b0 g0 e0)) W1 b1 g1 e1)) W2 b2 g2 e2 := by
  obtain ⟨h1, r1⟩ := layer_real (agg x) W0 b0 g0 e0 (hagg x hx) hW0 hb0 hg0 he0
  rw [h1]
  obtain ⟨h2, r2⟩ := layer_real (agg (layer varTwo (agg x) W0 b0 g0 e0)) W1 b1 g1 e1 (hagg _ r1) hW1 hb1 hg1 he1
  rw [h2]
  obtain ⟨h3, _⟩ := layer_real (agg (layer varTwo (agg (layer varTwo (agg x) W0 b0 g0 e0)) W1 b1 g1 e1)) W2 b2 g2 e2
    (hagg _ r2) hW2 hb2 hg2 he2
  exact ⟨rfl, rfl, h3⟩

end Cert.Spec

end
-- ==== Proof.KIValue.lean ====
/-
  The kernel program's result as the network's mathematics.

  Per layer: the product-and-statistics region leaves the dense step's result and the two rows of column sums; the host
  turns the rows into the mean row and the reciprocal-standard-deviation row; the normalise-and-rectify region leaves
  `max ((((z − μ)·invstd)·γ) + β, 0)`, which is by definition the layer with the one-pass variance of the aggregate, the
  layer's matrix and its three rows.  The aggregate of each later layer is taken of the previous layer's result, and the
  last stretch stacks the input features and the three results.
-/
import proofs.«160962_j23227183137544_1_alg».proof.Proof.KIOut
import proofs.«160962_j23227183137544_1_alg».proof.Proof.KIHost
import proofs.«160962_j23227183137544_1_alg».proof.Proof.KIValA0
import proofs.«160962_j23227183137544_1_alg».proof.Proof.KIValA2
import proofs.«160962_j23227183137544_1_alg».proof.Proof.KIValA4
import proofs.«160962_j23227183137544_1_alg».proof.Proof.LayerCore

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Dense

variable (m : (ℓ : Loc nD τ sig) → Buf (Elt Ideal) ℓ)

/-- Layer 0 of the kernel program at its normalise-and-rectify region's exit, over the contents its aggregate was
    computed from. -/
theorem layer0_step (c : Dev nD) :
    W4 m c (Proc.devRef .tc main_v57)
      = Cert.Spec.layer Cert.Spec.varK (KAgg.agg (F := Ideal) (m ((c : Thread nD τ).loc main_arg5)) (m ((c : Thread nD τ).loc main_arg6)) (m ((c : Thread nD τ).loc main_arg0)))
      (Cert.Spec.slabW (m ((c : Thread nD τ).loc main_arg1)) 0) (Cert.Spec.rowOf (m ((c : Thread nD τ).loc main_arg2)) 0) (Cert.Spec.rowOf (m ((c : Thread nD τ).loc main_arg3)) 0) (Cert.Spec.rowOf (m ((c : Thread nD τ).loc main_arg4)) 0) := by
  have e3 : W2 m c (Proc.devRef .tc main_v37_0) = Z0 (U1 m) c := (W2_arr m c 3).trans (arrAt0_3 (U1 m) c)
  have e4 : W2 m c (Proc.devRef .tc main_v37_1) = fun i : S1x128.Idx => 0 + ∑ p : Fin 100000, Z0 (U1 m) c (ix2 p (c1 i)) :=
    (W2_arr m c 4).trans (arrAt0_4 (U1 m) c)
  have e5 : W2 m c (Proc.devRef .tc main_v37_2)
      = fun i : S1x128.Idx => 0 + ∑ p : Fin 100000, Z0 (U1 m) c (ix2 p (c1 i)) * Z0 (U1 m) c (ix2 p (c1 i)) :=
    (W2_arr m c 5).trans (arrAt0_5 (U1 m) c)
  have eZ : Z0 (U1 m) c = Cert.Spec.dense (KAgg.agg (F := Ideal) (m ((c : Thread nD τ).loc main_arg5)) (m ((c : Thread nD τ).loc main_arg6)) (m ((c : Thread nD τ).loc main_arg0)))
      (Cert.Spec.slabW (m ((c : Thread nD τ).loc main_arg1)) 0) (Cert.Spec.rowOf (m ((c : Thread nD τ).loc main_arg2)) 0) := by
    show Cert.Spec.dense (W1 m c (Proc.devRef .tc main_v31)) (W1 m c (Proc.devRef .tc main_v33)) (W1 m c (Proc.devRef .tc main_v36)) = _
    rw [W1_agg m c, W1_weight m c, W1_bias m c]
  rw [W4_h1 m c, W3_z m c, W3_gamma m c, W3_beta m c]
  exact Cert.Spec.layer_of_stats _ _ _ _ _ (W2 m c (Proc.devRef .tc main_v37_0)) (W2 m c (Proc.devRef .tc main_v37_1)) (W2 m c (Proc.devRef .tc main_v37_2))
    (W3 m c (Proc.devRef .tc main_v53)) (W3 m c (Proc.devRef .tc main_v54)) _ (e3.trans eZ) (by rw [e4, e3]) (by rw [e5, e3])
    (W3_mean m c) (W3_invstd m c) rfl

/-- Layer 1 of the kernel program at its normalise-and-rectify region's exit, over the contents its aggregate was
    computed from. -/
theorem layer1_step (c : Dev nD) :
    W8 m c (Proc.devRef .tc main_v97)
      = Cert.Spec.layer Cert.Spec.varK (KAgg.agg (F := Ideal) (m ((c : Thread nD τ).loc main_arg5)) (m ((c : Thread nD τ).loc main_arg6)) (W4 m c (Proc.devRef .tc main_v57)))
      (Cert.Spec.slabW (m ((c : Thread nD τ).loc main_arg1)) 1) (Cert.Spec.rowOf (m ((c : Thread nD τ).loc main_arg2)) 1) (Cert.Spec.rowOf (m ((c : Thread nD τ).loc main_arg3)) 1) (Cert.Spec.rowOf (m ((c : Thread nD τ).loc main_arg4)) 1) := by
  have e3 : W6 m c (Proc.devRef .tc main_v77_0) = Z2 (U5 m) c := (W6_arr m c 3).trans (arrAt2_3 (U5 m) c)
  have e4 : W6 m c (Proc.devRef .tc main_v77_1) = fun i : S1x128.Idx => 0 + ∑ p : Fin 100000, Z2 (U5 m) c (ix2 p (c1 i)) :=
    (W6_arr m c 4).trans (arrAt2_4 (U5 m) c)
  have e5 : W6 m c (Proc.devRef .tc main_v77_2)
      = fun i : S1x128.Idx => 0 + ∑ p : Fin 100000, Z2 (U5 m) c (ix2 p (c1 i)) * Z2 (U5 m) c (ix2 p (c1 i)) :=
    (W6_arr m c 5).trans (arrAt2_5 (U5 m) c)
  have eZ : Z2 (U5 m) c = Cert.Spec.dense (KAgg.agg (F := Ideal) (m ((c : Thread nD τ).loc main_arg5)) (m ((c : Thread nD τ).loc main_arg6)) (W4 m c (Proc.devRef .tc main_v57)))
      (Cert.Spec.slabW (m ((c : Thread nD τ).loc main_arg1)) 1) (Cert.Spec.rowOf (m ((c : Thread nD τ).loc main_arg2)) 1) := by
    show Cert.Spec.dense (W5 m c (Proc.devRef .tc main_v71)) (W5 m c (Proc.devRef .tc main_v73)) (W5 m c (Proc.devRef .tc main_v76)) = _
    rw [W5_agg m c, W5_weight m c, W5_bias m c]
  rw [W8_h2 m c, W7_z m c, W7_gamma m c, W7_beta m c]
  exact Cert.Spec.layer_of_stats _ _ _ _ _ (W6 m c (Proc.devRef .tc main_v77_0)) (W6 m c (Proc.devRef .tc main_v77_1)) (W6 m c (Proc.devRef .tc main_v77_2))
    (W7 m c (Proc.devRef .tc main_v93)) (W7 m c (Proc.devRef .tc main_v94)) _ (e3.trans eZ) (by rw [e4, e3]) (by rw [e5, e3])
    (W7_mean m c) (W7_invstd m c) rfl

/-- Layer 2 of the kernel program at its normalise-and-rectify region's exit, over the contents its aggregate was
    computed from. -/
theorem layer2_step (c : Dev nD) :
    W12 m c (Proc.devRef .tc main_v137)
      = Cert.Spec.layer Cert.Spec.varK (KAgg.agg (F := Ideal) (m ((c : Thread nD τ).loc main_arg5)) (m ((c : Thread nD τ).loc main_arg6)) (W8 m c (Proc.devRef .tc main_v97)))
      (Cert.Spec.slabW (m ((c : Thread nD τ).loc main_arg1)) 2) (Cert.Spec.rowOf (m ((c : Thread nD τ).loc main_arg2)) 2) (Cert.Spec.rowOf (m ((c : Thread nD τ).loc main_arg3)) 2) (Cert.Spec.rowOf (m ((c : Thread nD τ).loc main_arg4)) 2) := by
  have e3 : W10 m c (Proc.devRef .tc main_v117_0) = Z4 (U9 m) c := (W10_arr m c 3).trans (arrAt4_3 (U9 m) c)
  have e4 : W10 m c (Proc.devRef .tc main_v117_1) = fun i : S1x128.Idx => 0 + ∑ p : Fin 100000, Z4 (U9 m) c (ix2 p (c1 i)) :=
    (W10_arr m c 4).trans (arrAt4_4 (U9 m) c)
  have e5 : W10 m c (Proc.devRef .tc main_v117_2)
      = fun i : S1x128.Idx => 0 + ∑ p : Fin 100000, Z4 (U9 m) c (ix2 p (c1 i)) * Z4 (U9 m) c (ix2 p (c1 i)) :=
    (W10_arr m c 5).trans (arrAt4_5 (U9 m) c)
  have eZ : Z4 (U9 m) c = Cert.Spec.dense (KAgg.agg (F := Ideal) (m ((c : Thread nD τ).loc main_arg5)) (m ((c : Thread nD τ).loc main_arg6)) (W8 m c (Proc.devRef .tc main_v97)))
      (Cert.Spec.slabW (m ((c : Thread nD τ).loc main_arg1)) 2) (Cert.Spec.rowOf (m ((c : Thread nD τ).loc main_arg2)) 2) := by
    show Cert.Spec.dense (W9 m c (Proc.devRef .tc main_v111)) (W9 m c (Proc.devRef .tc main_v113)) (W9 m c (Proc.devRef .tc main_v116)) = _
    rw [W9_agg m c, W9_weight m c, W9_bias m c]
  rw [W12_h3 m c, W11_z m c, W11_gamma m c, W11_beta m c]
  exact Cert.Spec.layer_of_stats _ _ _ _ _ (W10 m c (Proc.devRef .tc main_v117_0)) (W10 m c (Proc.devRef .tc main_v117_1)) (W10 m c (Proc.devRef .tc main_v117_2))
    (W11 m c (Proc.devRef .tc main_v133)) (W11 m c (Proc.devRef .tc main_v134)) _ (e3.trans eZ) (by rw [e4, e3]) (by rw [e5, e3])
    (W11_mean m c) (W11_invstd m c) rfl

/-- Layer 0's result. -/
theorem layer0 (c : Dev nD) :
    W4 m c (Proc.devRef .tc main_v57)
      = (Cert.Spec.layer Cert.Spec.varK (KAgg.agg (F := Ideal) (m ((c : Thread nD τ).loc main_arg5)) (m ((c : Thread nD τ).loc main_arg6)) (m ((c : Thread nD τ).loc main_arg0)))
      (Cert.Spec.slabW (m ((c : Thread nD τ).loc main_arg1)) 0) (Cert.Spec.rowOf (m ((c : Thread nD τ).loc main_arg2)) 0) (Cert.Spec.rowOf (m ((c : Thread nD τ).loc main_arg3)) 0) (Cert.Spec.rowOf (m ((c : Thread nD τ).loc main_arg4)) 0)) := layer0_step m c

/-- Layer 1's result. -/
theorem layer1 (c : Dev nD) :
    W8 m c (Proc.devRef .tc main_v97)
      = (Cert.Spec.layer Cert.Spec.varK (KAgg.agg (F := Ideal) (m ((c : Thread nD τ).loc main_arg5)) (m ((c : Thread nD τ).loc main_arg6)) (Cert.Spec.layer Cert.Spec.varK (KAgg.agg (F := Ideal) (m ((c : Thread nD τ).loc main_arg5)) (m ((c : Thread nD τ).loc main_arg6)) (m ((c : Thread nD τ).loc main_arg0)))
      (Cert.Spec.slabW (m ((c : Thread nD τ).loc main_arg1)) 0) (Cert.Spec.rowOf (m ((c : Thread nD τ).loc main_arg2)) 0) (Cert.Spec.rowOf (m ((c : Thread nD τ).loc main_arg3)) 0) (Cert.Spec.rowOf (m ((c : Thread nD τ).loc main_arg4)) 0)))
      (Cert.Spec.slabW (m ((c : Thread nD τ).loc main_arg1)) 1) (Cert.Spec.rowOf (m ((c : Thread nD τ).loc main_arg2)) 1) (Cert.Spec.rowOf (m ((c : Thread nD τ).loc main_arg3)) 1) (Cert.Spec.rowOf (m ((c : Thread nD τ).loc main_arg4)) 1)) := by
  rw [layer1_step m c, layer0 m c]

/-- Layer 2's result. -/
theorem layer2 (c : Dev nD) :
    W12 m c (Proc.devRef .tc main_v137)
      = (Cert.Spec.layer Cert.Spec.varK (KAgg.agg (F := Ideal) (m ((c : Thread nD τ).loc main_arg5)) (m ((c : Thread nD τ).loc main_arg6)) (Cert.Spec.layer Cert.Spec.varK (KAgg.agg (F := Ideal) (m ((c : Thread nD τ).loc main_arg5)) (m ((c : Thread nD τ).loc main_arg6)) (Cert.Spec.layer Cert.Spec.varK (KAgg.agg (F := Ideal) (m ((c : Thread nD τ).loc main_arg5)) (m ((c : Thread nD τ).loc main_arg6)) (m ((c : Thread nD τ).loc main_arg0)))
      (Cert.Spec.slabW (m ((c : Thread nD τ).loc main_arg1)) 0) (Cert.Spec.rowOf (m ((c : Thread nD τ).loc main_arg2)) 0) (Cert.Spec.rowOf (m ((c : Thread nD τ).loc main_arg3)) 0) (Cert.Spec.rowOf (m ((c : Thread nD τ).loc main_arg4)) 0)))
      (Cert.Spec.slabW (m ((c : Thread nD τ).loc main_arg1)) 1) (Cert.Spec.rowOf (m ((c : Thread nD τ).loc main_arg2)) 1) (Cert.Spec.rowOf (m ((c : Thread nD τ).loc main_arg3)) 1) (Cert.Spec.rowOf (m ((c : Thread nD τ).loc main_arg4)) 1)))
      (Cert.Spec.slabW (m ((c : Thread nD τ).loc main_arg1)) 2) (Cert.Spec.rowOf (m ((c : Thread nD τ).loc main_arg2)) 2) (Cert.Spec.rowOf (m ((c : Thread nD τ).loc main_arg3)) 2) (Cert.Spec.rowOf (m ((c : Thread nD τ).loc main_arg4)) 2)) := by
  rw [layer2_step m c, layer1 m c]

/-- THE KERNEL PROGRAM'S RESULT: the input features and the three layers' results, stacked. -/
theorem out_eq (c : Dev nD) :
    W13 m c (Proc.devRef .tc main_v142)
      = tailK (m ((c : Thread nD τ).loc main_arg0))
          (Cert.Spec.layer Cert.Spec.varK (KAgg.agg (F := Ideal) (m ((c : Thread nD τ).loc main_arg5)) (m ((c : Thread nD τ).loc main_arg6)) (m ((c : Thread nD τ).loc main_arg0)))
      (Cert.Spec.slabW (m ((c : Thread nD τ).loc main_arg1)) 0) (Cert.Spec.rowOf (m ((c : Thread nD τ).loc main_arg2)) 0) (Cert.Spec.rowOf (m ((c : Thread nD τ).loc main_arg3)) 0) (Cert.Spec.rowOf (m ((c : Thread nD τ).loc main_arg4)) 0))
          (Cert.Spec.layer Cert.Spec.varK (KAgg.agg (F := Ideal) (m ((c : Thread nD τ).loc main_arg5)) (m ((c : Thread nD τ).loc main_arg6)) (Cert.Spec.layer Cert.Spec.varK (KAgg.agg (F := Ideal) (m ((c : Thread nD τ).loc main_arg5)) (m ((c : Thread nD τ).loc main_arg6)) (m ((c : Thread nD τ).loc main_arg0)))
      (Cert.Spec.slabW (m ((c : Thread nD τ).loc main_arg1)) 0) (Cert.Spec.rowOf (m ((c : Thread nD τ).loc main_arg2)) 0) (Cert.Spec.rowOf (m ((c : Thread nD τ).loc main_arg3)) 0) (Cert.Spec.rowOf (m ((c : Thread nD τ).loc main_arg4)) 0)))
      (Cert.Spec.slabW (m ((c : Thread nD τ).loc main_arg1)) 1) (Cert.Spec.rowOf (m ((c : Thread nD τ).loc main_arg2)) 1) (Cert.Spec.rowOf (m ((c : Thread nD τ).loc main_arg3)) 1) (Cert.Spec.rowOf (m ((c : Thread nD τ).loc main_arg4)) 1))
          (Cert.Spec.layer Cert.Spec.varK (KAgg.agg (F := Ideal) (m ((c : Thread nD τ).loc main_arg5)) (m ((c : Thread nD τ).loc main_arg6)) (Cert.Spec.layer Cert.Spec.varK (KAgg.agg (F := Ideal) (m ((c : Thread nD τ).loc main_arg5)) (m ((c : Thread nD τ).loc main_arg6)) (Cert.Spec.layer Cert.Spec.varK (KAgg.agg (F := Ideal) (m ((c : Thread nD τ).loc main_arg5)) (m ((c : Thread nD τ).loc main_arg6)) (m ((c : Thread nD τ).loc main_arg0)))
      (Cert.Spec.slabW (m ((c : Thread nD τ).loc main_arg1)) 0) (Cert.Spec.rowOf (m ((c : Thread nD τ).loc main_arg2)) 0) (Cert.Spec.rowOf (m ((c : Thread nD τ).loc main_arg3)) 0) (Cert.Spec.rowOf (m ((c : Thread nD τ).loc main_arg4)) 0)))
      (Cert.Spec.slabW (m ((c : Thread nD τ).loc main_arg1)) 1) (Cert.Spec.rowOf (m ((c : Thread nD τ).loc main_arg2)) 1) (Cert.Spec.rowOf (m ((c : Thread nD τ).loc main_arg3)) 1) (Cert.Spec.rowOf (m ((c : Thread nD τ).loc main_arg4)) 1)))
      (Cert.Spec.slabW (m ((c : Thread nD τ).loc main_arg1)) 2) (Cert.Spec.rowOf (m ((c : Thread nD τ).loc main_arg2)) 2) (Cert.Spec.rowOf (m ((c : Thread nD τ).loc main_arg3)) 2) (Cert.Spec.rowOf (m ((c : Thread nD τ).loc main_arg4)) 2)) := by
  rw [W13_out m c, W12_main_arg0 m c, W12_main_v57 m c, W12_main_v97 m c, layer0 m c, layer1 m c, layer2 m c]

end Cert.KernelIdeal.Hand

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«160962_j23227183137544_1_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibBnStats.lean ====
/-
  The batch statistics and the normalisation body, read in the forms the two programs spell them.

  The host sums an `[M, K]` array down its first axis from a scalar zero: the sum at column `q` is
  `0 + ∑ₚ Y (p, q)`.  Laid out as one row and divided entry by entry by a broadcast scalar `n`, it is the row of column
  means; the sum of the squares divided by `n`, less the square of the mean, clamped below by a broadcast zero, is the
  one-pass variance.  The normalisation of an entry reads its own entry of the array and the four one-row arrays at its
  column only; the vector unit spells it with each one-row array repeated down the rows and a zero splat under the
  maximum.
-/
import proofs.«160962_j23227183137544_1_alg».proof.Proof.LibSageBn
import proofs.«160962_j23227183137544_1_alg».proof.Proof.LibHostLayout
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.SageBn

open Idealize.ShloMosaic Idealize.ShloMosaic.ValueIdx Cert.Dense

/-- A vector `[K]` laid out as the one row `[1, K]` reads, at `(u, q)`, the vector at `q`. -/
theorem bcast_vec_row {α : Type} {K : ℕ} (b : (⟨1, ![K]⟩ : Shape).Idx → α)
    (h1 : (⟨1, ![K]⟩ : Shape).BroadcastsInDim ⟨2, ![1, K]⟩ ![1]) (u : Fin 1) (q : Fin K) :
    broadcastInDim ⟨2, ![1, K]⟩ ![1] h1 b (ix2 u q) = b (ix1 q) :=
  broadcastInDim_apply ![1] h1 b (ix2 u q) (ix1 q) (fun a => by
    match a with
    | ⟨0, _⟩ =>
      show q.val = if K = 1 then 0 else q.val
      split
      · have := q.isLt; omega
      · rfl)

/-- THE HOST'S COLUMN SUM: the sum of an `[M, K]` array down its first axis from a scalar zero reads, at column `q`,
    zero plus the sum of the column's entries. -/
theorem hostColSum {M K : ℕ} (Y : FVec Ideal ⟨2, ![M, K]⟩ .f32)
    (hred : (⟨2, ![M, K]⟩ : Shape).ReducesTo [0] ⟨1, ![K]⟩) (hz : 0 < (⟨0, ![]⟩ : Shape).numel) (q : Fin K) :
    Host.reduceAdd (F := Ideal) Y (constant (F := Ideal) ⟨0, ![]⟩ .f32 0x00000000#32) hred hz (ix1 q)
      = 0 + ∑ p : Fin M, Y (ix2 p q) := by
  have h : (⟨2, ![M, K]⟩ : Shape).Reduces [0] ⟨1, ![K]⟩ := ⟨hred.1, Nat.one_pos, hred.2⟩
  refine (Ideal.hostReduceAdd_single hred h Y
    (constant (F := Ideal) ⟨0, ![]⟩ .f32 0x00000000#32 (Shape.Idx.first hz)) (ix1 q)).trans ?_
  rw [constant_apply, Ideal.ofBits_zero_f32]
  refine congrArg (0 + ·) (Finset.sum_congr rfl fun k _ => congrArg Y (funext fun ax => Fin.ext ?_))
  match ax with
  | ⟨0, _⟩ => rfl
  | ⟨1, _⟩ => rfl

/-- THE HOST'S COLUMN MEANS: the column sums laid out as one row, divided by the broadcast scalar of pattern `w`. -/
theorem hostColMean {M K : ℕ} (Y : FVec Ideal ⟨2, ![M, K]⟩ .f32) (w : BitVec 32)
    (hred : (⟨2, ![M, K]⟩ : Shape).ReducesTo [0] ⟨1, ![K]⟩) (hz : 0 < (⟨0, ![]⟩ : Shape).numel)
    (h1 : (⟨1, ![K]⟩ : Shape).BroadcastsInDim ⟨2, ![1, K]⟩ ![1])
    (h0 : (⟨0, ![]⟩ : Shape).BroadcastsInDim ⟨2, ![1, K]⟩ ![]) :
    Host.divf (F := Ideal)
        (broadcastInDim ⟨2, ![1, K]⟩ ![1] h1
          (Host.reduceAdd (F := Ideal) Y (constant (F := Ideal) ⟨0, ![]⟩ .f32 0x00000000#32) hred hz))
        (broadcastInDim ⟨2, ![1, K]⟩ ![] h0 (constant (F := Ideal) ⟨0, ![]⟩ .f32 w))
      = colMean (Ideal.ofBits .f32 w) Y := by
  funext i
  obtain ⟨u, q, rfl⟩ : ∃ (u : Fin 1) (q : Fin K), i = ix2 u q := ⟨i 0, i 1, eq_ix2 i⟩
  rw [hostDivf_apply, bcast_vec_row, Cert.HostLayout.bcast_scalar_mat, hostColSum]
  rfl

/-- THE HOST'S ONE-PASS VARIANCES: the column sums of the squares divided by the broadcast scalar of pattern `w`, less
    the squares of the column means, clamped below by a broadcast zero. -/
theorem hostVarOne {M K : ℕ} (Y : FVec Ideal ⟨2, ![M, K]⟩ .f32) (w : BitVec 32)
    (hred : (⟨2, ![M, K]⟩ : Shape).ReducesTo [0] ⟨1, ![K]⟩) (hz : 0 < (⟨0, ![]⟩ : Shape).numel)
    (h1 : (⟨1, ![K]⟩ : Shape).BroadcastsInDim ⟨2, ![1, K]⟩ ![1])
    (h0 : (⟨0, ![]⟩ : Shape).BroadcastsInDim ⟨2, ![1, K]⟩ ![])
    (MU : FVec Ideal ⟨2, ![1, K]⟩ .f32) (hMU : MU = colMean (Ideal.ofBits .f32 w) Y) :
    maximumf
        (subf
          (Host.divf (F := Ideal)
            (broadcastInDim ⟨2, ![1, K]⟩ ![1] h1
              (Host.reduceAdd (F := Ideal) (mulf Y Y) (constant (F := Ideal) ⟨0, ![]⟩ .f32 0x00000000#32) hred hz))
            (broadcastInDim ⟨2, ![1, K]⟩ ![] h0 (constant (F := Ideal) ⟨0, ![]⟩ .f32 w)))
          (mulf MU MU))
        (broadcastInDim ⟨2, ![1, K]⟩ ![] h0 (constant (F := Ideal) ⟨0, ![]⟩ .f32 0x00000000#32))
      = varOne (Ideal.ofBits .f32 w) Y := by
  subst hMU
  funext i
  obtain ⟨u, q, rfl⟩ : ∃ (u : Fin 1) (q : Fin K), i = ix2 u q := ⟨i 0, i 1, eq_ix2 i⟩
  rw [maximumf_apply, subf_apply, hostDivf_apply, mulf_apply, bcast_vec_row, Cert.HostLayout.bcast_scalar_mat,
    Cert.HostLayout.bcast_scalar_mat, hostColSum, constant_apply, constant_apply, Ideal.ofBits_zero_f32]
  rfl

/-- The normalisation at an index depends on the entry there and on the four one-row arrays at its column. -/
theorem bnRelu_at {M M' K K' : ℕ} (Y : Mat M K) (mu var ga be : Mat 1 K) (Y' : Mat M' K') (mu' var' ga' be' : Mat 1 K')
    (eps : EReal) (j : (⟨2, ![M', K']⟩ : Shape).Idx) (i : (⟨2, ![M, K]⟩ : Shape).Idx)
    (hY : Y' j = Y i)
    (hmu : mu' (ix2 (0 : Fin 1) (c1 j)) = mu (ix2 (0 : Fin 1) (c1 i)))
    (hvar : var' (ix2 (0 : Fin 1) (c1 j)) = var (ix2 (0 : Fin 1) (c1 i)))
    (hga : ga' (ix2 (0 : Fin 1) (c1 j)) = ga (ix2 (0 : Fin 1) (c1 i)))
    (hbe : be' (ix2 (0 : Fin 1) (c1 j)) = be (ix2 (0 : Fin 1) (c1 i))) :
    bnRelu Y' mu' var' ga' be' eps j = bnRelu Y mu var ga be eps i := by
  unfold bnRelu; rw [hY, hmu, hvar, hga, hbe]

/-- THE VECTOR UNIT'S FORM of the normalisation: each one-row array repeated down the rows, the stabiliser a splat of the
    pattern `w` added to the variances before the reciprocal square root, and the maximum with a zero splat. -/
theorem vecBnRelu {M K : ℕ} (Y : FVec Ideal ⟨2, ![M, K]⟩ .f32) (mu var ga be : FVec Ideal ⟨2, ![1, K]⟩ .f32)
    (w : BitVec 32) (hb : (⟨2, ![1, K]⟩ : Shape).Broadcasts ⟨2, ![M, K]⟩) :
    maximumf
        (addf
          (mulf
            (mulf (subf Y (broadcastTo ⟨2, ![M, K]⟩ mu hb))
              (broadcastTo ⟨2, ![M, K]⟩
                (rsqrt (addf var (broadcast ⟨2, ![1, K]⟩ (Scalar.ofBits (F := Ideal) .f32 w)))) hb))
            (broadcastTo ⟨2, ![M, K]⟩ ga hb))
          (broadcastTo ⟨2, ![M, K]⟩ be hb))
        (broadcast ⟨2, ![M, K]⟩ (Scalar.ofBits (F := Ideal) .f32 0x00000000#32))
      = bnRelu Y mu var ga be (Ideal.ofBits .f32 w) := by
  funext i
  obtain ⟨p, q, rfl⟩ : ∃ (p : Fin M) (q : Fin K), i = ix2 p q := ⟨i 0, i 1, eq_ix2 i⟩
  show max
      ((((Y (ix2 p q) - broadcastTo ⟨2, ![M, K]⟩ mu hb (ix2 p q))
          * broadcastTo ⟨2, ![M, K]⟩
              (rsqrt (addf var (broadcast ⟨2, ![1, K]⟩ (Scalar.ofBits (F := Ideal) .f32 w)))) hb (ix2 p q))
        * broadcastTo ⟨2, ![M, K]⟩ ga hb (ix2 p q))
        + broadcastTo ⟨2, ![M, K]⟩ be hb (ix2 p q))
      (Ideal.ofBits .f32 0x00000000#32) = _
  rw [broadcastTo_1b_ab_apply, broadcastTo_1b_ab_apply, broadcastTo_1b_ab_apply, broadcastTo_1b_ab_apply,
    Ideal.ofBits_zero_f32]
  rfl

end Cert.SageBn

end
-- ==== Proof.RefValue.lean ====
/-
  The reference program's result, read as the network's mathematics.

  Each whole-array step of the program is one of the named functions on the extended reals: the dense step is the
  matrix product plus the bias row; the column means are the sums divided by the number of rows; the helper's variance
  is the two-pass variance (its guarded divisor `n − 0` is `n`, which is positive, so the guard takes the quotient);
  the normalisation is the column-wise normalise-scale-shift-rectify; the layer's slices of the stacked parameters are
  the layer's matrix and rows.  Hence the program's result is the stack of the input features and the three layers'
  outputs, each layer applied to the aggregate of the previous one.  The aggregation and the stacking are carried as
  they stand.
-/
import proofs.«160962_j23227183137544_1_alg».proof.Proof.RefChain
import proofs.«160962_j23227183137544_1_alg».proof.Proof.Spec
import proofs.«160962_j23227183137544_1_alg».proof.Proof.LibBnStats
import proofs.«160962_j23227183137544_1_alg».proof.Proof.LibHostLayout
import Idealize.ShloMosaic.Lib.IdealHost
import Idealize.ShloMosaic.Lib.ValueLayout
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx
  Cert.Dense Cert.BiasRow Cert.SageBn Cert.GcnStats Cert.HostLayout

/-- The aggregation of `h` over the graph given by the two edge-end lists: the program's own chain. -/
def aggR (a5 a6 : IVec S1600000 32) (h : FVec Ideal S100000x128 .f32) : FVec Ideal S100000x128 .f32 :=
  RefRun.aggR (F := Ideal) a5 a6 h

/-- The four feature arrays stacked: the program's own final step. -/
def tailR (x h1 h2 h3 : FVec Ideal S100000x128 .f32) : FVec Ideal S4x100000x128 .f32 :=
  RefRun.tailC (F := Ideal) x h1 h2 h3

/-! ### The dense step -/

theorem zC_eq (A : FVec Ideal S100000x128 .f32) (Wl : FVec Ideal S128x128 .f32) (bl : FVec Ideal S128 .f32) :
    RefRun.zC (F := Ideal) A Wl bl = Cert.Spec.dense A Wl (row bl) := by
  have h := hostDot_eq_mm (M := 100000) (K := 128) (N := 128) (φ₁ := .f32) (φ₂ := .f32)
    dot_S100000x128_S128x128_S100000x128_1_0_0_1_n_n rfl rfl rfl rfl rfl rfl none A Wl
  show addf (Host.dotGeneral (F := Ideal) dot_S100000x128_S128x128_S100000x128_1_0_0_1_n_n none A Wl)
      (broadcastInDim S100000x128 ![0, 1] bcast_S1x128_S100000x128_0_1 (broadcastInDim S1x128 ![1] bcast_S128_S1x128_1 bl)) = _
  rw [h]
  exact hostAddRow _ _ _ _

/-! ### The column means -/

theorem meanC_apply (Z : FVec Ideal S100000x128 .f32) (q : Fin 128) :
    RefRun.meanC (F := Ideal) Z (ix1 q) = colMean Cert.Spec.n Z (ix2 (0 : Fin 1) q) := by
  show Ideal.div (Host.reduceAdd (F := Ideal) Z (constant (F := Ideal) S_ .f32 0x00000000#32) reducesTo_S100000x128_S128_d0 h_S_ (ix1 q))
      (broadcastInDim S128 ![] bcast_S_S128 (constant (F := Ideal) S_ .f32 0x47C35000#32) (ix1 q)) = _
  rw [hostColSum, broadcastInDim_scalar_apply]
  rfl

theorem row_meanC (Z : FVec Ideal S100000x128 .f32) : row (RefRun.meanC (F := Ideal) Z) = colMean Cert.Spec.n Z := by
  funext i
  obtain ⟨u, q, rfl⟩ : ∃ (u : Fin 1) (q : Fin 128), i = ix2 u q := ⟨i 0, i 1, eq_ix2 i⟩
  obtain rfl : u = 0 := Subsingleton.elim _ _
  rw [row_apply]
  exact meanC_apply Z q

/-! ### The helper's variance -/

theorem toInt_zero_coe : ((((0#32 : BitVec 32).toInt : ℤ) : ℝ) : EReal) = 0 := by
  rw [BitVec.toInt_zero]; simp

/-- The divisor `n − 0` is `n`. -/
theorem n_sub_zero : Ideal.ofBits .f32 0x47C35000#32 - FloatOps.sitofp (F := Ideal) .f32 (0#32 : BitVec 32)
    = Ideal.ofBits .f32 0x47C35000#32 := by
  show Ideal.ofBits .f32 0x47C35000#32 - ((((0#32 : BitVec 32).toInt : ℤ) : ℝ) : EReal) = _
  rw [toInt_zero_coe, sub_zero]

/-- The guard `n − 0 > 0` holds. -/
theorem guard_pos :
    FloatOps.cmpf (F := Ideal) .ogt (Ideal.ofBits .f32 0x47C35000#32 - FloatOps.sitofp (F := Ideal) .f32 (0#32 : BitVec 32))
      (Ideal.ofBits .f32 0x00000000#32) = 1#1 := by
  rw [n_sub_zero]
  show BitVec.ofBool (decide (Ideal.ofBits .f32 0x00000000#32 < Ideal.ofBits .f32 0x47C35000#32)) = 1#1
  have hlt : Ideal.ofBits .f32 0x00000000#32 < Ideal.ofBits .f32 0x47C35000#32 := by
    rw [Ideal.ofBits_zero_f32, ofBits_1e5]
    exact_mod_cast (by norm_num : (0 : ℝ) < 100000)
  rw [decide_eq_true hlt]
  rfl

theorem select_one {α : Type} (a b : α) : Scalar.select 1#1 a b = a := if_pos rfl

/-- A one-row array broadcast to every row reads, at `(p, q)`, the row at `q`. -/
theorem bcast_row_mat {α : Type} {M N : ℕ} (x : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 x (ix2 p q) = x (ix2 (0 : Fin 1) q) :=
  broadcastInDim_apply ![0, 1] h2 x (ix2 p q) (ix2 (0 : Fin 1) q) (fun a => by
    match a with
    | ⟨0, _⟩ => rfl
    | ⟨1, _⟩ =>
      show q.val = if N = 1 then 0 else q.val
      split
      · have := q.isLt; omega
      · rfl)

theorem varC_apply (Z : FVec Ideal S100000x128 .f32) (q : Fin 128) :
    RefRun.varC (F := Ideal) Z (ix1 q) = varTwo Cert.Spec.n Z (ix2 (0 : Fin 1) q) := by
  have hMU := hostColMean Z 0x47C35000#32 reducesTo_S100000x128_S128_d0 h_S_ bcast_S128_S1x128_1 bcast_S_S1x128
  unfold RefRun.varC
  dsimp only
  rw [hMU]
  rw [select_apply, hostDivf_apply, broadcastInDim_scalar_apply, broadcastInDim_scalar_apply, broadcastInDim_scalar_apply]
  simp only [cmpf_apply, subf_apply, sitofp_apply, constant_apply, constantI_apply]
  rw [guard_pos, n_sub_zero, select_one, hostColSum]
  refine congrArg (fun s => Ideal.div (0 + s) (Ideal.ofBits .f32 0x47C35000#32)) (Finset.sum_congr rfl fun p _ => ?_)
  show (Z (ix2 p q) - broadcastInDim S100000x128 ![0, 1] bcast_S1x128_S100000x128_0_1
        (colMean (Ideal.ofBits .f32 0x47C35000#32) Z) (ix2 p q))
      * (Z (ix2 p q) - broadcastInDim S100000x128 ![0, 1] bcast_S1x128_S100000x128_0_1
        (colMean (Ideal.ofBits .f32 0x47C35000#32) Z) (ix2 p q)) = _
  rw [bcast_row_mat]
  rfl

theorem row_varC (Z : FVec Ideal S100000x128 .f32) : row (RefRun.varC (F := Ideal) Z) = varTwo Cert.Spec.n Z := by
  funext i
  obtain ⟨u, q, rfl⟩ : ∃ (u : Fin 1) (q : Fin 128), i = ix2 u q := ⟨i 0, i 1, eq_ix2 i⟩
  obtain rfl : u = 0 := Subsingleton.elim _ _
  rw [row_apply]
  exact varC_apply Z q

/-! ### The normalisation -/

theorem bnC_eq (Z : FVec Ideal S100000x128 .f32) (mu va gl bel : FVec Ideal S128 .f32) :
    RefRun.bnC (F := Ideal) Z mu va gl bel = bnRelu Z (row mu) (row va) (row gl) (row bel) Cert.Spec.eps := by
  funext i
  obtain ⟨p, q, rfl⟩ : ∃ (p : Fin 100000) (q : Fin 128), i = ix2 p q := ⟨i 0, i 1, eq_ix2 i⟩
  rw [bnRelu_apply, row_apply, row_apply, row_apply, row_apply]
  unfold RefRun.bnC
  rw [maximumf_apply, addf_apply, mulf_apply, mulf_apply, subf_apply, bcast_vec_mat, bcast_vec_mat, bcast_vec_mat,
    bcast_vec_mat, broadcastInDim_scalar_apply, constant_apply, Ideal.ofBits_zero_f32]
  show max ((((Z (ix2 p q) - mu (ix1 q))
      * Ideal.rsqrt (va (ix1 q) + broadcastInDim S128 ![] bcast_S_S128 (constant (F := Ideal) S_ .f32 0x3727C5AC#32) (ix1 q)))
      * gl (ix1 q)) + bel (ix1 q)) 0 = _
  rw [broadcastInDim_scalar_apply]
  rfl

/-! ### One layer -/

theorem postC_eq (A : FVec Ideal S100000x128 .f32) (Wl : FVec Ideal S128x128 .f32) (bl gl bel : FVec Ideal S128 .f32) :
    RefRun.postC (F := Ideal) A Wl bl gl bel = Cert.Spec.layer varTwo A Wl (row bl) (row gl) (row bel) := by
  unfold RefRun.postC Cert.Spec.layer
  rw [zC_eq, bnC_eq, row_meanC, row_varC]

/-! ### The layers' slices of the stacked parameters -/

theorem wSl_gen (k : Fin 3) (a : FVec Ideal S3x128x128 .f32) (hs : S3x128x128.Slices ![k.val, 0, 0] S1x128x128) :
    shapeCast S128x128 (extractStridedSlice S1x128x128 ![k.val, 0, 0] a hs) shapeCasts_S1x128x128_S128x128 = Cert.Spec.slabW a k := by
  funext i
  obtain ⟨r, c, rfl⟩ : ∃ (r : Fin 128) (c : Fin 128), i = ix2 r c := ⟨i 0, i 1, eq_ix2 i⟩
  rw [shapeCast_1ab_ab_apply]
  refine (extractStridedSlice_apply _ a hs _ (ix3 k r c) fun ax => ?_).trans rfl
  match ax with
  | ⟨0, _⟩ => show k.val = k.val + 0; omega
  | ⟨1, _⟩ => show r.val = 0 + r.val; omega
  | ⟨2, _⟩ => show c.val = 0 + c.val; omega

theorem rSl_gen (k : Fin 3) (a : FVec Ideal S3x128 .f32) (hs : S3x128.Slices ![k.val, 0] S1x128) :
    row (shapeCast S128 (extractStridedSlice S1x128 ![k.val, 0] a hs) shapeCasts_S1x128_S128) = Cert.Spec.rowOf a k := by
  funext i
  obtain ⟨u, q, rfl⟩ : ∃ (u : Fin 1) (q : Fin 128), i = ix2 u q := ⟨i 0, i 1, eq_ix2 i⟩
  rw [row_apply, shapeCast_1a_a_apply]
  refine (extractStridedSlice_apply _ a hs _ (ix2 k q) fun ax => ?_).trans rfl
  match ax with
  | ⟨0, _⟩ => show k.val = k.val + 0; omega
  | ⟨1, _⟩ => show q.val = 0 + q.val; omega

theorem wSl0_eq (a : FVec Ideal S3x128x128 .f32) : RefRun.wSl0 (F := Ideal) a = Cert.Spec.slabW a 0 :=
  wSl_gen 0 a slices_S3x128x128_S1x128x128_0_0_0

theorem rSl0_eq (a : FVec Ideal S3x128 .f32) : row (RefRun.rSl0 (F := Ideal) a) = Cert.Spec.rowOf a 0 :=
  rSl_gen 0 a slices_S3x128_S1x128_0_0

theorem lay0_eq (a1 : FVec Ideal S3x128x128 .f32) (a2 a3 a4 : FVec Ideal S3x128 .f32) (a5 a6 : IVec S1600000 32)
    (h : FVec Ideal S100000x128 .f32) :
    RefRun.lay0 (F := Ideal) a1 a2 a3 a4 a5 a6 h
      = Cert.Spec.layer varTwo (aggR a5 a6 h) (Cert.Spec.slabW a1 0) (Cert.Spec.rowOf a2 0) (Cert.Spec.rowOf a3 0)
          (Cert.Spec.rowOf a4 0) := by
  unfold RefRun.lay0
  rw [postC_eq, wSl0_eq, rSl0_eq, rSl0_eq, rSl0_eq]
  rfl

theorem wSl1_eq (a : FVec Ideal S3x128x128 .f32) : RefRun.wSl1 (F := Ideal) a = Cert.Spec.slabW a 1 :=
  wSl_gen 1 a slices_S3x128x128_S1x128x128_1_0_0

theorem rSl1_eq (a : FVec Ideal S3x128 .f32) : row (RefRun.rSl1 (F := Ideal) a) = Cert.Spec.rowOf a 1 :=
  rSl_gen 1 a slices_S3x128_S1x128_1_0

theorem lay1_eq (a1 : FVec Ideal S3x128x128 .f32) (a2 a3 a4 : FVec Ideal S3x128 .f32) (a5 a6 : IVec S1600000 32)
    (h : FVec Ideal S100000x128 .f32) :
    RefRun.lay1 (F := Ideal) a1 a2 a3 a4 a5 a6 h
      = Cert.Spec.layer varTwo (aggR a5 a6 h) (Cert.Spec.slabW a1 1) (Cert.Spec.rowOf a2 1) (Cert.Spec.rowOf a3 1)
          (Cert.Spec.rowOf a4 1) := by
  unfold RefRun.lay1
  rw [postC_eq, wSl1_eq, rSl1_eq, rSl1_eq, rSl1_eq]
  rfl

theorem wSl2_eq (a : FVec Ideal S3x128x128 .f32) : RefRun.wSl2 (F := Ideal) a = Cert.Spec.slabW a 2 :=
  wSl_gen 2 a slices_S3x128x128_S1x128x128_2_0_0

theorem rSl2_eq (a : FVec Ideal S3x128 .f32) : row (RefRun.rSl2 (F := Ideal) a) = Cert.Spec.rowOf a 2 :=
  rSl_gen 2 a slices_S3x128_S1x128_2_0

theorem lay2_eq (a1 : FVec Ideal S3x128x128 .f32) (a2 a3 a4 : FVec Ideal S3x128 .f32) (a5 a6 : IVec S1600000 32)
    (h : FVec Ideal S100000x128 .f32) :
    RefRun.lay2 (F := Ideal) a1 a2 a3 a4 a5 a6 h
      = Cert.Spec.layer varTwo (aggR a5 a6 h) (Cert.Spec.slabW a1 2) (Cert.Spec.rowOf a2 2) (Cert.Spec.rowOf a3 2)
          (Cert.Spec.rowOf a4 2) := by
  unfold RefRun.lay2
  rw [postC_eq, wSl2_eq, rSl2_eq, rSl2_eq, rSl2_eq]
  rfl

/-! ### The whole result -/

/-- The program's result is the stack of the input features and the three layers' outputs. -/
theorem out_eq (a0 : FVec Ideal S100000x128 .f32) (a1 : FVec Ideal S3x128x128 .f32) (a2 a3 a4 : FVec Ideal S3x128 .f32)
    (a5 a6 : IVec S1600000 32) :
    RefRun.out (F := Ideal) a0 a1 a2 a3 a4 a5 a6
      = tailR a0
          (Cert.Spec.layer varTwo (aggR a5 a6 a0) (Cert.Spec.slabW a1 0) (Cert.Spec.rowOf a2 0) (Cert.Spec.rowOf a3 0) (Cert.Spec.rowOf a4 0))
          (Cert.Spec.layer varTwo
            (aggR a5 a6 (Cert.Spec.layer varTwo (aggR a5 a6 a0) (Cert.Spec.slabW a1 0) (Cert.Spec.rowOf a2 0) (Cert.Spec.rowOf a3 0) (Cert.Spec.rowOf a4 0)))
            (Cert.Spec.slabW a1 1) (Cert.Spec.rowOf a2 1) (Cert.Spec.rowOf a3 1) (Cert.Spec.rowOf a4 1))
          (Cert.Spec.layer varTwo
            (aggR a5 a6 (Cert.Spec.layer varTwo
              (aggR a5 a6 (Cert.Spec.layer varTwo (aggR a5 a6 a0) (Cert.Spec.slabW a1 0) (Cert.Spec.rowOf a2 0) (Cert.Spec.rowOf a3 0) (Cert.Spec.rowOf a4 0)))
              (Cert.Spec.slabW a1 1) (Cert.Spec.rowOf a2 1) (Cert.Spec.rowOf a3 1) (Cert.Spec.rowOf a4 1)))
            (Cert.Spec.slabW a1 2) (Cert.Spec.rowOf a2 2) (Cert.Spec.rowOf a3 2) (Cert.Spec.rowOf a4 2)) := by
  unfold RefRun.out
  rw [lay0_eq, lay1_eq, lay2_eq]
  rfl

end Cert.ReferenceIdeal.RefValue

end
-- ==== Proof.Bridge.lean ====
/-
  The two programs' host chains are one function.

  Both programs compute the edge aggregation on the host with the same operations in the same order — the edge
  lists extended by one self-loop per node, the degrees counted by adding ones, clamped below by one and turned into
  reciprocal-square-root columns, the rows scaled, gathered at the wrapped sources, added up at the destinations and
  scaled again — and both stack the input features and the three layers' outputs in the same way.  Each program
  writes these operations over its own names for the same literal shapes and dimension records, so the two chains
  are equal by unfolding the definitions.
-/
import proofs.«160962_j23227183137544_1_alg».proof.Proof.KAgg
import proofs.«160962_j23227183137544_1_alg».proof.Proof.KITail
import proofs.«160962_j23227183137544_1_alg».proof.Proof.RefChain
import proofs.«160962_j23227183137544_1_alg».proof.Proof.RefValue

noncomputable section

namespace Cert.Proof.Bridge

open Idealize.ShloMosaic Idealize.SL.Sem

/-- The extended edge list of the kernel program is that of the reference. -/
theorem withLoops_eq (e : (⟨Cert.KernelIdeal.S1600000, .i32⟩ : BufTy).Contents (Elt Ideal)) :
    Cert.KernelIdeal.KAgg.withLoops (F := Ideal) e = Cert.ReferenceIdeal.RefRun.catC (F := Ideal) e := rfl

/-- The degree-factor column of the kernel program is that of the reference. -/
theorem invCol_eq (e : (⟨Cert.KernelIdeal.S1600000, .i32⟩ : BufTy).Contents (Elt Ideal)) :
    Cert.KernelIdeal.KAgg.invCol (F := Ideal) e
      = Cert.ReferenceIdeal.RefRun.invC (F := Ideal) (Cert.ReferenceIdeal.RefRun.catC (F := Ideal) e) := rfl

/-- The edge aggregation of the kernel program is that of the reference. -/
theorem agg_eq (a5 a6 : (⟨Cert.KernelIdeal.S1600000, .i32⟩ : BufTy).Contents (Elt Ideal))
    (h : (⟨Cert.KernelIdeal.S100000x128, .f32⟩ : BufTy).Contents (Elt Ideal)) :
    Cert.KernelIdeal.KAgg.agg (F := Ideal) a5 a6 h = Cert.ReferenceIdeal.RefValue.aggR a5 a6 h := rfl

/-- The final stacking of the kernel program is that of the reference. -/
theorem tail_eq (x h1 h2 h3 : (⟨Cert.KernelIdeal.S100000x128, .f32⟩ : BufTy).Contents (Elt Ideal)) :
    Cert.KernelIdeal.Hand.tailK (F := Ideal) x h1 h2 h3 = Cert.ReferenceIdeal.RefValue.tailR x h1 h2 h3 := rfl

end Cert.Proof.Bridge

end
-- ==== Proof.KAggReal.lean ====
/-
  The host's edge aggregation keeps real numbers real.

  Every stage reads or combines entries of its operands: a broadcast and a gather read an entry of their operand; an
  accumulating scatter at an entry is that entry plus a finite sum of update entries; products and maxima are taken
  entry by entry.  A degree is a zero plus a finite sum of ones, hence a real number; its maximum with one is a real
  number that is at least one, hence positive, so its reciprocal square root is a real number.  Only realness of each
  stage is used, never its value.
-/
import proofs.«160962_j23227183137544_1_alg».proof.Proof.KAgg
import proofs.«160962_j23227183137544_1_alg».proof.Proof.LibGcnStats

noncomputable section

open scoped BigOperators

namespace Cert.KernelIdeal.KAgg

open Idealize.ShloMosaic Idealize.SL.Sem Cert.KernelIdeal Cert.KernelIdeal.Facts₀ Cert.KernelIdeal.Facts Cert.GcnStats

/-- The larger of two real numbers is a real number. -/
private theorem isReal_max {a b : EReal} (ha : IsReal a) (hb : IsReal b) : IsReal (max a b) := by
  rcases le_total a b with h | h
  · rw [max_eq_right h]; exact hb
  · rw [max_eq_left h]; exact ha

/-! ### One lemma per kind of stage, at any shapes -/

/-- A broadcast reads entries of its operand. -/
theorem real_bcast {s t : Shape} (dims : Fin s.rank → Fin t.rank) (h : s.BroadcastsInDim t dims)
    (x : FVec Ideal s .f32) (hx : ∀ i, IsReal (x i)) : ∀ j, IsReal (broadcastInDim t dims h x j) :=
  fun _ => hx _

/-- A gather reads entries of its operand. -/
theorem real_gather {s si t : Shape} {w : ℕ} (d : GatherDims s si t) (x : FVec Ideal s .f32) (idx : IVec si w)
    (hx : ∀ i, IsReal (x i)) : ∀ j, IsReal (Host.gather d x idx j) :=
  fun _ => hx _

/-- An accumulating scatter at an entry is that entry plus a finite sum of update entries. -/
theorem real_scatterAdd {s si u : Shape} {w : ℕ} (d : ScatterDims s si u) (x : FVec Ideal s .f32) (idx : IVec si w)
    (upd : FVec Ideal u .f32) (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact (hx i).add (isReal_sum _ _ fun j _ => hu j)

/-- An entrywise product of real arrays is real. -/
theorem real_mulf {s : Shape} (x y : FVec Ideal s .f32) (hx : ∀ i, IsReal (x i)) (hy : ∀ i, IsReal (y i)) :
    ∀ i, IsReal (mulf x y i) := by
  intro i
  show IsReal (x i * y i)
  exact (hx i).mul (hy i)

/-- A splat of a real number is real. -/
theorem real_const (s : Shape) (w : BitVec 32) (hw : IsReal (Ideal.ofBits .f32 w)) :
    ∀ i, IsReal (constant (F := Ideal) s .f32 w i) :=
  fun _ => hw

/-- An entrywise maximum of real arrays is real. -/
theorem real_maximumf {s : Shape} (x y : FVec Ideal s .f32) (hx : ∀ i, IsReal (x i)) (hy : ∀ i, IsReal (y i)) :
    ∀ i, IsReal (maximumf x y i) := by
  intro i
  show IsReal (max (x i) (y i))
  exact isReal_max (hx i) (hy i)

/-- An entrywise maximum is at least its second operand. -/
theorem maximumf_ge_right {s : Shape} (x y : FVec Ideal s .f32) (i : s.Idx) : y i ≤ maximumf x y i := by
  show y i ≤ max (x i) (y i)
  exact le_max_right _ _

/-- The reciprocal square root, entry by entry, of an array of positive real numbers is real. -/
theorem real_hostRsqrt {s : Shape} (x : FVec Ideal s .f32) (hx : ∀ i, IsReal (x i)) (hpos : ∀ i, 0 < x i) :
    ∀ i, IsReal (Host.rsqrt x i) := by
  intro i
  show IsReal (Ideal.rsqrt (x i))
  exact isReal_rsqrt_pos (hx i) (hpos i)

/-- A broadcast scalar splat is its word at every entry. -/
theorem bcast_const_apply {t : Shape} (dims : Fin (⟨0, ![]⟩ : Shape).rank → Fin t.rank)
    (h : (⟨0, ![]⟩ : Shape).BroadcastsInDim t dims) (w : BitVec 32) (j : t.Idx) :
    broadcastInDim t dims h (constant (F := Ideal) ⟨0, ![]⟩ .f32 w) j = Ideal.ofBits .f32 w := rfl

theorem real_zero_word : IsReal (Ideal.ofBits .f32 0x00000000#32) := by
  rw [Ideal.ofBits_zero_f32]; exact isReal_zero

theorem real_one_word : IsReal (Ideal.ofBits .f32 0x3F800000#32) := by
  rw [ofBits_one]; exact isReal_one

/-! ### The stages of the aggregation -/

/-- A degree is a zero plus a finite sum of ones: a real number. -/
theorem degree_real (e : (⟨S1600000, .i32⟩ : BufTy).Contents (Elt Ideal)) : ∀ i, IsReal (degree (F := Ideal) e i) := by
  unfold degree
  exact real_scatterAdd _ _ _ _ (real_bcast _ _ _ (real_const _ _ real_zero_word))
    (real_bcast _ _ _ (real_const _ _ real_one_word))

/-- The reciprocal square root of a degree clamped below by one is a real number: the clamped degree is a real number
    that is at least one. -/
theorem invCol_real (e : (⟨S1600000, .i32⟩ : BufTy).Contents (Elt Ideal)) : ∀ i, IsReal (invCol (F := Ideal) e i) := by
  unfold invCol
  refine real_bcast _ _ _ (real_hostRsqrt _
    (real_maximumf _ _ (degree_real e) (real_bcast _ _ _ (real_const _ _ real_one_word))) ?_)
  intro i
  refine lt_of_lt_of_le zero_lt_one (le_trans (le_of_eq ?_) (maximumf_ge_right _ _ i))
  exact (bcast_const_apply _ _ _ i).trans ofBits_one |>.symm

/-- The aggregate of a real feature array is real. -/
theorem agg_real (src dst : (⟨S1600000, .i32⟩ : BufTy).Contents (Elt Ideal))
    (h : (⟨S100000x128, .f32⟩ : BufTy).Contents (Elt Ideal)) (hh : ∀ i, IsReal (h i)) :
    ∀ i, IsReal (agg (F := Ideal) src dst h i) := by
  unfold agg
  exact real_mulf _ _
    (real_scatterAdd _ _ _ _ (real_bcast _ _ _ (real_const _ _ real_zero_word))
      (real_gather _ _ _ (real_mulf _ _ hh (real_bcast _ _ _ (invCol_real src)))))
    (real_bcast _ _ _ (invCol_real dst))

end Cert.KernelIdeal.KAgg

end
-- ==== Proof.PreReal.lean ====
/-
  From the precondition to real entries.  The precondition is the conjunction, over the five float arguments, of
  "every entry has absolute value below +∞"; each conjunct is a reduction by `and` of an array of bits that came out
  one, so every bit is one, and an extended real whose absolute value is below +∞ is neither infinity: it is a real number.
-/
import Idealize.ShloMosaic.Lib.ReduceAll
import proofs.«160962_j23227183137544_1_alg».proof.Proof.Gen.Pre_finite_inputs
import proofs.«160962_j23227183137544_1_alg».proof.Proof.LibGcnStats

noncomputable section

namespace Cert.PreReal

open Idealize.ShloMosaic Idealize.ShloMosaic.ValueIdx Cert.GcnStats Cert.Pre_finite_inputs

instance : Subsingleton S_.Idx := ⟨fun a b => funext fun d => d.elim0⟩

/-- The word of `+∞`. -/
theorem ofBits_inf : Ideal.ofBits .f32 0x7F800000#32 = (⊤ : EReal) := by simp [Ideal.ofBits, Ideal.ieee]

/-- An extended real whose absolute value is below `+∞` is a real number. -/
theorem real_of_abs_lt_top (x : EReal) (h : Ideal.cmp .olt (max x (-x)) ⊤ = 1#1) : IsReal x := by
  induction x using EReal.rec with
  | bot => exact absurd h (by simp [Ideal.cmp])
  | coe r => exact ⟨r, rfl⟩
  | top => exact absurd h (by simp [Ideal.cmp])

/-- One reduction by `and` of the bits `|a| < +∞` that came out one says every entry of `a` is a real number. -/
theorem all_real {s : Shape} {axes : List (Fin s.rank)} (hb : S_.BroadcastsInDim s (![] : Fin 0 → Fin s.rank))
    (hr : s.ReducesTo axes S_) (hu : 0 < S_.numel) (a : FVec Ideal s .f32) (init : IVec S_ 1)
    (e : Host.reduce IntOp.andi
        (cmpf .olt (Host.absf a) (broadcastInDim s ![] hb (constant (F := Ideal) S_ .f32 0x7F800000#32))) init hr hu ix0
      = 1#1) : ∀ i, IsReal (a i) := by
  intro i
  have hi := Host.reduce_andi_all _ init hr hu ix0 e i
  refine real_of_abs_lt_top (a i) ?_
  rw [← ofBits_inf]
  exact hi

/-- A conjunction of two bits that is one has both bits one. -/
theorem andi_ix0 (x y : IVec S_ 1) (h : andi x y ix0 = 1#1) : x ix0 = 1#1 ∧ y ix0 = 1#1 :=
  IntOp.andi_eq_one.1 h

/-- Under the precondition every entry of the five float arguments is a real number. -/
theorem args_real [Facts] (a0 : FVec Ideal S100000x128 .f32) (a1 : FVec Ideal S3x128x128 .f32)
    (a2 a3 a4 : FVec Ideal S3x128 .f32) (a5 a6 : IVec S1600000 32)
    (h : fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ix0
  dsimp only [fn, fn_part1] at h0
  obtain ⟨h0123, e4⟩ := andi_ix0 _ _ h0
  obtain ⟨h012, e3⟩ := andi_ix0 _ _ h0123
  obtain ⟨h01, e2⟩ := andi_ix0 _ _ h012
  obtain ⟨e0, e1⟩ := andi_ix0 _ _ h01
  exact ⟨all_real _ _ _ a0 _ e0, all_real _ _ _ a1 _ e1, all_real _ _ _ a2 _ e2, all_real _ _ _ a3 _ e3,
    all_real _ _ _ a4 _ e4⟩

end Cert.PreReal

end
-- ==== Proof.Algebraic.lean ====
/-
  The two idealized programs compute the same array.

  From memories agreeing on the seven arguments both programs run; the kernel program ends with the stack of the input
  features and three layers taken with the one-pass variance, the reference program with the same stack taken with the
  two-pass variance; the aggregation and the stacking are the same functions in both.  Under the precondition every
  float argument is an array of real numbers, the aggregation keeps real arrays real, so does a layer, and on real
  arrays the one-pass variance is the two-pass one: the two results are equal.  Neither program writes an argument.
-/
import proofs.«160962_j23227183137544_1_alg».proof.Defs
import proofs.«160962_j23227183137544_1_alg».proof.Proof.KIValue
import proofs.«160962_j23227183137544_1_alg».proof.Proof.RefRun
import proofs.«160962_j23227183137544_1_alg».proof.Proof.RefValue
import proofs.«160962_j23227183137544_1_alg».proof.Proof.Bridge
import proofs.«160962_j23227183137544_1_alg».proof.Proof.LayerCore
import proofs.«160962_j23227183137544_1_alg».proof.Proof.KAggReal
import proofs.«160962_j23227183137544_1_alg».proof.Proof.PreReal

set_option maxRecDepth 16384

noncomputable section

namespace Cert.Proof

open Idealize.ShloMosaic Idealize.ShloMosaic.TcCoe Idealize.SL.Sem Cert.GcnStats

/-- The reference program's aggregation keeps real arrays real. -/
theorem aggR_real (a5 a6 : IVec Cert.ReferenceIdeal.S1600000 32) (h : FVec Ideal Cert.ReferenceIdeal.S100000x128 .f32) (hh : ∀ i, IsReal (h i)) :
    ∀ i, IsReal (Cert.ReferenceIdeal.RefValue.aggR a5 a6 h i) := by
  rw [← Cert.Proof.Bridge.agg_eq a5 a6 h]
  exact Cert.KernelIdeal.KAgg.agg_real a5 a6 h hh

set_option maxHeartbeats 1000000 in
/-- The kernel program's stacked result is the reference program's function of the arguments, under the precondition. -/
theorem results_eq (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = fun _ => 1#1) :
    Cert.ReferenceIdeal.RefRun.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = Cert.KernelIdeal.Hand.W13 m c (Proc.devRef .tc Cert.KernelIdeal.main_v142) := by
  obtain ⟨r0, r1, r2, r3, r4⟩ := Cert.PreReal.args_real _ _ _ _ _ _ _ hpre
  rw [Cert.ReferenceIdeal.RefValue.out_eq, Cert.KernelIdeal.Hand.out_eq m c, Cert.Proof.Bridge.tail_eq]
  simp only [Cert.Proof.Bridge.agg_eq]
  obtain ⟨h1, h2, h3⟩ := Cert.Spec.net3_eq (Cert.ReferenceIdeal.RefValue.aggR (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (aggR_real _ _) (m ((c.tc : Thread Cert.KernelIdeal.nD Cert.KernelIdeal.τ).loc Cert.KernelIdeal.main_arg0)) r0
    (Cert.Spec.slabW (m ((c.tc : Thread Cert.KernelIdeal.nD Cert.KernelIdeal.τ).loc Cert.KernelIdeal.main_arg1)) 0) (Cert.Spec.slabW (m ((c.tc : Thread Cert.KernelIdeal.nD Cert.KernelIdeal.τ).loc Cert.KernelIdeal.main_arg1)) 1) (Cert.Spec.slabW (m ((c.tc : Thread Cert.KernelIdeal.nD Cert.KernelIdeal.τ).loc Cert.KernelIdeal.main_arg1)) 2)
    (Cert.Spec.rowOf (m ((c.tc : Thread Cert.KernelIdeal.nD Cert.KernelIdeal.τ).loc Cert.KernelIdeal.main_arg2)) 0) (Cert.Spec.rowOf (m ((c.tc : Thread Cert.KernelIdeal.nD Cert.KernelIdeal.τ).loc Cert.KernelIdeal.main_arg2)) 1) (Cert.Spec.rowOf (m ((c.tc : Thread Cert.KernelIdeal.nD Cert.KernelIdeal.τ).loc Cert.KernelIdeal.main_arg2)) 2)
    (Cert.Spec.rowOf (m ((c.tc : Thread Cert.KernelIdeal.nD Cert.KernelIdeal.τ).loc Cert.KernelIdeal.main_arg3)) 0) (Cert.Spec.rowOf (m ((c.tc : Thread Cert.KernelIdeal.nD Cert.KernelIdeal.τ).loc Cert.KernelIdeal.main_arg3)) 1) (Cert.Spec.rowOf (m ((c.tc : Thread Cert.KernelIdeal.nD Cert.KernelIdeal.τ).loc Cert.KernelIdeal.main_arg3)) 2)
    (Cert.Spec.rowOf (m ((c.tc : Thread Cert.KernelIdeal.nD Cert.KernelIdeal.τ).loc Cert.KernelIdeal.main_arg4)) 0) (Cert.Spec.rowOf (m ((c.tc : Thread Cert.KernelIdeal.nD Cert.KernelIdeal.τ).loc Cert.KernelIdeal.main_arg4)) 1) (Cert.Spec.rowOf (m ((c.tc : Thread Cert.KernelIdeal.nD Cert.KernelIdeal.τ).loc Cert.KernelIdeal.main_arg4)) 2)
    (Cert.Spec.isReal_slabW _ r1 0) (Cert.Spec.isReal_slabW _ r1 1) (Cert.Spec.isReal_slabW _ r1 2)
    (Cert.Spec.isReal_rowOf _ r2 0) (Cert.Spec.isReal_rowOf _ r2 1) (Cert.Spec.isReal_rowOf _ r2 2)
    (Cert.Spec.isReal_rowOf _ r3 0) (Cert.Spec.isReal_rowOf _ r3 1) (Cert.Spec.isReal_rowOf _ r3 2)
    (Cert.Spec.isReal_rowOf _ r4 0) (Cert.Spec.isReal_rowOf _ r4 1) (Cert.Spec.isReal_rowOf _ r4 2)
  rw [h3, h2, h1]

/-- THE ALGEBRAIC CLAIM: both idealized programs run, end with equal results and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.W13 m c (Proc.devRef .tc Cert.KernelIdeal.main_v142), ?_, ?_⟩
  · exact (θ_run _ _ _).mono (fun r h c =>
      ⟨h c _ (Cert.KernelIdeal.Hand.mem_uc Cert.KernelIdeal.main_v142 (by decide)),
        (h c _ (Cert.KernelIdeal.Hand.mem_uc Cert.KernelIdeal.main_arg0 (by decide))).trans (Cert.KernelIdeal.Hand.W13_main_arg0 m c),
        (h c _ (Cert.KernelIdeal.Hand.mem_uc Cert.KernelIdeal.main_arg1 (by decide))).trans (Cert.KernelIdeal.Hand.W13_main_arg1 m c),
        (h c _ (Cert.KernelIdeal.Hand.mem_uc Cert.KernelIdeal.main_arg2 (by decide))).trans (Cert.KernelIdeal.Hand.W13_main_arg2 m c),
        (h c _ (Cert.KernelIdeal.Hand.mem_uc Cert.KernelIdeal.main_arg3 (by decide))).trans (Cert.KernelIdeal.Hand.W13_main_arg3 m c),
        (h c _ (Cert.KernelIdeal.Hand.mem_uc Cert.KernelIdeal.main_arg4 (by decide))).trans (Cert.KernelIdeal.Hand.W13_main_arg4 m c),
        (h c _ (Cert.KernelIdeal.Hand.mem_uc Cert.KernelIdeal.main_arg5 (by decide))).trans (Cert.KernelIdeal.Hand.W13_main_arg5 m c),
        (h c _ (Cert.KernelIdeal.Hand.mem_uc Cert.KernelIdeal.main_arg6 (by decide))).trans (Cert.KernelIdeal.Hand.W13_main_arg6 m c)⟩)
      (Cert.KernelIdeal.Hand.run_all m g)
  · refine (θ_run _ _ _).mono (fun r h c => ?_) (Cert.ReferenceIdeal.RefRun.run (F := Ideal) m' g')
    obtain ⟨h0, hrest⟩ := h c
    refine ⟨h0.trans ?_, hrest⟩
    obtain ⟨e0, e1, e2, e3, e4, e5, e6⟩ := hagree c
    rw [e0, e1, e2, e3, e4, e5, e6]
    exact results_eq m c (hpre c)

end Cert.Proof

end
-- ==== Proof.lean ====
/-
  Three layers of a graph convolution with batch normalisation over 100000 nodes and 128 channels.  Both programs
  append one self-loop per node to the edge lists, count out- and in-degrees, and per layer scale the features by
  rsqrt(max(out-degree, 1)), add the gathered source rows up at their destinations and scale by
  rsqrt(max(in-degree, 1)); this aggregation is the same sequence of host operations in both and is carried as one
  function.  After it, with Z = A·W + b the dense step of a layer, the reference normalises Z by its column mean and
  its two-pass variance E[(z − μ)²]; the kernel program computes Z block by block on the matrix unit together with
  the running column sums Σz and Σz² over ten row blocks, forms the mean and the one-pass variance E[z²] − μ² on the
  host, and normalises, scales, shifts and rectifies block by block in a second kernel.  On arrays of real numbers
  the two variances are one number; every Z is real because the inputs are finite, the degree factors are positive
  reals and each layer maps real arrays to real arrays (the variance is nonnegative and the offset positive).  The
  four arrays feat, h1, h2, h3 are stacked by the same host operations in both programs.
  The three frames are the programs' runs with the results forgotten; the idealization rewrote nothing.
-/
import proofs.«160962_j23227183137544_1_alg».proof.Defs
import proofs.«160962_j23227183137544_1_alg».proof.Proof.Gen.Kernel
import proofs.«160962_j23227183137544_1_alg».proof.Proof.Gen.KernelIdeal
import proofs.«160962_j23227183137544_1_alg».proof.Proof.Gen.ReferenceIdeal
import proofs.«160962_j23227183137544_1_alg».proof.Proof.Gen.Pre_finite_inputs
import proofs.«160962_j23227183137544_1_alg».proof.Proof.KBRun
import proofs.«160962_j23227183137544_1_alg».proof.Proof.KIRun
import proofs.«160962_j23227183137544_1_alg».proof.Proof.RefRun
import proofs.«160962_j23227183137544_1_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.ReferenceIdeal.RefRun.frame_ri,
    trivial,
    Cert.Proof.algebraic⟩

end Cert.Proof

end
